-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v51)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v51) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v169) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x4096 : Shape := ⟨2, ![4096, 4096]⟩
abbrev S4096 : Shape := ⟨1, ![4096]⟩
abbrev S128x1 : Shape := ⟨2, ![128, 1]⟩
abbrev S128x55 : Shape := ⟨2, ![128, 55]⟩
abbrev S10000x64 : Shape := ⟨2, ![10000, 64]⟩
abbrev S3x64x64 : Shape := ⟨3, ![3, 64, 64]⟩
abbrev S3x64 : Shape := ⟨2, ![3, 64]⟩
abbrev S2x187x187 : Shape := ⟨3, ![2, 187, 187]⟩
abbrev S2x187 : Shape := ⟨2, ![2, 187]⟩
abbrev S1x187 : Shape := ⟨2, ![1, 187]⟩
abbrev S1 : Shape := ⟨1, ![1]⟩
abbrev S_ : Shape := ⟨0, ![]⟩
abbrev S128x32x128x32 : Shape := ⟨4, ![128, 32, 128, 32]⟩

class Facts : Prop where
  bcast_S_S4096x4096 : S_.BroadcastsInDim S4096x4096 (![] : Fin 0 → Fin S4096x4096.rank)
  reducesTo_S4096x4096_S_d0_1 : S4096x4096.ReducesTo [0, 1] S_
  h_S_ : 0 < S_.numel
  bcast_S_S128x1 : S_.BroadcastsInDim S128x1 (![] : Fin 0 → Fin S128x1.rank)
  reducesTo_S128x1_S_d0_1 : S128x1.ReducesTo [0, 1] S_
  bcast_S_S128x55 : S_.BroadcastsInDim S128x55 (![] : Fin 0 → Fin S128x55.rank)
  reducesTo_S128x55_S_d0_1 : S128x55.ReducesTo [0, 1] S_
  bcast_S_S10000x64 : S_.BroadcastsInDim S10000x64 (![] : Fin 0 → Fin S10000x64.rank)
  reducesTo_S10000x64_S_d0_1 : S10000x64.ReducesTo [0, 1] S_
  bcast_S_S3x64x64 : S_.BroadcastsInDim S3x64x64 (![] : Fin 0 → Fin S3x64x64.rank)
  reducesTo_S3x64x64_S_d0_1_2 : S3x64x64.ReducesTo [0, 1, 2] S_
  bcast_S_S3x64 : S_.BroadcastsInDim S3x64 (![] : Fin 0 → Fin S3x64.rank)
  reducesTo_S3x64_S_d0_1 : S3x64.ReducesTo [0, 1] S_
  bcast_S_S2x187x187 : S_.BroadcastsInDim S2x187x187 (![] : Fin 0 → Fin S2x187x187.rank)
  reducesTo_S2x187x187_S_d0_1_2 : S2x187x187.ReducesTo [0, 1, 2] S_
  bcast_S_S2x187 : S_.BroadcastsInDim S2x187 (![] : Fin 0 → Fin S2x187.rank)
  reducesTo_S2x187_S_d0_1 : S2x187.ReducesTo [0, 1] S_
  bcast_S_S1x187 : S_.BroadcastsInDim S1x187 (![] : Fin 0 → Fin S1x187.rank)
  reducesTo_S1x187_S_d0_1 : S1x187.ReducesTo [0, 1] S_
  bcast_S_S1 : S_.BroadcastsInDim S1 (![] : Fin 0 → Fin S1.rank)
  reducesTo_S1_S_d0 : S1.ReducesTo [0] S_
  shapeCasts_S4096x4096_S128x32x128x32 : S4096x4096.ShapeCasts S128x32x128x32
  bcast_S_S128x32x128x32 : S_.BroadcastsInDim S128x32x128x32 (![] : Fin 0 → Fin S128x32x128x32.rank)
  reducesTo_S128x32x128x32_S_d0_1_2_3 : S128x32x128x32.ReducesTo [0, 1, 2, 3] S_

variable [Facts]

def fn_part5 {F : FTy → Type} [FloatOps F] (main_v82 : IVec S_ 1) (main_v85 : IVec S128x32x128x32 1) (main_v86 : FVec F S128x32x128x32 .f32) (main_cst_30 : FVec F S_ .f32) : IVec S_ 1 :=
  let main_v87 : FVec F S128x32x128x32 .f32 := broadcastInDim S128x32x128x32 ![] bcast_S_S128x32x128x32 main_cst_30
  let main_v88 : IVec S128x32x128x32 1 := cmpf .oeq main_v86 main_v87
  let main_v89 : IVec S128x32x128x32 1 := ori main_v85 main_v88
  let main_c_31 : IVec S_ 1 := constantI S_ 1 1#1
  let main_v90 : IVec S_ 1 := (fun x v => Host.reduce IntOp.andi x v reducesTo_S128x32x128x32_S_d0_1_2_3 h_S_) main_v89 main_c_31
  let main_v91 : IVec S_ 1 := andi main_v82 main_v90
  main_v91

def fn_part4 {F : FTy → Type} [FloatOps F] (main_arg0 : FVec F S4096x4096 .f32) (main_arg1 : FVec F S4096x4096 .f32) (main_arg18 : FVec F S1 .f32) (main_v63 : IVec S_ 1) (main_v67 : IVec S_ 1) : IVec S_ 1 :=
  let main_v68 : IVec S_ 1 := andi main_v63 main_v67
  let main_v69 : FVec F S1 .f32 := Host.absf main_arg18
  let main_cst_26 : FVec F S_ .f32 := constant S_ .f32 0x7F800000#32
  let main_v70 : FVec F S1 .f32 := broadcastInDim S1 ![] bcast_S_S1 main_cst_26
  let main_v71 : IVec S1 1 := cmpf .olt main_v69 main_v70
  let main_c_27 : IVec S_ 1 := constantI S_ 1 1#1
  let main_v72 : IVec S_ 1 := (fun x v => Host.reduce IntOp.andi x v reducesTo_S1_S_d0 h_S_) main_v71 main_c_27
  let main_v73 : IVec S_ 1 := andi main_v68 main_v72
  let main_v74 : IVec S128x32x128x32 32 := iotaInDim S128x32x128x32 32 0
  let main_v75 : IVec S128x32x128x32 32 := iotaInDim S128x32x128x32 32 2
  let main_v76 : IVec S128x32x128x32 1 := cmpi .eq main_v74 main_v75
  let main_v77 : FVec F S128x32x128x32 .f32 := shapeCast S128x32x128x32 main_arg0 shapeCasts_S4096x4096_S128x32x128x32
  let main_cst_28 : FVec F S_ .f32 := constant S_ .f32 0x00000000#32
  let main_v78 : FVec F S128x32x128x32 .f32 := broadcastInDim S128x32x128x32 ![] bcast_S_S128x32x128x32 main_cst_28
  let main_v79 : IVec S128x32x128x32 1 := cmpf .oeq main_v77 main_v78
  let main_v80 : IVec S128x32x128x32 1 := ori main_v76 main_v79
  let main_c_29 : IVec S_ 1 := constantI S_ 1 1#1
  let main_v81 : IVec S_ 1 := (fun x v => Host.reduce IntOp.andi x v reducesTo_S128x32x128x32_S_d0_1_2_3 h_S_) main_v80 main_c_29
  let main_v82 : IVec S_ 1 := andi main_v73 main_v81
  let main_v83 : IVec S128x32x128x32 32 := iotaInDim S128x32x128x32 32 0
  let main_v84 : IVec S128x32x128x32 32 := iotaInDim S128x32x128x32 32 2
  let main_v85 : IVec S128x32x128x32 1 := cmpi .eq main_v83 main_v84
  let main_v86 : FVec F S128x32x128x32 .f32 := shapeCast S128x32x128x32 main_arg1 shapeCasts_S4096x4096_S128x32x128x32
  let main_cst_30 : FVec F S_ .f32 := constant S_ .f32 0x00000000#32
  fn_part5 (F := F) main_v82 main_v85 main_v86 main_cst_30

def fn_part3 {F : FTy → Type} [FloatOps F] (main_arg0 : FVec F S4096x4096 .f32) (main_arg1 : FVec F S4096x4096 .f32) (main_arg15 : FVec F S2x187x187 .f32) (main_arg16 : FVec F S2x187 .f32) (main_arg17 : FVec F S1x187 .f32) (main_arg18 : FVec F S1 .f32) (main_v48 : IVec S_ 1) (main_v49 : FVec F S3x64 .f32) (main_v50 : FVec F S3x64 .f32) : IVec S_ 1 :=
  let main_v51 : IVec S3x64 1 := cmpf .olt main_v49 main_v50
  let main_c_19 : IVec S_ 1 := constantI S_ 1 1#1
  let main_v52 : IVec S_ 1 := (fun x v => Host.reduce IntOp.andi x v reducesTo_S3x64_S_d0_1 h_S_) main_v51 main_c_19
  let main_v53 : IVec S_ 1 := andi main_v48 main_v52
  let main_v54 : FVec F S2x187x187 .f32 := Host.absf main_arg15
  let main_cst_20 : FVec F S_ .f32 := constant S_ .f32 0x7F800000#32
  let main_v55 : FVec F S2x187x187 .f32 := broadcastInDim S2x187x187 ![] bcast_S_S2x187x187 main_cst_20
  let main_v56 : IVec S2x187x187 1 := cmpf .olt main_v54 main_v55
  let main_c_21 : IVec S_ 1 := constantI S_ 1 1#1
  let main_v57 : IVec S_ 1 := (fun x v => Host.reduce IntOp.andi x v reducesTo_S2x187x187_S_d0_1_2 h_S_) main_v56 main_c_21
  let main_v58 : IVec S_ 1 := andi main_v53 main_v57
  let main_v59 : FVec F S2x187 .f32 := Host.absf main_arg16
  let main_cst_22 : FVec F S_ .f32 := constant S_ .f32 0x7F800000#32
  let main_v60 : FVec F S2x187 .f32 := broadcastInDim S2x187 ![] bcast_S_S2x187 main_cst_22
  let main_v61 : IVec S2x187 1 := cmpf .olt main_v59 main_v60
  let main_c_23 : IVec S_ 1 := constantI S_ 1 1#1
  let main_v62 : IVec S_ 1 := (fun x v => Host.reduce IntOp.andi x v reducesTo_S2x187_S_d0_1 h_S_) main_v61 main_c_23
  let main_v63 : IVec S_ 1 := andi main_v58 main_v62
  let main_v64 : FVec F S1x187 .f32 := Host.absf main_arg17
  let main_cst_24 : FVec F S_ .f32 := constant S_ .f32 0x7F800000#32
  let main_v65 : FVec F S1x187 .f32 := broadcastInDim S1x187 ![] bcast_S_S1x187 main_cst_24
  let main_v66 : IVec S1x187 1 := cmpf .olt main_v64 main_v65
  let main_c_25 : IVec S_ 1 := constantI S_ 1 1#1
  let main_v67 : IVec S_ 1 := (fun x v => Host.reduce IntOp.andi x v reducesTo_S1x187_S_d0_1 h_S_) main_v66 main_c_25
  fn_part4 (F := F) main_arg0 main_arg1 main_arg18 main_v63 main_v67

def fn_part2 {F : FTy → Type} [FloatOps F] (main_arg0 : FVec F S4096x4096 .f32) (main_arg1 : FVec F S4096x4096 .f32) (main_arg11 : FVec F S128x1 .f32) (main_arg12 : FVec F S10000x64 .f32) (main_arg13 : FVec F S3x64x64 .f32) (main_arg14 : FVec F S3x64 .f32) (main_arg15 : FVec F S2x187x187 .f32) (main_arg16 : FVec F S2x187 .f32) (main_arg17 : FVec F S1x187 .f32) (main_arg18 : FVec F S1 .f32) (main_v33 : IVec S_ 1) : IVec S_ 1 :=
  let main_v34 : FVec F S128x1 .f32 := Host.absf main_arg11
  let main_cst_12 : FVec F S_ .f32 := constant S_ .f32 0x7F800000#32
  let main_v35 : FVec F S128x1 .f32 := broadcastInDim S128x1 ![] bcast_S_S128x1 main_cst_12
  let main_v36 : IVec S128x1 1 := cmpf .olt main_v34 main_v35
  let main_c_13 : IVec S_ 1 := constantI S_ 1 1#1
  let main_v37 : IVec S_ 1 := (fun x v => Host.reduce IntOp.andi x v reducesTo_S128x1_S_d0_1 h_S_) main_v36 main_c_13
  let main_v38 : IVec S_ 1 := andi main_v33 main_v37
  let main_v39 : FVec F S10000x64 .f32 := Host.absf main_arg12
  let main_cst_14 : FVec F S_ .f32 := constant S_ .f32 0x7F800000#32
  let main_v40 : FVec F S10000x64 .f32 := broadcastInDim S10000x64 ![] bcast_S_S10000x64 main_cst_14
  let main_v41 : IVec S10000x64 1 := cmpf .olt main_v39 main_v40
  let main_c_15 : IVec S_ 1 := constantI S_ 1 1#1
  let main_v42 : IVec S_ 1 := (fun x v => Host.reduce IntOp.andi x v reducesTo_S10000x64_S_d0_1 h_S_) main_v41 main_c_15
  let main_v43 : IVec S_ 1 := andi main_v38 main_v42
  let main_v44 : FVec F S3x64x64 .f32 := Host.absf main_arg13
  let main_cst_16 : FVec F S_ .f32 := constant S_ .f32 0x7F800000#32
  let main_v45 : FVec F S3x64x64 .f32 := broadcastInDim S3x64x64 ![] bcast_S_S3x64x64 main_cst_16
  let main_v46 : IVec S3x64x64 1 := cmpf .olt main_v44 main_v45
  let main_c_17 : IVec S_ 1 := constantI S_ 1 1#1
  let main_v47 : IVec S_ 1 := (fun x v => Host.reduce IntOp.andi x v reducesTo_S3x64x64_S_d0_1_2 h_S_) main_v46 main_c_17
  let main_v48 : IVec S_ 1 := andi main_v43 main_v47
  let main_v49 : FVec F S3x64 .f32 := Host.absf main_arg14
  let main_cst_18 : FVec F S_ .f32 := constant S_ .f32 0x7F800000#32
  let main_v50 : FVec F S3x64 .f32 := broadcastInDim S3x64 ![] bcast_S_S3x64 main_cst_18
  fn_part3 (F := F) main_arg0 main_arg1 main_arg15 main_arg16 main_arg17 main_arg18 main_v48 main_v49 main_v50

def fn_part1 {F : FTy → Type} [FloatOps F] (main_arg0 : FVec F S4096x4096 .f32) (main_arg1 : FVec F S4096x4096 .f32) (main_arg8 : FVec F S128x1 .f32) (main_arg9 : FVec F S128x1 .f32) (main_arg10 : FVec F S128x55 .f32) (main_arg11 : FVec F S128x1 .f32) (main_arg12 : FVec F S10000x64 .f32) (main_arg13 : FVec F S3x64x64 .f32) (main_arg14 : FVec F S3x64 .f32) (main_arg15 : FVec F S2x187x187 .f32) (main_arg16 : FVec F S2x187 .f32) (main_arg17 : FVec F S1x187 .f32) (main_arg18 : FVec F S1 .f32) (main_v13 : IVec S_ 1) (main_v16 : IVec S128x1 1) : IVec S_ 1 :=
  let main_c_5 : IVec S_ 1 := constantI S_ 1 1#1
  let main_v17 : IVec S_ 1 := (fun x v => Host.reduce IntOp.andi x v reducesTo_S128x1_S_d0_1 h_S_) main_v16 main_c_5
  let main_v18 : IVec S_ 1 := andi main_v13 main_v17
  let main_v19 : FVec F S128x1 .f32 := Host.absf main_arg8
  let main_cst_6 : FVec F S_ .f32 := constant S_ .f32 0x7F800000#32
  let main_v20 : FVec F S128x1 .f32 := broadcastInDim S128x1 ![] bcast_S_S128x1 main_cst_6
  let main_v21 : IVec S128x1 1 := cmpf .olt main_v19 main_v20
  let main_c_7 : IVec S_ 1 := constantI S_ 1 1#1
  let main_v22 : IVec S_ 1 := (fun x v => Host.reduce IntOp.andi x v reducesTo_S128x1_S_d0_1 h_S_) main_v21 main_c_7
  let main_v23 : IVec S_ 1 := andi main_v18 main_v22
  let main_v24 : FVec F S128x1 .f32 := Host.absf main_arg9
  let main_cst_8 : FVec F S_ .f32 := constant S_ .f32 0x7F800000#32
  let main_v25 : FVec F S128x1 .f32 := broadcastInDim S128x1 ![] bcast_S_S128x1 main_cst_8
  let main_v26 : IVec S128x1 1 := cmpf .olt main_v24 main_v25
  let main_c_9 : IVec S_ 1 := constantI S_ 1 1#1
  let main_v27 : IVec S_ 1 := (fun x v => Host.reduce IntOp.andi x v reducesTo_S128x1_S_d0_1 h_S_) main_v26 main_c_9
  let main_v28 : IVec S_ 1 := andi main_v23 main_v27
  let main_v29 : FVec F S128x55 .f32 := Host.absf main_arg10
  let main_cst_10 : FVec F S_ .f32 := constant S_ .f32 0x7F800000#32
  let main_v30 : FVec F S128x55 .f32 := broadcastInDim S128x55 ![] bcast_S_S128x55 main_cst_10
  let main_v31 : IVec S128x55 1 := cmpf .olt main_v29 main_v30
  let main_c_11 : IVec S_ 1 := constantI S_ 1 1#1
  let main_v32 : IVec S_ 1 := (fun x v => Host.reduce IntOp.andi x v reducesTo_S128x55_S_d0_1 h_S_) main_v31 main_c_11
  let main_v33 : IVec S_ 1 := andi main_v28 main_v32
  fn_part2 (F := F) main_arg0 main_arg1 main_arg11 main_arg12 main_arg13 main_arg14 main_arg15 main_arg16 main_arg17 main_arg18 main_v33

def fn {F : FTy → Type} [FloatOps F] (main_arg0 : FVec F S4096x4096 .f32) (main_arg1 : FVec F S4096x4096 .f32) (main_arg2 : IVec S4096 32) (main_arg3 : IVec S4096 32) (main_arg4 : IVec S4096 32) (main_arg5 : IVec S4096 32) (main_arg6 : FVec F S128x1 .f32) (main_arg7 : FVec F S128x1 .f32) (main_arg8 : FVec F S128x1 .f32) (main_arg9 : FVec F S128x1 .f32) (main_arg10 : FVec F S128x55 .f32) (main_arg11 : FVec F S128x1 .f32) (main_arg12 : FVec F S10000x64 .f32) (main_arg13 : FVec F S3x64x64 .f32) (main_arg14 : FVec F S3x64 .f32) (main_arg15 : FVec F S2x187x187 .f32) (main_arg16 : FVec F S2x187 .f32) (main_arg17 : FVec F S1x187 .f32) (main_arg18 : FVec F S1 .f32) : IVec S_ 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_c : IVec S_ 1 := constantI S_ 1 1#1
  let main_v3 : IVec S_ 1 := (fun x v => Host.reduce IntOp.andi x v reducesTo_S4096x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S128x1 .f32 := Host.absf main_arg6
  let main_cst_2 : FVec F S_ .f32 := constant S_ .f32 0x7F800000#32
  let main_v10 : FVec F S128x1 .f32 := broadcastInDim S128x1 ![] bcast_S_S128x1 main_cst_2
  let main_v11 : IVec S128x1 1 := cmpf .olt main_v9 main_v10
  let main_c_3 : IVec S_ 1 := constantI S_ 1 1#1
  let main_v12 : IVec S_ 1 := (fun x v => Host.reduce IntOp.andi x v reducesTo_S128x1_S_d0_1 h_S_) main_v11 main_c_3
  let main_v13 : IVec S_ 1 := andi main_v8 main_v12
  let main_v14 : FVec F S128x1 .f32 := Host.absf main_arg7
  let main_cst_4 : FVec F S_ .f32 := constant S_ .f32 0x7F800000#32
  let main_v15 : FVec F S128x1 .f32 := broadcastInDim S128x1 ![] bcast_S_S128x1 main_cst_4
  let main_v16 : IVec S128x1 1 := cmpf .olt main_v14 main_v15
  fn_part1 (F := F) main_arg0 main_arg1 main_arg8 main_arg9 main_arg10 main_arg11 main_arg12 main_arg13 main_arg14 main_arg15 main_arg16 main_arg17 main_arg18 main_v13 main_v16
-- ==== Kernel.lean ====
abbrev S4096x4096 : Shape := ⟨2, ![4096, 4096]⟩
abbrev S4096 : Shape := ⟨1, ![4096]⟩
abbrev S128x1 : Shape := ⟨2, ![128, 1]⟩
abbrev S128x55 : Shape := ⟨2, ![128, 55]⟩
abbrev S10000x64 : Shape := ⟨2, ![10000, 64]⟩
abbrev S3x64x64 : Shape := ⟨3, ![3, 64, 64]⟩
abbrev S3x64 : Shape := ⟨2, ![3, 64]⟩
abbrev S2x187x187 : Shape := ⟨3, ![2, 187, 187]⟩
abbrev S2x187 : Shape := ⟨2, ![2, 187]⟩
abbrev S1x187 : Shape := ⟨2, ![1, 187]⟩
abbrev S1 : Shape := ⟨1, ![1]⟩
abbrev S_ : Shape := ⟨0, ![]⟩
abbrev S4096x1 : Shape := ⟨2, ![4096, 1]⟩
abbrev S4096x64 : Shape := ⟨2, ![4096, 64]⟩
abbrev S128x128 : Shape := ⟨2, ![128, 128]⟩
abbrev S128x64 : Shape := ⟨2, ![128, 64]⟩
abbrev S1x64x64 : Shape := ⟨3, ![1, 64, 64]⟩
abbrev S64x64 : Shape := ⟨2, ![64, 64]⟩
abbrev S1x64 : Shape := ⟨2, ![1, 64]⟩
abbrev S64 : Shape := ⟨1, ![64]⟩
abbrev S128 : Shape := ⟨1, ![128]⟩
abbrev S128x187 : Shape := ⟨2, ![128, 187]⟩
abbrev S1x187x187 : Shape := ⟨3, ![1, 187, 187]⟩
abbrev S187x187 : Shape := ⟨2, ![187, 187]⟩
abbrev S187 : Shape := ⟨1, ![187]⟩
abbrev S187x1 : Shape := ⟨2, ![187, 1]⟩
abbrev S1x1 : Shape := ⟨2, ![1, 1]⟩

abbrev nBuf : Space → Nat
  | .hbm => 83
  | .vmem => 16
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S4096, .i32⟩
  | .hbm, ⟨3, _⟩ => ⟨S4096, .i32⟩
  | .hbm, ⟨4, _⟩ => ⟨S4096, .i32⟩
  | .hbm, ⟨5, _⟩ => ⟨S4096, .i32⟩
  | .hbm, ⟨6, _⟩ => ⟨S128x1, .f32⟩
  | .hbm, ⟨7, _⟩ => ⟨S128x1, .f32⟩
  | .hbm, ⟨8, _⟩ => ⟨S128x1, .f32⟩
  | .hbm, ⟨9, _⟩ => ⟨S128x1, .f32⟩
  | .hbm, ⟨10, _⟩ => ⟨S128x55, .f32⟩
  | .hbm, ⟨11, _⟩ => ⟨S128x1, .f32⟩
  | .hbm, ⟨12, _⟩ => ⟨S10000x64, .f32⟩
  | .hbm, ⟨13, _⟩ => ⟨S3x64x64, .f32⟩
  | .hbm, ⟨14, _⟩ => ⟨S3x64, .f32⟩
  | .hbm, ⟨15, _⟩ => ⟨S2x187x187, .f32⟩
  | .hbm, ⟨16, _⟩ => ⟨S2x187, .f32⟩
  | .hbm, ⟨17, _⟩ => ⟨S1x187, .f32⟩
  | .hbm, ⟨18, _⟩ => ⟨S1, .f32⟩
  | .hbm, ⟨19, _⟩ => ⟨S_, .i32⟩
  | .hbm, ⟨20, _⟩ => ⟨S4096, .i32⟩
  | .hbm, ⟨21, _⟩ => ⟨S4096, .i1⟩
  | .hbm, ⟨22, _⟩ => ⟨S_, .i32⟩
  | .hbm, ⟨23, _⟩ => ⟨S4096, .i32⟩
  | .hbm, ⟨24, _⟩ => ⟨S4096, .i32⟩
  | .hbm, ⟨25, _⟩ => ⟨S4096, .i32⟩
  | .hbm, ⟨26, _⟩ => ⟨S4096x1, .i32⟩
  | .hbm, ⟨27, _⟩ => ⟨S4096x64, .f32⟩
  | .hbm, ⟨28, _⟩ => ⟨S4096x64, .f32⟩
  | .hbm, ⟨29, _⟩ => ⟨S_, .i32⟩
  | .hbm, ⟨30, _⟩ => ⟨S4096, .i32⟩
  | .hbm, ⟨31, _⟩ => ⟨S4096, .i1⟩
  | .hbm, ⟨32, _⟩ => ⟨S_, .i32⟩
  | .hbm, ⟨33, _⟩ => ⟨S4096, .i32⟩
  | .hbm, ⟨34, _⟩ => ⟨S4096, .i32⟩
  | .hbm, ⟨35, _⟩ => ⟨S4096, .i32⟩
  | .hbm, ⟨36, _⟩ => ⟨S4096x1, .i32⟩
  | .hbm, ⟨37, _⟩ => ⟨S4096x64, .f32⟩
  | .hbm, ⟨38, _⟩ => ⟨S4096x64, .f32⟩
  | .hbm, ⟨39, _⟩ => ⟨S_, .f32⟩
  | .hbm, ⟨40, _⟩ => ⟨S128x64, .f32⟩
  | .hbm, ⟨41, _⟩ => ⟨S4096x1, .i32⟩
  | .hbm, ⟨42, _⟩ => ⟨S128x64, .f32⟩
  | .hbm, ⟨43, _⟩ => ⟨S_, .f32⟩
  | .hbm, ⟨44, _⟩ => ⟨S128x64, .f32⟩
  | .hbm, ⟨45, _⟩ => ⟨S4096x1, .i32⟩
  | .hbm, ⟨46, _⟩ => ⟨S128x64, .f32⟩
  | .hbm, ⟨47, _⟩ => ⟨S128x187, .f32⟩
  | .hbm, ⟨48, _⟩ => ⟨S1x187x187, .f32⟩
  | .hbm, ⟨49, _⟩ => ⟨S187x187, .f32⟩
  | .hbm, ⟨50, _⟩ => ⟨S187x187, .f32⟩
  | .hbm, ⟨51, _⟩ => ⟨S128x187, .f32⟩
  | .hbm, ⟨52, _⟩ => ⟨S1x187, .f32⟩
  | .hbm, ⟨53, _⟩ => ⟨S187, .f32⟩
  | .hbm, ⟨54, _⟩ => ⟨S1x187, .f32⟩
  | .hbm, ⟨55, _⟩ => ⟨S128x187, .f32⟩
  | .hbm, ⟨56, _⟩ => ⟨S128x187, .f32⟩
  | .hbm, ⟨57, _⟩ => ⟨S_, .f32⟩
  | .hbm, ⟨58, _⟩ => ⟨S128x187, .f32⟩
  | .hbm, ⟨59, _⟩ => ⟨S128x187, .f32⟩
  | .hbm, ⟨60, _⟩ => ⟨S1x187x187, .f32⟩
  | .hbm, ⟨61, _⟩ => ⟨S187x187, .f32⟩
  | .hbm, ⟨62, _⟩ => ⟨S187x187, .f32⟩
  | .hbm, ⟨63, _⟩ => ⟨S128x187, .f32⟩
  | .hbm, ⟨64, _⟩ => ⟨S1x187, .f32⟩
  | .hbm, ⟨65, _⟩ => ⟨S187, .f32⟩
  | .hbm, ⟨66, _⟩ => ⟨S1x187, .f32⟩
  | .hbm, ⟨67, _⟩ => ⟨S128x187, .f32⟩
  | .hbm, ⟨68, _⟩ => ⟨S128x187, .f32⟩
  | .hbm, ⟨69, _⟩ => ⟨S_, .f32⟩
  | .hbm, ⟨70, _⟩ => ⟨S128x187, .f32⟩
  | .hbm, ⟨71, _⟩ => ⟨S128x187, .f32⟩
  | .hbm, ⟨72, _⟩ => ⟨S187x1, .f32⟩
  | .hbm, ⟨73, _⟩ => ⟨S128x1, .f32⟩
  | .hbm, ⟨74, _⟩ => ⟨S1x1, .f32⟩
  | .hbm, ⟨75, _⟩ => ⟨S128x1, .f32⟩
  | .hbm, ⟨76, _⟩ => ⟨S128x1, .f32⟩
  | .hbm, ⟨77, _⟩ => ⟨S128x1, .f32⟩
  | .hbm, ⟨78, _⟩ => ⟨S128x1, .f32⟩
  | .hbm, ⟨79, _⟩ => ⟨S_, .f32⟩
  | .hbm, ⟨80, _⟩ => ⟨S_, .f32⟩
  | .hbm, ⟨81, _⟩ => ⟨S_, .f32⟩
  | .hbm, ⟨82, _⟩ => ⟨S_, .f32⟩
  | .local _ .vmem, ⟨0, _⟩ => ⟨S128x128, .f32⟩
  | .local _ .vmem, ⟨1, _⟩ => ⟨S128x128, .f32⟩
  | .local _ .vmem, ⟨2, _⟩ => ⟨S128x64, .f32⟩
  | .local _ .vmem, ⟨3, _⟩ => ⟨S128x64, .f32⟩
  | .local _ .vmem, ⟨4, _⟩ => ⟨S3x64x64, .f32⟩
  | .local _ .vmem, ⟨5, _⟩ => ⟨S3x64, .f32⟩
  | .local _ .vmem, ⟨6, _⟩ => ⟨S128x64, .f32⟩
  | .local _ .vmem, ⟨7, _⟩ => ⟨S128x64, .f32⟩
  | .local _ .vmem, ⟨8, _⟩ => ⟨S128x128, .f32⟩
  | .local _ .vmem, ⟨9, _⟩ => ⟨S128x128, .f32⟩
  | .local _ .vmem, ⟨10, _⟩ => ⟨S128x64, .f32⟩
  | .local _ .vmem, ⟨11, _⟩ => ⟨S128x64, .f32⟩
  | .local _ .vmem, ⟨12, _⟩ => ⟨S3x64x64, .f32⟩
  | .local _ .vmem, ⟨13, _⟩ => ⟨S3x64, .f32⟩
  | .local _ .vmem, ⟨14, _⟩ => ⟨S128x64, .f32⟩
  | .local _ .vmem, ⟨15, _⟩ => ⟨S128x64, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_c : Ref sig .tc := ⟨.hbm, 19, rfl⟩
abbrev main_v0 : Ref sig .tc := ⟨.hbm, 20, rfl⟩
abbrev main_v1 : Ref sig .tc := ⟨.hbm, 21, rfl⟩
abbrev main_c_0 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_c_1 : Ref sig .tc := ⟨.hbm, 29, rfl⟩
abbrev main_v8 : Ref sig .tc := ⟨.hbm, 30, rfl⟩
abbrev main_v9 : Ref sig .tc := ⟨.hbm, 31, rfl⟩
abbrev main_c_2 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_cst : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_cst_3 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_call0_cst : Ref sig .tc := ⟨.hbm, 57, rfl⟩
abbrev main_call0_v0 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_call1_cst : Ref sig .tc := ⟨.hbm, 69, rfl⟩
abbrev main_call1_v0 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_cst_4 : Ref sig .tc := ⟨.hbm, 79, rfl⟩
abbrev main_v50 : Ref sig .tc := ⟨.hbm, 80, rfl⟩
abbrev main_cst_5 : Ref sig .tc := ⟨.hbm, 81, rfl⟩
abbrev main_v51 : Ref sig .tc := ⟨.hbm, 82, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg4_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem4_0 : DmaSem sig := 14
abbrev cc1_sem4_1 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  ![arg0.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S3x64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S3x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S128x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  ![arg0.toNat, arg0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S128x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S128x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S3x64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S3x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S128x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  bcast_S_S4096 : S_.BroadcastsInDim S4096 (![] : Fin 0 → Fin S4096.rank)
  bcast_S4096_S4096x1_0 : S4096.BroadcastsInDim S4096x1 (![0] : Fin 1 → Fin S4096x1.rank)
  inb_S128x128_S128x128_0_0 : ∀ a, (![0, 0] : Fin 2 → Nat) a + S128x128.size a ≤ S128x128.size a
  h_S128x128 : 0 < S128x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S3x64x64_S1x64x64_0_0_0 : ∀ a, (![0, 0, 0] : Fin 3 → Nat) a + S1x64x64.size a ≤ S3x64x64.size a
  h_S1x64x64 : 0 < S1x64x64.numel
  shapeCasts_S1x64x64_S64x64 : S1x64x64.ShapeCasts S64x64
  inb_S3x64_S1x64_0_0 : ∀ a, (![0, 0] : Fin 2 → Nat) a + S1x64.size a ≤ S3x64.size a
  h_S1x64 : 0 < S1x64.numel
  shapeCasts_S1x64_S64 : S1x64.ShapeCasts S64
  transposes_S64x64_p1_0_S64x64 : S64x64.Transposes [1, 0] S64x64
  shapeCasts_S64_S1x64 : S64.ShapeCasts S1x64
  broadcasts_S1x64_S128x64 : S1x64.Broadcasts S128x64
  reduces_S128x64_S128 : S128x64.Reduces [1] S128
  shapeCasts_S128_S128x1 : S128.ShapeCasts S128x1
  broadcasts_S128x1_S128x64 : S128x1.Broadcasts S128x64
  inb_S3x64x64_S1x64x64_1_0_0 : ∀ a, (![1, 0, 0] : Fin 3 → Nat) a + S1x64x64.size a ≤ S3x64x64.size a
  inb_S3x64_S1x64_1_0 : ∀ a, (![1, 0] : Fin 2 → Nat) a + S1x64.size a ≤ S3x64.size a
  inb_S3x64x64_S1x64x64_2_0_0 : ∀ a, (![2, 0, 0] : Fin 3 → Nat) a + S1x64x64.size a ≤ S3x64x64.size a
  inb_S3x64_S1x64_2_0 : ∀ a, (![2, 0] : Fin 2 → Nat) a + S1x64.size a ≤ S3x64.size a
  bcast_S_S128x64 : S_.BroadcastsInDim S128x64 (![] : Fin 0 → Fin S128x64.rank)
  concatenates_S128x64_S128x1_S128x1_S128x64_S128x1_S128x1_S128x55_S128x187_d1 : Shape.Concatenates [S128x64, S128x1, S128x1, S128x64, S128x1, S128x1, S128x55] S128x187 1
  slices_S2x187x187_S1x187x187_0_0_0 : S2x187x187.Slices ![0, 0, 0] S1x187x187
  shapeCasts_S1x187x187_S187x187 : S1x187x187.ShapeCasts S187x187
  transposes_S187x187_S187x187_1_0 : S187x187.Transposes [1, 0] S187x187
  slices_S2x187_S1x187_0_0 : S2x187.Slices ![0, 0] S1x187
  shapeCasts_S1x187_S187 : S1x187.ShapeCasts S187
  bcast_S187_S1x187_1 : S187.BroadcastsInDim S1x187 (![1] : Fin 1 → Fin S1x187.rank)
  bcast_S1x187_S128x187_0_1 : S1x187.BroadcastsInDim S128x187 (![0, 1] : Fin 2 → Fin S128x187.rank)
  bcast_S_S128x187 : S_.BroadcastsInDim S128x187 (![] : Fin 0 → Fin S128x187.rank)
  slices_S2x187x187_S1x187x187_1_0_0 : S2x187x187.Slices ![1, 0, 0] S1x187x187
  slices_S2x187_S1x187_1_0 : S2x187.Slices ![1, 0] S1x187
  transposes_S1x187_S187x1_1_0 : S1x187.Transposes [1, 0] S187x1
  bcast_S1_S1x1_1 : S1.BroadcastsInDim S1x1 (![1] : Fin 1 → Fin S1x1.rank)
  bcast_S1x1_S128x1_0_1 : S1x1.BroadcastsInDim S128x1 (![0, 1] : Fin 2 → Fin S128x1.rank)
  reducesTo_S128x1_S_d0_1 : S128x1.ReducesTo [0, 1] S_
  h_S_ : 0 < S_.numel
  gather_S10000x64_S4096x1_S4096x64_1_0_n_n_0_1_164_wf : GatherDims.WF S10000x64 S4096x1 S4096x64 [1] [0] [] [0] [] 1 ![1, 64]
  dot_S128x64_S64x64_S128x64_1_0_0_1_n_n_wf : DotDims.WF S128x64 S64x64 S128x64 [1] [0] [0] [1] [] []
  dot_S128x128_S128x64_S128x64_1_0_0_1_n_n_wf : DotDims.WF S128x128 S128x64 S128x64 [1] [0] [0] [1] [] []
  scatter_S128x64_S4096x1_S4096x64_1_0_0_1_wf : ScatterDims.WF S128x64 S4096x1 S4096x64 [1] [0] [0] 1
  dot_S128x187_S187x187_S128x187_1_0_0_1_n_n_wf : DotDims.WF S128x187 S187x187 S128x187 [1] [0] [0] [1] [] []
  dot_S128x187_S187x1_S128x1_1_0_0_1_n_n_wf : DotDims.WF S128x187 S187x1 S128x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x128.size a ≤ S4096x4096.size a
  hwx0_0 : ∀ i : grid0.Coords, EltTy.bits .f32 = 32 ∨ (Rect.block (s := S4096x4096) S128x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S4096x64.size a
  hwx0_1 : ∀ i : grid0.Coords, EltTy.bits .f32 = 32 ∨ (Rect.block (s := S4096x64) S128x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S3x64x64.size a ≤ S3x64x64.size a
  hwx0_2 : ∀ i : grid0.Coords, EltTy.bits .f32 = 32 ∨ (Rect.block (s := S3x64x64) S3x64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S3x64.size a ≤ S3x64.size a
  hwx0_3 : ∀ i : grid0.Coords, EltTy.bits .f32 = 32 ∨ (Rect.block (s := S3x64) S3x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S128x64.size a ≤ S4096x64.size a
  hwx0_4 : ∀ i : grid0.Coords, EltTy.bits .f32 = 32 ∨ (Rect.block (s := S4096x64) S128x64.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S128x128.size a ≤ S4096x4096.size a
  hwx1_0 : ∀ i : grid1.Coords, EltTy.bits .f32 = 32 ∨ (Rect.block (s := S4096x4096) S128x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S128x64.size a ≤ S4096x64.size a
  hwx1_1 : ∀ i : grid1.Coords, EltTy.bits .f32 = 32 ∨ (Rect.block (s := S4096x64) S128x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S3x64x64.size a ≤ S3x64x64.size a
  hwx1_2 : ∀ i : grid1.Coords, EltTy.bits .f32 = 32 ∨ (Rect.block (s := S3x64x64) S3x64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S3x64.size a ≤ S3x64.size a
  hwx1_3 : ∀ i : grid1.Coords, EltTy.bits .f32 = 32 ∨ (Rect.block (s := S3x64) S3x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S128x64.size a ≤ S4096x64.size a
  hwx1_4 : ∀ i : grid1.Coords, EltTy.bits .f32 = 32 ∨ (Rect.block (s := S4096x64) S128x64.size (cc1_transform_4 i) (hinb1_4 i)).WholeWords (EltTy.packing .f32)

variable [Facts₀]

def gather_S10000x64_S4096x1_S4096x64_1_0_n_n_0_1_164 : GatherDims S10000x64 S4096x1 S4096x64 where
  offsetDims := [1]
  collapsedSliceDims := [0]
  operandBatchingDims := []
  startIndicesBatchingDims := []
  startIndexMap := [0]
  indexVectorDim := 1
  sliceSizes := ![1, 64]
  wf := gather_S10000x64_S4096x1_S4096x64_1_0_n_n_0_1_164_wf
def dot_S128x64_S64x64_S128x64_1_0_0_1_n_n : DotDims S128x64 S64x64 S128x64 where
  lhsContracting := [1]
  rhsContracting := [0]
  lhsNonContracting := [0]
  rhsNonContracting := [1]
  lhsBatch := []
  rhsBatch := []
  wf := dot_S128x64_S64x64_S128x64_1_0_0_1_n_n_wf
def dot_S128x128_S128x64_S128x64_1_0_0_1_n_n : DotDims S128x128 S128x64 S128x64 where
  lhsContracting := [1]
  rhsContracting := [0]
  lhsNonContracting := [0]
  rhsNonContracting := [1]
  lhsBatch := []
  rhsBatch := []
  wf := dot_S128x128_S128x64_S128x64_1_0_0_1_n_n_wf
def scatter_S128x64_S4096x1_S4096x64_1_0_0_1 : ScatterDims S128x64 S4096x1 S4096x64 where
  updateWindowDims := [1]
  insertedWindowDims := [0]
  scatterDimsToOperandDims := [0]
  indexVectorDim := 1
  wf := scatter_S128x64_S4096x1_S4096x64_1_0_0_1_wf
def dot_S128x187_S187x187_S128x187_1_0_0_1_n_n : DotDims S128x187 S187x187 S128x187 where
  lhsContracting := [1]
  rhsContracting := [0]
  lhsNonContracting := [0]
  rhsNonContracting := [1]
  lhsBatch := []
  rhsBatch := []
  wf := dot_S128x187_S187x187_S128x187_1_0_0_1_n_n_wf
def dot_S128x187_S187x1_S128x1_1_0_0_1_n_n : DotDims S128x187 S187x1 S128x1 where
  lhsContracting := [1]
  rhsContracting := [0]
  lhsNonContracting := [0]
  rhsNonContracting := [1]
  lhsBatch := []
  rhsBatch := []
  wf := dot_S128x187_S187x1_S128x1_1_0_0_1_n_n_wf

abbrev win0_0 : Pipeline.Window sig grid0 :=
  Pipeline.Window.ofSpec (Memref.whole main_arg0) S128x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v6) S128x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg13) S3x64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg14) S3x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v7) S128x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_arg1) S128x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v14) S128x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg13) S3x64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg14) S3x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v15) S128x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S4096x4096 : Shape := ⟨2, ![4096, 4096]⟩
abbrev S4096 : Shape := ⟨1, ![4096]⟩
abbrev S128x1 : Shape := ⟨2, ![128, 1]⟩
abbrev S128x55 : Shape := ⟨2, ![128, 55]⟩
abbrev S10000x64 : Shape := ⟨2, ![10000, 64]⟩
abbrev S3x64x64 : Shape := ⟨3, ![3, 64, 64]⟩
abbrev S3x64 : Shape := ⟨2, ![3, 64]⟩
abbrev S2x187x187 : Shape := ⟨3, ![2, 187, 187]⟩
abbrev S2x187 : Shape := ⟨2, ![2, 187]⟩
abbrev S1x187 : Shape := ⟨2, ![1, 187]⟩
abbrev S1 : Shape := ⟨1, ![1]⟩
abbrev S_ : Shape := ⟨0, ![]⟩
abbrev S4096x1 : Shape := ⟨2, ![4096, 1]⟩
abbrev S4096x64 : Shape := ⟨2, ![4096, 64]⟩
abbrev S1x64x64 : Shape := ⟨3, ![1, 64, 64]⟩
abbrev S64x64 : Shape := ⟨2, ![64, 64]⟩
abbrev S1x64 : Shape := ⟨2, ![1, 64]⟩
abbrev S64 : Shape := ⟨1, ![64]⟩
abbrev S128x64 : Shape := ⟨2, ![128, 64]⟩
abbrev S128x187 : Shape := ⟨2, ![128, 187]⟩
abbrev S1x187x187 : Shape := ⟨3, ![1, 187, 187]⟩
abbrev S187x187 : Shape := ⟨2, ![187, 187]⟩
abbrev S187 : Shape := ⟨1, ![187]⟩
abbrev S187x1 : Shape := ⟨2, ![187, 1]⟩
abbrev S1x1 : Shape := ⟨2, ![1, 1]⟩

abbrev nBuf : Space → Nat
  | .hbm => 225
  | .vmem => 0
  | .smem => 0
  | _ => 0

abbrev hbmTy0_0 (i : Nat) : BufTy := match i % 128 with
  | 0 => ⟨S4096x4096, .f32⟩
  | 1 => ⟨S4096x4096, .f32⟩
  | 2 => ⟨S4096, .i32⟩
  | 3 => ⟨S4096, .i32⟩
  | 4 => ⟨S4096, .i32⟩
  | 5 => ⟨S4096, .i32⟩
  | 6 => ⟨S128x1, .f32⟩
  | 7 => ⟨S128x1, .f32⟩
  | 8 => ⟨S128x1, .f32⟩
  | 9 => ⟨S128x1, .f32⟩
  | 10 => ⟨S128x55, .f32⟩
  | 11 => ⟨S128x1, .f32⟩
  | 12 => ⟨S10000x64, .f32⟩
  | 13 => ⟨S3x64x64, .f32⟩
  | 14 => ⟨S3x64, .f32⟩
  | 15 => ⟨S2x187x187, .f32⟩
  | 16 => ⟨S2x187, .f32⟩
  | 17 => ⟨S1x187, .f32⟩
  | 18 => ⟨S1, .f32⟩
  | 19 => ⟨S_, .i32⟩
  | 20 => ⟨S4096, .i32⟩
  | 21 => ⟨S4096, .i1⟩
  | 22 => ⟨S_, .i32⟩
  | 23 => ⟨S4096, .i32⟩
  | 24 => ⟨S4096, .i32⟩
  | 25 => ⟨S4096, .i32⟩
  | 26 => ⟨S4096x1, .i32⟩
  | 27 => ⟨S4096x64, .f32⟩
  | 28 => ⟨S_, .i32⟩
  | 29 => ⟨S4096, .i32⟩
  | 30 => ⟨S4096, .i1⟩
  | 31 => ⟨S_, .i32⟩
  | 32 => ⟨S4096, .i32⟩
  | 33 => ⟨S4096, .i32⟩
  | 34 => ⟨S4096, .i32⟩
  | 35 => ⟨S4096x1, .i32⟩
  | 36 => ⟨S4096x64, .f32⟩
  | 37 => ⟨S1x64x64, .f32⟩
  | 38 => ⟨S64x64, .f32⟩
  | 39 => ⟨S64x64, .f32⟩
  | 40 => ⟨S4096x64, .f32⟩
  | 41 => ⟨S1x64, .f32⟩
  | 42 => ⟨S64, .f32⟩
  | 43 => ⟨S1x64, .f32⟩
  | 44 => ⟨S4096x64, .f32⟩
  | 45 => ⟨S4096x64, .f32⟩
  | 46 => ⟨S_, .f32⟩
  | 47 => ⟨S4096x64, .f32⟩
  | 48 => ⟨S4096x64, .f32⟩
  | 49 => ⟨S4096x64, .f32⟩
  | 50 => ⟨S4096x64, .f32⟩
  | 51 => ⟨S4096x64, .f32⟩
  | 52 => ⟨S_, .f32⟩
  | 53 => ⟨S4096, .f32⟩
  | 54 => ⟨S4096x1, .f32⟩
  | 55 => ⟨S4096x1, .f32⟩
  | 56 => ⟨S_, .f32⟩
  | 57 => ⟨S4096x1, .f32⟩
  | 58 => ⟨S4096x1, .f32⟩
  | 59 => ⟨S4096x64, .f32⟩
  | 60 => ⟨S4096x64, .f32⟩
  | 61 => ⟨S1x64x64, .f32⟩
  | 62 => ⟨S64x64, .f32⟩
  | 63 => ⟨S64x64, .f32⟩
  | 64 => ⟨S4096x64, .f32⟩
  | 65 => ⟨S1x64, .f32⟩
  | 66 => ⟨S64, .f32⟩
  | 67 => ⟨S1x64, .f32⟩
  | 68 => ⟨S4096x64, .f32⟩
  | 69 => ⟨S4096x64, .f32⟩
  | 70 => ⟨S_, .f32⟩
  | 71 => ⟨S4096x64, .f32⟩
  | 72 => ⟨S4096x64, .f32⟩
  | 73 => ⟨S4096x64, .f32⟩
  | 74 => ⟨S4096x64, .f32⟩
  | 75 => ⟨S4096x64, .f32⟩
  | 76 => ⟨S_, .f32⟩
  | 77 => ⟨S4096, .f32⟩
  | 78 => ⟨S4096x1, .f32⟩
  | 79 => ⟨S4096x1, .f32⟩
  | 80 => ⟨S_, .f32⟩
  | 81 => ⟨S4096x1, .f32⟩
  | 82 => ⟨S4096x1, .f32⟩
  | 83 => ⟨S4096x64, .f32⟩
  | 84 => ⟨S4096x64, .f32⟩
  | 85 => ⟨S1x64x64, .f32⟩
  | 86 => ⟨S64x64, .f32⟩
  | 87 => ⟨S64x64, .f32⟩
  | 88 => ⟨S4096x64, .f32⟩
  | 89 => ⟨S1x64, .f32⟩
  | 90 => ⟨S64, .f32⟩
  | 91 => ⟨S1x64, .f32⟩
  | 92 => ⟨S4096x64, .f32⟩
  | 93 => ⟨S4096x64, .f32⟩
  | 94 => ⟨S_, .f32⟩
  | 95 => ⟨S4096x64, .f32⟩
  | 96 => ⟨S4096x64, .f32⟩
  | 97 => ⟨S4096x64, .f32⟩
  | 98 => ⟨S4096x64, .f32⟩
  | 99 => ⟨S4096x64, .f32⟩
  | 100 => ⟨S_, .f32⟩
  | 101 => ⟨S4096, .f32⟩
  | 102 => ⟨S4096x1, .f32⟩
  | 103 => ⟨S4096x1, .f32⟩
  | 104 => ⟨S_, .f32⟩
  | 105 => ⟨S4096x1, .f32⟩
  | 106 => ⟨S4096x1, .f32⟩
  | 107 => ⟨S4096x64, .f32⟩
  | 108 => ⟨S4096x64, .f32⟩
  | 109 => ⟨S1x64x64, .f32⟩
  | 110 => ⟨S64x64, .f32⟩
  | 111 => ⟨S64x64, .f32⟩
  | 112 => ⟨S4096x64, .f32⟩
  | 113 => ⟨S1x64, .f32⟩
  | 114 => ⟨S64, .f32⟩
  | 115 => ⟨S1x64, .f32⟩
  | 116 => ⟨S4096x64, .f32⟩
  | 117 => ⟨S4096x64, .f32⟩
  | 118 => ⟨S_, .f32⟩
  | 119 => ⟨S4096x64, .f32⟩
  | 120 => ⟨S4096x64, .f32⟩
  | 121 => ⟨S4096x64, .f32⟩
  | 122 => ⟨S4096x64, .f32⟩
  | 123 => ⟨S4096x64, .f32⟩
  | 124 => ⟨S_, .f32⟩
  | 125 => ⟨S4096, .f32⟩
  | 126 => ⟨S4096x1, .f32⟩
  | 127 => ⟨S4096x1, .f32⟩
  | _ => ⟨S4096x4096, .f32⟩

abbrev hbmTy0_1 (i : Nat) : BufTy := match i % 128 with
  | 0 => ⟨S_, .f32⟩
  | 1 => ⟨S4096x1, .f32⟩
  | 2 => ⟨S4096x1, .f32⟩
  | 3 => ⟨S4096x64, .f32⟩
  | 4 => ⟨S4096x64, .f32⟩
  | 5 => ⟨S1x64x64, .f32⟩
  | 6 => ⟨S64x64, .f32⟩
  | 7 => ⟨S64x64, .f32⟩
  | 8 => ⟨S4096x64, .f32⟩
  | 9 => ⟨S1x64, .f32⟩
  | 10 => ⟨S64, .f32⟩
  | 11 => ⟨S1x64, .f32⟩
  | 12 => ⟨S4096x64, .f32⟩
  | 13 => ⟨S4096x64, .f32⟩
  | 14 => ⟨S_, .f32⟩
  | 15 => ⟨S4096x64, .f32⟩
  | 16 => ⟨S4096x64, .f32⟩
  | 17 => ⟨S4096x64, .f32⟩
  | 18 => ⟨S4096x64, .f32⟩
  | 19 => ⟨S4096x64, .f32⟩
  | 20 => ⟨S_, .f32⟩
  | 21 => ⟨S4096, .f32⟩
  | 22 => ⟨S4096x1, .f32⟩
  | 23 => ⟨S4096x1, .f32⟩
  | 24 => ⟨S_, .f32⟩
  | 25 => ⟨S4096x1, .f32⟩
  | 26 => ⟨S4096x1, .f32⟩
  | 27 => ⟨S4096x64, .f32⟩
  | 28 => ⟨S4096x64, .f32⟩
  | 29 => ⟨S1x64x64, .f32⟩
  | 30 => ⟨S64x64, .f32⟩
  | 31 => ⟨S64x64, .f32⟩
  | 32 => ⟨S4096x64, .f32⟩
  | 33 => ⟨S1x64, .f32⟩
  | 34 => ⟨S64, .f32⟩
  | 35 => ⟨S1x64, .f32⟩
  | 36 => ⟨S4096x64, .f32⟩
  | 37 => ⟨S4096x64, .f32⟩
  | 38 => ⟨S_, .f32⟩
  | 39 => ⟨S4096x64, .f32⟩
  | 40 => ⟨S4096x64, .f32⟩
  | 41 => ⟨S4096x64, .f32⟩
  | 42 => ⟨S4096x64, .f32⟩
  | 43 => ⟨S4096x64, .f32⟩
  | 44 => ⟨S_, .f32⟩
  | 45 => ⟨S4096, .f32⟩
  | 46 => ⟨S4096x1, .f32⟩
  | 47 => ⟨S4096x1, .f32⟩
  | 48 => ⟨S_, .f32⟩
  | 49 => ⟨S4096x1, .f32⟩
  | 50 => ⟨S4096x1, .f32⟩
  | 51 => ⟨S4096x64, .f32⟩
  | 52 => ⟨S4096x64, .f32⟩
  | 53 => ⟨S_, .f32⟩
  | 54 => ⟨S128x64, .f32⟩
  | 55 => ⟨S4096x1, .i32⟩
  | 56 => ⟨S128x64, .f32⟩
  | 57 => ⟨S_, .f32⟩
  | 58 => ⟨S128x64, .f32⟩
  | 59 => ⟨S4096x1, .i32⟩
  | 60 => ⟨S128x64, .f32⟩
  | 61 => ⟨S128x187, .f32⟩
  | 62 => ⟨S1x187x187, .f32⟩
  | 63 => ⟨S187x187, .f32⟩
  | 64 => ⟨S187x187, .f32⟩
  | 65 => ⟨S128x187, .f32⟩
  | 66 => ⟨S1x187, .f32⟩
  | 67 => ⟨S187, .f32⟩
  | 68 => ⟨S1x187, .f32⟩
  | 69 => ⟨S128x187, .f32⟩
  | 70 => ⟨S128x187, .f32⟩
  | 71 => ⟨S_, .f32⟩
  | 72 => ⟨S128x187, .f32⟩
  | 73 => ⟨S128x187, .f32⟩
  | 74 => ⟨S1x187x187, .f32⟩
  | 75 => ⟨S187x187, .f32⟩
  | 76 => ⟨S187x187, .f32⟩
  | 77 => ⟨S128x187, .f32⟩
  | 78 => ⟨S1x187, .f32⟩
  | 79 => ⟨S187, .f32⟩
  | 80 => ⟨S1x187, .f32⟩
  | 81 => ⟨S128x187, .f32⟩
  | 82 => ⟨S128x187, .f32⟩
  | 83 => ⟨S_, .f32⟩
  | 84 => ⟨S128x187, .f32⟩
  | 85 => ⟨S128x187, .f32⟩
  | 86 => ⟨S187x1, .f32⟩
  | 87 => ⟨S128x1, .f32⟩
  | 88 => ⟨S1x1, .f32⟩
  | 89 => ⟨S128x1, .f32⟩
  | 90 => ⟨S128x1, .f32⟩
  | 91 => ⟨S128x1, .f32⟩
  | 92 => ⟨S128x1, .f32⟩
  | 93 => ⟨S_, .f32⟩
  | 94 => ⟨S_, .f32⟩
  | 95 => ⟨S_, .f32⟩
  | 96 => ⟨S_, .f32⟩
  | _ => ⟨S4096x4096, .f32⟩

abbrev hbmTy (i : Nat) : BufTy := match i / 128 with
  | 0 => hbmTy0_0 i
  | 1 => hbmTy0_1 i
  | _ => ⟨S4096x4096, .f32⟩

abbrev bufTy : (tb : Table) → Fin (tcTables nBuf tb) → BufTy
  | .hbm, ⟨i, _⟩ => hbmTy i
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_c : Ref sig .tc := ⟨.hbm, 19, rfl⟩
abbrev main_v0 : Ref sig .tc := ⟨.hbm, 20, rfl⟩
abbrev main_v1 : Ref sig .tc := ⟨.hbm, 21, rfl⟩
abbrev main_c_0 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_c_1 : Ref sig .tc := ⟨.hbm, 28, rfl⟩
abbrev main_v7 : Ref sig .tc := ⟨.hbm, 29, rfl⟩
abbrev main_v8 : Ref sig .tc := ⟨.hbm, 30, rfl⟩
abbrev main_c_2 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_call0_cst : Ref sig .tc := ⟨.hbm, 46, rfl⟩
abbrev main_call0_v0 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_cst : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_cst_3 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_call1_cst : Ref sig .tc := ⟨.hbm, 70, rfl⟩
abbrev main_call1_v0 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_cst_4 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_cst_5 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_call2_cst : Ref sig .tc := ⟨.hbm, 94, rfl⟩
abbrev main_call2_v0 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_cst_6 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_cst_7 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_call3_cst : Ref sig .tc := ⟨.hbm, 118, rfl⟩
abbrev main_call3_v0 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_cst_8 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_cst_9 : Ref sig .tc := ⟨.hbm, 128, rfl⟩
abbrev main_v90 : Ref sig .tc := ⟨.hbm, 129, rfl⟩
abbrev main_v91 : Ref sig .tc := ⟨.hbm, 130, rfl⟩
abbrev main_v92 : Ref sig .tc := ⟨.hbm, 131, rfl⟩
abbrev main_v93 : Ref sig .tc := ⟨.hbm, 132, rfl⟩
abbrev main_v94 : Ref sig .tc := ⟨.hbm, 133, rfl⟩
abbrev main_v95 : Ref sig .tc := ⟨.hbm, 134, rfl⟩
abbrev main_v96 : Ref sig .tc := ⟨.hbm, 135, rfl⟩
abbrev main_v97 : Ref sig .tc := ⟨.hbm, 136, rfl⟩
abbrev main_v98 : Ref sig .tc := ⟨.hbm, 137, rfl⟩
abbrev main_v99 : Ref sig .tc := ⟨.hbm, 138, rfl⟩
abbrev main_v100 : Ref sig .tc := ⟨.hbm, 139, rfl⟩
abbrev main_v101 : Ref sig .tc := ⟨.hbm, 140, rfl⟩
abbrev main_v102 : Ref sig .tc := ⟨.hbm, 141, rfl⟩
abbrev main_call4_cst : Ref sig .tc := ⟨.hbm, 142, rfl⟩
abbrev main_call4_v0 : Ref sig .tc := ⟨.hbm, 143, rfl⟩
abbrev main_v103 : Ref sig .tc := ⟨.hbm, 144, rfl⟩
abbrev main_v104 : Ref sig .tc := ⟨.hbm, 145, rfl⟩
abbrev main_v105 : Ref sig .tc := ⟨.hbm, 146, rfl⟩
abbrev main_v106 : Ref sig .tc := ⟨.hbm, 147, rfl⟩
abbrev main_cst_10 : Ref sig .tc := ⟨.hbm, 148, rfl⟩
abbrev main_v107 : Ref sig .tc := ⟨.hbm, 149, rfl⟩
abbrev main_v108 : Ref sig .tc := ⟨.hbm, 150, rfl⟩
abbrev main_v109 : Ref sig .tc := ⟨.hbm, 151, rfl⟩
abbrev main_cst_11 : Ref sig .tc := ⟨.hbm, 152, rfl⟩
abbrev main_v110 : Ref sig .tc := ⟨.hbm, 153, rfl⟩
abbrev main_v111 : Ref sig .tc := ⟨.hbm, 154, rfl⟩
abbrev main_v112 : Ref sig .tc := ⟨.hbm, 155, rfl⟩
abbrev main_v113 : Ref sig .tc := ⟨.hbm, 156, rfl⟩
abbrev main_v114 : Ref sig .tc := ⟨.hbm, 157, rfl⟩
abbrev main_v115 : Ref sig .tc := ⟨.hbm, 158, rfl⟩
abbrev main_v116 : Ref sig .tc := ⟨.hbm, 159, rfl⟩
abbrev main_v117 : Ref sig .tc := ⟨.hbm, 160, rfl⟩
abbrev main_v118 : Ref sig .tc := ⟨.hbm, 161, rfl⟩
abbrev main_v119 : Ref sig .tc := ⟨.hbm, 162, rfl⟩
abbrev main_v120 : Ref sig .tc := ⟨.hbm, 163, rfl⟩
abbrev main_v121 : Ref sig .tc := ⟨.hbm, 164, rfl⟩
abbrev main_v122 : Ref sig .tc := ⟨.hbm, 165, rfl⟩
abbrev main_call5_cst : Ref sig .tc := ⟨.hbm, 166, rfl⟩
abbrev main_call5_v0 : Ref sig .tc := ⟨.hbm, 167, rfl⟩
abbrev main_v123 : Ref sig .tc := ⟨.hbm, 168, rfl⟩
abbrev main_v124 : Ref sig .tc := ⟨.hbm, 169, rfl⟩
abbrev main_v125 : Ref sig .tc := ⟨.hbm, 170, rfl⟩
abbrev main_v126 : Ref sig .tc := ⟨.hbm, 171, rfl⟩
abbrev main_cst_12 : Ref sig .tc := ⟨.hbm, 172, rfl⟩
abbrev main_v127 : Ref sig .tc := ⟨.hbm, 173, rfl⟩
abbrev main_v128 : Ref sig .tc := ⟨.hbm, 174, rfl⟩
abbrev main_v129 : Ref sig .tc := ⟨.hbm, 175, rfl⟩
abbrev main_cst_13 : Ref sig .tc := ⟨.hbm, 176, rfl⟩
abbrev main_v130 : Ref sig .tc := ⟨.hbm, 177, rfl⟩
abbrev main_v131 : Ref sig .tc := ⟨.hbm, 178, rfl⟩
abbrev main_v132 : Ref sig .tc := ⟨.hbm, 179, rfl⟩
abbrev main_v133 : Ref sig .tc := ⟨.hbm, 180, rfl⟩
abbrev main_cst_14 : Ref sig .tc := ⟨.hbm, 181, rfl⟩
abbrev main_v134 : Ref sig .tc := ⟨.hbm, 182, rfl⟩
abbrev main_v135 : Ref sig .tc := ⟨.hbm, 183, rfl⟩
abbrev main_v136 : Ref sig .tc := ⟨.hbm, 184, rfl⟩
abbrev main_cst_15 : Ref sig .tc := ⟨.hbm, 185, rfl⟩
abbrev main_v137 : Ref sig .tc := ⟨.hbm, 186, rfl⟩
abbrev main_v138 : Ref sig .tc := ⟨.hbm, 187, rfl⟩
abbrev main_v139 : Ref sig .tc := ⟨.hbm, 188, rfl⟩
abbrev main_v140 : Ref sig .tc := ⟨.hbm, 189, rfl⟩
abbrev main_v141 : Ref sig .tc := ⟨.hbm, 190, rfl⟩
abbrev main_v142 : Ref sig .tc := ⟨.hbm, 191, rfl⟩
abbrev main_v143 : Ref sig .tc := ⟨.hbm, 192, rfl⟩
abbrev main_v144 : Ref sig .tc := ⟨.hbm, 193, rfl⟩
abbrev main_v145 : Ref sig .tc := ⟨.hbm, 194, rfl⟩
abbrev main_v146 : Ref sig .tc := ⟨.hbm, 195, rfl⟩
abbrev main_v147 : Ref sig .tc := ⟨.hbm, 196, rfl⟩
abbrev main_v148 : Ref sig .tc := ⟨.hbm, 197, rfl⟩
abbrev main_v149 : Ref sig .tc := ⟨.hbm, 198, rfl⟩
abbrev main_call6_cst : Ref sig .tc := ⟨.hbm, 199, rfl⟩
abbrev main_call6_v0 : Ref sig .tc := ⟨.hbm, 200, rfl⟩
abbrev main_v150 : Ref sig .tc := ⟨.hbm, 201, rfl⟩
abbrev main_v151 : Ref sig .tc := ⟨.hbm, 202, rfl⟩
abbrev main_v152 : Ref sig .tc := ⟨.hbm, 203, rfl⟩
abbrev main_v153 : Ref sig .tc := ⟨.hbm, 204, rfl⟩
abbrev main_v154 : Ref sig .tc := ⟨.hbm, 205, rfl⟩
abbrev main_v155 : Ref sig .tc := ⟨.hbm, 206, rfl⟩
abbrev main_v156 : Ref sig .tc := ⟨.hbm, 207, rfl⟩
abbrev main_v157 : Ref sig .tc := ⟨.hbm, 208, rfl⟩
abbrev main_v158 : Ref sig .tc := ⟨.hbm, 209, rfl⟩
abbrev main_v159 : Ref sig .tc := ⟨.hbm, 210, rfl⟩
abbrev main_call7_cst : Ref sig .tc := ⟨.hbm, 211, rfl⟩
abbrev main_call7_v0 : Ref sig .tc := ⟨.hbm, 212, rfl⟩
abbrev main_v160 : Ref sig .tc := ⟨.hbm, 213, rfl⟩
abbrev main_v161 : Ref sig .tc := ⟨.hbm, 214, rfl⟩
abbrev main_v162 : Ref sig .tc := ⟨.hbm, 215, rfl⟩
abbrev main_v163 : Ref sig .tc := ⟨.hbm, 216, rfl⟩
abbrev main_v164 : Ref sig .tc := ⟨.hbm, 217, rfl⟩
abbrev main_v165 : Ref sig .tc := ⟨.hbm, 218, rfl⟩
abbrev main_v166 : Ref sig .tc := ⟨.hbm, 219, rfl⟩
abbrev main_v167 : Ref sig .tc := ⟨.hbm, 220, rfl⟩
abbrev main_cst_16 : Ref sig .tc := ⟨.hbm, 221, rfl⟩
abbrev main_v168 : Ref sig .tc := ⟨.hbm, 222, rfl⟩
abbrev main_cst_17 : Ref sig .tc := ⟨.hbm, 223, rfl⟩
abbrev main_v169 : Ref sig .tc := ⟨.hbm, 224, rfl⟩

abbrev nD : Nat := 1
abbrev τ : Topo := Topo.v7x

variable {F : FTy → Type} [FloatOps F]

class Facts₀ : Prop where
  bcast_S_S4096 : S_.BroadcastsInDim S4096 (![] : Fin 0 → Fin S4096.rank)
  bcast_S4096_S4096x1_0 : S4096.BroadcastsInDim S4096x1 (![0] : Fin 1 → Fin S4096x1.rank)
  slices_S3x64x64_S1x64x64_0_0_0 : S3x64x64.Slices ![0, 0, 0] S1x64x64
  shapeCasts_S1x64x64_S64x64 : S1x64x64.ShapeCasts S64x64
  transposes_S64x64_S64x64_1_0 : S64x64.Transposes [1, 0] S64x64
  slices_S3x64_S1x64_0_0 : S3x64.Slices ![0, 0] S1x64
  shapeCasts_S1x64_S64 : S1x64.ShapeCasts S64
  bcast_S64_S1x64_1 : S64.BroadcastsInDim S1x64 (![1] : Fin 1 → Fin S1x64.rank)
  bcast_S1x64_S4096x64_0_1 : S1x64.BroadcastsInDim S4096x64 (![0, 1] : Fin 2 → Fin S4096x64.rank)
  bcast_S_S4096x64 : S_.BroadcastsInDim S4096x64 (![] : Fin 0 → Fin S4096x64.rank)
  reducesTo_S4096x64_S4096_d1 : S4096x64.ReducesTo [1] S4096
  h_S_ : 0 < S_.numel
  bcast_S_S4096x1 : S_.BroadcastsInDim S4096x1 (![] : Fin 0 → Fin S4096x1.rank)
  bcast_S4096x1_S4096x64_0_1 : S4096x1.BroadcastsInDim S4096x64 (![0, 1] : Fin 2 → Fin S4096x64.rank)
  slices_S3x64x64_S1x64x64_1_0_0 : S3x64x64.Slices ![1, 0, 0] S1x64x64
  slices_S3x64_S1x64_1_0 : S3x64.Slices ![1, 0] S1x64
  slices_S3x64x64_S1x64x64_2_0_0 : S3x64x64.Slices ![2, 0, 0] S1x64x64
  slices_S3x64_S1x64_2_0 : S3x64.Slices ![2, 0] S1x64
  bcast_S_S128x64 : S_.BroadcastsInDim S128x64 (![] : Fin 0 → Fin S128x64.rank)
  concatenates_S128x64_S128x1_S128x1_S128x64_S128x1_S128x1_S128x55_S128x187_d1 : Shape.Concatenates [S128x64, S128x1, S128x1, S128x64, S128x1, S128x1, S128x55] S128x187 1
  slices_S2x187x187_S1x187x187_0_0_0 : S2x187x187.Slices ![0, 0, 0] S1x187x187
  shapeCasts_S1x187x187_S187x187 : S1x187x187.ShapeCasts S187x187
  transposes_S187x187_S187x187_1_0 : S187x187.Transposes [1, 0] S187x187
  slices_S2x187_S1x187_0_0 : S2x187.Slices ![0, 0] S1x187
  shapeCasts_S1x187_S187 : S1x187.ShapeCasts S187
  bcast_S187_S1x187_1 : S187.BroadcastsInDim S1x187 (![1] : Fin 1 → Fin S1x187.rank)
  bcast_S1x187_S128x187_0_1 : S1x187.BroadcastsInDim S128x187 (![0, 1] : Fin 2 → Fin S128x187.rank)
  bcast_S_S128x187 : S_.BroadcastsInDim S128x187 (![] : Fin 0 → Fin S128x187.rank)
  slices_S2x187x187_S1x187x187_1_0_0 : S2x187x187.Slices ![1, 0, 0] S1x187x187
  slices_S2x187_S1x187_1_0 : S2x187.Slices ![1, 0] S1x187
  transposes_S1x187_S187x1_1_0 : S1x187.Transposes [1, 0] S187x1
  bcast_S1_S1x1_1 : S1.BroadcastsInDim S1x1 (![1] : Fin 1 → Fin S1x1.rank)
  bcast_S1x1_S128x1_0_1 : S1x1.BroadcastsInDim S128x1 (![0, 1] : Fin 2 → Fin S128x1.rank)
  reducesTo_S128x1_S_d0_1 : S128x1.ReducesTo [0, 1] S_
  gather_S10000x64_S4096x1_S4096x64_1_0_n_n_0_1_164_wf : GatherDims.WF S10000x64 S4096x1 S4096x64 [1] [0] [] [0] [] 1 ![1, 64]
  dot_S4096x64_S64x64_S4096x64_1_0_0_1_n_n_wf : DotDims.WF S4096x64 S64x64 S4096x64 [1] [0] [0] [1] [] []
  dot_S4096x4096_S4096x64_S4096x64_1_0_0_1_n_n_wf : DotDims.WF S4096x4096 S4096x64 S4096x64 [1] [0] [0] [1] [] []
  scatter_S128x64_S4096x1_S4096x64_1_0_0_1_wf : ScatterDims.WF S128x64 S4096x1 S4096x64 [1] [0] [0] 1
  dot_S128x187_S187x187_S128x187_1_0_0_1_n_n_wf : DotDims.WF S128x187 S187x187 S128x187 [1] [0] [0] [1] [] []
  dot_S128x187_S187x1_S128x1_1_0_0_1_n_n_wf : DotDims.WF S128x187 S187x1 S128x1 [1] [0] [0] [1] [] []

variable [Facts₀]

def gather_S10000x64_S4096x1_S4096x64_1_0_n_n_0_1_164 : GatherDims S10000x64 S4096x1 S4096x64 where
  offsetDims := [1]
  collapsedSliceDims := [0]
  operandBatchingDims := []
  startIndicesBatchingDims := []
  startIndexMap := [0]
  indexVectorDim := 1
  sliceSizes := ![1, 64]
  wf := gather_S10000x64_S4096x1_S4096x64_1_0_n_n_0_1_164_wf
def dot_S4096x64_S64x64_S4096x64_1_0_0_1_n_n : DotDims S4096x64 S64x64 S4096x64 where
  lhsContracting := [1]
  rhsContracting := [0]
  lhsNonContracting := [0]
  rhsNonContracting := [1]
  lhsBatch := []
  rhsBatch := []
  wf := dot_S4096x64_S64x64_S4096x64_1_0_0_1_n_n_wf
def dot_S4096x4096_S4096x64_S4096x64_1_0_0_1_n_n : DotDims S4096x4096 S4096x64 S4096x64 where
  lhsContracting := [1]
  rhsContracting := [0]
  lhsNonContracting := [0]
  rhsNonContracting := [1]
  lhsBatch := []
  rhsBatch := []
  wf := dot_S4096x4096_S4096x64_S4096x64_1_0_0_1_n_n_wf
def scatter_S128x64_S4096x1_S4096x64_1_0_0_1 : ScatterDims S128x64 S4096x1 S4096x64 where
  updateWindowDims := [1]
  insertedWindowDims := [0]
  scatterDimsToOperandDims := [0]
  indexVectorDim := 1
  wf := scatter_S128x64_S4096x1_S4096x64_1_0_0_1_wf
def dot_S128x187_S187x187_S128x187_1_0_0_1_n_n : DotDims S128x187 S187x187 S128x187 where
  lhsContracting := [1]
  rhsContracting := [0]
  lhsNonContracting := [0]
  rhsNonContracting := [1]
  lhsBatch := []
  rhsBatch := []
  wf := dot_S128x187_S187x187_S128x187_1_0_0_1_n_n_wf
def dot_S128x187_S187x1_S128x1_1_0_0_1_n_n : DotDims S128x187 S187x1 S128x1 where
  lhsContracting := [1]
  rhsContracting := [0]
  lhsNonContracting := [0]
  rhsNonContracting := [1]
  lhsBatch := []
  rhsBatch := []
  wf := dot_S128x187_S187x1_S128x1_1_0_0_1_n_n_wf

class Facts : Prop extends Facts₀ where

variable [Facts]
-- ==== Proof.BitsRegion0.lean ====
/-
  One grid point of the first message-passing call (the donor side), and the call's bookkeeping.

  The call walks the 4096 atoms in 32 tiles of 128. At tile t it is handed the diagonal 128×128 tile (t, t) of the
  adjacency matrix, rows 128·t … 128·t+127 of the gathered atom features [4096, 64], and the whole weight and bias
  arrays; it writes rows 128·t … 128·t+127 of the result. Here: what the body leaves in the result tile as a pure
  function of the four input tiles (`rows`), the body's triple, and the data the pipeline library asks for about
  every point — all stated over the buffer contents `V` the call is entered with, whatever they are.
-/
import proofs.«116553_j65369402245720_2_alg».proof.Proof.Gen.Kernel.Launch
import proofs.«116553_j65369402245720_2_alg».proof.Proof.Gen.Kernel.Skeleton
import proofs.«116553_j65369402245720_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Region0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The tiles -/

/-- Operand `w`'s tile at grid point `t`, cut out of the operand's array as the call finds it. -/
def tile (c : Dev nD) (w : Fin cfg0.W) (t : Fin cfg0.N) :
    ((cfg0.win w).xblock (cfg0.grid.coords t)).Idx → Elt F (cfg0.win w).elt :=
  ((cfg0.win w).blk t).view.read (Elt F) (V c (Pipeline.arrRef spec0 w))

/-! ## The body's accesses: every load and the one store take a whole tile, or one layer's slab of the weights -/

abbrev boxA : Rect S128x128 := Rect.unit (s := S128x128) ![0, 0] S128x128.size inb_S128x128_S128x128_0_0
abbrev boxX : Rect S128x64 := Rect.unit (s := S128x64) ![0, 0] S128x64.size inb_S128x64_S128x64_0_0
abbrev boxW0 : Rect S3x64x64 := Rect.unit (s := S3x64x64) ![0, 0, 0] S1x64x64.size inb_S3x64x64_S1x64x64_0_0_0
abbrev boxW1 : Rect S3x64x64 := Rect.unit (s := S3x64x64) ![1, 0, 0] S1x64x64.size inb_S3x64x64_S1x64x64_1_0_0
abbrev boxW2 : Rect S3x64x64 := Rect.unit (s := S3x64x64) ![2, 0, 0] S1x64x64.size inb_S3x64x64_S1x64x64_2_0_0
abbrev boxB0 : Rect S3x64 := Rect.unit (s := S3x64) ![0, 0] S1x64.size inb_S3x64_S1x64_0_0
abbrev boxB1 : Rect S3x64 := Rect.unit (s := S3x64) ![1, 0] S1x64.size inb_S3x64_S1x64_1_0
abbrev boxB2 : Rect S3x64 := Rect.unit (s := S3x64) ![2, 0] S1x64.size inb_S3x64_S1x64_2_0

/-- The 128 result rows of one grid point, from the adjacency tile `a`, the feature rows `x`, the weights `w` and the
    biases `b`: three rounds of (affine map, floor at zero, add the neighbours' sum through `a`, scale each row to unit
    length), the first two rounds' value feeding the third. -/
def rows (a : Vec F S128x128 .f32) (x : Vec F S128x64 .f32) (w : Vec F S3x64x64 .f32) (b : Vec F S3x64 .f32) :
    FVec F S128x64 .f32 :=
  k0_pay1 (k0_pay2 (View.ld a boxA))
    (k0_pay3 (View.ld a boxA) (View.ld x boxX) (View.ld w boxW0) (View.ld b boxB0) (View.ld w boxW1) (View.ld b boxB1))
    (View.ld w boxW2) (View.ld b boxB2)

/-- What the body leaves in the result's staging buffer: its one store, of `rows`, over the whole buffer. -/
def stored (a : Vec F S128x128 .f32) (x : Vec F S128x64 .f32) (w : Vec F S3x64x64 .f32) (b : Vec F S3x64 .f32) :
    Vec F S128x64 .f32 :=
  View.canon [⟨boxX, rows a x w b⟩]

/-- The one store covers the result buffer. -/
theorem stored_covers (p0 : Vec F S128x64 .f32) (y : S128x64.Idx) :
    ∃ pc ∈ ([⟨boxX, p0⟩] : List (View.Piece (Elt F) S128x64 .f32)), y ∈ pc.1.set :=
  View.cover_of_tiled [⟨boxX, p0⟩] S128x64.size (by rfl) y

/-! ## The body's triple -/

set_option maxHeartbeats 4000000 in
/-- The body, run on whole staging buffers holding `a`, `x`, `w`, `b` and a result buffer holding anything, ends with the
    inputs as they were and the result buffer at `stored a x w b`. -/
theorem body_triple (c : Dev nD) (E : Set ℕ) (i : grid0.Coords)
    (arg1 : Memref sig .tc .vmem S128x128 .f32) (harg1 : arg1.IsWhole) (arg2 : Memref sig .tc .vmem S128x64 .f32) (harg2 : arg2.IsWhole)
    (arg3 : Memref sig .tc .vmem S3x64x64 .f32) (harg3 : arg3.IsWhole) (arg4 : Memref sig .tc .vmem S3x64 .f32) (harg4 : arg4.IsWhole)
    (arg5 : Memref sig .tc .vmem S128x64 .f32) (harg5 : arg5.IsWhole)
    (a : Vec F S128x128 .f32) (x : Vec F S128x64 .f32) (w : Vec F S3x64x64 .f32) (b : Vec F S3x64 .f32) (K : PUnit → sProp 𝕄) :
    iprop(owns (c : Thread nD τ) arg1 fullShare a ∗ owns (c : Thread nD τ) arg2 fullShare x
        ∗ owns (c : Thread nD τ) arg3 fullShare w ∗ owns (c : Thread nD τ) arg4 fullShare b
        ∗ (∃ d, owns (c : Thread nD τ) arg5 fullShare d)
        ∗ (iprop(owns (c : Thread nD τ) arg1 fullShare a ∗ owns (c : Thread nD τ) arg2 fullShare x
            ∗ owns (c : Thread nD τ) arg3 fullShare w ∗ owns (c : Thread nD τ) arg4 fullShare b
            ∗ owns (c : Thread nD τ) arg5 fullShare (stored a x w b)) -∗ K ⟨⟩))
      ⊢ wp frame (wpE (defs₀ (F := F)) Variants.none c none) E (cc0__gnn_kernel i arg1 harg1 arg2 harg2 arg3 harg3 arg4 harg4 arg5 harg5) K := by
  simp only [cc0__gnn_kernel_eq_skeleton]; unfold cc0__gnn_kernel_skel
  simp only [k0_part1_eq_skeleton]; unfold k0_part1_skel
  unfold owns
  iintro ⟨⟨%f1, %hf1, H1⟩, ⟨%f2, %hf2, H2⟩, ⟨%f3, %hf3, H3⟩, ⟨%f4, %hf4, H4⟩, ⟨%d5, %f5, -, H5⟩, Hk⟩
  subst hf1; subst hf2; subst hf3; subst hf4
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (stored_covers _)

/-! ## What the pipeline library is told about every grid point -/

/-- An input operand's staging buffer holds the operand's tile at every grid point, whether the tile was fetched at that
    point or is still there from an earlier one (the weights and biases are fetched once: their tile index never moves):
    `before_0` … `before_3` below. The call's data on core `c`: the operands' arrays as the call finds them; after the body at point `t` every input's
    staging buffer still at its tile and the result's at `stored` of the four input tiles; beside the buffers only what
    the call never touches; nothing owed to another core; whole ownership. -/
def dat (c : Dev nD) : Dat τ (Elt F) Unit ℕ (UR sig nD τ) ℕ cfg0 c where
  A w := V c (Pipeline.arrRef spec0 w)
  after w t := match w with
    | ⟨0, _⟩ => tile V c 0 t
    | ⟨1, _⟩ => tile V c 1 t
    | ⟨2, _⟩ => tile V c 2 t
    | ⟨3, _⟩ => tile V c 3 t
    | ⟨4, _⟩ => stored (tile V c 0 t) (tile V c 1 t) (tile V c 2 t) (tile V c 3 t)
  Φ _ := Pipeline.ΦA spec0 c
  q _ := fullShare
  owed _ := 0

theorem dat_A (c : Dev nD) (w : Fin cfg0.W) : (dat V c).A w = V c (Pipeline.arrRef spec0 w) := by
  dsimp only [dat]

theorem after_0 (c : Dev nD) (t : Fin cfg0.N) : (dat V c).after 0 t = tile V c 0 t := by dsimp only [dat]
theorem after_1 (c : Dev nD) (t : Fin cfg0.N) : (dat V c).after 1 t = tile V c 1 t := by dsimp only [dat]
theorem after_2 (c : Dev nD) (t : Fin cfg0.N) : (dat V c).after 2 t = tile V c 2 t := by dsimp only [dat]
theorem after_3 (c : Dev nD) (t : Fin cfg0.N) : (dat V c).after 3 t = tile V c 3 t := by dsimp only [dat]
theorem after_4 (c : Dev nD) (t : Fin cfg0.N) :
    (dat V c).after 4 t = stored (tile V c 0 t) (tile V c 1 t) (tile V c 2 t) (tile V c 3 t) := by dsimp only [dat]

theorem before_0 (c : Dev nD) (t : Fin cfg0.N) (d) : (dat V c).before 0 t d = tile V c 0 t :=
  ((dat V c).before_in_eq_fetched 0 rfl (fun _ => rfl) (fun _ _ _ => rfl)
    (fun t => by rw [after_0]; unfold Dat.blockOf tile; rw [dat_A]; try rfl) t d).trans
    (by unfold Dat.fetched Dat.blockOf tile; rw [dat_A]; try rfl)
theorem before_1 (c : Dev nD) (t : Fin cfg0.N) (d) : (dat V c).before 1 t d = tile V c 1 t :=
  ((dat V c).before_in_eq_fetched 1 rfl (fun _ => rfl) (fun _ _ _ => rfl)
    (fun t => by rw [after_1]; unfold Dat.blockOf tile; rw [dat_A]; try rfl) t d).trans
    (by unfold Dat.fetched Dat.blockOf tile; rw [dat_A]; try rfl)
theorem before_2 (c : Dev nD) (t : Fin cfg0.N) (d) : (dat V c).before 2 t d = tile V c 2 t :=
  ((dat V c).before_in_eq_fetched 2 rfl (fun _ => rfl) (fun _ _ _ => rfl)
    (fun t => by rw [after_2]; unfold Dat.blockOf tile; rw [dat_A]; try rfl) t d).trans
    (by unfold Dat.fetched Dat.blockOf tile; rw [dat_A]; try rfl)
theorem before_3 (c : Dev nD) (t : Fin cfg0.N) (d) : (dat V c).before 3 t d = tile V c 3 t :=
  ((dat V c).before_in_eq_fetched 3 rfl (fun _ => rfl) (fun _ _ _ => rfl)
    (fun t => by rw [after_3]; unfold Dat.blockOf tile; rw [dat_A]; try rfl) t d).trans
    (by unfold Dat.fetched Dat.blockOf tile; rw [dat_A]; try rfl)

/-- What the body is handed at point `t`, operand by operand. -/
def handed (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d))
    ∗ (∃ d, owns (c : Thread nD τ) (st0_4 t) fullShare ((dat V c).before 4 t d)))

/-- What it hands back. -/
def returned (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t)
    ∗ owns (c : Thread nD τ) (st0_3 t) fullShare ((dat V c).after 3 t)
    ∗ owns (c : Thread nD τ) (st0_4 t) fullShare ((dat V c).after 4 t))

/-- The body at any grid point: the input buffers hold their tiles, so the triple applies; the rest passes through. -/
theorem body_at (c : Dev nD) (t : Fin cfg0.N) :
    handed V c t ⊢ wp frame (wpE (defs₀ (F := F)) Variants.none c none) Set.univ (bodyAt0 t) (fun _ => returned V c t) := by
  unfold handed returned bodyAt0
  simp only [before_0, before_1, before_2, before_3]
  rw [show (dat V c).Φ t.succ = (dat V c).Φ t.castSucc from rfl,
    show (dat V c).owesAt () t.succ = (dat V c).owesAt () t.castSucc from rfl,
    after_0, after_1, after_2, after_3, after_4]
  iintro ⟨HΦ, Ho, ⟨%d0, H0⟩, ⟨%d1, H1⟩, ⟨%d2, H2⟩, ⟨%d3, H3⟩, ⟨%d4, H4⟩⟩
  iapply (body_triple c Set.univ _ _ _ _ _ _ _ _ _ _ _ (tile V c 0 t) (tile V c 1 t) (tile V c 2 t) (tile V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's obligation about the body, at every point. -/
theorem body_ok (c : Dev nD) : BodyObligation (dat (F := F) V c) (defs₀ (F := F)) Variants.none () Set.univ := fun t => by
  rw [bigSep_W0, bigSep_W0]
  exact body_at V c t

end Cert.Kernel.Region0

end
-- ==== Proof.BitsRegion1.lean ====
/-
  One grid point of the second message-passing call (the acceptor side), and the call's bookkeeping.

  The call walks the 4096 atoms in 32 tiles of 128. At tile t it is handed the diagonal 128×128 tile (t, t) of the
  adjacency matrix, rows 128·t … 128·t+127 of the gathered atom features [4096, 64], and the whole weight and bias
  arrays; it writes rows 128·t … 128·t+127 of the result. Here: what the body leaves in the result tile as a pure
  function of the four input tiles (`rows`), the body's triple, and the data the pipeline library asks for about
  every point — all stated over the buffer contents `V` the call is entered with, whatever they are.
-/
import proofs.«116553_j65369402245720_2_alg».proof.Proof.Gen.Kernel.Launch
import proofs.«116553_j65369402245720_2_alg».proof.Proof.Gen.Kernel.Skeleton
import proofs.«116553_j65369402245720_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Region1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The tiles -/

/-- Operand `w`'s tile at grid point `t`, cut out of the operand's array as the call finds it. -/
def tile (c : Dev nD) (w : Fin cfg1.W) (t : Fin cfg1.N) :
    ((cfg1.win w).xblock (cfg1.grid.coords t)).Idx → Elt F (cfg1.win w).elt :=
  ((cfg1.win w).blk t).view.read (Elt F) (V c (Pipeline.arrRef spec1 w))

/-! ## The body's accesses: every load and the one store take a whole tile, or one layer's slab of the weights -/

abbrev boxA : Rect S128x128 := Rect.unit (s := S128x128) ![0, 0] S128x128.size inb_S128x128_S128x128_0_0
abbrev boxX : Rect S128x64 := Rect.unit (s := S128x64) ![0, 0] S128x64.size inb_S128x64_S128x64_0_0
abbrev boxW0 : Rect S3x64x64 := Rect.unit (s := S3x64x64) ![0, 0, 0] S1x64x64.size inb_S3x64x64_S1x64x64_0_0_0
abbrev boxW1 : Rect S3x64x64 := Rect.unit (s := S3x64x64) ![1, 0, 0] S1x64x64.size inb_S3x64x64_S1x64x64_1_0_0
abbrev boxW2 : Rect S3x64x64 := Rect.unit (s := S3x64x64) ![2, 0, 0] S1x64x64.size inb_S3x64x64_S1x64x64_2_0_0
abbrev boxB0 : Rect S3x64 := Rect.unit (s := S3x64) ![0, 0] S1x64.size inb_S3x64_S1x64_0_0
abbrev boxB1 : Rect S3x64 := Rect.unit (s := S3x64) ![1, 0] S1x64.size inb_S3x64_S1x64_1_0
abbrev boxB2 : Rect S3x64 := Rect.unit (s := S3x64) ![2, 0] S1x64.size inb_S3x64_S1x64_2_0

/-- The 128 result rows of one grid point, from the adjacency tile `a`, the feature rows `x`, the weights `w` and the
    biases `b`: three rounds of (affine map, floor at zero, add the neighbours' sum through `a`, scale each row to unit
    length), the first two rounds' value feeding the third. -/
def rows (a : Vec F S128x128 .f32) (x : Vec F S128x64 .f32) (w : Vec F S3x64x64 .f32) (b : Vec F S3x64 .f32) :
    FVec F S128x64 .f32 :=
  k1_pay1 (k1_pay2 (View.ld a boxA))
    (k1_pay3 (View.ld a boxA) (View.ld x boxX) (View.ld w boxW0) (View.ld b boxB0) (View.ld w boxW1) (View.ld b boxB1))
    (View.ld w boxW2) (View.ld b boxB2)

/-- What the body leaves in the result's staging buffer: its one store, of `rows`, over the whole buffer. -/
def stored (a : Vec F S128x128 .f32) (x : Vec F S128x64 .f32) (w : Vec F S3x64x64 .f32) (b : Vec F S3x64 .f32) :
    Vec F S128x64 .f32 :=
  View.canon [⟨boxX, rows a x w b⟩]

/-- The one store covers the result buffer. -/
theorem stored_covers (p0 : Vec F S128x64 .f32) (y : S128x64.Idx) :
    ∃ pc ∈ ([⟨boxX, p0⟩] : List (View.Piece (Elt F) S128x64 .f32)), y ∈ pc.1.set :=
  View.cover_of_tiled [⟨boxX, p0⟩] S128x64.size (by rfl) y

/-! ## The body's triple -/

set_option maxHeartbeats 4000000 in
/-- The body, run on whole staging buffers holding `a`, `x`, `w`, `b` and a result buffer holding anything, ends with the
    inputs as they were and the result buffer at `stored a x w b`. -/
theorem body_triple (c : Dev nD) (E : Set ℕ) (i : grid1.Coords)
    (arg1 : Memref sig .tc .vmem S128x128 .f32) (harg1 : arg1.IsWhole) (arg2 : Memref sig .tc .vmem S128x64 .f32) (harg2 : arg2.IsWhole)
    (arg3 : Memref sig .tc .vmem S3x64x64 .f32) (harg3 : arg3.IsWhole) (arg4 : Memref sig .tc .vmem S3x64 .f32) (harg4 : arg4.IsWhole)
    (arg5 : Memref sig .tc .vmem S128x64 .f32) (harg5 : arg5.IsWhole)
    (a : Vec F S128x128 .f32) (x : Vec F S128x64 .f32) (w : Vec F S3x64x64 .f32) (b : Vec F S3x64 .f32) (K : PUnit → sProp 𝕄) :
    iprop(owns (c : Thread nD τ) arg1 fullShare a ∗ owns (c : Thread nD τ) arg2 fullShare x
        ∗ owns (c : Thread nD τ) arg3 fullShare w ∗ owns (c : Thread nD τ) arg4 fullShare b
        ∗ (∃ d, owns (c : Thread nD τ) arg5 fullShare d)
        ∗ (iprop(owns (c : Thread nD τ) arg1 fullShare a ∗ owns (c : Thread nD τ) arg2 fullShare x
            ∗ owns (c : Thread nD τ) arg3 fullShare w ∗ owns (c : Thread nD τ) arg4 fullShare b
            ∗ owns (c : Thread nD τ) arg5 fullShare (stored a x w b)) -∗ K ⟨⟩))
      ⊢ wp frame (wpE (defs₀ (F := F)) Variants.none c none) E (cc1__gnn_kernel i arg1 harg1 arg2 harg2 arg3 harg3 arg4 harg4 arg5 harg5) K := by
  simp only [cc1__gnn_kernel_eq_skeleton]; unfold cc1__gnn_kernel_skel
  simp only [k1_part1_eq_skeleton]; unfold k1_part1_skel
  unfold owns
  iintro ⟨⟨%f1, %hf1, H1⟩, ⟨%f2, %hf2, H2⟩, ⟨%f3, %hf3, H3⟩, ⟨%f4, %hf4, H4⟩, ⟨%d5, %f5, -, H5⟩, Hk⟩
  subst hf1; subst hf2; subst hf3; subst hf4
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (stored_covers _)

/-! ## What the pipeline library is told about every grid point -/

/-- An input operand's staging buffer holds the operand's tile at every grid point, whether the tile was fetched at that
    point or is still there from an earlier one (the weights and biases are fetched once: their tile index never moves):
    `before_0` … `before_3` below. The call's data on core `c`: the operands' arrays as the call finds them; after the body at point `t` every input's
    staging buffer still at its tile and the result's at `stored` of the four input tiles; beside the buffers only what
    the call never touches; nothing owed to another core; whole ownership. -/
def dat (c : Dev nD) : Dat τ (Elt F) Unit ℕ (UR sig nD τ) ℕ cfg1 c where
  A w := V c (Pipeline.arrRef spec1 w)
  after w t := match w with
    | ⟨0, _⟩ => tile V c 0 t
    | ⟨1, _⟩ => tile V c 1 t
    | ⟨2, _⟩ => tile V c 2 t
    | ⟨3, _⟩ => tile V c 3 t
    | ⟨4, _⟩ => stored (tile V c 0 t) (tile V c 1 t) (tile V c 2 t) (tile V c 3 t)
  Φ _ := Pipeline.ΦA spec1 c
  q _ := fullShare
  owed _ := 0

theorem dat_A (c : Dev nD) (w : Fin cfg1.W) : (dat V c).A w = V c (Pipeline.arrRef spec1 w) := by
  dsimp only [dat]

theorem after_0 (c : Dev nD) (t : Fin cfg1.N) : (dat V c).after 0 t = tile V c 0 t := by dsimp only [dat]
theorem after_1 (c : Dev nD) (t : Fin cfg1.N) : (dat V c).after 1 t = tile V c 1 t := by dsimp only [dat]
theorem after_2 (c : Dev nD) (t : Fin cfg1.N) : (dat V c).after 2 t = tile V c 2 t := by dsimp only [dat]
theorem after_3 (c : Dev nD) (t : Fin cfg1.N) : (dat V c).after 3 t = tile V c 3 t := by dsimp only [dat]
theorem after_4 (c : Dev nD) (t : Fin cfg1.N) :
    (dat V c).after 4 t = stored (tile V c 0 t) (tile V c 1 t) (tile V c 2 t) (tile V c 3 t) := by dsimp only [dat]

theorem before_0 (c : Dev nD) (t : Fin cfg1.N) (d) : (dat V c).before 0 t d = tile V c 0 t :=
  ((dat V c).before_in_eq_fetched 0 rfl (fun _ => rfl) (fun _ _ _ => rfl)
    (fun t => by rw [after_0]; unfold Dat.blockOf tile; rw [dat_A]; try rfl) t d).trans
    (by unfold Dat.fetched Dat.blockOf tile; rw [dat_A]; try rfl)
theorem before_1 (c : Dev nD) (t : Fin cfg1.N) (d) : (dat V c).before 1 t d = tile V c 1 t :=
  ((dat V c).before_in_eq_fetched 1 rfl (fun _ => rfl) (fun _ _ _ => rfl)
    (fun t => by rw [after_1]; unfold Dat.blockOf tile; rw [dat_A]; try rfl) t d).trans
    (by unfold Dat.fetched Dat.blockOf tile; rw [dat_A]; try rfl)
theorem before_2 (c : Dev nD) (t : Fin cfg1.N) (d) : (dat V c).before 2 t d = tile V c 2 t :=
  ((dat V c).before_in_eq_fetched 2 rfl (fun _ => rfl) (fun _ _ _ => rfl)
    (fun t => by rw [after_2]; unfold Dat.blockOf tile; rw [dat_A]; try rfl) t d).trans
    (by unfold Dat.fetched Dat.blockOf tile; rw [dat_A]; try rfl)
theorem before_3 (c : Dev nD) (t : Fin cfg1.N) (d) : (dat V c).before 3 t d = tile V c 3 t :=
  ((dat V c).before_in_eq_fetched 3 rfl (fun _ => rfl) (fun _ _ _ => rfl)
    (fun t => by rw [after_3]; unfold Dat.blockOf tile; rw [dat_A]; try rfl) t d).trans
    (by unfold Dat.fetched Dat.blockOf tile; rw [dat_A]; try rfl)

/-- What the body is handed at point `t`, operand by operand. -/
def handed (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d))
    ∗ (∃ d, owns (c : Thread nD τ) (st1_3 t) fullShare ((dat V c).before 3 t d))
    ∗ (∃ d, owns (c : Thread nD τ) (st1_4 t) fullShare ((dat V c).before 4 t d)))

/-- What it hands back. -/
def returned (c : Dev nD) (t : Fin cfg1.N) : sProp 𝕄 :=
  iprop((dat V c).Φ t.succ ∗ (dat V c).owesAt () t.succ
    ∗ owns (c : Thread nD τ) (st1_0 t) fullShare ((dat V c).after 0 t)
    ∗ owns (c : Thread nD τ) (st1_1 t) fullShare ((dat V c).after 1 t)
    ∗ owns (c : Thread nD τ) (st1_2 t) fullShare ((dat V c).after 2 t)
    ∗ owns (c : Thread nD τ) (st1_3 t) fullShare ((dat V c).after 3 t)
    ∗ owns (c : Thread nD τ) (st1_4 t) fullShare ((dat V c).after 4 t))

/-- The body at any grid point: the input buffers hold their tiles, so the triple applies; the rest passes through. -/
theorem body_at (c : Dev nD) (t : Fin cfg1.N) :
    handed V c t ⊢ wp frame (wpE (defs₀ (F := F)) Variants.none c none) Set.univ (bodyAt1 t) (fun _ => returned V c t) := by
  unfold handed returned bodyAt1
  simp only [before_0, before_1, before_2, before_3]
  rw [show (dat V c).Φ t.succ = (dat V c).Φ t.castSucc from rfl,
    show (dat V c).owesAt () t.succ = (dat V c).owesAt () t.castSucc from rfl,
    after_0, after_1, after_2, after_3, after_4]
  iintro ⟨HΦ, Ho, ⟨%d0, H0⟩, ⟨%d1, H1⟩, ⟨%d2, H2⟩, ⟨%d3, H3⟩, ⟨%d4, H4⟩⟩
  iapply (body_triple c Set.univ _ _ _ _ _ _ _ _ _ _ _ (tile V c 0 t) (tile V c 1 t) (tile V c 2 t) (tile V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's obligation about the body, at every point. -/
theorem body_ok (c : Dev nD) : BodyObligation (dat (F := F) V c) (defs₀ (F := F)) Variants.none () Set.univ := fun t => by
  rw [bigSep_W1, bigSep_W1]
  exact body_at V c t

end Cert.Kernel.Region1

end
-- ==== Proof.BitsRun.lean ====
/-
  The whole program, from launch to return: nine stretches in a row — host operations, the first message-passing call,
  host operations, the second call, and five stretches of host operations that pool the atoms per molecule and apply the
  output layers.

  Between two stretches every buffer that outlives a call holds known contents: W0 is the launch memory, a stretch of host
  operations turns W into the operations' composed result after W, and a call turns W into W with the call's five
  arrays at what its write-backs leave (the four inputs as they were, the result at the fold of the tiles written). The
  run ends with every such buffer at W9.
-/
import proofs.«116553_j65369402245720_2_alg».proof.Proof.Gen.Kernel.Regions
import proofs.«116553_j65369402245720_2_alg».proof.Proof.BitsRegion0
import proofs.«116553_j65369402245720_2_alg».proof.Proof.BitsRegion1

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ)

/-! ## The contents between stretches -/

/-- At launch. -/
abbrev W0 : Dev nD → Valuation τ sig (Elt F) := fun c b => m ((c : Dev nD), b)
/-- After the first stretch of host operations (the first call's entry). -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- After the first call: its arrays at what its write-backs leave, every other buffer as entered. -/
def W2 (c : Dev nD) : Valuation τ sig (Elt F) :=
  Pipeline.withArrays spec0 c (W1 m c) fun w => (Region0.dat (V1 m) c).arrAt w cfg0.N
theorem W2_arr (c : Dev nD) (w : Fin cfg0.W) :
    W2 m c (Proc.devRef .tc (Pipeline.arrRef spec0 w)) = (Region0.dat (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (Region0.dat (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- After the second stretch of host operations (the second call's entry). -/
abbrev W3 : Dev nD → Valuation τ sig (Elt F) := fun c => StableHlo.after hostOps1 (W2 m c)
abbrev V3 : (c : Dev nD) → (b : Ref sig .tc) → Buf (Elt F) ((c : Thread nD τ).loc b) := fun c b => W3 m c b
/-- After the second call. -/
def W4 (c : Dev nD) : Valuation τ sig (Elt F) :=
  Pipeline.withArrays spec1 c (W3 m c) fun w => (Region1.dat (V3 m) c).arrAt w cfg1.N
theorem W4_arr (c : Dev nD) (w : Fin cfg1.W) :
    W4 m c (Proc.devRef .tc (Pipeline.arrRef spec1 w)) = (Region1.dat (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev V4 : (c : Dev nD) → (b : Ref sig .tc) → Buf (Elt F) ((c : Thread nD τ).loc b) := fun c b => W4 m c b
theorem hF1 (c : Dev nD) (w : Fin cfg1.W) : (Region1.dat (V3 m) c).arrAt w cfg1.N = V4 m c (Pipeline.arrRef spec1 w) :=
  (W4_arr m c w).symm
theorem hrest1 (c : Dev nD) : ∀ b, b ∉ Finset.univ.image (Pipeline.arrRef spec1) → V4 m c b = V3 m c b :=
  fun b hb => W4_of_ne m c b fun w e => hb (Finset.mem_image.mpr ⟨w, Finset.mem_univ _, e⟩)

/-- After each of the five closing stretches of host operations. -/
abbrev W5 : Dev nD → Valuation τ sig (Elt F) := fun c => StableHlo.after hostOps2 (W4 m c)
abbrev W6 : Dev nD → Valuation τ sig (Elt F) := fun c => StableHlo.after hostOps2_1 (W5 m c)
abbrev W7 : Dev nD → Valuation τ sig (Elt F) := fun c => StableHlo.after hostOps2_2 (W6 m c)
abbrev W8 : Dev nD → Valuation τ sig (Elt F) := fun c => StableHlo.after hostOps2_3 (W7 m c)
abbrev W9 : Dev nD → Valuation τ sig (Elt F) := fun c => StableHlo.after hostOps2_4 (W8 m c)

/-! ## What a call leaves alone: every buffer but its result -/

/-- The first call changes its result array only: an input array is read, never written, and the other buffers are not its. -/
theorem W2_keep (c : Dev nD) (r : Ref sig .tc) (h : r ≠ main_v7) : W2 m c (Proc.devRef .tc r) = W1 m c (Proc.devRef .tc r) := by
  by_cases hr : ∃ w, Pipeline.arrRef spec0 w = r
  · obtain ⟨w, rfl⟩ := hr
    rw [W2_arr]
    match w with
    | ⟨0, _⟩ => exact ((Region0.dat (V1 m) c).arrAt_in 0 rfl _).trans (Region0.dat_A (V1 m) c 0)
    | ⟨1, _⟩ => exact ((Region0.dat (V1 m) c).arrAt_in 1 rfl _).trans (Region0.dat_A (V1 m) c 1)
    | ⟨2, _⟩ => exact ((Region0.dat (V1 m) c).arrAt_in 2 rfl _).trans (Region0.dat_A (V1 m) c 2)
    | ⟨3, _⟩ => exact ((Region0.dat (V1 m) c).arrAt_in 3 rfl _).trans (Region0.dat_A (V1 m) c 3)
    | ⟨4, _⟩ => exact absurd rfl h
  · exact W2_of_ne m c r fun w e => hr ⟨w, e⟩

/-- The second call changes its result array only. -/
theorem W4_keep (c : Dev nD) (r : Ref sig .tc) (h : r ≠ main_v15) : W4 m c (Proc.devRef .tc r) = W3 m c (Proc.devRef .tc r) := by
  by_cases hr : ∃ w, Pipeline.arrRef spec1 w = r
  · obtain ⟨w, rfl⟩ := hr
    rw [W4_arr]
    match w with
    | ⟨0, _⟩ => exact ((Region1.dat (V3 m) c).arrAt_in 0 rfl _).trans (Region1.dat_A (V3 m) c 0)
    | ⟨1, _⟩ => exact ((Region1.dat (V3 m) c).arrAt_in 1 rfl _).trans (Region1.dat_A (V3 m) c 1)
    | ⟨2, _⟩ => exact ((Region1.dat (V3 m) c).arrAt_in 2 rfl _).trans (Region1.dat_A (V3 m) c 2)
    | ⟨3, _⟩ => exact ((Region1.dat (V3 m) c).arrAt_in 3 rfl _).trans (Region1.dat_A (V3 m) c 3)
    | ⟨4, _⟩ => exact absurd rfl h
  · exact W4_of_ne m c r fun w e => hr ⟨w, e⟩

/-- A buffer no stretch of host operations writes, and that is neither call's result, ends as launched. -/
theorem W9_kept (c : Dev nD) (r : Ref sig .tc) (h0 : r ∉ (hostOps0_W : List (Ref sig .tc))) (h7 : r ≠ main_v7)
    (h1 : r ∉ (hostOps1_W : List (Ref sig .tc))) (h15 : r ≠ main_v15) (h2 : r ∉ (hostOps2_W : List (Ref sig .tc)))
    (h21 : r ∉ (hostOps2_1_W : List (Ref sig .tc))) (h22 : r ∉ (hostOps2_2_W : List (Ref sig .tc)))
    (h23 : r ∉ (hostOps2_3_W : List (Ref sig .tc))) (h24 : r ∉ (hostOps2_4_W : List (Ref sig .tc))) :
    W9 m c (Proc.devRef .tc r) = m ((c : Thread nD τ).loc r) :=
  (StableHlo.after_of_writes_sub hostOps2_4 _ hostOps2_4_writes h24).trans <|
  (StableHlo.after_of_writes_sub hostOps2_3 _ hostOps2_3_writes h23).trans <|
  (StableHlo.after_of_writes_sub hostOps2_2 _ hostOps2_2_writes h22).trans <|
  (StableHlo.after_of_writes_sub hostOps2_1 _ hostOps2_1_writes h21).trans <|
  (StableHlo.after_of_writes_sub hostOps2 _ hostOps2_writes h2).trans <|
  (W4_keep m c r h15).trans <|
  (StableHlo.after_of_writes_sub hostOps1 _ hostOps1_writes h1).trans <|
  (W2_keep m c r h7).trans <|
  (StableHlo.after_of_writes_sub hostOps0 _ hostOps0_writes h0).trans rfl

/-! ## The proof data of the two calls, and what rides along -/

abbrev adm : (p : Fin 2) → (pcfgs (F := F) p).Adm := fun p => (cfgs p).toPCfg_adm
/-- Each call's data at the contents it is entered with. -/
def pdats : (p : Fin 2) → (c : Dev nD) → Dat τ (Elt F) Unit ℕ (UR sig nD τ) ℕ (Pipeline.pin (pcfgs (F := F)) adm p) c
  | ⟨0, _⟩ => fun c => Region0.dat (V1 m) c
  | ⟨1, _⟩ => fun c => Region1.dat (V3 m) c
abbrev 𝒱₀ : Variants := Variants.none
abbrev L : GSem nD τ sig → Finset Unit := fun _ => ∅
abbrev lv : GSem nD τ sig → Unit → ℕ := fun _ _ => 0
/-- Beside the buffers: the core's generator register at some state, and nothing owed. -/
abbrev R (c : Dev nD) : sProp 𝕄 := iprop((∃ r, prngReg c r) ∗ ∃ W, owes (c : Thread nD τ) (0 : CellTallies nD τ sig Unit) W)
/-- A stretch of host operations from given contents. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The two calls as stretches -/

set_option backward.isDefEq.respectTransparency.types false in
/-- The first call: entered with every buffer at W1, left with every buffer at W2. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (Region0.body_ok (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second call: entered with every buffer at W3, left with every buffer at W4. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (Region1.body_ok (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as nine stretches, and its run -/

abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)),
    .host (hseg hostOps2_1 hostOps2_1_sub hostOps2_1_fresh (W5 m)),
    .host (hseg hostOps2_2 hostOps2_2_sub hostOps2_2_fresh (W6 m)),
    .host (hseg hostOps2_3 hostOps2_3_sub hostOps2_3_fresh (W7 m)),
    .host (hseg hostOps2_4 hostOps2_4_sub hostOps2_4_fresh (W8 m)) ]

set_option backward.isDefEq.respectTransparency.types false in
/-- From any memory with zero counters every weakly fair execution of the program terminates, nothing faulting, with
    every buffer that outlives a call at W9. -/
theorem run_all (ρ : Dev nD → PrngReg) :
    θ_run defs (onTc (τ := τ) (main (F := F))) ⟨m, fun _ => 0, ρ⟩ (fun r => ∀ c : Dev nD,
      ∀ b ∈ Pipeline.ucRefs τ sig, r.2.mem (((c : Thread nD τ)).1, b) = W9 m c b) :=
  Pipeline.θ_run_regions_kit (pcfgs (F := F)) adm (pdats m) () cellOf_inj emb₁ defs₀ 𝒱₀ L lv m ρ main (segs m)
    (fun c Q => by
      rewrite [main_chain c, Seg.run_eq_chain,
        show (segs m).map Seg.prog = [
          StableHlo.seq hostOps0,
          Prog.lift (.customCall (Pipeline.entry 0) ()),
          StableHlo.seq hostOps1,
          Prog.lift (.customCall (Pipeline.entry 1) ()),
          StableHlo.seq hostOps2,
          StableHlo.seq hostOps2_1,
          StableHlo.seq hostOps2_2,
          StableHlo.seq hostOps2_3,
          StableHlo.seq hostOps2_4 ] from rfl]
      exact .rfl)
    (by simp only [segs, Seg.pipes_host, Seg.pipes_region, Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c))
    (Tₙ := fun c => StableHlo.held (c : Thread nD τ) (Pipeline.ucRefs τ sig) (W9 m c))
    (hch := ⟨fun _ => .rfl, fun _ => .rfl, fun _ => .rfl, fun _ => .rfl, fun _ => .rfl, fun _ => .rfl, fun _ => .rfl, fun _ => .rfl, fun _ => .rfl,
      fun c => sep_mono .rfl (by iintro ⟨-, H⟩; iexact H)⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m c b)
    (hfin := fun c s' => by
      iintro ⟨Hh, HSI⟩
      unfold StableHlo.held
      imodintro
      iapply (pointsTo_read_all (Pipeline.ucRefs τ sig) (fun b => (((c : Thread nD τ)).1, b)) (W9 m c) s')
      isplitl [Hh] <;> iassumption)
    (hQ := fun s h => h)

/-! ## The result and the arguments at the end -/

/-- The run, read at the result and at the nineteen arguments: the result holds W9's contents of its buffer, every
    argument what it was launched with. -/
theorem run (ρ : Dev nD → PrngReg) :
    θ_run defs (onTc (τ := τ) (main (F := F))) ⟨m, fun _ => 0, ρ⟩ (fun r => ∀ c : Dev nD,
      r.2.mem ((c.tc : Thread nD τ).loc main_v51) = W9 m c (Proc.devRef .tc main_v51)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  (θ_run defs _ _).mono (fun r h c => ⟨h c _ (mem_uc main_v51 (by decide)),
      (h c _ (mem_uc main_arg0 (by decide))).trans (W9_kept m c main_arg0 (by decide) (by decide) (by decide) (by decide) (by decide) (by decide) (by decide) (by decide) (by decide)),
      (h c _ (mem_uc main_arg1 (by decide))).trans (W9_kept m c main_arg1 (by decide) (by decide) (by decide) (by decide) (by decide) (by decide) (by decide) (by decide) (by decide)),
      (h c _ (mem_uc main_arg2 (by decide))).trans (W9_kept m c main_arg2 (by decide) (by decide) (by decide) (by decide) (by decide) (by decide) (by decide) (by decide) (by decide)),
      (h c _ (mem_uc main_arg3 (by decide))).trans (W9_kept m c main_arg3 (by decide) (by decide) (by decide) (by decide) (by decide) (by decide) (by decide) (by decide) (by decide)),
      (h c _ (mem_uc main_arg4 (by decide))).trans (W9_kept m c main_arg4 (by decide) (by decide) (by decide) (by decide) (by decide) (by decide) (by decide) (by decide) (by decide)),
      (h c _ (mem_uc main_arg5 (by decide))).trans (W9_kept m c main_arg5 (by decide) (by decide) (by decide) (by decide) (by decide) (by decide) (by decide) (by decide) (by decide)),
      (h c _ (mem_uc main_arg6 (by decide))).trans (W9_kept m c main_arg6 (by decide) (by decide) (by decide) (by decide) (by decide) (by decide) (by decide) (by decide) (by decide)),
      (h c _ (mem_uc main_arg7 (by decide))).trans (W9_kept m c main_arg7 (by decide) (by decide) (by decide) (by decide) (by decide) (by decide) (by decide) (by decide) (by decide)),
      (h c _ (mem_uc main_arg8 (by decide))).trans (W9_kept m c main_arg8 (by decide) (by decide) (by decide) (by decide) (by decide) (by decide) (by decide) (by decide) (by decide)),
      (h c _ (mem_uc main_arg9 (by decide))).trans (W9_kept m c main_arg9 (by decide) (by decide) (by decide) (by decide) (by decide) (by decide) (by decide) (by decide) (by decide)),
      (h c _ (mem_uc main_arg10 (by decide))).trans (W9_kept m c main_arg10 (by decide) (by decide) (by decide) (by decide) (by decide) (by decide) (by decide) (by decide) (by decide)),
      (h c _ (mem_uc main_arg11 (by decide))).trans (W9_kept m c main_arg11 (by decide) (by decide) (by decide) (by decide) (by decide) (by decide) (by decide) (by decide) (by decide)),
      (h c _ (mem_uc main_arg12 (by decide))).trans (W9_kept m c main_arg12 (by decide) (by decide) (by decide) (by decide) (by decide) (by decide) (by decide) (by decide) (by decide)),
      (h c _ (mem_uc main_arg13 (by decide))).trans (W9_kept m c main_arg13 (by decide) (by decide) (by decide) (by decide) (by decide) (by decide) (by decide) (by decide) (by decide)),
      (h c _ (mem_uc main_arg14 (by decide))).trans (W9_kept m c main_arg14 (by decide) (by decide) (by decide) (by decide) (by decide) (by decide) (by decide) (by decide) (by decide)),
      (h c _ (mem_uc main_arg15 (by decide))).trans (W9_kept m c main_arg15 (by decide) (by decide) (by decide) (by decide) (by decide) (by decide) (by decide) (by decide) (by decide)),
      (h c _ (mem_uc main_arg16 (by decide))).trans (W9_kept m c main_arg16 (by decide) (by decide) (by decide) (by decide) (by decide) (by decide) (by decide) (by decide) (by decide)),
      (h c _ (mem_uc main_arg17 (by decide))).trans (W9_kept m c main_arg17 (by decide) (by decide) (by decide) (by decide) (by decide) (by decide) (by decide) (by decide) (by decide)),
      (h c _ (mem_uc main_arg18 (by decide))).trans (W9_kept m c main_arg18 (by decide) (by decide) (by decide) (by decide) (by decide) (by decide) (by decide) (by decide) (by decide))⟩) (run_all m ρ)

/-- The arguments alone. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  (θ_run defs _ _).mono (fun r h c => (h c).2) (run m ρ)

end Cert.Kernel.Run

end
-- ==== Proof.IdealRegion0.lean ====
/-
  One grid point of the first message-passing call (the donor side), and the call's bookkeeping.

  The call walks the 4096 atoms in 32 tiles of 128. At tile t it is handed the diagonal 128×128 tile (t, t) of the
  adjacency matrix, rows 128·t … 128·t+127 of the gathered atom features [4096, 64], and the whole weight and bias
  arrays; it writes rows 128·t … 128·t+127 of the result. Here: what the body leaves in the result tile as a pure
  function of the four input tiles (`rows`), the body's triple, and the data the pipeline library asks for about
  every point — all stated over the buffer contents `V` the call is entered with, whatever they are.
-/
import proofs.«116553_j65369402245720_2_alg».proof.Proof.Gen.KernelIdeal.Launch
import proofs.«116553_j65369402245720_2_alg».proof.Proof.Gen.KernelIdeal.Skeleton
import proofs.«116553_j65369402245720_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Region0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The tiles -/

/-- Operand `w`'s tile at grid point `t`, cut out of the operand's array as the call finds it. -/
def tile (c : Dev nD) (w : Fin cfg0.W) (t : Fin cfg0.N) :
    ((cfg0.win w).xblock (cfg0.grid.coords t)).Idx → Elt F (cfg0.win w).elt :=
  ((cfg0.win w).blk t).view.read (Elt F) (V c (Pipeline.arrRef spec0 w))

/-! ## The body's accesses: every load and the one store take a whole tile, or one layer's slab of the weights -/

abbrev boxA : Rect S128x128 := Rect.unit (s := S128x128) ![0, 0] S128x128.size inb_S128x128_S128x128_0_0
abbrev boxX : Rect S128x64 := Rect.unit (s := S128x64) ![0, 0] S128x64.size inb_S128x64_S128x64_0_0
abbrev boxW0 : Rect S3x64x64 := Rect.unit (s := S3x64x64) ![0, 0, 0] S1x64x64.size inb_S3x64x64_S1x64x64_0_0_0
abbrev boxW1 : Rect S3x64x64 := Rect.unit (s := S3x64x64) ![1, 0, 0] S1x64x64.size inb_S3x64x64_S1x64x64_1_0_0
abbrev boxW2 : Rect S3x64x64 := Rect.unit (s := S3x64x64) ![2, 0, 0] S1x64x64.size inb_S3x64x64_S1x64x64_2_0_0
abbrev boxB0 : Rect S3x64 := Rect.unit (s := S3x64) ![0, 0] S1x64.size inb_S3x64_S1x64_0_0
abbrev boxB1 : Rect S3x64 := Rect.unit (s := S3x64) ![1, 0] S1x64.size inb_S3x64_S1x64_1_0
abbrev boxB2 : Rect S3x64 := Rect.unit (s := S3x64) ![2, 0] S1x64.size inb_S3x64_S1x64_2_0

/-- The 128 result rows of one grid point, from the adjacency tile `a`, the feature rows `x`, the weights `w` and the
    biases `b`: three rounds of (affine map, floor at zero, add the neighbours' sum through `a`, scale each row to unit
    length), the first two rounds' value feeding the third. -/
def rows (a : Vec F S128x128 .f32) (x : Vec F S128x64 .f32) (w : Vec F S3x64x64 .f32) (b : Vec F S3x64 .f32) :
    FVec F S128x64 .f32 :=
  k0_pay1 (k0_pay2 (View.ld a boxA))
    (k0_pay3 (View.ld a boxA) (View.ld x boxX) (View.ld w boxW0) (View.ld b boxB0) (View.ld w boxW1) (View.ld b boxB1))
    (View.ld w boxW2) (View.ld b boxB2)

/-- What the body leaves in the result's staging buffer: its one store, of `rows`, over the whole buffer. -/
def stored (a : Vec F S128x128 .f32) (x : Vec F S128x64 .f32) (w : Vec F S3x64x64 .f32) (b : Vec F S3x64 .f32) :
    Vec F S128x64 .f32 :=
  View.canon [⟨boxX, rows a x w b⟩]

/-- The one store covers the result buffer. -/
theorem stored_covers (p0 : Vec F S128x64 .f32) (y : S128x64.Idx) :
    ∃ pc ∈ ([⟨boxX, p0⟩] : List (View.Piece (Elt F) S128x64 .f32)), y ∈ pc.1.set :=
  View.cover_of_tiled [⟨boxX, p0⟩] S128x64.size (by rfl) y

/-! ## The body's triple -/

set_option maxHeartbeats 4000000 in
/-- The body, run on whole staging buffers holding `a`, `x`, `w`, `b` and a result buffer holding anything, ends with the
    inputs as they were and the result buffer at `stored a x w b`. -/
theorem body_triple (c : Dev nD) (E : Set ℕ) (i : grid0.Coords)
    (arg1 : Memref sig .tc .vmem S128x128 .f32) (harg1 : arg1.IsWhole) (arg2 : Memref sig .tc .vmem S128x64 .f32) (harg2 : arg2.IsWhole)
    (arg3 : Memref sig .tc .vmem S3x64x64 .f32) (harg3 : arg3.IsWhole) (arg4 : Memref sig .tc .vmem S3x64 .f32) (harg4 : arg4.IsWhole)
    (arg5 : Memref sig .tc .vmem S128x64 .f32) (harg5 : arg5.IsWhole)
    (a : Vec F S128x128 .f32) (x : Vec F S128x64 .f32) (w : Vec F S3x64x64 .f32) (b : Vec F S3x64 .f32) (K : PUnit → sProp 𝕄) :
    iprop(owns (c : Thread nD τ) arg1 fullShare a ∗ owns (c : Thread nD τ) arg2 fullShare x
        ∗ owns (c : Thread nD τ) arg3 fullShare w ∗ owns (c : Thread nD τ) arg4 fullShare b
        ∗ (∃ d, owns (c : Thread nD τ) arg5 fullShare d)
        ∗ (iprop(owns (c : Thread nD τ) arg1 fullShare a ∗ owns (c : Thread nD τ) arg2 fullShare x
            ∗ owns (c : Thread nD τ) arg3 fullShare w ∗ owns (c : Thread nD τ) arg4 fullShare b
            ∗ owns (c : Thread nD τ) arg5 fullShare (stored a x w b)) -∗ K ⟨⟩))
      ⊢ wp frame (wpE (defs₀ (F := F)) Variants.none c none) E (cc0__gnn_kernel i arg1 harg1 arg2 harg2 arg3 harg3 arg4 harg4 arg5 harg5) K := by
  simp only [cc0__gnn_kernel_eq_skeleton]; unfold cc0__gnn_kernel_skel
  simp only [k0_part1_eq_skeleton]; unfold k0_part1_skel
  unfold owns
  iintro ⟨⟨%f1, %hf1, H1⟩, ⟨%f2, %hf2, H2⟩, ⟨%f3, %hf3, H3⟩, ⟨%f4, %hf4, H4⟩, ⟨%d5, %f5, -, H5⟩, Hk⟩
  subst hf1; subst hf2; subst hf3; subst hf4
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (stored_covers _)

/-! ## What the pipeline library is told about every grid point -/

/-- An input operand's staging buffer holds the operand's tile at every grid point, whether the tile was fetched at that
    point or is still there from an earlier one (the weights and biases are fetched once: their tile index never moves):
    `before_0` … `before_3` below. The call's data on core `c`: the operands' arrays as the call finds them; after the body at point `t` every input's
    staging buffer still at its tile and the result's at `stored` of the four input tiles; beside the buffers only what
    the call never touches; nothing owed to another core; whole ownership. -/
def dat (c : Dev nD) : Dat τ (Elt F) Unit ℕ (UR sig nD τ) ℕ cfg0 c where
  A w := V c (Pipeline.arrRef spec0 w)
  after w t := match w with
    | ⟨0, _⟩ => tile V c 0 t
    | ⟨1, _⟩ => tile V c 1 t
    | ⟨2, _⟩ => tile V c 2 t
    | ⟨3, _⟩ => tile V c 3 t
    | ⟨4, _⟩ => stored (tile V c 0 t) (tile V c 1 t) (tile V c 2 t) (tile V c 3 t)
  Φ _ := Pipeline.ΦA spec0 c
  q _ := fullShare
  owed _ := 0

theorem dat_A (c : Dev nD) (w : Fin cfg0.W) : (dat V c).A w = V c (Pipeline.arrRef spec0 w) := by
  dsimp only [dat]

theorem after_0 (c : Dev nD) (t : Fin cfg0.N) : (dat V c).after 0 t = tile V c 0 t := by dsimp only [dat]
theorem after_1 (c : Dev nD) (t : Fin cfg0.N) : (dat V c).after 1 t = tile V c 1 t := by dsimp only [dat]
theorem after_2 (c : Dev nD) (t : Fin cfg0.N) : (dat V c).after 2 t = tile V c 2 t := by dsimp only [dat]
theorem after_3 (c : Dev nD) (t : Fin cfg0.N) : (dat V c).after 3 t = tile V c 3 t := by dsimp only [dat]
theorem after_4 (c : Dev nD) (t : Fin cfg0.N) :
    (dat V c).after 4 t = stored (tile V c 0 t) (tile V c 1 t) (tile V c 2 t) (tile V c 3 t) := by dsimp only [dat]

theorem before_0 (c : Dev nD) (t : Fin cfg0.N) (d) : (dat V c).before 0 t d = tile V c 0 t :=
  ((dat V c).before_in_eq_fetched 0 rfl (fun _ => rfl) (fun _ _ _ => rfl)
    (fun t => by rw [after_0]; unfold Dat.blockOf tile; rw [dat_A]; try rfl) t d).trans
    (by unfold Dat.fetched Dat.blockOf tile; rw [dat_A]; try rfl)
theorem before_1 (c : Dev nD) (t : Fin cfg0.N) (d) : (dat V c).before 1 t d = tile V c 1 t :=
  ((dat V c).before_in_eq_fetched 1 rfl (fun _ => rfl) (fun _ _ _ => rfl)
    (fun t => by rw [after_1]; unfold Dat.blockOf tile; rw [dat_A]; try rfl) t d).trans
    (by unfold Dat.fetched Dat.blockOf tile; rw [dat_A]; try rfl)
theorem before_2 (c : Dev nD) (t : Fin cfg0.N) (d) : (dat V c).before 2 t d = tile V c 2 t :=
  ((dat V c).before_in_eq_fetched 2 rfl (fun _ => rfl) (fun _ _ _ => rfl)
    (fun t => by rw [after_2]; unfold Dat.blockOf tile; rw [dat_A]; try rfl) t d).trans
    (by unfold Dat.fetched Dat.blockOf tile; rw [dat_A]; try rfl)
theorem before_3 (c : Dev nD) (t : Fin cfg0.N) (d) : (dat V c).before 3 t d = tile V c 3 t :=
  ((dat V c).before_in_eq_fetched 3 rfl (fun _ => rfl) (fun _ _ _ => rfl)
    (fun t => by rw [after_3]; unfold Dat.blockOf tile; rw [dat_A]; try rfl) t d).trans
    (by unfold Dat.fetched Dat.blockOf tile; rw [dat_A]; try rfl)

/-- What the body is handed at point `t`, operand by operand. -/
def handed (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d))
    ∗ (∃ d, owns (c : Thread nD τ) (st0_4 t) fullShare ((dat V c).before 4 t d)))

/-- What it hands back. -/
def returned (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t)
    ∗ owns (c : Thread nD τ) (st0_3 t) fullShare ((dat V c).after 3 t)
    ∗ owns (c : Thread nD τ) (st0_4 t) fullShare ((dat V c).after 4 t))

/-- The body at any grid point: the input buffers hold their tiles, so the triple applies; the rest passes through. -/
theorem body_at (c : Dev nD) (t : Fin cfg0.N) :
    handed V c t ⊢ wp frame (wpE (defs₀ (F := F)) Variants.none c none) Set.univ (bodyAt0 t) (fun _ => returned V c t) := by
  unfold handed returned bodyAt0
  simp only [before_0, before_1, before_2, before_3]
  rw [show (dat V c).Φ t.succ = (dat V c).Φ t.castSucc from rfl,
    show (dat V c).owesAt () t.succ = (dat V c).owesAt () t.castSucc from rfl,
    after_0, after_1, after_2, after_3, after_4]
  iintro ⟨HΦ, Ho, ⟨%d0, H0⟩, ⟨%d1, H1⟩, ⟨%d2, H2⟩, ⟨%d3, H3⟩, ⟨%d4, H4⟩⟩
  iapply (body_triple c Set.univ _ _ _ _ _ _ _ _ _ _ _ (tile V c 0 t) (tile V c 1 t) (tile V c 2 t) (tile V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's obligation about the body, at every point. -/
theorem body_ok (c : Dev nD) : BodyObligation (dat (F := F) V c) (defs₀ (F := F)) Variants.none () Set.univ := fun t => by
  rw [bigSep_W0, bigSep_W0]
  exact body_at V c t

end Cert.KernelIdeal.Region0

end
-- ==== Proof.IdealRegion1.lean ====
/-
  One grid point of the second message-passing call (the acceptor side), and the call's bookkeeping.

  The call walks the 4096 atoms in 32 tiles of 128. At tile t it is handed the diagonal 128×128 tile (t, t) of the
  adjacency matrix, rows 128·t … 128·t+127 of the gathered atom features [4096, 64], and the whole weight and bias
  arrays; it writes rows 128·t … 128·t+127 of the result. Here: what the body leaves in the result tile as a pure
  function of the four input tiles (`rows`), the body's triple, and the data the pipeline library asks for about
  every point — all stated over the buffer contents `V` the call is entered with, whatever they are.
-/
import proofs.«116553_j65369402245720_2_alg».proof.Proof.Gen.KernelIdeal.Launch
import proofs.«116553_j65369402245720_2_alg».proof.Proof.Gen.KernelIdeal.Skeleton
import proofs.«116553_j65369402245720_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Region1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The tiles -/

/-- Operand `w`'s tile at grid point `t`, cut out of the operand's array as the call finds it. -/
def tile (c : Dev nD) (w : Fin cfg1.W) (t : Fin cfg1.N) :
    ((cfg1.win w).xblock (cfg1.grid.coords t)).Idx → Elt F (cfg1.win w).elt :=
  ((cfg1.win w).blk t).view.read (Elt F) (V c (Pipeline.arrRef spec1 w))

/-! ## The body's accesses: every load and the one store take a whole tile, or one layer's slab of the weights -/

abbrev boxA : Rect S128x128 := Rect.unit (s := S128x128) ![0, 0] S128x128.size inb_S128x128_S128x128_0_0
abbrev boxX : Rect S128x64 := Rect.unit (s := S128x64) ![0, 0] S128x64.size inb_S128x64_S128x64_0_0
abbrev boxW0 : Rect S3x64x64 := Rect.unit (s := S3x64x64) ![0, 0, 0] S1x64x64.size inb_S3x64x64_S1x64x64_0_0_0
abbrev boxW1 : Rect S3x64x64 := Rect.unit (s := S3x64x64) ![1, 0, 0] S1x64x64.size inb_S3x64x64_S1x64x64_1_0_0
abbrev boxW2 : Rect S3x64x64 := Rect.unit (s := S3x64x64) ![2, 0, 0] S1x64x64.size inb_S3x64x64_S1x64x64_2_0_0
abbrev boxB0 : Rect S3x64 := Rect.unit (s := S3x64) ![0, 0] S1x64.size inb_S3x64_S1x64_0_0
abbrev boxB1 : Rect S3x64 := Rect.unit (s := S3x64) ![1, 0] S1x64.size inb_S3x64_S1x64_1_0
abbrev boxB2 : Rect S3x64 := Rect.unit (s := S3x64) ![2, 0] S1x64.size inb_S3x64_S1x64_2_0

/-- The 128 result rows of one grid point, from the adjacency tile `a`, the feature rows `x`, the weights `w` and the
    biases `b`: three rounds of (affine map, floor at zero, add the neighbours' sum through `a`, scale each row to unit
    length), the first two rounds' value feeding the third. -/
def rows (a : Vec F S128x128 .f32) (x : Vec F S128x64 .f32) (w : Vec F S3x64x64 .f32) (b : Vec F S3x64 .f32) :
    FVec F S128x64 .f32 :=
  k1_pay1 (k1_pay2 (View.ld a boxA))
    (k1_pay3 (View.ld a boxA) (View.ld x boxX) (View.ld w boxW0) (View.ld b boxB0) (View.ld w boxW1) (View.ld b boxB1))
    (View.ld w boxW2) (View.ld b boxB2)

/-- What the body leaves in the result's staging buffer: its one store, of `rows`, over the whole buffer. -/
def stored (a : Vec F S128x128 .f32) (x : Vec F S128x64 .f32) (w : Vec F S3x64x64 .f32) (b : Vec F S3x64 .f32) :
    Vec F S128x64 .f32 :=
  View.canon [⟨boxX, rows a x w b⟩]

/-- The one store covers the result buffer. -/
theorem stored_covers (p0 : Vec F S128x64 .f32) (y : S128x64.Idx) :
    ∃ pc ∈ ([⟨boxX, p0⟩] : List (View.Piece (Elt F) S128x64 .f32)), y ∈ pc.1.set :=
  View.cover_of_tiled [⟨boxX, p0⟩] S128x64.size (by rfl) y

/-! ## The body's triple -/

set_option maxHeartbeats 4000000 in
/-- The body, run on whole staging buffers holding `a`, `x`, `w`, `b` and a result buffer holding anything, ends with the
    inputs as they were and the result buffer at `stored a x w b`. -/
theorem body_triple (c : Dev nD) (E : Set ℕ) (i : grid1.Coords)
    (arg1 : Memref sig .tc .vmem S128x128 .f32) (harg1 : arg1.IsWhole) (arg2 : Memref sig .tc .vmem S128x64 .f32) (harg2 : arg2.IsWhole)
    (arg3 : Memref sig .tc .vmem S3x64x64 .f32) (harg3 : arg3.IsWhole) (arg4 : Memref sig .tc .vmem S3x64 .f32) (harg4 : arg4.IsWhole)
    (arg5 : Memref sig .tc .vmem S128x64 .f32) (harg5 : arg5.IsWhole)
    (a : Vec F S128x128 .f32) (x : Vec F S128x64 .f32) (w : Vec F S3x64x64 .f32) (b : Vec F S3x64 .f32) (K : PUnit → sProp 𝕄) :
    iprop(owns (c : Thread nD τ) arg1 fullShare a ∗ owns (c : Thread nD τ) arg2 fullShare x
        ∗ owns (c : Thread nD τ) arg3 fullShare w ∗ owns (c : Thread nD τ) arg4 fullShare b
        ∗ (∃ d, owns (c : Thread nD τ) arg5 fullShare d)
        ∗ (iprop(owns (c : Thread nD τ) arg1 fullShare a ∗ owns (c : Thread nD τ) arg2 fullShare x
            ∗ owns (c : Thread nD τ) arg3 fullShare w ∗ owns (c : Thread nD τ) arg4 fullShare b
            ∗ owns (c : Thread nD τ) arg5 fullShare (stored a x w b)) -∗ K ⟨⟩))
      ⊢ wp frame (wpE (defs₀ (F := F)) Variants.none c none) E (cc1__gnn_kernel i arg1 harg1 arg2 harg2 arg3 harg3 arg4 harg4 arg5 harg5) K := by
  simp only [cc1__gnn_kernel_eq_skeleton]; unfold cc1__gnn_kernel_skel
  simp only [k1_part1_eq_skeleton]; unfold k1_part1_skel
  unfold owns
  iintro ⟨⟨%f1, %hf1, H1⟩, ⟨%f2, %hf2, H2⟩, ⟨%f3, %hf3, H3⟩, ⟨%f4, %hf4, H4⟩, ⟨%d5, %f5, -, H5⟩, Hk⟩
  subst hf1; subst hf2; subst hf3; subst hf4
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (stored_covers _)

/-! ## What the pipeline library is told about every grid point -/

/-- An input operand's staging buffer holds the operand's tile at every grid point, whether the tile was fetched at that
    point or is still there from an earlier one (the weights and biases are fetched once: their tile index never moves):
    `before_0` … `before_3` below. The call's data on core `c`: the operands' arrays as the call finds them; after the body at point `t` every input's
    staging buffer still at its tile and the result's at `stored` of the four input tiles; beside the buffers only what
    the call never touches; nothing owed to another core; whole ownership. -/
def dat (c : Dev nD) : Dat τ (Elt F) Unit ℕ (UR sig nD τ) ℕ cfg1 c where
  A w := V c (Pipeline.arrRef spec1 w)
  after w t := match w with
    | ⟨0, _⟩ => tile V c 0 t
    | ⟨1, _⟩ => tile V c 1 t
    | ⟨2, _⟩ => tile V c 2 t
    | ⟨3, _⟩ => tile V c 3 t
    | ⟨4, _⟩ => stored (tile V c 0 t) (tile V c 1 t) (tile V c 2 t) (tile V c 3 t)
  Φ _ := Pipeline.ΦA spec1 c
  q _ := fullShare
  owed _ := 0

theorem dat_A (c : Dev nD) (w : Fin cfg1.W) : (dat V c).A w = V c (Pipeline.arrRef spec1 w) := by
  dsimp only [dat]

theorem after_0 (c : Dev nD) (t : Fin cfg1.N) : (dat V c).after 0 t = tile V c 0 t := by dsimp only [dat]
theorem after_1 (c : Dev nD) (t : Fin cfg1.N) : (dat V c).after 1 t = tile V c 1 t := by dsimp only [dat]
theorem after_2 (c : Dev nD) (t : Fin cfg1.N) : (dat V c).after 2 t = tile V c 2 t := by dsimp only [dat]
theorem after_3 (c : Dev nD) (t : Fin cfg1.N) : (dat V c).after 3 t = tile V c 3 t := by dsimp only [dat]
theorem after_4 (c : Dev nD) (t : Fin cfg1.N) :
    (dat V c).after 4 t = stored (tile V c 0 t) (tile V c 1 t) (tile V c 2 t) (tile V c 3 t) := by dsimp only [dat]

theorem before_0 (c : Dev nD) (t : Fin cfg1.N) (d) : (dat V c).before 0 t d = tile V c 0 t :=
  ((dat V c).before_in_eq_fetched 0 rfl (fun _ => rfl) (fun _ _ _ => rfl)
    (fun t => by rw [after_0]; unfold Dat.blockOf tile; rw [dat_A]; try rfl) t d).trans
    (by unfold Dat.fetched Dat.blockOf tile; rw [dat_A]; try rfl)
theorem before_1 (c : Dev nD) (t : Fin cfg1.N) (d) : (dat V c).before 1 t d = tile V c 1 t :=
  ((dat V c).before_in_eq_fetched 1 rfl (fun _ => rfl) (fun _ _ _ => rfl)
    (fun t => by rw [after_1]; unfold Dat.blockOf tile; rw [dat_A]; try rfl) t d).trans
    (by unfold Dat.fetched Dat.blockOf tile; rw [dat_A]; try rfl)
theorem before_2 (c : Dev nD) (t : Fin cfg1.N) (d) : (dat V c).before 2 t d = tile V c 2 t :=
  ((dat V c).before_in_eq_fetched 2 rfl (fun _ => rfl) (fun _ _ _ => rfl)
    (fun t => by rw [after_2]; unfold Dat.blockOf tile; rw [dat_A]; try rfl) t d).trans
    (by unfold Dat.fetched Dat.blockOf tile; rw [dat_A]; try rfl)
theorem before_3 (c : Dev nD) (t : Fin cfg1.N) (d) : (dat V c).before 3 t d = tile V c 3 t :=
  ((dat V c).before_in_eq_fetched 3 rfl (fun _ => rfl) (fun _ _ _ => rfl)
    (fun t => by rw [after_3]; unfold Dat.blockOf tile; rw [dat_A]; try rfl) t d).trans
    (by unfold Dat.fetched Dat.blockOf tile; rw [dat_A]; try rfl)

/-- What the body is handed at point `t`, operand by operand. -/
def handed (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d))
    ∗ (∃ d, owns (c : Thread nD τ) (st1_3 t) fullShare ((dat V c).before 3 t d))
    ∗ (∃ d, owns (c : Thread nD τ) (st1_4 t) fullShare ((dat V c).before 4 t d)))

/-- What it hands back. -/
def returned (c : Dev nD) (t : Fin cfg1.N) : sProp 𝕄 :=
  iprop((dat V c).Φ t.succ ∗ (dat V c).owesAt () t.succ
    ∗ owns (c : Thread nD τ) (st1_0 t) fullShare ((dat V c).after 0 t)
    ∗ owns (c : Thread nD τ) (st1_1 t) fullShare ((dat V c).after 1 t)
    ∗ owns (c : Thread nD τ) (st1_2 t) fullShare ((dat V c).after 2 t)
    ∗ owns (c : Thread nD τ) (st1_3 t) fullShare ((dat V c).after 3 t)
    ∗ owns (c : Thread nD τ) (st1_4 t) fullShare ((dat V c).after 4 t))

/-- The body at any grid point: the input buffers hold their tiles, so the triple applies; the rest passes through. -/
theorem body_at (c : Dev nD) (t : Fin cfg1.N) :
    handed V c t ⊢ wp frame (wpE (defs₀ (F := F)) Variants.none c none) Set.univ (bodyAt1 t) (fun _ => returned V c t) := by
  unfold handed returned bodyAt1
  simp only [before_0, before_1, before_2, before_3]
  rw [show (dat V c).Φ t.succ = (dat V c).Φ t.castSucc from rfl,
    show (dat V c).owesAt () t.succ = (dat V c).owesAt () t.castSucc from rfl,
    after_0, after_1, after_2, after_3, after_4]
  iintro ⟨HΦ, Ho, ⟨%d0, H0⟩, ⟨%d1, H1⟩, ⟨%d2, H2⟩, ⟨%d3, H3⟩, ⟨%d4, H4⟩⟩
  iapply (body_triple c Set.univ _ _ _ _ _ _ _ _ _ _ _ (tile V c 0 t) (tile V c 1 t) (tile V c 2 t) (tile V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's obligation about the body, at every point. -/
theorem body_ok (c : Dev nD) : BodyObligation (dat (F := F) V c) (defs₀ (F := F)) Variants.none () Set.univ := fun t => by
  rw [bigSep_W1, bigSep_W1]
  exact body_at V c t

end Cert.KernelIdeal.Region1

end
-- ==== Proof.IdealRun.lean ====
/-
  The whole program, from launch to return: nine stretches in a row — host operations, the first message-passing call,
  host operations, the second call, and five stretches of host operations that pool the atoms per molecule and apply the
  output layers.

  Between two stretches every buffer that outlives a call holds known contents: W0 is the launch memory, a stretch of host
  operations turns W into the operations' composed result after W, and a call turns W into W with the call's five
  arrays at what its write-backs leave (the four inputs as they were, the result at the fold of the tiles written). The
  run ends with every such buffer at W9.
-/
import proofs.«116553_j65369402245720_2_alg».proof.Proof.Gen.KernelIdeal.Regions
import proofs.«116553_j65369402245720_2_alg».proof.Proof.IdealRegion0
import proofs.«116553_j65369402245720_2_alg».proof.Proof.IdealRegion1

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ)

/-! ## The contents between stretches -/

/-- At launch. -/
abbrev W0 : Dev nD → Valuation τ sig (Elt F) := fun c b => m ((c : Dev nD), b)
/-- After the first stretch of host operations (the first call's entry). -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- After the first call: its arrays at what its write-backs leave, every other buffer as entered. -/
def W2 (c : Dev nD) : Valuation τ sig (Elt F) :=
  Pipeline.withArrays spec0 c (W1 m c) fun w => (Region0.dat (V1 m) c).arrAt w cfg0.N
theorem W2_arr (c : Dev nD) (w : Fin cfg0.W) :
    W2 m c (Proc.devRef .tc (Pipeline.arrRef spec0 w)) = (Region0.dat (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (Region0.dat (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- After the second stretch of host operations (the second call's entry). -/
abbrev W3 : Dev nD → Valuation τ sig (Elt F) := fun c => StableHlo.after hostOps1 (W2 m c)
abbrev V3 : (c : Dev nD) → (b : Ref sig .tc) → Buf (Elt F) ((c : Thread nD τ).loc b) := fun c b => W3 m c b
/-- After the second call. -/
def W4 (c : Dev nD) : Valuation τ sig (Elt F) :=
  Pipeline.withArrays spec1 c (W3 m c) fun w => (Region1.dat (V3 m) c).arrAt w cfg1.N
theorem W4_arr (c : Dev nD) (w : Fin cfg1.W) :
    W4 m c (Proc.devRef .tc (Pipeline.arrRef spec1 w)) = (Region1.dat (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev V4 : (c : Dev nD) → (b : Ref sig .tc) → Buf (Elt F) ((c : Thread nD τ).loc b) := fun c b => W4 m c b
theorem hF1 (c : Dev nD) (w : Fin cfg1.W) : (Region1.dat (V3 m) c).arrAt w cfg1.N = V4 m c (Pipeline.arrRef spec1 w) :=
  (W4_arr m c w).symm
theorem hrest1 (c : Dev nD) : ∀ b, b ∉ Finset.univ.image (Pipeline.arrRef spec1) → V4 m c b = V3 m c b :=
  fun b hb => W4_of_ne m c b fun w e => hb (Finset.mem_image.mpr ⟨w, Finset.mem_univ _, e⟩)

/-- After each of the five closing stretches of host operations. -/
abbrev W5 : Dev nD → Valuation τ sig (Elt F) := fun c => StableHlo.after hostOps2 (W4 m c)
abbrev W6 : Dev nD → Valuation τ sig (Elt F) := fun c => StableHlo.after hostOps2_1 (W5 m c)
abbrev W7 : Dev nD → Valuation τ sig (Elt F) := fun c => StableHlo.after hostOps2_2 (W6 m c)
abbrev W8 : Dev nD → Valuation τ sig (Elt F) := fun c => StableHlo.after hostOps2_3 (W7 m c)
abbrev W9 : Dev nD → Valuation τ sig (Elt F) := fun c => StableHlo.after hostOps2_4 (W8 m c)

/-! ## What a call leaves alone: every buffer but its result -/

/-- The first call changes its result array only: an input array is read, never written, and the other buffers are not its. -/
theorem W2_keep (c : Dev nD) (r : Ref sig .tc) (h : r ≠ main_v7) : W2 m c (Proc.devRef .tc r) = W1 m c (Proc.devRef .tc r) := by
  by_cases hr : ∃ w, Pipeline.arrRef spec0 w = r
  · obtain ⟨w, rfl⟩ := hr
    rw [W2_arr]
    match w with
    | ⟨0, _⟩ => exact ((Region0.dat (V1 m) c).arrAt_in 0 rfl _).trans (Region0.dat_A (V1 m) c 0)
    | ⟨1, _⟩ => exact ((Region0.dat (V1 m) c).arrAt_in 1 rfl _).trans (Region0.dat_A (V1 m) c 1)
    | ⟨2, _⟩ => exact ((Region0.dat (V1 m) c).arrAt_in 2 rfl _).trans (Region0.dat_A (V1 m) c 2)
    | ⟨3, _⟩ => exact ((Region0.dat (V1 m) c).arrAt_in 3 rfl _).trans (Region0.dat_A (V1 m) c 3)
    | ⟨4, _⟩ => exact absurd rfl h
  · exact W2_of_ne m c r fun w e => hr ⟨w, e⟩

/-- The second call changes its result array only. -/
theorem W4_keep (c : Dev nD) (r : Ref sig .tc) (h : r ≠ main_v15) : W4 m c (Proc.devRef .tc r) = W3 m c (Proc.devRef .tc r) := by
  by_cases hr : ∃ w, Pipeline.arrRef spec1 w = r
  · obtain ⟨w, rfl⟩ := hr
    rw [W4_arr]
    match w with
    | ⟨0, _⟩ => exact ((Region1.dat (V3 m) c).arrAt_in 0 rfl _).trans (Region1.dat_A (V3 m) c 0)
    | ⟨1, _⟩ => exact ((Region1.dat (V3 m) c).arrAt_in 1 rfl _).trans (Region1.dat_A (V3 m) c 1)
    | ⟨2, _⟩ => exact ((Region1.dat (V3 m) c).arrAt_in 2 rfl _).trans (Region1.dat_A (V3 m) c 2)
    | ⟨3, _⟩ => exact ((Region1.dat (V3 m) c).arrAt_in 3 rfl _).trans (Region1.dat_A (V3 m) c 3)
    | ⟨4, _⟩ => exact absurd rfl h
  · exact W4_of_ne m c r fun w e => hr ⟨w, e⟩

/-- A buffer no stretch of host operations writes, and that is neither call's result, ends as launched. -/
theorem W9_kept (c : Dev nD) (r : Ref sig .tc) (h0 : r ∉ (hostOps0_W : List (Ref sig .tc))) (h7 : r ≠ main_v7)
    (h1 : r ∉ (hostOps1_W : List (Ref sig .tc))) (h15 : r ≠ main_v15) (h2 : r ∉ (hostOps2_W : List (Ref sig .tc)))
    (h21 : r ∉ (hostOps2_1_W : List (Ref sig .tc))) (h22 : r ∉ (hostOps2_2_W : List (Ref sig .tc)))
    (h23 : r ∉ (hostOps2_3_W : List (Ref sig .tc))) (h24 : r ∉ (hostOps2_4_W : List (Ref sig .tc))) :
    W9 m c (Proc.devRef .tc r) = m ((c : Thread nD τ).loc r) :=
  (StableHlo.after_of_writes_sub hostOps2_4 _ hostOps2_4_writes h24).trans <|
  (StableHlo.after_of_writes_sub hostOps2_3 _ hostOps2_3_writes h23).trans <|
  (StableHlo.after_of_writes_sub hostOps2_2 _ hostOps2_2_writes h22).trans <|
  (StableHlo.after_of_writes_sub hostOps2_1 _ hostOps2_1_writes h21).trans <|
  (StableHlo.after_of_writes_sub hostOps2 _ hostOps2_writes h2).trans <|
  (W4_keep m c r h15).trans <|
  (StableHlo.after_of_writes_sub hostOps1 _ hostOps1_writes h1).trans <|
  (W2_keep m c r h7).trans <|
  (StableHlo.after_of_writes_sub hostOps0 _ hostOps0_writes h0).trans rfl

/-! ## The proof data of the two calls, and what rides along -/

abbrev adm : (p : Fin 2) → (pcfgs (F := F) p).Adm := fun p => (cfgs p).toPCfg_adm
/-- Each call's data at the contents it is entered with. -/
def pdats : (p : Fin 2) → (c : Dev nD) → Dat τ (Elt F) Unit ℕ (UR sig nD τ) ℕ (Pipeline.pin (pcfgs (F := F)) adm p) c
  | ⟨0, _⟩ => fun c => Region0.dat (V1 m) c
  | ⟨1, _⟩ => fun c => Region1.dat (V3 m) c
abbrev 𝒱₀ : Variants := Variants.none
abbrev L : GSem nD τ sig → Finset Unit := fun _ => ∅
abbrev lv : GSem nD τ sig → Unit → ℕ := fun _ _ => 0
/-- Beside the buffers: the core's generator register at some state, and nothing owed. -/
abbrev R (c : Dev nD) : sProp 𝕄 := iprop((∃ r, prngReg c r) ∗ ∃ W, owes (c : Thread nD τ) (0 : CellTallies nD τ sig Unit) W)
/-- A stretch of host operations from given contents. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The two calls as stretches -/

set_option backward.isDefEq.respectTransparency.types false in
/-- The first call: entered with every buffer at W1, left with every buffer at W2. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (Region0.body_ok (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second call: entered with every buffer at W3, left with every buffer at W4. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (Region1.body_ok (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as nine stretches, and its run -/

abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)),
    .host (hseg hostOps2_1 hostOps2_1_sub hostOps2_1_fresh (W5 m)),
    .host (hseg hostOps2_2 hostOps2_2_sub hostOps2_2_fresh (W6 m)),
    .host (hseg hostOps2_3 hostOps2_3_sub hostOps2_3_fresh (W7 m)),
    .host (hseg hostOps2_4 hostOps2_4_sub hostOps2_4_fresh (W8 m)) ]

set_option backward.isDefEq.respectTransparency.types false in
/-- From any memory with zero counters every weakly fair execution of the program terminates, nothing faulting, with
    every buffer that outlives a call at W9. -/
theorem run_all (ρ : Dev nD → PrngReg) :
    θ_run defs (onTc (τ := τ) (main (F := F))) ⟨m, fun _ => 0, ρ⟩ (fun r => ∀ c : Dev nD,
      ∀ b ∈ Pipeline.ucRefs τ sig, r.2.mem (((c : Thread nD τ)).1, b) = W9 m c b) :=
  Pipeline.θ_run_regions_kit (pcfgs (F := F)) adm (pdats m) () cellOf_inj emb₁ defs₀ 𝒱₀ L lv m ρ main (segs m)
    (fun c Q => by
      rewrite [main_chain c, Seg.run_eq_chain,
        show (segs m).map Seg.prog = [
          StableHlo.seq hostOps0,
          Prog.lift (.customCall (Pipeline.entry 0) ()),
          StableHlo.seq hostOps1,
          Prog.lift (.customCall (Pipeline.entry 1) ()),
          StableHlo.seq hostOps2,
          StableHlo.seq hostOps2_1,
          StableHlo.seq hostOps2_2,
          StableHlo.seq hostOps2_3,
          StableHlo.seq hostOps2_4 ] from rfl]
      exact .rfl)
    (by simp only [segs, Seg.pipes_host, Seg.pipes_region, Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c))
    (Tₙ := fun c => StableHlo.held (c : Thread nD τ) (Pipeline.ucRefs τ sig) (W9 m c))
    (hch := ⟨fun _ => .rfl, fun _ => .rfl, fun _ => .rfl, fun _ => .rfl, fun _ => .rfl, fun _ => .rfl, fun _ => .rfl, fun _ => .rfl, fun _ => .rfl,
      fun c => sep_mono .rfl (by iintro ⟨-, H⟩; iexact H)⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m c b)
    (hfin := fun c s' => by
      iintro ⟨Hh, HSI⟩
      unfold StableHlo.held
      imodintro
      iapply (pointsTo_read_all (Pipeline.ucRefs τ sig) (fun b => (((c : Thread nD τ)).1, b)) (W9 m c) s')
      isplitl [Hh] <;> iassumption)
    (hQ := fun s h => h)

/-! ## The result and the arguments at the end -/

/-- The run, read at the result and at the nineteen arguments: the result holds W9's contents of its buffer, every
    argument what it was launched with. -/
theorem run (ρ : Dev nD → PrngReg) :
    θ_run defs (onTc (τ := τ) (main (F := F))) ⟨m, fun _ => 0, ρ⟩ (fun r => ∀ c : Dev nD,
      r.2.mem ((c.tc : Thread nD τ).loc main_v51) = W9 m c (Proc.devRef .tc main_v51)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  (θ_run defs _ _).mono (fun r h c => ⟨h c _ (mem_uc main_v51 (by decide)),
      (h c _ (mem_uc main_arg0 (by decide))).trans (W9_kept m c main_arg0 (by decide) (by decide) (by decide) (by decide) (by decide) (by decide) (by decide) (by decide) (by decide)),
      (h c _ (mem_uc main_arg1 (by decide))).trans (W9_kept m c main_arg1 (by decide) (by decide) (by decide) (by decide) (by decide) (by decide) (by decide) (by decide) (by decide)),
      (h c _ (mem_uc main_arg2 (by decide))).trans (W9_kept m c main_arg2 (by decide) (by decide) (by decide) (by decide) (by decide) (by decide) (by decide) (by decide) (by decide)),
      (h c _ (mem_uc main_arg3 (by decide))).trans (W9_kept m c main_arg3 (by decide) (by decide) (by decide) (by decide) (by decide) (by decide) (by decide) (by decide) (by decide)),
      (h c _ (mem_uc main_arg4 (by decide))).trans (W9_kept m c main_arg4 (by decide) (by decide) (by decide) (by decide) (by decide) (by decide) (by decide) (by decide) (by decide)),
      (h c _ (mem_uc main_arg5 (by decide))).trans (W9_kept m c main_arg5 (by decide) (by decide) (by decide) (by decide) (by decide) (by decide) (by decide) (by decide) (by decide)),
      (h c _ (mem_uc main_arg6 (by decide))).trans (W9_kept m c main_arg6 (by decide) (by decide) (by decide) (by decide) (by decide) (by decide) (by decide) (by decide) (by decide)),
      (h c _ (mem_uc main_arg7 (by decide))).trans (W9_kept m c main_arg7 (by decide) (by decide) (by decide) (by decide) (by decide) (by decide) (by decide) (by decide) (by decide)),
      (h c _ (mem_uc main_arg8 (by decide))).trans (W9_kept m c main_arg8 (by decide) (by decide) (by decide) (by decide) (by decide) (by decide) (by decide) (by decide) (by decide)),
      (h c _ (mem_uc main_arg9 (by decide))).trans (W9_kept m c main_arg9 (by decide) (by decide) (by decide) (by decide) (by decide) (by decide) (by decide) (by decide) (by decide)),
      (h c _ (mem_uc main_arg10 (by decide))).trans (W9_kept m c main_arg10 (by decide) (by decide) (by decide) (by decide) (by decide) (by decide) (by decide) (by decide) (by decide)),
      (h c _ (mem_uc main_arg11 (by decide))).trans (W9_kept m c main_arg11 (by decide) (by decide) (by decide) (by decide) (by decide) (by decide) (by decide) (by decide) (by decide)),
      (h c _ (mem_uc main_arg12 (by decide))).trans (W9_kept m c main_arg12 (by decide) (by decide) (by decide) (by decide) (by decide) (by decide) (by decide) (by decide) (by decide)),
      (h c _ (mem_uc main_arg13 (by decide))).trans (W9_kept m c main_arg13 (by decide) (by decide) (by decide) (by decide) (by decide) (by decide) (by decide) (by decide) (by decide)),
      (h c _ (mem_uc main_arg14 (by decide))).trans (W9_kept m c main_arg14 (by decide) (by decide) (by decide) (by decide) (by decide) (by decide) (by decide) (by decide) (by decide)),
      (h c _ (mem_uc main_arg15 (by decide))).trans (W9_kept m c main_arg15 (by decide) (by decide) (by decide) (by decide) (by decide) (by decide) (by decide) (by decide) (by decide)),
      (h c _ (mem_uc main_arg16 (by decide))).trans (W9_kept m c main_arg16 (by decide) (by decide) (by decide) (by decide) (by decide) (by decide) (by decide) (by decide) (by decide)),
      (h c _ (mem_uc main_arg17 (by decide))).trans (W9_kept m c main_arg17 (by decide) (by decide) (by decide) (by decide) (by decide) (by decide) (by decide) (by decide) (by decide)),
      (h c _ (mem_uc main_arg18 (by decide))).trans (W9_kept m c main_arg18 (by decide) (by decide) (by decide) (by decide) (by decide) (by decide) (by decide) (by decide) (by decide))⟩) (run_all m ρ)

/-- The arguments alone. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  (θ_run defs _ _).mono (fun r h c => (h c).2) (run m ρ)

end Cert.KernelIdeal.Run

end
-- ==== Proof.LibBlockSum.lean ====
/-
  A sum over J·n consecutive positions of a function that vanishes outside one block of n positions is the sum over
  that block: with K = j·n + k, the terms with K / n ≠ j are zero and the rest are re-indexed by k.
  Used for products with block-diagonal matrices: only the diagonal block meets the row.
-/
import Mathlib.Algebra.BigOperators.Fin
import Mathlib.Logic.Equiv.Fin.Basic

namespace Cert.Lib.BlockSum

/-- The position j·n + k lies below J·n when j < J and k < n. -/
theorem pos_lt {J n j k : Nat} (hj : j < J) (hk : k < n) : j * n + k < J * n := by
  have h1 : (j + 1) * n ≤ J * n := Nat.mul_le_mul_right n hj
  have h2 : (j + 1) * n = j * n + n := Nat.succ_mul j n
  omega

/-- The sum over all J·n positions of the terms in block j only, re-indexed by the position inside the block. -/
theorem sum_block {M : Type*} [AddCommMonoid M] {N : Nat} (J n : Nat) (hN : N = J * n) (j : Nat) (hj : j < J) (F : Fin N → M) :
    ∑ K : Fin N, (if K.val / n = j then F K else 0)
      = ∑ k : Fin n, F ⟨j * n + k.val, by rw [hN]; exact pos_lt hj k.isLt⟩ := by
  subst hN
  rw [← finProdFinEquiv.sum_comp, Fintype.sum_prod_type]
  have hval : ∀ (a : Fin J) (k : Fin n), (finProdFinEquiv (a, k)).val = a.val * n + k.val := by
    intro a k; simp [finProdFinEquiv, Nat.mul_comm, Nat.add_comm]
  have hdiv : ∀ (a : Fin J) (k : Fin n), (finProdFinEquiv (a, k)).val / n = a.val := by
    intro a k
    rw [hval]
    have hn : 0 < n := Nat.lt_of_le_of_lt (Nat.zero_le _) k.isLt
    rw [Nat.add_comm, Nat.add_mul_div_right _ _ hn, Nat.div_eq_of_lt k.isLt, Nat.zero_add]
  rw [Finset.sum_eq_single (⟨j, hj⟩ : Fin J)]
  · refine Finset.sum_congr rfl fun k _ => ?_
    rw [if_pos (hdiv ⟨j, hj⟩ k)]
    exact congrArg F (Fin.ext (hval ⟨j, hj⟩ k))
  · intro a _ ha
    refine Finset.sum_eq_zero fun k _ => ?_
    rw [if_neg]
    rw [hdiv a k]
    exact fun h => ha (Fin.ext h)
  · intro h; exact absurd (Finset.mem_univ _) h

end Cert.Lib.BlockSum
-- ==== Proof.MessageRound.lean ====
/-
  One round of message passing on rows of 64 features, over the extended reals, and what a block-diagonal adjacency
  matrix does to it.

  A round takes features v : [R, 64], a weight W : [64, 64], a bias b : [64] and an adjacency matrix A : [R, R] and
  returns unitRows (mixed A (hidden W b v)), where
      hidden W b v [r, c] = max (Σ_k v[r, k] · W[c, k] + b[c]) 0             (affine map, floored at zero),
      mixed A h    [r, c] = h[r, c] + Σ_j A[r, j] · h[j, c]                  (a row plus its neighbours' rows),
      unitRows ε s [r, c] = s[r, c] / max (√(Σ_k s[r, k]²)) ε                (each row scaled to unit length).
  `hidden` and `unitRows` act on each row by itself. `mixed` couples row r to the rows j with A[r, j] ≠ 0. When A
  vanishes outside its diagonal 128×128 tiles — A[i, j] = 0 whenever i / 128 ≠ j / 128 — the terms of Σ_j A[r, j] · h[j, c]
  outside r's own tile are 0 · h[j, c] = 0 (on the extended reals 0 · x = 0 for every x, infinite or not), so the sum
  runs over the tile only. Hence the rows of tile t after a round are a round of the rows of tile t with the diagonal
  tile (t, t) of A, and so after any number of rounds: no finiteness is used anywhere.
-/
import Mathlib
import Idealize.ShloMosaic.PureOps.Ideal
import proofs.«116553_j65369402245720_2_alg».proof.Proof.LibBlockSum

noncomputable section

open scoped BigOperators

namespace Cert.MessageRound

open Idealize.ShloMosaic

variable {R : ℕ}

/-- The affine map of each row through W and b, floored at zero. -/
def hidden (W : Fin 64 → Fin 64 → EReal) (b : Fin 64 → EReal) (v : Fin R → Fin 64 → EReal) : Fin R → Fin 64 → EReal :=
  fun r c => max ((∑ k : Fin 64, v r k * W c k) + b c) 0

/-- Each row plus the A-weighted sum of all rows. -/
def mixed (A : Fin R → Fin R → EReal) (h : Fin R → Fin 64 → EReal) : Fin R → Fin 64 → EReal :=
  fun r c => h r c + ∑ j : Fin R, A r j * h j c

/-- Each row divided by its Euclidean length, the length floored at ε. -/
def unitRows (ε : EReal) (s : Fin R → Fin 64 → EReal) : Fin R → Fin 64 → EReal :=
  fun r c => Ideal.div (s r c) (max (Ideal.sqrt (∑ k : Fin 64, s r k * s r k)) ε)

/-- One round. -/
def round (ε : EReal) (A : Fin R → Fin R → EReal) (W : Fin 64 → Fin 64 → EReal) (b : Fin 64 → EReal)
    (v : Fin R → Fin 64 → EReal) : Fin R → Fin 64 → EReal :=
  unitRows ε (mixed A (hidden W b v))

/-- Three rounds with the layers' weights W l and biases b l, l = 0, 1, 2, all through the same A. -/
def rounds3 (ε : EReal) (A : Fin R → Fin R → EReal) (W : Fin 3 → Fin 64 → Fin 64 → EReal) (b : Fin 3 → Fin 64 → EReal)
    (v : Fin R → Fin 64 → EReal) : Fin R → Fin 64 → EReal :=
  round ε A (W 2) (b 2) (round ε A (W 1) (b 1) (round ε A (W 0) (b 0) v))

/-! ## Tiles of 128 among 4096 rows -/

/-- Row p of tile t. -/
def rowAt (t : Fin 32) (p : Fin 128) : Fin 4096 := ⟨t.val * 128 + p.val, by have := t.isLt; have := p.isLt; omega⟩

theorem rowAt_div (t : Fin 32) (p : Fin 128) : (rowAt t p).val / 128 = t.val := by
  have := p.isLt; show (t.val * 128 + p.val) / 128 = t.val; omega

/-- The rows of tile t. -/
def rowsOf (t : Fin 32) (v : Fin 4096 → Fin 64 → EReal) : Fin 128 → Fin 64 → EReal := fun p c => v (rowAt t p) c

/-- The diagonal tile (t, t) of a matrix. -/
def diagTile (t : Fin 32) (A : Fin 4096 → Fin 4096 → EReal) : Fin 128 → Fin 128 → EReal := fun p q => A (rowAt t p) (rowAt t q)

/-- A matrix is tile-diagonal when it vanishes outside its diagonal 128×128 tiles. -/
def TileDiagonal (A : Fin 4096 → Fin 4096 → EReal) : Prop := ∀ i j : Fin 4096, i.val / 128 ≠ j.val / 128 → A i j = 0

theorem hidden_rowsOf (W : Fin 64 → Fin 64 → EReal) (b : Fin 64 → EReal) (v : Fin 4096 → Fin 64 → EReal) (t : Fin 32) :
    rowsOf t (hidden W b v) = hidden W b (rowsOf t v) := rfl

theorem unitRows_rowsOf (ε : EReal) (s : Fin 4096 → Fin 64 → EReal) (t : Fin 32) :
    rowsOf t (unitRows ε s) = unitRows ε (rowsOf t s) := rfl

/-- Through a tile-diagonal matrix a row only meets the rows of its own tile. -/
theorem mixed_rowsOf (A : Fin 4096 → Fin 4096 → EReal) (hA : TileDiagonal A) (h : Fin 4096 → Fin 64 → EReal) (t : Fin 32) :
    rowsOf t (mixed A h) = mixed (diagTile t A) (rowsOf t h) := by
  funext p c
  show h (rowAt t p) c + ∑ j : Fin 4096, A (rowAt t p) j * h j c = h (rowAt t p) c + ∑ q : Fin 128, A (rowAt t p) (rowAt t q) * h (rowAt t q) c
  congr 1
  have hzero : ∀ j : Fin 4096, A (rowAt t p) j * h j c = if j.val / 128 = t.val then A (rowAt t p) j * h j c else 0 := by
    intro j
    split
    · rfl
    · rename_i hne
      rw [hA (rowAt t p) j (by rw [rowAt_div]; exact fun e => hne e.symm), zero_mul]
  rw [Finset.sum_congr rfl fun j _ => hzero j]
  exact Cert.Lib.BlockSum.sum_block 32 128 (by norm_num) t.val t.isLt fun j => A (rowAt t p) j * h j c

theorem round_rowsOf (ε : EReal) (A : Fin 4096 → Fin 4096 → EReal) (hA : TileDiagonal A) (W : Fin 64 → Fin 64 → EReal)
    (b : Fin 64 → EReal) (v : Fin 4096 → Fin 64 → EReal) (t : Fin 32) :
    rowsOf t (round ε A W b v) = round ε (diagTile t A) W b (rowsOf t v) := by
  unfold round
  rw [unitRows_rowsOf, mixed_rowsOf A hA, hidden_rowsOf]

/-- Three rounds of all 4096 rows through a tile-diagonal matrix, read on tile t, are three rounds of tile t's rows
    through the diagonal tile. -/
theorem rounds3_rowsOf (ε : EReal) (A : Fin 4096 → Fin 4096 → EReal) (hA : TileDiagonal A)
    (W : Fin 3 → Fin 64 → Fin 64 → EReal) (b : Fin 3 → Fin 64 → EReal) (v : Fin 4096 → Fin 64 → EReal) (t : Fin 32) :
    rowsOf t (rounds3 ε A W b v) = rounds3 ε (diagTile t A) W b (rowsOf t v) := by
  unfold rounds3
  rw [round_rowsOf ε A hA, round_rowsOf ε A hA, round_rowsOf ε A hA]

end Cert.MessageRound

end
-- ==== Proof.LibDotRows.lean ====
/-
  A plain matrix product read entry by entry, and cut into row blocks.

  For the dimension numbers "contract axis 1 of an [M, K] left operand with axis 0 of a [K, N] right operand"
  (`DotDims.plain M K N`), over the extended reals:
    * entry (p, q) of the host's product is the sum over k of x[p, k] · w[k, q]          (`dotGeneral_plain_apply`);
    * a kernel's product accumulated into the zero splat is the same sum                  (`matmul_plain_apply`);
    * hence the product of a block of B rows of x (rows r0 … r0 + B − 1) with the whole of w is the
      corresponding block of rows of the whole product                                    (`matmul_rows`).
  Only `0 + s = s` and a re-indexing of the sum are used, so nothing here needs finiteness.
-/
import Idealize.ShloMosaic.Lib.ValueIdx
import Idealize.ShloMosaic.PureOps.Ideal.Laws

noncomputable section

namespace Cert.Lib.DotRows

open Idealize.ShloMosaic Idealize.ShloMosaic.ValueIdx

variable {M K N : Nat} {φ₁ φ₂ : FTy}

/-- The left operand's index at output entry (p, q) and contraction position k is (p, k). -/
theorem plain_lhsIdx (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a; apply Fin.ext
  match a with
  | ⟨0, _⟩ => rfl
  | ⟨1, _⟩ => exact ((DotDims.plain M K N).lhsIdx_val_of_single rfl _ _).trans hk

/-- The right operand's index at output entry (p, q) and contraction position k is (k, q). -/
theorem plain_rhsIdx (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a; apply Fin.ext
  match a with
  | ⟨0, _⟩ => exact ((DotDims.plain M K N).rhsIdx_val_of_single rfl _ _).trans hk
  | ⟨1, _⟩ => rfl

/-- Entry (p, q) of the host's product x · w is the sum over k of x[p, k] · w[k, q]. -/
theorem dotGeneral_plain_apply (x : FVec Ideal ⟨2, ![M, K]⟩ φ₁) (w : FVec Ideal ⟨2, ![K, N]⟩ φ₂) (p : Fin M) (q : Fin N) :
    Host.dotGeneral (F := Ideal) (DotDims.plain M K N) none x w (ix2 p q) = ∑ k : Fin K, x (ix2 p k) * w (ix2 k q) := by
  simp only [Host.dotGeneral]
  rw [Ideal.dotGeneral_apply, ← Equiv.sum_comp (contrEquiv1 (DotDims.plain M K N) K rfl rfl).symm]
  exact Finset.sum_congr rfl fun k _ => by rw [plain_lhsIdx, plain_rhsIdx]

/-- Entry (p, q) of a kernel's product x · w accumulated into the zero splat is the same sum. -/
theorem matmul_plain_apply (x : FVec Ideal ⟨2, ![M, K]⟩ φ₁) (w : FVec Ideal ⟨2, ![K, N]⟩ φ₂) (p : Fin M) (q : Fin N) :
    matmul (F := Ideal) (DotDims.plain M K N) none x w (constant ⟨2, ![M, N]⟩ .f32 0x00000000#32) (ix2 p q)
      = ∑ k : Fin K, x (ix2 p k) * w (ix2 k q) := by
  simp only [matmul]
  rw [Ideal.matmul_constant_zero_apply, ← Equiv.sum_comp (contrEquiv1 (DotDims.plain M K N) K rfl rfl).symm]
  exact Finset.sum_congr rfl fun k _ => by rw [plain_lhsIdx, plain_rhsIdx]

/-- ROW BLOCKS. If `xb` is the block of `B` rows of `x` that starts at row `r0` (`hx`), then entry (p, q) of the kernel's
    product `xb · w` into the zero splat is entry (r0 + p, q) of the host's product `x · w`. -/
theorem matmul_rows {B : Nat} (x : FVec Ideal ⟨2, ![M, K]⟩ φ₁) (w : FVec Ideal ⟨2, ![K, N]⟩ φ₂)
    (xb : FVec Ideal ⟨2, ![B, K]⟩ φ₁) (r0 : Nat) (p : Fin B) (q : Fin N) (hp : r0 + p.val < M)
    (hx : ∀ k : Fin K, xb (ix2 p k) = x (ix2 ⟨r0 + p.val, hp⟩ k)) :
    matmul (F := Ideal) (DotDims.plain B K N) none xb w (constant ⟨2, ![B, N]⟩ .f32 0x00000000#32) (ix2 p q)
      = Host.dotGeneral (F := Ideal) (DotDims.plain M K N) none x w (ix2 ⟨r0 + p.val, hp⟩ q) := by
  rw [matmul_plain_apply, dotGeneral_plain_apply]
  exact Finset.sum_congr rfl fun k _ => by rw [hx k]

end Cert.Lib.DotRows

end
-- ==== Proof.LibColBroadcast.lean ====
/-
  One column broadcast over many: a `[a, 1]` array broadcast to `[a, b]` reads, at `(p, c)`, the operand's row `p`.
-/
import Idealize.ShloMosaic.Lib.ValueIdx
import Idealize.ShloMosaic.Lib.Pipeline.Value

noncomputable section

namespace Cert.LibColBroadcast

open Idealize.ShloMosaic Idealize.ShloMosaic.ValueIdx

variable {α : Type}

/-- A `[a, 1]` column broadcast to `[a, b]` reads, at `(p, c)`, the column's entry `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColBroadcast

end
-- ==== Proof.LibRowReduce.lean ====
/-
  A row's maximum and a row's sum, as a kernel and as the host compute them.

  For an array `v : [R, C]` reduced along its second axis, over the extended reals: the kernel's lane maximum from the
  word of `-∞` and the host's reduce with a maximum body from the same word are both the fold of `max` over the row's
  `C` entries; the kernel's lane sum and the host's sum from zero are both the plain sum of the row's entries. Also the
  two small facts that go with them: `max (-∞) y = y`, and a vector `[R]` recast as a column `[R, 1]` reads its row.
-/
import Mathlib
import Idealize.ShloMosaic.PureOps.Ideal
import Idealize.ShloMosaic.PureOps.Ideal.Laws
import Idealize.ShloMosaic.Lib.Pipeline.Value
import Idealize.ShloMosaic.Lib.ValueIdx

noncomputable section

open scoped BigOperators

namespace Cert.LibRowReduce

open Idealize.ShloMosaic Idealize.ShloMosaic.ValueIdx

variable {R C : Nat}

/-- The maximum of `C` extended reals, folded from the f32 word of `-∞`. -/
def rowMax (f : Fin C → EReal) : EReal :=
  (Finset.univ : Finset (Fin C)).fold max (Ideal.ofBits .f32 0xFF800000#32) f

/-- The f32 word `0xFF800000` is `-∞`, the identity of `max`. -/
theorem max_negInf (y : EReal) : max (Ideal.ofBits .f32 0xFF800000#32) y = y := by
  simp [Ideal.ofBits, Ideal.ieee]

/-- The reduced index `r` with lane `k` put back is `(r, k)`. -/
theorem lift_row (h : (⟨2, ![R, C]⟩ : Shape).Reduces [1] (⟨1, ![R]⟩ : Shape)) (r : Fin R)
    (k : Fin ((⟨2, ![R, C]⟩ : Shape).size 1)) : h.lift (ix1 r) k = ix2 r (⟨k.val, k.isLt⟩ : Fin C) := by
  funext c; apply Fin.ext
  fin_cases c <;> rfl

/-- The kernel's lane maximum of row `r`. -/
theorem multiReduction_max_row (src : FVec Ideal ⟨2, ![R, C]⟩ .f32)
    (h : (⟨2, ![R, C]⟩ : Shape).Reduces [1] (⟨1, ![R]⟩ : Shape)) (hφ : FKind.Formats .f32)
    (hacc : (0xFF800000#32 : BitVec 32) = FKind.maximumf.neutral .f32 hφ) (r : Fin R) :
    multiReduction .maximumf [1] (⟨1, ![R]⟩ : Shape) src 0xFF800000#32 h hφ hacc (ix1 r) = rowMax fun k => src (ix2 r k) := by
  rw [Ideal.multiReduction_maximumf_single src _ h hφ hacc (ix1 r)]
  have hf : (src ∘ h.lift (ix1 r)) = fun k : Fin C => src (ix2 r k) :=
    funext fun k => congrArg src (lift_row h r k)
  unfold rowMax
  exact congrArg (fun f => Finset.fold max (Ideal.ofBits .f32 0xFF800000#32) f (Finset.univ : Finset (Fin C))) hf

/-- The host's reduce with a maximum body along axis 1, from the word of `-∞`, at row `r`. -/
theorem hostReduce_max_row (x : FVec Ideal ⟨2, ![R, C]⟩ .f32) (init : (⟨0, ![]⟩ : Shape).Idx → Ideal .f32)
    (hinit : ∀ i, init i = Ideal.ofBits .f32 0xFF800000#32)
    (h' : (⟨2, ![R, C]⟩ : Shape).ReducesTo [1] (⟨1, ![R]⟩ : Shape)) (h : (⟨2, ![R, C]⟩ : Shape).Reduces [1] (⟨1, ![R]⟩ : Shape))
    (hu : 0 < (⟨0, ![]⟩ : Shape).numel) (r : Fin R) :
    Host.reduce FloatOps.maximumf x init h' hu (ix1 r) = rowMax fun k => x (ix2 r k) := by
  rw [Host.reduce_eq_fold_single FloatOps.maximumf x _ h' h hu, hinit]
  have hf : (x ∘ h.lift (ix1 r)) = fun k : Fin C => x (ix2 r k) :=
    funext fun k => congrArg x (lift_row h r k)
  unfold rowMax
  exact congrArg (fun f => Finset.fold max (Ideal.ofBits .f32 0xFF800000#32) f (Finset.univ : Finset (Fin C))) hf

/-- The kernel's lane sum of row `r`. -/
theorem multiReduction_add_row (src : FVec Ideal ⟨2, ![R, C]⟩ .f32)
    (h : (⟨2, ![R, C]⟩ : Shape).Reduces [1] (⟨1, ![R]⟩ : Shape)) (hφ : FKind.Formats .f32)
    (hacc : (0x00000000#32 : BitVec 32) = FKind.add.neutral .f32 hφ) (r : Fin R) :
    multiReduction .add [1] (⟨1, ![R]⟩ : Shape) src 0x00000000#32 h hφ hacc (ix1 r) = ∑ k : Fin C, src (ix2 r k) := by
  rw [Ideal.multiReduction_add_single src _ h hφ hacc (ix1 r)]
  refine Finset.sum_congr rfl fun k _ => ?_
  exact congrArg src (lift_row h r k)

/-- The host's sum along axis 1 from zero, at row `r`. -/
theorem hostReduceAdd_row (x : FVec Ideal ⟨2, ![R, C]⟩ .f32) (init : (⟨0, ![]⟩ : Shape).Idx → Ideal .f32)
    (hinit : ∀ i, init i = 0)
    (h' : (⟨2, ![R, C]⟩ : Shape).ReducesTo [1] (⟨1, ![R]⟩ : Shape)) (h : (⟨2, ![R, C]⟩ : Shape).Reduces [1] (⟨1, ![R]⟩ : Shape))
    (hu : 0 < (⟨0, ![]⟩ : Shape).numel) (r : Fin R) :
    Host.reduceAdd (F := Ideal) x init h' hu (ix1 r) = ∑ k : Fin C, x (ix2 r k) := by
  show Ideal.hostReduceAdd h' x (init (Shape.Idx.first hu)) (ix1 r) = _
  rw [Ideal.hostReduceAdd_single h' h, hinit, zero_add]
  refine Finset.sum_congr rfl fun k _ => ?_
  exact congrArg x (lift_row h r k)

/-- A vector `[R]` recast as a column `[R, 1]` reads its row. -/
theorem shapeCast_col_apply {α : Type} (v : (⟨1, ![R]⟩ : Shape).Idx → α) (h : (⟨1, ![R]⟩ : Shape).ShapeCasts ⟨2, ![R, 1]⟩)
    (r : Fin R) : shapeCast ⟨2, ![R, 1]⟩ v h (ix2 r (0 : Fin 1)) = v (ix1 r) := by
  refine shapeCast_apply v h _ _ ?_
  rw [Shape.rowMajor_val_two, Shape.rowMajor_val_one]
  show r.val = r.val * 1 + 0
  omega

end Cert.LibRowReduce

end
-- ==== Proof.LibRowOps.lean ====
/-
  A block of rows through the operations of a dense layer, read at an entry over the extended reals.

  For a block x of B rows and K lanes, a weight w of K rows and N lanes, and a bias b of N entries:
    * entry (r, k) of a kernel's product x · w accumulated into the zero splat, and of the host's product, is
      Σ_j x[r, j] · w[j, k]                                                         (matmul_entry, dot_entry);
    * the bias recast as a row and broadcast down the rows (the kernel's form), or broadcast to a row and then down the
      rows (the host's form), reads b[k] at (r, k)                                   (bias_rows, bias_rows_host);
    * a scalar constant broadcast to any shape reads the constant                    (scalar_bcast_host);
    * the logistic function, and the host's spelling of y · σ(y) and of σ(y) through negate, exponential, add and divide,
      read entry by entry                                                           (logistic_apply, host_silu_apply, host_sigmoid_apply);
    * the kernel's lane sum of a block, recast as a column, reads Σ_k v[r, k] at (r, 0)   (lane_sum_col);
    * a one-entry vector recast [1, 1] and broadcast to a column reads its entry      (unit_col).
  Each reading re-indexes; none needs finiteness.
-/
import Mathlib
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value
import proofs.«116553_j65369402245720_2_alg».proof.Proof.LibDotRows
import proofs.«116553_j65369402245720_2_alg».proof.Proof.LibColBroadcast
import proofs.«116553_j65369402245720_2_alg».proof.Proof.LibRowReduce

noncomputable section

open scoped BigOperators

namespace Cert.LibRowOps

open Idealize.ShloMosaic Idealize.ShloMosaic.ValueIdx

variable {α : Type} {B K N C : Nat} {φ₁ φ₂ : FTy}

/-- The logistic function of an array reads, at an index, the logistic function of the entry. -/
theorem logistic_apply {s : Shape} {φ : FTy} (v : FVec Ideal s φ) (i : s.Idx) : logistic v i = Ideal.logistic (v i) := rfl

/-- The host's spelling of y · 1 / (1 + e^(-y)) on an array, with the two ones given as arrays that read 1, reads at an
    index y · σ(y) of the entry. -/
theorem host_silu_apply {s : Shape} (y one one' : FVec Ideal s .f32) (i : s.Idx) (h1 : one i = 1) (h1' : one' i = 1) :
    mulf y (Host.divf one' (addf one (Host.exp (Host.negf y)))) i = y i * Ideal.logistic (y i) := by
  show y i * Ideal.div (one' i) (one i + Ideal.exp (-(y i))) = y i * Ideal.div 1 (1 + Ideal.exp (-(y i)))
  rw [h1, h1']

/-- The host's spelling of 1 / (1 + e^(-y)) on an array reads at an index σ of the entry. -/
theorem host_sigmoid_apply {s : Shape} (y one one' : FVec Ideal s .f32) (i : s.Idx) (h1 : one i = 1) (h1' : one' i = 1) :
    Host.divf one' (addf one (Host.exp (Host.negf y))) i = Ideal.logistic (y i) := by
  show Ideal.div (one' i) (one i + Ideal.exp (-(y i))) = Ideal.div 1 (1 + Ideal.exp (-(y i)))
  rw [h1, h1']

/-- Entry (r, k) of a kernel's product into the zero splat, for any record of the plain dimension numbers. -/
theorem matmul_entry (d : DotDims ⟨2, ![B, K]⟩ ⟨2, ![K, N]⟩ ⟨2, ![B, N]⟩) (hd : d = DotDims.plain B K N)
    (x : FVec Ideal ⟨2, ![B, K]⟩ φ₁) (w : FVec Ideal ⟨2, ![K, N]⟩ φ₂) (r : Fin B) (k : Fin N) :
    matmul (F := Ideal) d none x w (constant ⟨2, ![B, N]⟩ .f32 0x00000000#32) (ix2 r k)
      = ∑ j : Fin K, x (ix2 r j) * w (ix2 j k) := by
  subst hd
  exact Cert.Lib.DotRows.matmul_plain_apply x w r k

/-- Entry (r, k) of the host's product, for any record of the plain dimension numbers. -/
theorem dot_entry (d : DotDims ⟨2, ![B, K]⟩ ⟨2, ![K, N]⟩ ⟨2, ![B, N]⟩) (hd : d = DotDims.plain B K N)
    (x : FVec Ideal ⟨2, ![B, K]⟩ φ₁) (w : FVec Ideal ⟨2, ![K, N]⟩ φ₂) (r : Fin B) (k : Fin N) :
    Host.dotGeneral (F := Ideal) d none x w (ix2 r k) = ∑ j : Fin K, x (ix2 r j) * w (ix2 j k) := by
  subst hd
  exact Cert.Lib.DotRows.dotGeneral_plain_apply x w r k

/-- A bias vector recast as a row and broadcast down B rows reads its entry k at (r, k). -/
theorem bias_rows (v : (⟨1, ![C]⟩ : Shape).Idx → α) (hc : (⟨1, ![C]⟩ : Shape).ShapeCasts ⟨2, ![1, C]⟩)
    (hb : (⟨2, ![1, C]⟩ : Shape).Broadcasts ⟨2, ![B, C]⟩) (r : Fin B) (k : Fin C) :
    broadcastTo ⟨2, ![B, C]⟩ (shapeCast ⟨2, ![1, C]⟩ v hc) hb (ix2 r k) = v (ix1 k) :=
  (broadcastTo_1b_ab_apply _ hb r k).trans (shapeCast_a_1a_apply v hc 0 k)

/-- A bias vector broadcast to a row and then down B rows (the host's two broadcasts) reads its entry k at (r, k). -/
theorem bias_rows_host (v : (⟨1, ![C]⟩ : Shape).Idx → α)
    (h0 : (⟨1, ![C]⟩ : Shape).BroadcastsInDim ⟨2, ![1, C]⟩ (![1] : Fin 1 → Fin 2))
    (h1 : (⟨2, ![1, C]⟩ : Shape).BroadcastsInDim ⟨2, ![B, C]⟩ (![0, 1] : Fin 2 → Fin 2)) (r : Fin B) (k : Fin C) :
    broadcastInDim ⟨2, ![B, C]⟩ ![0, 1] h1 (broadcastInDim ⟨2, ![1, C]⟩ ![1] h0 v) (ix2 r k) = v (ix1 k) := by
  have e1 : broadcastInDim ⟨2, ![B, C]⟩ ![0, 1] h1 (broadcastInDim ⟨2, ![1, C]⟩ ![1] h0 v) (ix2 r k)
      = broadcastInDim ⟨2, ![1, C]⟩ ![1] h0 v (ix2 (0 : Fin 1) k) :=
    broadcastInDim_apply _ h1 _ (ix2 r k) (ix2 (0 : Fin 1) k) fun a => by
      match a with
      | ⟨0, _⟩ => rfl
      | ⟨1, _⟩ =>
        show k.val = if C = 1 then 0 else k.val
        split
        · have := k.isLt; omega
        · rfl
  have e2 : broadcastInDim ⟨2, ![1, C]⟩ ![1] h0 v (ix2 (0 : Fin 1) k) = v (ix1 k) :=
    broadcastInDim_apply _ h0 v (ix2 (0 : Fin 1) k) (ix1 k) fun a => by
      match a with
      | ⟨0, _⟩ =>
        show k.val = if C = 1 then 0 else k.val
        split
        · have := k.isLt; omega
        · rfl
  exact e1.trans e2

/-- A scalar broadcast to any shape (the host's form) reads the scalar. -/
theorem scalar_bcast_host {s : Shape} (v : (⟨0, ![]⟩ : Shape).Idx → α)
    (h : (⟨0, ![]⟩ : Shape).BroadcastsInDim s (![] : Fin 0 → Fin s.rank)) (i : s.Idx) :
    broadcastInDim s ![] h v i = v ix0 :=
  broadcastInDim_apply _ h v i ix0 fun a => a.elim0

/-- The kernel's lane sum of a block, recast as a column, reads the row's sum at (r, 0). -/
theorem lane_sum_col (v : FVec Ideal ⟨2, ![B, C]⟩ .f32)
    (h : (⟨2, ![B, C]⟩ : Shape).Reduces [1] (⟨1, ![B]⟩ : Shape)) (hφ : FKind.Formats .f32)
    (hacc : (0x00000000#32 : BitVec 32) = FKind.add.neutral .f32 hφ)
    (hc : (⟨1, ![B]⟩ : Shape).ShapeCasts ⟨2, ![B, 1]⟩) (r : Fin B) :
    shapeCast ⟨2, ![B, 1]⟩ (multiReduction .add [1] (⟨1, ![B]⟩ : Shape) v 0x00000000#32 h hφ hacc) hc (ix2 r (0 : Fin 1))
      = ∑ k : Fin C, v (ix2 r k) :=
  (Cert.LibRowReduce.shapeCast_col_apply _ hc r).trans (Cert.LibRowReduce.multiReduction_add_row v h hφ hacc r)

/-- The same with the accumulator's neutrality stated on the words themselves (zero is zero), whatever proof of the
    format's admissibility the reduction carries. -/
theorem lane_sum_col_zero (v : FVec Ideal ⟨2, ![B, C]⟩ .f32)
    (h : (⟨2, ![B, C]⟩ : Shape).Reduces [1] (⟨1, ![B]⟩ : Shape)) (hφ : FKind.Formats .f32)
    (hacc : (0x00000000#32 : BitVec 32) = 0x00000000#32)
    (hc : (⟨1, ![B]⟩ : Shape).ShapeCasts ⟨2, ![B, 1]⟩) (r : Fin B) :
    shapeCast ⟨2, ![B, 1]⟩ (multiReduction .add [1] (⟨1, ![B]⟩ : Shape) v 0x00000000#32 h hφ hacc) hc (ix2 r (0 : Fin 1))
      = ∑ k : Fin C, v (ix2 r k) :=
  lane_sum_col v h hφ hacc hc r

/-- A one-entry vector recast [1, 1] and broadcast to a column of B rows reads its entry at (r, 0). -/
theorem unit_col (v : (⟨1, ![1]⟩ : Shape).Idx → α) (hc : (⟨1, ![1]⟩ : Shape).ShapeCasts ⟨2, ![1, 1]⟩)
    (hb : (⟨2, ![1, 1]⟩ : Shape).Broadcasts ⟨2, ![B, 1]⟩) (r : Fin B) :
    broadcastTo ⟨2, ![B, 1]⟩ (shapeCast ⟨2, ![1, 1]⟩ v hc) hb (ix2 r (0 : Fin 1)) = v (ix1 (0 : Fin 1)) :=
  (broadcastTo_1b_ab_apply _ hb r (0 : Fin 1)).trans (shapeCast_a_1a_apply v hc 0 0)

/-- A one-entry vector broadcast to [1, 1] and then to a column of B rows (the host's form) reads its entry. -/
theorem unit_col_host (v : (⟨1, ![1]⟩ : Shape).Idx → α)
    (h0 : (⟨1, ![1]⟩ : Shape).BroadcastsInDim ⟨2, ![1, 1]⟩ (![1] : Fin 1 → Fin 2))
    (h1 : (⟨2, ![1, 1]⟩ : Shape).BroadcastsInDim ⟨2, ![B, 1]⟩ (![0, 1] : Fin 2 → Fin 2)) (r : Fin B) :
    broadcastInDim ⟨2, ![B, 1]⟩ ![0, 1] h1 (broadcastInDim ⟨2, ![1, 1]⟩ ![1] h0 v) (ix2 r (0 : Fin 1)) = v (ix1 (0 : Fin 1)) :=
  bias_rows_host v h0 h1 r 0

/-- A column broadcast across C lanes (the host's form) reads the column's entry of the row. -/
theorem col_bcast_host (v : (⟨2, ![B, 1]⟩ : Shape).Idx → α)
    (h : (⟨2, ![B, 1]⟩ : Shape).BroadcastsInDim ⟨2, ![B, C]⟩ (![0, 1] : Fin 2 → Fin 2)) (r : Fin B) (k : Fin C) :
    broadcastInDim ⟨2, ![B, C]⟩ ![0, 1] h v (ix2 r k) = v (ix2 r (0 : Fin 1)) :=
  broadcastInDim_apply _ h v (ix2 r k) (ix2 r (0 : Fin 1)) fun a => by
    match a with
    | ⟨0, _⟩ =>
      show r.val = if B = 1 then 0 else r.val
      split
      · have := r.isLt; omega
      · rfl
    | ⟨1, _⟩ => rfl

end Cert.LibRowOps

end
-- ==== Proof.RowsValue.lean ====
/-
  What one grid point of a message-passing call computes, entry by entry, over the extended reals.

  The body's arithmetic is three rounds in a row on a tile of 128 rows. Cut at the natural joints it is two pieces used
  three times each: the affine piece (rows times the transposed layer weight, plus the layer bias down the rows) and the
  closing piece (floor at zero, add the adjacency tile times the floored rows, divide each row by its Euclidean length
  floored at a small constant). Changes of float format are the identity on extended reals, a product into the zero
  accumulator is the plain sum of products, and a lane sum is the plain sum of a row. Read at an entry (p, c) the two
  pieces are the affine map and the rest of a round of Cert.MessageRound, so the tile written at a grid point is three
  rounds of the tile's rows through the adjacency tile handed to that point.
-/
import proofs.«116553_j65369402245720_2_alg».proof.Proof.MessageRound
import proofs.«116553_j65369402245720_2_alg».proof.Proof.LibRowOps
import proofs.«116553_j65369402245720_2_alg».proof.Proof.IdealRegion0
import proofs.«116553_j65369402245720_2_alg».proof.Proof.IdealRegion1

set_option maxRecDepth 16384

noncomputable section

open scoped BigOperators

namespace Cert.KernelIdeal.RowsValue

open Cert.KernelIdeal Cert.KernelIdeal.Gen
open Idealize.ShloMosaic Idealize.ShloMosaic.ValueIdx
open Cert.MessageRound

/-- The floor of a row's length: the f32 word 0x2B8CBCCC, the same word in the kernel and in the reference. -/
abbrev eps : EReal := Ideal.ofBits .f32 0x2B8CBCCC#32

/-! ## The two pieces, as the body spells them -/

/-- Rows through one layer: recast the weight slab [1, 64, 64] as a matrix, transpose it, multiply the rows by it into the
    zero accumulator, and add the bias slab [1, 64], recast and broadcast down the rows. -/
def kaff (v : FVec Ideal S128x64 .f32) (wl : Vec Ideal S1x64x64 .f32) (bl : Vec Ideal S1x64 .f32) : FVec Ideal S128x64 .f32 :=
  addf (matmul dot_S128x64_S64x64_S128x64_1_0_0_1_n_n none (truncf .bf16 v bitsLt_bf16_f32)
      (truncf .bf16 (transpose S64x64 [1, 0] (shapeCast S64x64 wl shapeCasts_S1x64x64_S64x64) transposes_S64x64_p1_0_S64x64) bitsLt_bf16_f32)
      (constant S128x64 .f32 0x00000000#32))
    (broadcastTo S128x64 (shapeCast S1x64 (shapeCast S64 bl shapeCasts_S1x64_S64) shapeCasts_S64_S1x64) broadcasts_S1x64_S128x64)

/-- Floored at zero. -/
def krelu (h : FVec Ideal S128x64 .f32) : FVec Ideal S128x64 .f32 :=
  maximumf h (broadcast S128x64 (Scalar.ofBits .f32 0x00000000#32))

/-- A floored row plus the adjacency tile's weighted sum of the floored rows. -/
def ksum (abf : FVec Ideal S128x128 .bf16) (h : FVec Ideal S128x64 .f32) : FVec Ideal S128x64 .f32 :=
  addf (krelu h) (matmul dot_S128x128_S128x64_S128x64_1_0_0_1_n_n none abf (truncf .bf16 (krelu h) bitsLt_bf16_f32)
    (constant S128x64 .f32 0x00000000#32))

/-- Each row divided by its length, the length floored at eps. -/
def kpost (abf : FVec Ideal S128x128 .bf16) (h : FVec Ideal S128x64 .f32) : FVec Ideal S128x64 .f32 :=
  divf (ksum abf h) (broadcastTo S128x64
    (maximumf (sqrt (shapeCast S128x1 (multiReduction .add [1] S128 (mulf (ksum abf h) (ksum abf h)) 0x00000000#32
        reduces_S128x64_S128 (.inl rfl) rfl) shapeCasts_S128_S128x1))
      (broadcast S128x1 (Scalar.ofBits .f32 0x2B8CBCCC#32))) broadcasts_S128x1_S128x64)

/-- The first call's payloads are these pieces, composed. -/
theorem pay3_eq0 (v0 : Vec Ideal S128x128 .f32) (v2 : Vec Ideal S128x64 .f32) (v4 : Vec Ideal S1x64x64 .f32) (v6 : Vec Ideal S1x64 .f32)
    (v28 : Vec Ideal S1x64x64 .f32) (v30 : Vec Ideal S1x64 .f32) :
    k0_pay3 v0 v2 v4 v6 v28 v30
      = kaff (kpost (k0_pay2 v0) (kaff (shapeCast S128x64 v2 shapeCasts_S128x64_S128x64) v4 v6)) v28 v30 := rfl
theorem pay1_eq0 (v1 : FVec Ideal S128x128 .bf16) (v38 : FVec Ideal S128x64 .f32) (v52 : Vec Ideal S1x64x64 .f32) (v54 : Vec Ideal S1x64 .f32) :
    k0_pay1 v1 v38 v52 v54 = kpost v1 (kaff (kpost v1 v38) v52 v54) := rfl
/-- And the second call's. -/
theorem pay3_eq1 (v0 : Vec Ideal S128x128 .f32) (v2 : Vec Ideal S128x64 .f32) (v4 : Vec Ideal S1x64x64 .f32) (v6 : Vec Ideal S1x64 .f32)
    (v28 : Vec Ideal S1x64x64 .f32) (v30 : Vec Ideal S1x64 .f32) :
    k1_pay3 v0 v2 v4 v6 v28 v30
      = kaff (kpost (k1_pay2 v0) (kaff (shapeCast S128x64 v2 shapeCasts_S128x64_S128x64) v4 v6)) v28 v30 := rfl
theorem pay1_eq1 (v1 : FVec Ideal S128x128 .bf16) (v38 : FVec Ideal S128x64 .f32) (v52 : Vec Ideal S1x64x64 .f32) (v54 : Vec Ideal S1x64 .f32) :
    k1_pay1 v1 v38 v52 v54 = kpost v1 (kaff (kpost v1 v38) v52 v54) := rfl

/-! ## The pieces read at an entry -/

theorem kaff_apply (v : FVec Ideal S128x64 .f32) (wl : Vec Ideal S1x64x64 .f32) (bl : Vec Ideal S1x64 .f32) (r : Fin 128) (c : Fin 64) :
    kaff v wl bl (ix2 r c) = (∑ k : Fin 64, v (ix2 r k) * wl (ix3 (0 : Fin 1) c k)) + bl (ix2 (0 : Fin 1) c) := by
  unfold kaff
  rw [addf_apply]
  refine congrArg₂ (· + ·) ?_ ?_
  · refine (Cert.LibRowOps.matmul_entry (B := 128) (K := 64) (N := 64) dot_S128x64_S64x64_S128x64_1_0_0_1_n_n rfl _ _ r c).trans ?_
    refine Finset.sum_congr rfl fun k _ => ?_
    refine congrArg₂ (· * ·) rfl ?_
    exact (transpose_ix2_apply _ _ k c).trans (shapeCast_1ab_ab_apply wl _ c k)
  · exact (Cert.LibRowOps.bias_rows _ _ _ r c).trans (shapeCast_1a_a_apply bl _ c)

theorem krelu_apply (h : FVec Ideal S128x64 .f32) (r : Fin 128) (c : Fin 64) : krelu h (ix2 r c) = max (h (ix2 r c)) 0 := by
  show max (h (ix2 r c)) (Ideal.ofBits .f32 0x00000000#32) = _
  rw [Ideal.ofBits_zero_f32]

theorem ksum_apply (abf : FVec Ideal S128x128 .bf16) (h : FVec Ideal S128x64 .f32) (r : Fin 128) (c : Fin 64) :
    ksum abf h (ix2 r c) = MessageRound.mixed (fun p q => abf (ix2 p q)) (fun p k => max (h (ix2 p k)) 0) r c := by
  unfold ksum MessageRound.mixed
  rw [addf_apply, krelu_apply]
  refine congrArg₂ (· + ·) rfl ?_
  refine (Cert.LibRowOps.matmul_entry (B := 128) (K := 128) (N := 64) dot_S128x128_S128x64_S128x64_1_0_0_1_n_n rfl _ _ r c).trans ?_
  exact Finset.sum_congr rfl fun j _ => congrArg₂ (· * ·) rfl (krelu_apply h j c)

theorem kpost_apply (abf : FVec Ideal S128x128 .bf16) (h : FVec Ideal S128x64 .f32) (r : Fin 128) (c : Fin 64) :
    kpost abf h (ix2 r c) = MessageRound.unitRows eps (MessageRound.mixed (fun p q => abf (ix2 p q)) (fun p k => max (h (ix2 p k)) 0)) r c := by
  unfold kpost MessageRound.unitRows
  rw [divf_apply, ksum_apply]
  refine congrArg₂ Ideal.div rfl ?_
  refine (Cert.LibColBroadcast.broadcastTo_a1_ab_apply _ _ r c).trans ?_
  show max (Ideal.sqrt (shapeCast S128x1 (multiReduction .add [1] S128 (mulf (ksum abf h) (ksum abf h)) 0x00000000#32
      reduces_S128x64_S128 (.inl rfl) rfl) shapeCasts_S128_S128x1 (ix2 r (0 : Fin 1)))) eps = _
  refine congrArg₂ max (congrArg Ideal.sqrt ?_) rfl
  refine (Cert.LibRowOps.lane_sum_col_zero (B := 128) (C := 64) _ _ _ _ _ r).trans ?_
  exact Finset.sum_congr rfl fun k _ => by rw [mulf_apply, ksum_apply]

/-- One round, as the body spells it, is one round. -/
theorem kround_apply (abf : FVec Ideal S128x128 .bf16) (v : FVec Ideal S128x64 .f32) (wl : Vec Ideal S1x64x64 .f32) (bl : Vec Ideal S1x64 .f32)
    (A : Fin 128 → Fin 128 → EReal) (Wl : Fin 64 → Fin 64 → EReal) (Bl : Fin 64 → EReal) (Vv : Fin 128 → Fin 64 → EReal)
    (hA : ∀ p q, abf (ix2 p q) = A p q) (hW : ∀ c k, wl (ix3 (0 : Fin 1) c k) = Wl c k) (hB : ∀ c, bl (ix2 (0 : Fin 1) c) = Bl c)
    (hV : ∀ p k, v (ix2 p k) = Vv p k) (p : Fin 128) (c : Fin 64) :
    kpost abf (kaff v wl bl) (ix2 p c) = MessageRound.round eps A Wl Bl Vv p c := by
  rw [kpost_apply]
  unfold MessageRound.round
  have e1 : (fun p q => abf (ix2 p q)) = A := funext fun p => funext fun q => hA p q
  have e2 : (fun (p : Fin 128) (k : Fin 64) => max (kaff v wl bl (ix2 p k)) 0) = MessageRound.hidden Wl Bl Vv := by
    funext p k
    rw [kaff_apply]
    unfold MessageRound.hidden
    rw [hB, Finset.sum_congr rfl fun j _ => by rw [hV p j, hW k j]]
  rw [e1, e2]

/-! ## The loads: a whole tile, or one layer's slab -/

theorem hz2 : (![0, 0] : Fin 2 → Nat) = fun _ => 0 := funext fun a => by fin_cases a <;> rfl

/-- Layer o's weight slab reads the weights at layer o. -/
theorem ld_weights (w : Vec Ideal S3x64x64 .f32) (o : Nat) (ho : o < 3) (inb) (c k : Fin 64) :
    View.ld w (Rect.unit (s := S3x64x64) ![o, 0, 0] S1x64x64.size inb) (ix3 (0 : Fin 1) c k) = w (ix3 (⟨o, ho⟩ : Fin 3) c k) := by
  show w ((Rect.unit (s := S3x64x64) ![o, 0, 0] S1x64x64.size inb).emb (ix3 (0 : Fin 1) c k)) = w (ix3 (⟨o, ho⟩ : Fin 3) c k)
  refine congrArg w (funext fun a => Fin.ext ?_)
  match a with
  | ⟨0, _⟩ => show o + 1 * 0 = o; omega
  | ⟨1, _⟩ => show 0 + 1 * c.val = c.val; omega
  | ⟨2, _⟩ => show 0 + 1 * k.val = k.val; omega

/-- Layer o's bias slab reads the biases at layer o. -/
theorem ld_biases (b : Vec Ideal S3x64 .f32) (o : Nat) (ho : o < 3) (inb) (c : Fin 64) :
    View.ld b (Rect.unit (s := S3x64) ![o, 0] S1x64.size inb) (ix2 (0 : Fin 1) c) = b (ix2 (⟨o, ho⟩ : Fin 3) c) := by
  show b ((Rect.unit (s := S3x64) ![o, 0] S1x64.size inb).emb (ix2 (0 : Fin 1) c)) = b (ix2 (⟨o, ho⟩ : Fin 3) c)
  refine congrArg b (funext fun a => Fin.ext ?_)
  match a with
  | ⟨0, _⟩ => show o + 1 * 0 = o; omega
  | ⟨1, _⟩ => show 0 + 1 * c.val = c.val; omega

/-! ## A grid point's tile is three rounds -/

/-- Three rounds as the body spells them, from any adjacency tile in bf16 dress. -/
theorem three_rounds (abf : FVec Ideal S128x128 .bf16) (a : Vec Ideal S128x128 .f32) (hab : ∀ p q, abf (ix2 p q) = a (ix2 p q))
    (x : Vec Ideal S128x64 .f32) (w : Vec Ideal S3x64x64 .f32) (b : Vec Ideal S3x64 .f32) (p : Fin 128) (c : Fin 64) :
    kpost abf (kaff (kpost abf (kaff (kpost abf (kaff (shapeCast S128x64 x shapeCasts_S128x64_S128x64)
        (View.ld w Region0.boxW0) (View.ld b Region0.boxB0))) (View.ld w Region0.boxW1) (View.ld b Region0.boxB1)))
        (View.ld w Region0.boxW2) (View.ld b Region0.boxB2)) (ix2 p c)
      = MessageRound.rounds3 eps (fun p q => a (ix2 p q)) (fun l c k => w (ix3 l c k)) (fun l c => b (ix2 l c)) (fun p k => x (ix2 p k)) p c := by
  unfold MessageRound.rounds3
  refine kround_apply abf _ _ _ _ _ _ _ hab (fun c k => ld_weights w 2 (by omega) _ c k) (fun c => ld_biases b 2 (by omega) _ c)
    (fun p k => ?_) p c
  refine kround_apply abf _ _ _ _ _ _ _ hab (fun c k => ld_weights w 1 (by omega) _ c k) (fun c => ld_biases b 1 (by omega) _ c)
    (fun p k => ?_) p k
  refine kround_apply abf _ _ _ _ _ _ _ hab (fun c k => ld_weights w 0 (by omega) _ c k) (fun c => ld_biases b 0 (by omega) _ c)
    (fun p k => ?_) p k
  rw [shapeCast_self]

/-- THE TILE the first call writes at a grid point, entry by entry: three rounds of the tile's rows through the adjacency
    tile handed to that point. -/
theorem rows0_apply (a : Vec Ideal S128x128 .f32) (x : Vec Ideal S128x64 .f32) (w : Vec Ideal S3x64x64 .f32) (b : Vec Ideal S3x64 .f32)
    (p : Fin 128) (c : Fin 64) :
    Region0.rows (F := Ideal) a x w b (ix2 p c)
      = MessageRound.rounds3 eps (fun p q => a (ix2 p q)) (fun l c k => w (ix3 l c k)) (fun l c => b (ix2 l c)) (fun p k => x (ix2 p k)) p c := by
  unfold Region0.rows
  rw [pay1_eq0, pay3_eq0, View.ld_unit_zero (S := S128x128) hz2, View.ld_unit_zero (S := S128x64) hz2]
  exact three_rounds (k0_pay2 a) a (fun _ _ => rfl) x w b p c

/-- And the second call. -/
theorem rows1_apply (a : Vec Ideal S128x128 .f32) (x : Vec Ideal S128x64 .f32) (w : Vec Ideal S3x64x64 .f32) (b : Vec Ideal S3x64 .f32)
    (p : Fin 128) (c : Fin 64) :
    Region1.rows (F := Ideal) a x w b (ix2 p c)
      = MessageRound.rounds3 eps (fun p q => a (ix2 p q)) (fun l c k => w (ix3 l c k)) (fun l c => b (ix2 l c)) (fun p k => x (ix2 p k)) p c := by
  unfold Region1.rows
  rw [pay1_eq1, pay3_eq1, View.ld_unit_zero (S := S128x128) hz2, View.ld_unit_zero (S := S128x64) hz2]
  exact three_rounds (k1_pay2 a) a (fun _ _ => rfl) x w b p c

end Cert.KernelIdeal.RowsValue

end
-- ==== Proof.TileArray0.lean ====
/-
  The array the first message-passing call leaves, as one function of the arrays it is entered with.

  The call's grid has 32 points. Point t is handed the diagonal tile (t, t) of the adjacency matrix, rows 128 t … 128 t + 127
  of the features, and the whole weight and bias arrays, and writes rows 128 t … 128 t + 127 of the result: three rounds of
  those rows through that tile. When the adjacency matrix vanishes outside its diagonal tiles, that is exactly rows
  128 t … 128 t + 127 of three rounds of ALL rows through the WHOLE matrix (Cert.MessageRound.rounds3_rowsOf). The 32
  row blocks tile the result array, so after the call the array holds three rounds of all rows through the whole matrix.
-/
import proofs.«116553_j65369402245720_2_alg».proof.Proof.RowsValue
import Idealize.ShloMosaic.Lib.Pipeline.Value

set_option maxRecDepth 16384

noncomputable section

namespace Cert.KernelIdeal.TileArray0

open Cert.KernelIdeal Cert.KernelIdeal.Gen
open Idealize.ShloMosaic Idealize.ShloMosaic.TcCoe Idealize.ShloMosaic.ValueIdx
open Idealize.SL.Sem
open Idealize.ShloMosaic.Pipeline (Dat)
open Cert.KernelIdeal.RowsValue (eps)

variable (V : (c : Dev nD) → (b : Ref sig .tc) → Buf (Elt Ideal) ((c : Thread nD τ).loc b))

/-! ## The arrays the call is entered with, by coordinates -/

abbrev adj (c : Dev nD) : Fin 4096 → Fin 4096 → EReal := fun i j => (V c main_arg0 : S4096x4096.Idx → EReal) (ix2 i j)
abbrev feat (c : Dev nD) : Fin 4096 → Fin 64 → EReal := fun r k => (V c main_v6 : S4096x64.Idx → EReal) (ix2 r k)
abbrev wts (c : Dev nD) : Fin 3 → Fin 64 → Fin 64 → EReal := fun l a k => (V c main_arg13 : S3x64x64.Idx → EReal) (ix3 l a k)
abbrev bias (c : Dev nD) : Fin 3 → Fin 64 → EReal := fun l a => (V c main_arg14 : S3x64.Idx → EReal) (ix2 l a)

/-- Three rounds of all 4096 rows through the whole adjacency matrix, as an array [4096, 64]. -/
def whole (c : Dev nD) : S4096x64.Idx → EReal := fun i =>
  Cert.MessageRound.rounds3 eps (adj V c) (wts V c) (bias V c) (feat V c) ⟨(i 0).val, idx2_lt0 i⟩ ⟨(i 1).val, idx2_lt1 i⟩

/-! ## Where each operand's tile sits -/

/-- The printed index maps, decided over the grid: at point t the adjacency tile is (t, t), the feature and result tiles are
    row block t, and the weights and biases are taken whole. -/
theorem idx_facts : ∀ t : Fin cfg0.N, win0_0.index t (0 : Fin 2) = t.val ∧ win0_0.index t (1 : Fin 2) = t.val
    ∧ win0_1.index t (0 : Fin 2) = t.val ∧ win0_1.index t (1 : Fin 2) = 0
    ∧ win0_2.index t (0 : Fin 3) = 0 ∧ win0_2.index t (1 : Fin 3) = 0 ∧ win0_2.index t (2 : Fin 3) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

theorem t_lt (t : Fin cfg0.N) : t.val < 32 := by
  have h := t.isLt
  have e : cfg0.N = 32 := N_0
  omega

/-- The grid point as a tile number. -/
abbrev tileNo (t : Fin cfg0.N) : Fin 32 := ⟨t.val, t_lt t⟩

theorem tile0_apply (c : Dev nD) (t : Fin cfg0.N) (p q : Fin 128) :
    Region0.tile V c 0 t (ix2 p q) = adj V c (Cert.MessageRound.rowAt (tileNo t) p) (Cert.MessageRound.rowAt (tileNo t) q) := by
  obtain ⟨e0, e1, -⟩ := idx_facts t
  show (V c main_arg0 : S4096x4096.Idx → EReal) (((cfg0.win 0).blk t).view.emb (ix2 p q))
    = (V c main_arg0 : S4096x4096.Idx → EReal) (ix2 (Cert.MessageRound.rowAt (tileNo t) p) (Cert.MessageRound.rowAt (tileNo t) q))
  refine congrArg _ (funext fun a => Fin.ext ?_)
  match a with
  | ⟨0, _⟩ => show win0_0.index t (0 : Fin 2) * 128 + 1 * p.val = t.val * 128 + p.val; omega
  | ⟨1, _⟩ => show win0_0.index t (1 : Fin 2) * 128 + 1 * q.val = t.val * 128 + q.val; omega

theorem tile1_apply (c : Dev nD) (t : Fin cfg0.N) (p : Fin 128) (k : Fin 64) :
    Region0.tile V c 1 t (ix2 p k) = feat V c (Cert.MessageRound.rowAt (tileNo t) p) k := by
  obtain ⟨-, -, e0, e1, -⟩ := idx_facts t
  show (V c main_v6 : S4096x64.Idx → EReal) (((cfg0.win 1).blk t).view.emb (ix2 p k))
    = (V c main_v6 : S4096x64.Idx → EReal) (ix2 (Cert.MessageRound.rowAt (tileNo t) p) k)
  refine congrArg _ (funext fun a => Fin.ext ?_)
  match a with
  | ⟨0, _⟩ => show win0_1.index t (0 : Fin 2) * 128 + 1 * p.val = t.val * 128 + p.val; omega
  | ⟨1, _⟩ => show win0_1.index t (1 : Fin 2) * 64 + 1 * k.val = k.val; omega

theorem tile2_apply (c : Dev nD) (t : Fin cfg0.N) (l : Fin 3) (a k : Fin 64) :
    Region0.tile V c 2 t (ix3 l a k) = wts V c l a k := by
  obtain ⟨-, -, -, -, e0, e1, e2, -⟩ := idx_facts t
  show (V c main_arg13 : S3x64x64.Idx → EReal) (((cfg0.win 2).blk t).view.emb (ix3 l a k))
    = (V c main_arg13 : S3x64x64.Idx → EReal) (ix3 l a k)
  refine congrArg _ (funext fun x => Fin.ext ?_)
  match x with
  | ⟨0, _⟩ => show win0_2.index t (0 : Fin 3) * 3 + 1 * l.val = l.val; omega
  | ⟨1, _⟩ => show win0_2.index t (1 : Fin 3) * 64 + 1 * a.val = a.val; omega
  | ⟨2, _⟩ => show win0_2.index t (2 : Fin 3) * 64 + 1 * k.val = k.val; omega

theorem tile3_apply (c : Dev nD) (t : Fin cfg0.N) (l : Fin 3) (a : Fin 64) :
    Region0.tile V c 3 t (ix2 l a) = bias V c l a := by
  obtain ⟨-, -, -, -, -, -, -, e0, e1, -⟩ := idx_facts t
  show (V c main_arg14 : S3x64.Idx → EReal) (((cfg0.win 3).blk t).view.emb (ix2 l a))
    = (V c main_arg14 : S3x64.Idx → EReal) (ix2 l a)
  refine congrArg _ (funext fun x => Fin.ext ?_)
  match x with
  | ⟨0, _⟩ => show win0_3.index t (0 : Fin 2) * 3 + 1 * l.val = l.val; omega
  | ⟨1, _⟩ => show win0_3.index t (1 : Fin 2) * 64 + 1 * a.val = a.val; omega

/-! ## What a grid point writes back -/

theorem hz2 : (![0, 0] : Fin 2 → Nat) = fun _ => 0 := funext fun a => by fin_cases a <;> rfl

/-- The tile written at a grid point, at any index of the tile. -/
theorem rows_at (a : Vec Ideal S128x128 .f32) (x : Vec Ideal S128x64 .f32) (w : Vec Ideal S3x64x64 .f32) (b : Vec Ideal S3x64 .f32)
    (j : S128x64.Idx) :
    Region0.rows (F := Ideal) a x w b j
      = Cert.MessageRound.rounds3 eps (fun p q => a (ix2 p q)) (fun l c k => w (ix3 l c k)) (fun l c => b (ix2 l c)) (fun p k => x (ix2 p k))
          ⟨(j 0).val, idx2_lt0 j⟩ ⟨(j 1).val, idx2_lt1 j⟩ := by
  have hj : j = ix2 (⟨(j 0).val, idx2_lt0 j⟩ : Fin 128) (⟨(j 1).val, idx2_lt1 j⟩ : Fin 64) := by
    funext d; match d with | ⟨0, _⟩ => rfl | ⟨1, _⟩ => rfl
  exact (congrArg (Region0.rows (F := Ideal) a x w b) hj).trans (Cert.KernelIdeal.RowsValue.rows0_apply a x w b _ _)

/-- WHAT POINT t WRITES BACK is block t of the whole-array function, when the adjacency matrix vanishes outside its diagonal
    tiles. -/
theorem flushed_eq (c : Dev nD) (hA : Cert.MessageRound.TileDiagonal (adj V c)) (t : Fin cfg0.N) :
    (Region0.dat V c).flushed 4 t = ((cfg0.win 4).blk t).view.read (Elt Ideal) (whole V c) := by
  show (cfg0.win 4).cut (grid0.coords t) ((Region0.dat V c).after 4 t) = _
  rw [Region0.after_4]
  unfold Region0.stored
  rw [View.canon_unit_zero hz2]
  obtain ⟨-, -, -, -, -, -, -, -, -, e0, e1⟩ := idx_facts t
  funext (j : S128x64.Idx)
  show Region0.rows (F := Ideal) (Region0.tile V c 0 t) (Region0.tile V c 1 t) (Region0.tile V c 2 t) (Region0.tile V c 3 t) j
    = whole V c (((cfg0.win 4).blk t).view.emb j)
  refine (rows_at _ _ _ _ j).trans ?_
  have hrow : (⟨((((cfg0.win 4).blk t).view.emb j) 0).val, idx2_lt0 _⟩ : Fin 4096)
      = Cert.MessageRound.rowAt (tileNo t) ⟨(j 0).val, idx2_lt0 j⟩ := by
    apply Fin.ext
    show win0_4.index t (0 : Fin 2) * 128 + 1 * (j 0).val = t.val * 128 + (j 0).val
    omega
  have hcol : (⟨((((cfg0.win 4).blk t).view.emb j) 1).val, idx2_lt1 _⟩ : Fin 64) = ⟨(j 1).val, idx2_lt1 j⟩ := by
    apply Fin.ext
    show win0_4.index t (1 : Fin 2) * 64 + 1 * (j 1).val = (j 1).val
    omega
  unfold whole
  rw [hrow, hcol]
  have h3 := congrFun (congrFun (Cert.MessageRound.rounds3_rowsOf eps (adj V c) hA (wts V c) (bias V c) (feat V c) (tileNo t))
    ⟨(j 0).val, idx2_lt0 j⟩) ⟨(j 1).val, idx2_lt1 j⟩
  refine Eq.trans ?_ h3.symm
  have f0 : (fun p q => Region0.tile V c 0 t (ix2 p q)) = Cert.MessageRound.diagTile (tileNo t) (adj V c) :=
    funext fun p => funext fun q => tile0_apply V c t p q
  have f1 : (fun p k => Region0.tile V c 1 t (ix2 p k)) = Cert.MessageRound.rowsOf (tileNo t) (feat V c) :=
    funext fun p => funext fun k => tile1_apply V c t p k
  have f2 : (fun l a k => Region0.tile V c 2 t (ix3 l a k)) = wts V c :=
    funext fun l => funext fun a => funext fun k => tile2_apply V c t l a k
  have f3 : (fun l a => Region0.tile V c 3 t (ix2 l a)) = bias V c :=
    funext fun l => funext fun a => tile3_apply V c t l a
  rw [f0, f1, f2, f3]

/-! ## The 32 row blocks tile the result -/

theorem mem_blk (t : Fin cfg0.N) (i : S4096x64.Idx) :
    i ∈ ((cfg0.win 4).blk t).view.set ↔ ∀ a : Fin 2, win0_4.index t a * S128x64.size a ≤ (i a).val ∧ (i a).val < win0_4.index t a * S128x64.size a + S128x64.size a := by
  show i ∈ ((View.whole main_v7).slice (win0_4.rect t)).set ↔ _
  rw [View.set_slice_whole, Rect.mem_set_unit]
  exact Iff.rfl

theorem cover (i : S4096x64.Idx) : ∃ t : Fin cfg0.N, (cfg0.win 4).flush t = true ∧ i ∈ ((cfg0.win 4).blk t).view.set := by
  have hi0 : (i 0).val < 4096 := (i 0).isLt
  have hi1 : (i 1).val < 64 := (i 1).isLt
  have e : cfg0.N = 32 := N_0
  let t : Fin cfg0.N := ⟨(i 0).val / 128, by omega⟩
  obtain ⟨-, -, -, -, -, -, -, -, -, e0, e1⟩ := idx_facts t
  refine ⟨t, flush0_4 t, ?_⟩
  rw [mem_blk]
  intro a
  match a with
  | ⟨0, _⟩ =>
    show win0_4.index t (0 : Fin 2) * 128 ≤ (i 0).val ∧ (i 0).val < win0_4.index t (0 : Fin 2) * 128 + 128
    have : t.val = (i 0).val / 128 := rfl
    omega
  | ⟨1, _⟩ =>
    show win0_4.index t (1 : Fin 2) * 64 ≤ (i 1).val ∧ (i 1).val < win0_4.index t (1 : Fin 2) * 64 + 64
    omega

/-- THE ARRAY after the call. -/
theorem final (c : Dev nD) (hA : Cert.MessageRound.TileDiagonal (adj V c)) :
    (Region0.dat V c).arrAt 4 cfg0.N = whole V c :=
  (Region0.dat V c).arrAt_eq_of_cover 4 (whole V c) (fun t _ => flushed_eq V c hA t) cover

end Cert.KernelIdeal.TileArray0

end
-- ==== Proof.TileArray1.lean ====
/-
  The array the second message-passing call leaves, as one function of the arrays it is entered with.

  The call's grid has 32 points. Point t is handed the diagonal tile (t, t) of the adjacency matrix, rows 128 t … 128 t + 127
  of the features, and the whole weight and bias arrays, and writes rows 128 t … 128 t + 127 of the result: three rounds of
  those rows through that tile. When the adjacency matrix vanishes outside its diagonal tiles, that is exactly rows
  128 t … 128 t + 127 of three rounds of ALL rows through the WHOLE matrix (Cert.MessageRound.rounds3_rowsOf). The 32
  row blocks tile the result array, so after the call the array holds three rounds of all rows through the whole matrix.
-/
import proofs.«116553_j65369402245720_2_alg».proof.Proof.RowsValue
import Idealize.ShloMosaic.Lib.Pipeline.Value

set_option maxRecDepth 16384

noncomputable section

namespace Cert.KernelIdeal.TileArray1

open Cert.KernelIdeal Cert.KernelIdeal.Gen
open Idealize.ShloMosaic Idealize.ShloMosaic.TcCoe Idealize.ShloMosaic.ValueIdx
open Idealize.SL.Sem
open Idealize.ShloMosaic.Pipeline (Dat)
open Cert.KernelIdeal.RowsValue (eps)

variable (V : (c : Dev nD) → (b : Ref sig .tc) → Buf (Elt Ideal) ((c : Thread nD τ).loc b))

/-! ## The arrays the call is entered with, by coordinates -/

abbrev adj (c : Dev nD) : Fin 4096 → Fin 4096 → EReal := fun i j => (V c main_arg1 : S4096x4096.Idx → EReal) (ix2 i j)
abbrev feat (c : Dev nD) : Fin 4096 → Fin 64 → EReal := fun r k => (V c main_v14 : S4096x64.Idx → EReal) (ix2 r k)
abbrev wts (c : Dev nD) : Fin 3 → Fin 64 → Fin 64 → EReal := fun l a k => (V c main_arg13 : S3x64x64.Idx → EReal) (ix3 l a k)
abbrev bias (c : Dev nD) : Fin 3 → Fin 64 → EReal := fun l a => (V c main_arg14 : S3x64.Idx → EReal) (ix2 l a)

/-- Three rounds of all 4096 rows through the whole adjacency matrix, as an array [4096, 64]. -/
def whole (c : Dev nD) : S4096x64.Idx → EReal := fun i =>
  Cert.MessageRound.rounds3 eps (adj V c) (wts V c) (bias V c) (feat V c) ⟨(i 0).val, idx2_lt0 i⟩ ⟨(i 1).val, idx2_lt1 i⟩

/-! ## Where each operand's tile sits -/

/-- The printed index maps, decided over the grid: at point t the adjacency tile is (t, t), the feature and result tiles are
    row block t, and the weights and biases are taken whole. -/
theorem idx_facts : ∀ t : Fin cfg1.N, win1_0.index t (0 : Fin 2) = t.val ∧ win1_0.index t (1 : Fin 2) = t.val
    ∧ win1_1.index t (0 : Fin 2) = t.val ∧ win1_1.index t (1 : Fin 2) = 0
    ∧ win1_2.index t (0 : Fin 3) = 0 ∧ win1_2.index t (1 : Fin 3) = 0 ∧ win1_2.index t (2 : Fin 3) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

theorem t_lt (t : Fin cfg1.N) : t.val < 32 := by
  have h := t.isLt
  have e : cfg1.N = 32 := N_1
  omega

/-- The grid point as a tile number. -/
abbrev tileNo (t : Fin cfg1.N) : Fin 32 := ⟨t.val, t_lt t⟩

theorem tile0_apply (c : Dev nD) (t : Fin cfg1.N) (p q : Fin 128) :
    Region1.tile V c 0 t (ix2 p q) = adj V c (Cert.MessageRound.rowAt (tileNo t) p) (Cert.MessageRound.rowAt (tileNo t) q) := by
  obtain ⟨e0, e1, -⟩ := idx_facts t
  show (V c main_arg1 : S4096x4096.Idx → EReal) (((cfg1.win 0).blk t).view.emb (ix2 p q))
    = (V c main_arg1 : S4096x4096.Idx → EReal) (ix2 (Cert.MessageRound.rowAt (tileNo t) p) (Cert.MessageRound.rowAt (tileNo t) q))
  refine congrArg _ (funext fun a => Fin.ext ?_)
  match a with
  | ⟨0, _⟩ => show win1_0.index t (0 : Fin 2) * 128 + 1 * p.val = t.val * 128 + p.val; omega
  | ⟨1, _⟩ => show win1_0.index t (1 : Fin 2) * 128 + 1 * q.val = t.val * 128 + q.val; omega

theorem tile1_apply (c : Dev nD) (t : Fin cfg1.N) (p : Fin 128) (k : Fin 64) :
    Region1.tile V c 1 t (ix2 p k) = feat V c (Cert.MessageRound.rowAt (tileNo t) p) k := by
  obtain ⟨-, -, e0, e1, -⟩ := idx_facts t
  show (V c main_v14 : S4096x64.Idx → EReal) (((cfg1.win 1).blk t).view.emb (ix2 p k))
    = (V c main_v14 : S4096x64.Idx → EReal) (ix2 (Cert.MessageRound.rowAt (tileNo t) p) k)
  refine congrArg _ (funext fun a => Fin.ext ?_)
  match a with
  | ⟨0, _⟩ => show win1_1.index t (0 : Fin 2) * 128 + 1 * p.val = t.val * 128 + p.val; omega
  | ⟨1, _⟩ => show win1_1.index t (1 : Fin 2) * 64 + 1 * k.val = k.val; omega

theorem tile2_apply (c : Dev nD) (t : Fin cfg1.N) (l : Fin 3) (a k : Fin 64) :
    Region1.tile V c 2 t (ix3 l a k) = wts V c l a k := by
  obtain ⟨-, -, -, -, e0, e1, e2, -⟩ := idx_facts t
  show (V c main_arg13 : S3x64x64.Idx → EReal) (((cfg1.win 2).blk t).view.emb (ix3 l a k))
    = (V c main_arg13 : S3x64x64.Idx → EReal) (ix3 l a k)
  refine congrArg _ (funext fun x => Fin.ext ?_)
  match x with
  | ⟨0, _⟩ => show win1_2.index t (0 : Fin 3) * 3 + 1 * l.val = l.val; omega
  | ⟨1, _⟩ => show win1_2.index t (1 : Fin 3) * 64 + 1 * a.val = a.val; omega
  | ⟨2, _⟩ => show win1_2.index t (2 : Fin 3) * 64 + 1 * k.val = k.val; omega

theorem tile3_apply (c : Dev nD) (t : Fin cfg1.N) (l : Fin 3) (a : Fin 64) :
    Region1.tile V c 3 t (ix2 l a) = bias V c l a := by
  obtain ⟨-, -, -, -, -, -, -, e0, e1, -⟩ := idx_facts t
  show (V c main_arg14 : S3x64.Idx → EReal) (((cfg1.win 3).blk t).view.emb (ix2 l a))
    = (V c main_arg14 : S3x64.Idx → EReal) (ix2 l a)
  refine congrArg _ (funext fun x => Fin.ext ?_)
  match x with
  | ⟨0, _⟩ => show win1_3.index t (0 : Fin 2) * 3 + 1 * l.val = l.val; omega
  | ⟨1, _⟩ => show win1_3.index t (1 : Fin 2) * 64 + 1 * a.val = a.val; omega

/-! ## What a grid point writes back -/

theorem hz2 : (![0, 0] : Fin 2 → Nat) = fun _ => 0 := funext fun a => by fin_cases a <;> rfl

/-- The tile written at a grid point, at any index of the tile. -/
theorem rows_at (a : Vec Ideal S128x128 .f32) (x : Vec Ideal S128x64 .f32) (w : Vec Ideal S3x64x64 .f32) (b : Vec Ideal S3x64 .f32)
    (j : S128x64.Idx) :
    Region1.rows (F := Ideal) a x w b j
      = Cert.MessageRound.rounds3 eps (fun p q => a (ix2 p q)) (fun l c k => w (ix3 l c k)) (fun l c => b (ix2 l c)) (fun p k => x (ix2 p k))
          ⟨(j 0).val, idx2_lt0 j⟩ ⟨(j 1).val, idx2_lt1 j⟩ := by
  have hj : j = ix2 (⟨(j 0).val, idx2_lt0 j⟩ : Fin 128) (⟨(j 1).val, idx2_lt1 j⟩ : Fin 64) := by
    funext d; match d with | ⟨0, _⟩ => rfl | ⟨1, _⟩ => rfl
  exact (congrArg (Region1.rows (F := Ideal) a x w b) hj).trans (Cert.KernelIdeal.RowsValue.rows1_apply a x w b _ _)

/-- WHAT POINT t WRITES BACK is block t of the whole-array function, when the adjacency matrix vanishes outside its diagonal
    tiles. -/
theorem flushed_eq (c : Dev nD) (hA : Cert.MessageRound.TileDiagonal (adj V c)) (t : Fin cfg1.N) :
    (Region1.dat V c).flushed 4 t = ((cfg1.win 4).blk t).view.read (Elt Ideal) (whole V c) := by
  show (cfg1.win 4).cut (grid1.coords t) ((Region1.dat V c).after 4 t) = _
  rw [Region1.after_4]
  unfold Region1.stored
  rw [View.canon_unit_zero hz2]
  obtain ⟨-, -, -, -, -, -, -, -, -, e0, e1⟩ := idx_facts t
  funext (j : S128x64.Idx)
  show Region1.rows (F := Ideal) (Region1.tile V c 0 t) (Region1.tile V c 1 t) (Region1.tile V c 2 t) (Region1.tile V c 3 t) j
    = whole V c (((cfg1.win 4).blk t).view.emb j)
  refine (rows_at _ _ _ _ j).trans ?_
  have hrow : (⟨((((cfg1.win 4).blk t).view.emb j) 0).val, idx2_lt0 _⟩ : Fin 4096)
      = Cert.MessageRound.rowAt (tileNo t) ⟨(j 0).val, idx2_lt0 j⟩ := by
    apply Fin.ext
    show win1_4.index t (0 : Fin 2) * 128 + 1 * (j 0).val = t.val * 128 + (j 0).val
    omega
  have hcol : (⟨((((cfg1.win 4).blk t).view.emb j) 1).val, idx2_lt1 _⟩ : Fin 64) = ⟨(j 1).val, idx2_lt1 j⟩ := by
    apply Fin.ext
    show win1_4.index t (1 : Fin 2) * 64 + 1 * (j 1).val = (j 1).val
    omega
  unfold whole
  rw [hrow, hcol]
  have h3 := congrFun (congrFun (Cert.MessageRound.rounds3_rowsOf eps (adj V c) hA (wts V c) (bias V c) (feat V c) (tileNo t))
    ⟨(j 0).val, idx2_lt0 j⟩) ⟨(j 1).val, idx2_lt1 j⟩
  refine Eq.trans ?_ h3.symm
  have f0 : (fun p q => Region1.tile V c 0 t (ix2 p q)) = Cert.MessageRound.diagTile (tileNo t) (adj V c) :=
    funext fun p => funext fun q => tile0_apply V c t p q
  have f1 : (fun p k => Region1.tile V c 1 t (ix2 p k)) = Cert.MessageRound.rowsOf (tileNo t) (feat V c) :=
    funext fun p => funext fun k => tile1_apply V c t p k
  have f2 : (fun l a k => Region1.tile V c 2 t (ix3 l a k)) = wts V c :=
    funext fun l => funext fun a => funext fun k => tile2_apply V c t l a k
  have f3 : (fun l a => Region1.tile V c 3 t (ix2 l a)) = bias V c :=
    funext fun l => funext fun a => tile3_apply V c t l a
  rw [f0, f1, f2, f3]

/-! ## The 32 row blocks tile the result -/

theorem mem_blk (t : Fin cfg1.N) (i : S4096x64.Idx) :
    i ∈ ((cfg1.win 4).blk t).view.set ↔ ∀ a : Fin 2, win1_4.index t a * S128x64.size a ≤ (i a).val ∧ (i a).val < win1_4.index t a * S128x64.size a + S128x64.size a := by
  show i ∈ ((View.whole main_v15).slice (win1_4.rect t)).set ↔ _
  rw [View.set_slice_whole, Rect.mem_set_unit]
  exact Iff.rfl

theorem cover (i : S4096x64.Idx) : ∃ t : Fin cfg1.N, (cfg1.win 4).flush t = true ∧ i ∈ ((cfg1.win 4).blk t).view.set := by
  have hi0 : (i 0).val < 4096 := (i 0).isLt
  have hi1 : (i 1).val < 64 := (i 1).isLt
  have e : cfg1.N = 32 := N_1
  let t : Fin cfg1.N := ⟨(i 0).val / 128, by omega⟩
  obtain ⟨-, -, -, -, -, -, -, -, -, e0, e1⟩ := idx_facts t
  refine ⟨t, flush1_4 t, ?_⟩
  rw [mem_blk]
  intro a
  match a with
  | ⟨0, _⟩ =>
    show win1_4.index t (0 : Fin 2) * 128 ≤ (i 0).val ∧ (i 0).val < win1_4.index t (0 : Fin 2) * 128 + 128
    have : t.val = (i 0).val / 128 := rfl
    omega
  | ⟨1, _⟩ =>
    show win1_4.index t (1 : Fin 2) * 64 ≤ (i 1).val ∧ (i 1).val < win1_4.index t (1 : Fin 2) * 64 + 64
    omega

/-- THE ARRAY after the call. -/
theorem final (c : Dev nD) (hA : Cert.MessageRound.TileDiagonal (adj V c)) :
    (Region1.dat V c).arrAt 4 cfg1.N = whole V c :=
  (Region1.dat V c).arrAt_eq_of_cover 4 (whole V c) (fun t _ => flushed_eq V c hA t) cover

end Cert.KernelIdeal.TileArray1

end
-- ==== Proof.Spec.lean ====
/-
  The loss as one function of the nineteen arguments, the same function for the kernel and for the reference.

  On each side (donor, acceptor): look up each atom's fingerprint row in the embedding table (a negative index counts from
  the end), run three rounds of message passing on the 4096 atoms, and sum the atoms of each molecule. Then put the two
  molecule summaries beside the orbital energies and the descriptors, pass the 187 columns through two dense layers floored
  at zero and a last dense layer to one column, and average the squared error against the targets. The first step
  (gathered) and everything after the rounds (tail) are the same host operations in both programs; the rounds are
  wholeOf: Cert.MessageRound.rounds3 read as an array.
-/
import proofs.«116553_j65369402245720_2_alg».proof.KernelIdeal
import proofs.«116553_j65369402245720_2_alg».proof.Proof.MessageRound
import Idealize.ShloMosaic.Lib.ValueIdx
import Idealize.ShloMosaic.PureOps.Ideal

noncomputable section

namespace Cert.KernelIdeal.Spec

open Cert.KernelIdeal Idealize.ShloMosaic Idealize.ShloMosaic.ValueIdx

variable [Facts]
open Facts₀ Facts

/-- The floor of a row's length: the f32 word 0x2B8CBCCC, the same word in both programs. -/
abbrev eps : EReal := Ideal.ofBits .f32 0x2B8CBCCC#32

/-- Each atom's row of the embedding table: index fp, or fp + 10000 when fp is negative. -/
def gathered (emb : FVec Ideal S10000x64 .f32) (fp : IVec S4096 32) : FVec Ideal S4096x64 .f32 :=
  Host.gather gather_S10000x64_S4096x1_S4096x64_1_0_n_n_0_1_164 emb
    (broadcastInDim S4096x1 ![0] bcast_S4096_S4096x1_0
      (select (cmpi .slt fp (broadcastInDim S4096 ![] bcast_S_S4096 (constantI S_ 32 0#32)))
        (addi fp (broadcastInDim S4096 ![] bcast_S_S4096 (constantI S_ 32 10000#32))) fp))

/-- Three rounds of all 4096 rows through the whole adjacency matrix, as an array [4096, 64]. -/
def wholeOf (A : S4096x4096.Idx → EReal) (X : S4096x64.Idx → EReal) (Wt : S3x64x64.Idx → EReal) (Bs : S3x64.Idx → EReal) :
    S4096x64.Idx → EReal := fun i =>
  Cert.MessageRound.rounds3 eps (fun p q => A (ix2 p q)) (fun l a k => Wt (ix3 l a k)) (fun l a => Bs (ix2 l a)) (fun r k => X (ix2 r k))
    ⟨(i 0).val, idx2_lt0 i⟩ ⟨(i 1).val, idx2_lt1 i⟩

/-- Everything after the rounds: pool per molecule, concatenate, two dense layers floored at zero, the last dense layer,
    the mean squared error. -/
def tail (vD vA : FVec Ideal S4096x64 .f32) (segD segA : IVec S4096 32) (homoD lumoD homoA lumoA : FVec Ideal S128x1 .f32)
    (desc : FVec Ideal S128x55 .f32) (corr : FVec Ideal S128x1 .f32) (WoW : FVec Ideal S2x187x187 .f32) (WoB : FVec Ideal S2x187 .f32)
    (WpW : FVec Ideal S1x187 .f32) (WpB : FVec Ideal S1 .f32) : FVec Ideal S_ .f32 :=
  let molD : FVec Ideal S128x64 .f32 := Host.scatterAdd scatter_S128x64_S4096x1_S4096x64_1_0_0_1
    (broadcastInDim S128x64 ![] bcast_S_S128x64 (constant (F := Ideal) S_ .f32 0x00000000#32))
    (broadcastInDim S4096x1 ![0] bcast_S4096_S4096x1_0 segD) vD
  let molA : FVec Ideal S128x64 .f32 := Host.scatterAdd scatter_S128x64_S4096x1_S4096x64_1_0_0_1
    (broadcastInDim S128x64 ![] bcast_S_S128x64 (constant (F := Ideal) S_ .f32 0x00000000#32))
    (broadcastInDim S4096x1 ![0] bcast_S4096_S4096x1_0 segA) vA
  let x0 : FVec Ideal S128x187 .f32 := concatenate S128x187 1
    [⟨S128x64, molD⟩, ⟨S128x1, homoD⟩, ⟨S128x1, lumoD⟩, ⟨S128x64, molA⟩, ⟨S128x1, homoA⟩, ⟨S128x1, lumoA⟩, ⟨S128x55, desc⟩]
    concatenates_S128x64_S128x1_S128x1_S128x64_S128x1_S128x1_S128x55_S128x187_d1
  let y0 : FVec Ideal S128x187 .f32 := addf
    (Host.dotGeneral dot_S128x187_S187x187_S128x187_1_0_0_1_n_n none x0
      (transpose S187x187 [1, 0] (shapeCast S187x187 (extractStridedSlice S1x187x187 ![0, 0, 0] WoW slices_S2x187x187_S1x187x187_0_0_0)
        shapeCasts_S1x187x187_S187x187) transposes_S187x187_S187x187_1_0))
    (broadcastInDim S128x187 ![0, 1] bcast_S1x187_S128x187_0_1 (broadcastInDim S1x187 ![1] bcast_S187_S1x187_1
      (shapeCast S187 (extractStridedSlice S1x187 ![0, 0] WoB slices_S2x187_S1x187_0_0) shapeCasts_S1x187_S187)))
  let x1 : FVec Ideal S128x187 .f32 := maximumf y0 (broadcastInDim S128x187 ![] bcast_S_S128x187 (constant (F := Ideal) S_ .f32 0x00000000#32))
  let y1 : FVec Ideal S128x187 .f32 := addf
    (Host.dotGeneral dot_S128x187_S187x187_S128x187_1_0_0_1_n_n none x1
      (transpose S187x187 [1, 0] (shapeCast S187x187 (extractStridedSlice S1x187x187 ![1, 0, 0] WoW slices_S2x187x187_S1x187x187_1_0_0)
        shapeCasts_S1x187x187_S187x187) transposes_S187x187_S187x187_1_0))
    (broadcastInDim S128x187 ![0, 1] bcast_S1x187_S128x187_0_1 (broadcastInDim S1x187 ![1] bcast_S187_S1x187_1
      (shapeCast S187 (extractStridedSlice S1x187 ![1, 0] WoB slices_S2x187_S1x187_1_0) shapeCasts_S1x187_S187)))
  let x2 : FVec Ideal S128x187 .f32 := maximumf y1 (broadcastInDim S128x187 ![] bcast_S_S128x187 (constant (F := Ideal) S_ .f32 0x00000000#32))
  let err : FVec Ideal S128x1 .f32 := subf
    (addf (Host.dotGeneral dot_S128x187_S187x1_S128x1_1_0_0_1_n_n none x2 (transpose S187x1 [1, 0] WpW transposes_S1x187_S187x1_1_0))
      (broadcastInDim S128x1 ![0, 1] bcast_S1x1_S128x1_0_1 (broadcastInDim S1x1 ![1] bcast_S1_S1x1_1 WpB))) corr
  Host.divf (Host.reduceAdd (mulf err err) (constant (F := Ideal) S_ .f32 0x00000000#32) reducesTo_S128x1_S_d0_1 h_S_)
    (constant (F := Ideal) S_ .f32 0x43000000#32)

/-- THE LOSS, as a function of the nineteen arguments in their order. -/
def loss (a0 a1 : FVec Ideal S4096x4096 .f32) (a2 a3 a4 a5 : IVec S4096 32) (a6 a7 a8 a9 : FVec Ideal S128x1 .f32)
    (a10 : FVec Ideal S128x55 .f32) (a11 : FVec Ideal S128x1 .f32) (a12 : FVec Ideal S10000x64 .f32) (a13 : FVec Ideal S3x64x64 .f32)
    (a14 : FVec Ideal S3x64 .f32) (a15 : FVec Ideal S2x187x187 .f32) (a16 : FVec Ideal S2x187 .f32) (a17 : FVec Ideal S1x187 .f32)
    (a18 : FVec Ideal S1 .f32) : FVec Ideal S_ .f32 :=
  tail (wholeOf a0 (gathered a12 a2) a13 a14) (wholeOf a1 (gathered a12 a3) a13 a14) a4 a5 a6 a7 a8 a9 a10 a11 a15 a16 a17 a18

end Cert.KernelIdeal.Spec

end
-- ==== Proof.KernelValue.lean ====
/-
  The kernel program's result, as the loss function of its arguments.

  Read back through the run: the result buffer holds the closing host operations applied to the two calls' result arrays and
  the arguments; each call's result array is three rounds of all rows through the whole adjacency matrix (given that the
  matrix vanishes outside its diagonal tiles), from the gathered embedding rows; and no stretch changes an argument.
-/
import proofs.«116553_j65369402245720_2_alg».proof.Proof.IdealRun
import proofs.«116553_j65369402245720_2_alg».proof.Proof.TileArray0
import proofs.«116553_j65369402245720_2_alg».proof.Proof.TileArray1
import proofs.«116553_j65369402245720_2_alg».proof.Proof.Spec
import Idealize.ShloMosaic.Lib.StableHlo.Run

set_option maxRecDepth 16384

noncomputable section

namespace Cert.KernelIdeal.KValue

open Cert.KernelIdeal Cert.KernelIdeal.Gen Cert.KernelIdeal.Run
open Idealize.ShloMosaic Idealize.ShloMosaic.TcCoe Idealize.ShloMosaic.ValueIdx Idealize.ShloMosaic.StableHlo
open Idealize.SL.Sem

variable (m : (ℓ : Loc nD τ sig) → Buf (Elt Ideal) ℓ)

/-! ## What the calls are entered with -/

theorem W1_kept (c : Dev nD) (r : Ref sig .tc) (h : r ∉ (hostOps0_W : List (Ref sig .tc))) :
    W1 m c (Proc.devRef .tc r) = m ((c : Thread nD τ).loc r) :=
  (StableHlo.after_of_writes_sub hostOps0 _ hostOps0_writes h).trans rfl

theorem W2_kept (c : Dev nD) (r : Ref sig .tc) (h0 : r ∉ (hostOps0_W : List (Ref sig .tc))) (h7 : r ≠ main_v7) :
    W2 m c (Proc.devRef .tc r) = m ((c : Thread nD τ).loc r) :=
  (W2_keep m c r h7).trans (W1_kept m c r h0)

theorem W3_kept (c : Dev nD) (r : Ref sig .tc) (h0 : r ∉ (hostOps0_W : List (Ref sig .tc))) (h7 : r ≠ main_v7)
    (h1 : r ∉ (hostOps1_W : List (Ref sig .tc))) : W3 m c (Proc.devRef .tc r) = m ((c : Thread nD τ).loc r) :=
  (StableHlo.after_of_writes_sub hostOps1 _ hostOps1_writes h1).trans (W2_kept m c r h0 h7)

theorem W4_kept (c : Dev nD) (r : Ref sig .tc) (h0 : r ∉ (hostOps0_W : List (Ref sig .tc))) (h7 : r ≠ main_v7)
    (h1 : r ∉ (hostOps1_W : List (Ref sig .tc))) (h15 : r ≠ main_v15) : W4 m c (Proc.devRef .tc r) = m ((c : Thread nD τ).loc r) :=
  (W4_keep m c r h15).trans (W3_kept m c r h0 h7 h1)

/-- The donor side's gathered rows. -/
theorem W1_v6 (c : Dev nD) :
    W1 m c (Proc.devRef .tc main_v6) = Spec.gathered (m ((c : Thread nD τ).loc main_arg12)) (m ((c : Thread nD τ).loc main_arg2)) := by
  show StableHlo.after hostOps0 (W0 m c) (Proc.devRef .tc main_v6) = _
  after_results
  rfl

/-- The acceptor side's gathered rows. -/
theorem W3_v14 (c : Dev nD) :
    W3 m c (Proc.devRef .tc main_v14) = Spec.gathered (m ((c : Thread nD τ).loc main_arg12)) (m ((c : Thread nD τ).loc main_arg3)) := by
  show StableHlo.after hostOps1 (W2 m c) (Proc.devRef .tc main_v14) = _
  after_results
  rw [W2_kept m c main_arg12 (by decide) (by decide), W2_kept m c main_arg3 (by decide) (by decide)]
  rfl

/-! ## What the calls leave -/

/-- The first call's result array. -/
theorem W4_v7 (c : Dev nD)
    (hA : Cert.MessageRound.TileDiagonal (fun i j => (m ((c : Thread nD τ).loc main_arg0) : S4096x4096.Idx → EReal) (ix2 i j))) :
    W4 m c (Proc.devRef .tc main_v7)
      = Spec.wholeOf (m ((c : Thread nD τ).loc main_arg0)) (Spec.gathered (m ((c : Thread nD τ).loc main_arg12)) (m ((c : Thread nD τ).loc main_arg2)))
          (m ((c : Thread nD τ).loc main_arg13)) (m ((c : Thread nD τ).loc main_arg14)) := by
  have e0 : (Run.V1 m c main_arg0 : S4096x4096.Idx → EReal) = m ((c : Thread nD τ).loc main_arg0) := W1_kept m c main_arg0 (by decide)
  have e6 : (Run.V1 m c main_v6 : S4096x64.Idx → EReal) = Spec.gathered (m ((c : Thread nD τ).loc main_arg12)) (m ((c : Thread nD τ).loc main_arg2)) := W1_v6 m c
  have e13 : (Run.V1 m c main_arg13 : S3x64x64.Idx → EReal) = m ((c : Thread nD τ).loc main_arg13) := W1_kept m c main_arg13 (by decide)
  have e14 : (Run.V1 m c main_arg14 : S3x64.Idx → EReal) = m ((c : Thread nD τ).loc main_arg14) := W1_kept m c main_arg14 (by decide)
  have hA' : Cert.MessageRound.TileDiagonal (TileArray0.adj (Run.V1 m) c) := by
    show Cert.MessageRound.TileDiagonal (fun i j => (Run.V1 m c main_arg0 : S4096x4096.Idx → EReal) (ix2 i j))
    rw [e0]; exact hA
  refine (W4_keep m c main_v7 (by decide)).trans ?_
  refine (StableHlo.after_of_writes_sub hostOps1 _ hostOps1_writes (by decide)).trans ?_
  refine (W2_arr m c 4).trans ?_
  refine (TileArray0.final (Run.V1 m) c hA').trans ?_
  show Spec.wholeOf (Run.V1 m c main_arg0 : S4096x4096.Idx → EReal) (Run.V1 m c main_v6 : S4096x64.Idx → EReal)
    (Run.V1 m c main_arg13 : S3x64x64.Idx → EReal) (Run.V1 m c main_arg14 : S3x64.Idx → EReal) = _
  rw [e0, e6, e13, e14]

/-- The second call's result array. -/
theorem W4_v15 (c : Dev nD)
    (hA : Cert.MessageRound.TileDiagonal (fun i j => (m ((c : Thread nD τ).loc main_arg1) : S4096x4096.Idx → EReal) (ix2 i j))) :
    W4 m c (Proc.devRef .tc main_v15)
      = Spec.wholeOf (m ((c : Thread nD τ).loc main_arg1)) (Spec.gathered (m ((c : Thread nD τ).loc main_arg12)) (m ((c : Thread nD τ).loc main_arg3)))
          (m ((c : Thread nD τ).loc main_arg13)) (m ((c : Thread nD τ).loc main_arg14)) := by
  have e0 : (Run.V3 m c main_arg1 : S4096x4096.Idx → EReal) = m ((c : Thread nD τ).loc main_arg1) := W3_kept m c main_arg1 (by decide) (by decide) (by decide)
  have e6 : (Run.V3 m c main_v14 : S4096x64.Idx → EReal) = Spec.gathered (m ((c : Thread nD τ).loc main_arg12)) (m ((c : Thread nD τ).loc main_arg3)) := W3_v14 m c
  have e13 : (Run.V3 m c main_arg13 : S3x64x64.Idx → EReal) = m ((c : Thread nD τ).loc main_arg13) := W3_kept m c main_arg13 (by decide) (by decide) (by decide)
  have e14 : (Run.V3 m c main_arg14 : S3x64.Idx → EReal) = m ((c : Thread nD τ).loc main_arg14) := W3_kept m c main_arg14 (by decide) (by decide) (by decide)
  have hA' : Cert.MessageRound.TileDiagonal (TileArray1.adj (Run.V3 m) c) := by
    show Cert.MessageRound.TileDiagonal (fun i j => (Run.V3 m c main_arg1 : S4096x4096.Idx → EReal) (ix2 i j))
    rw [e0]; exact hA
  refine (W4_arr m c 4).trans ?_
  refine (TileArray1.final (Run.V3 m) c hA').trans ?_
  show Spec.wholeOf (Run.V3 m c main_arg1 : S4096x4096.Idx → EReal) (Run.V3 m c main_v14 : S4096x64.Idx → EReal)
    (Run.V3 m c main_arg13 : S3x64x64.Idx → EReal) (Run.V3 m c main_arg14 : S3x64.Idx → EReal) = _
  rw [e0, e6, e13, e14]

/-! ## The closing stretches -/

set_option maxHeartbeats 8000000 in
/-- The result buffer after the five closing stretches: the closing operations of what the second call left. -/
theorem W9_v51 (c : Dev nD) :
    W9 m c (Proc.devRef .tc main_v51)
      = Spec.tail (W4 m c (Proc.devRef .tc main_v7)) (W4 m c (Proc.devRef .tc main_v15)) (W4 m c (Proc.devRef .tc main_arg4))
          (W4 m c (Proc.devRef .tc main_arg5)) (W4 m c (Proc.devRef .tc main_arg6)) (W4 m c (Proc.devRef .tc main_arg7))
          (W4 m c (Proc.devRef .tc main_arg8)) (W4 m c (Proc.devRef .tc main_arg9)) (W4 m c (Proc.devRef .tc main_arg10))
          (W4 m c (Proc.devRef .tc main_arg11)) (W4 m c (Proc.devRef .tc main_arg15)) (W4 m c (Proc.devRef .tc main_arg16))
          (W4 m c (Proc.devRef .tc main_arg17)) (W4 m c (Proc.devRef .tc main_arg18)) := by
  show StableHlo.after hostOps2_4 (StableHlo.after hostOps2_3 (StableHlo.after hostOps2_2 (StableHlo.after hostOps2_1
    (StableHlo.after hostOps2 (W4 m c))))) (Proc.devRef .tc main_v51) = _
  after_results_simp
  rfl

/-- THE RESULT, as the loss of the arguments. -/
theorem result_eq (c : Dev nD)
    (hD : Cert.MessageRound.TileDiagonal (fun i j => (m ((c : Thread nD τ).loc main_arg0) : S4096x4096.Idx → EReal) (ix2 i j)))
    (hA : Cert.MessageRound.TileDiagonal (fun i j => (m ((c : Thread nD τ).loc main_arg1) : S4096x4096.Idx → EReal) (ix2 i j))) :
    W9 m c (Proc.devRef .tc main_v51)
      = Spec.loss (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) (m ((c : Thread nD τ).loc main_arg8))
          (m ((c : Thread nD τ).loc main_arg9)) (m ((c : Thread nD τ).loc main_arg10)) (m ((c : Thread nD τ).loc main_arg11))
          (m ((c : Thread nD τ).loc main_arg12)) (m ((c : Thread nD τ).loc main_arg13)) (m ((c : Thread nD τ).loc main_arg14))
          (m ((c : Thread nD τ).loc main_arg15)) (m ((c : Thread nD τ).loc main_arg16)) (m ((c : Thread nD τ).loc main_arg17))
          (m ((c : Thread nD τ).loc main_arg18)) := by
  rw [W9_v51, W4_v7 m c hD, W4_v15 m c hA,
    W4_kept m c main_arg4 (by decide) (by decide) (by decide) (by decide), W4_kept m c main_arg5 (by decide) (by decide) (by decide) (by decide),
    W4_kept m c main_arg6 (by decide) (by decide) (by decide) (by decide), W4_kept m c main_arg7 (by decide) (by decide) (by decide) (by decide),
    W4_kept m c main_arg8 (by decide) (by decide) (by decide) (by decide), W4_kept m c main_arg9 (by decide) (by decide) (by decide) (by decide),
    W4_kept m c main_arg10 (by decide) (by decide) (by decide) (by decide), W4_kept m c main_arg11 (by decide) (by decide) (by decide) (by decide),
    W4_kept m c main_arg15 (by decide) (by decide) (by decide) (by decide), W4_kept m c main_arg16 (by decide) (by decide) (by decide) (by decide),
    W4_kept m c main_arg17 (by decide) (by decide) (by decide) (by decide), W4_kept m c main_arg18 (by decide) (by decide) (by decide) (by decide)]
  rfl

/-- THE RUN with the result named: when both adjacency matrices vanish outside their diagonal tiles, every weakly fair
    execution ends with the result buffer at the loss of the arguments and the arguments unchanged. -/
theorem run (ρ : Dev nD → PrngReg)
    (hD : ∀ c : Dev nD, Cert.MessageRound.TileDiagonal (fun i j => (m ((c : Thread nD τ).loc main_arg0) : S4096x4096.Idx → EReal) (ix2 i j)))
    (hA : ∀ c : Dev nD, Cert.MessageRound.TileDiagonal (fun i j => (m ((c : Thread nD τ).loc main_arg1) : S4096x4096.Idx → EReal) (ix2 i j))) :
    θ_run defs (onTc (τ := τ) (main (F := Ideal))) ⟨m, fun _ => 0, ρ⟩ (fun r => ∀ c : Dev nD,
      r.2.mem ((c.tc : Thread nD τ).loc main_v51)
        = Spec.loss (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) (m ((c : Thread nD τ).loc main_arg8))
          (m ((c : Thread nD τ).loc main_arg9)) (m ((c : Thread nD τ).loc main_arg10)) (m ((c : Thread nD τ).loc main_arg11))
          (m ((c : Thread nD τ).loc main_arg12)) (m ((c : Thread nD τ).loc main_arg13)) (m ((c : Thread nD τ).loc main_arg14))
          (m ((c : Thread nD τ).loc main_arg15)) (m ((c : Thread nD τ).loc main_arg16)) (m ((c : Thread nD τ).loc main_arg17))
          (m ((c : Thread nD τ).loc main_arg18))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  (θ_run defs _ _).mono (fun r h c => ⟨(h c).1.trans (result_eq m c (hD c) (hA c)), (h c).2⟩) (Cert.KernelIdeal.Run.run m ρ)

end Cert.KernelIdeal.KValue

end
-- ==== Proof.RefOps.lean ====
/-
  The reference program, re-listed: its 206 host operations in order (a called function's operations stand in its call's
  place), the fact that the program IS that list run in sequence, and that every operation touches TensorCore buffers only.
  From these, every weakly fair execution from a memory with zero counters terminates, nothing faulting, with each buffer at
  the fold of the operations' results over its launch contents (run_after): the contents are read off that fold stretch by
  stretch, never as one composed term.
-/
import proofs.«116553_j65369402245720_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's 206 operations, in order (a called function's operations stand in its call's place, spelt `TRef.…`). -/
abbrev ops : List (HloOp τ sig (Elt F)) :=
  [ nullary main_c (constantI S_ 32 0#32),
    unary main_c main_v0 (broadcastInDim S4096 ![] bcast_S_S4096 : (⟨S_, .i32⟩ : BufTy).Contents (Elt F) → (⟨S4096, .i32⟩ : BufTy).Contents (Elt F)),
    binary main_arg2 main_v0 main_v1 (cmpi .slt : (⟨S4096, .i32⟩ : BufTy).Contents (Elt F) → (⟨S4096, .i32⟩ : BufTy).Contents (Elt F) → (⟨S4096, .i1⟩ : BufTy).Contents (Elt F)),
    nullary main_c_0 (constantI S_ 32 10000#32),
    unary main_c_0 main_v2 (broadcastInDim S4096 ![] bcast_S_S4096 : (⟨S_, .i32⟩ : BufTy).Contents (Elt F) → (⟨S4096, .i32⟩ : BufTy).Contents (Elt F)),
    binary main_arg2 main_v2 main_v3 (addi : (⟨S4096, .i32⟩ : BufTy).Contents (Elt F) → (⟨S4096, .i32⟩ : BufTy).Contents (Elt F) → (⟨S4096, .i32⟩ : BufTy).Contents (Elt F)),
    ternary main_v1 main_v3 main_arg2 main_v4 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    unary main_v4 main_v5 (broadcastInDim S4096x1 ![0] bcast_S4096_S4096x1_0 : (⟨S4096, .i32⟩ : BufTy).Contents (Elt F) → (⟨S4096x1, .i32⟩ : BufTy).Contents (Elt F)),
    binary main_arg12 main_v5 main_v6 ((fun x i => Host.gather gather_S10000x64_S4096x1_S4096x64_1_0_n_n_0_1_164 x i) : (⟨S10000x64, .f32⟩ : BufTy).Contents (Elt F) → (⟨S4096x1, .i32⟩ : BufTy).Contents (Elt F) → (⟨S4096x64, .f32⟩ : BufTy).Contents (Elt F)),
    nullary main_c_1 (constantI S_ 32 0#32),
    unary main_c_1 main_v7 (broadcastInDim S4096 ![] bcast_S_S4096 : (⟨S_, .i32⟩ : BufTy).Contents (Elt F) → (⟨S4096, .i32⟩ : BufTy).Contents (Elt F)),
    binary main_arg3 main_v7 main_v8 (cmpi .slt : (⟨S4096, .i32⟩ : BufTy).Contents (Elt F) → (⟨S4096, .i32⟩ : BufTy).Contents (Elt F) → (⟨S4096, .i1⟩ : BufTy).Contents (Elt F)),
    nullary main_c_2 (constantI S_ 32 10000#32),
    unary main_c_2 main_v9 (broadcastInDim S4096 ![] bcast_S_S4096 : (⟨S_, .i32⟩ : BufTy).Contents (Elt F) → (⟨S4096, .i32⟩ : BufTy).Contents (Elt F)),
    binary main_arg3 main_v9 main_v10 (addi : (⟨S4096, .i32⟩ : BufTy).Contents (Elt F) → (⟨S4096, .i32⟩ : BufTy).Contents (Elt F) → (⟨S4096, .i32⟩ : BufTy).Contents (Elt F)),
    ternary main_v8 main_v10 main_arg3 main_v11 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    unary main_v11 main_v12 (broadcastInDim S4096x1 ![0] bcast_S4096_S4096x1_0 : (⟨S4096, .i32⟩ : BufTy).Contents (Elt F) → (⟨S4096x1, .i32⟩ : BufTy).Contents (Elt F)),
    binary main_arg12 main_v12 main_v13 ((fun x i => Host.gather gather_S10000x64_S4096x1_S4096x64_1_0_n_n_0_1_164 x i) : (⟨S10000x64, .f32⟩ : BufTy).Contents (Elt F) → (⟨S4096x1, .i32⟩ : BufTy).Contents (Elt F) → (⟨S4096x64, .f32⟩ : BufTy).Contents (Elt F)),
    unary main_arg13 main_v14 ((extractStridedSlice S1x64x64 ![0, 0, 0] · slices_S3x64x64_S1x64x64_0_0_0) : (⟨S3x64x64, .f32⟩ : BufTy).Contents (Elt F) → (⟨S1x64x64, .f32⟩ : BufTy).Contents (Elt F)),
    reshape main_v14 main_v15 rfl shapeCasts_S1x64x64_S64x64,
    unary main_v15 main_v16 ((transpose S64x64 [1, 0] · transposes_S64x64_S64x64_1_0) : (⟨S64x64, .f32⟩ : BufTy).Contents (Elt F) → (⟨S64x64, .f32⟩ : BufTy).Contents (Elt F)),
    binary main_v6 main_v16 main_v17 ((fun l r => Host.dotGeneral dot_S4096x64_S64x64_S4096x64_1_0_0_1_n_n none l r) : (⟨S4096x64, .f32⟩ : BufTy).Contents (Elt F) → (⟨S64x64, .f32⟩ : BufTy).Contents (Elt F) → (⟨S4096x64, .f32⟩ : BufTy).Contents (Elt F)),
    unary main_arg14 main_v18 ((extractStridedSlice S1x64 ![0, 0] · slices_S3x64_S1x64_0_0) : (⟨S3x64, .f32⟩ : BufTy).Contents (Elt F) → (⟨S1x64, .f32⟩ : BufTy).Contents (Elt F)),
    reshape main_v18 main_v19 rfl shapeCasts_S1x64_S64,
    unary main_v19 main_v20 (broadcastInDim S1x64 ![1] bcast_S64_S1x64_1 : (⟨S64, .f32⟩ : BufTy).Contents (Elt F) → (⟨S1x64, .f32⟩ : BufTy).Contents (Elt F)),
    unary main_v20 main_v21 (broadcastInDim S4096x64 ![0, 1] bcast_S1x64_S4096x64_0_1 : (⟨S1x64, .f32⟩ : BufTy).Contents (Elt F) → (⟨S4096x64, .f32⟩ : BufTy).Contents (Elt F)),
    binary main_v17 main_v21 main_v22 (addf : (⟨S4096x64, .f32⟩ : BufTy).Contents (Elt F) → (⟨S4096x64, .f32⟩ : BufTy).Contents (Elt F) → (⟨S4096x64, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S4096x64, .f32⟩) main_call0_v0) (broadcastInDim S4096x64 ![] bcast_S_S4096x64),
    TRef.binary (TRef.of (T := ⟨S4096x64, .f32⟩) main_v22) (TRef.of (T := ⟨S4096x64, .f32⟩) main_call0_v0) (TRef.of (T := ⟨S4096x64, .f32⟩) main_v23) maximumf,
    binary main_arg0 main_v23 main_v24 ((fun l r => Host.dotGeneral dot_S4096x4096_S4096x64_S4096x64_1_0_0_1_n_n none l r) : (⟨S4096x4096, .f32⟩ : BufTy).Contents (Elt F) → (⟨S4096x64, .f32⟩ : BufTy).Contents (Elt F) → (⟨S4096x64, .f32⟩ : BufTy).Contents (Elt F)),
    binary main_v23 main_v24 main_v25 (addf : (⟨S4096x64, .f32⟩ : BufTy).Contents (Elt F) → (⟨S4096x64, .f32⟩ : BufTy).Contents (Elt F) → (⟨S4096x64, .f32⟩ : BufTy).Contents (Elt F)),
    binary main_v25 main_v25 main_v26 (mulf : (⟨S4096x64, .f32⟩ : BufTy).Contents (Elt F) → (⟨S4096x64, .f32⟩ : BufTy).Contents (Elt F) → (⟨S4096x64, .f32⟩ : BufTy).Contents (Elt F)),
    nullary main_cst (constant S_ .f32 0x00000000#32),
    binary main_v26 main_cst main_v27 ((fun x v => Host.reduceAdd x v reducesTo_S4096x64_S4096_d1 h_S_) : (⟨S4096x64, .f32⟩ : BufTy).Contents (Elt F) → (⟨S_, .f32⟩ : BufTy).Contents (Elt F) → (⟨S4096, .f32⟩ : BufTy).Contents (Elt F)),
    unary main_v27 main_v28 (broadcastInDim S4096x1 ![0] bcast_S4096_S4096x1_0 : (⟨S4096, .f32⟩ : BufTy).Contents (Elt F) → (⟨S4096x1, .f32⟩ : BufTy).Contents (Elt F)),
    unary main_v28 main_v29 (Host.sqrt : (⟨S4096x1, .f32⟩ : BufTy).Contents (Elt F) → (⟨S4096x1, .f32⟩ : BufTy).Contents (Elt F)),
    nullary main_cst_3 (constant S_ .f32 0x2B8CBCCC#32),
    unary main_cst_3 main_v30 (broadcastInDim S4096x1 ![] bcast_S_S4096x1 : (⟨S_, .f32⟩ : BufTy).Contents (Elt F) → (⟨S4096x1, .f32⟩ : BufTy).Contents (Elt F)),
    binary main_v29 main_v30 main_v31 (maximumf : (⟨S4096x1, .f32⟩ : BufTy).Contents (Elt F) → (⟨S4096x1, .f32⟩ : BufTy).Contents (Elt F) → (⟨S4096x1, .f32⟩ : BufTy).Contents (Elt F)),
    unary main_v31 main_v32 (broadcastInDim S4096x64 ![0, 1] bcast_S4096x1_S4096x64_0_1 : (⟨S4096x1, .f32⟩ : BufTy).Contents (Elt F) → (⟨S4096x64, .f32⟩ : BufTy).Contents (Elt F)),
    binary main_v25 main_v32 main_v33 (Host.divf : (⟨S4096x64, .f32⟩ : BufTy).Contents (Elt F) → (⟨S4096x64, .f32⟩ : BufTy).Contents (Elt F) → (⟨S4096x64, .f32⟩ : BufTy).Contents (Elt F)),
    unary main_arg13 main_v34 ((extractStridedSlice S1x64x64 ![1, 0, 0] · slices_S3x64x64_S1x64x64_1_0_0) : (⟨S3x64x64, .f32⟩ : BufTy).Contents (Elt F) → (⟨S1x64x64, .f32⟩ : BufTy).Contents (Elt F)),
    reshape main_v34 main_v35 rfl shapeCasts_S1x64x64_S64x64,
    unary main_v35 main_v36 ((transpose S64x64 [1, 0] · transposes_S64x64_S64x64_1_0) : (⟨S64x64, .f32⟩ : BufTy).Contents (Elt F) → (⟨S64x64, .f32⟩ : BufTy).Contents (Elt F)),
    binary main_v33 main_v36 main_v37 ((fun l r => Host.dotGeneral dot_S4096x64_S64x64_S4096x64_1_0_0_1_n_n none l r) : (⟨S4096x64, .f32⟩ : BufTy).Contents (Elt F) → (⟨S64x64, .f32⟩ : BufTy).Contents (Elt F) → (⟨S4096x64, .f32⟩ : BufTy).Contents (Elt F)),
    unary main_arg14 main_v38 ((extractStridedSlice S1x64 ![1, 0] · slices_S3x64_S1x64_1_0) : (⟨S3x64, .f32⟩ : BufTy).Contents (Elt F) → (⟨S1x64, .f32⟩ : BufTy).Contents (Elt F)),
    reshape main_v38 main_v39 rfl shapeCasts_S1x64_S64,
    unary main_v39 main_v40 (broadcastInDim S1x64 ![1] bcast_S64_S1x64_1 : (⟨S64, .f32⟩ : BufTy).Contents (Elt F) → (⟨S1x64, .f32⟩ : BufTy).Contents (Elt F)),
    unary main_v40 main_v41 (broadcastInDim S4096x64 ![0, 1] bcast_S1x64_S4096x64_0_1 : (⟨S1x64, .f32⟩ : BufTy).Contents (Elt F) → (⟨S4096x64, .f32⟩ : BufTy).Contents (Elt F)),
    binary main_v37 main_v41 main_v42 (addf : (⟨S4096x64, .f32⟩ : BufTy).Contents (Elt F) → (⟨S4096x64, .f32⟩ : BufTy).Contents (Elt F) → (⟨S4096x64, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S4096x64, .f32⟩) main_call1_v0) (broadcastInDim S4096x64 ![] bcast_S_S4096x64),
    TRef.binary (TRef.of (T := ⟨S4096x64, .f32⟩) main_v42) (TRef.of (T := ⟨S4096x64, .f32⟩) main_call1_v0) (TRef.of (T := ⟨S4096x64, .f32⟩) main_v43) maximumf,
    binary main_arg0 main_v43 main_v44 ((fun l r => Host.dotGeneral dot_S4096x4096_S4096x64_S4096x64_1_0_0_1_n_n none l r) : (⟨S4096x4096, .f32⟩ : BufTy).Contents (Elt F) → (⟨S4096x64, .f32⟩ : BufTy).Contents (Elt F) → (⟨S4096x64, .f32⟩ : BufTy).Contents (Elt F)),
    binary main_v43 main_v44 main_v45 (addf : (⟨S4096x64, .f32⟩ : BufTy).Contents (Elt F) → (⟨S4096x64, .f32⟩ : BufTy).Contents (Elt F) → (⟨S4096x64, .f32⟩ : BufTy).Contents (Elt F)),
    binary main_v45 main_v45 main_v46 (mulf : (⟨S4096x64, .f32⟩ : BufTy).Contents (Elt F) → (⟨S4096x64, .f32⟩ : BufTy).Contents (Elt F) → (⟨S4096x64, .f32⟩ : BufTy).Contents (Elt F)),
    nullary main_cst_4 (constant S_ .f32 0x00000000#32),
    binary main_v46 main_cst_4 main_v47 ((fun x v => Host.reduceAdd x v reducesTo_S4096x64_S4096_d1 h_S_) : (⟨S4096x64, .f32⟩ : BufTy).Contents (Elt F) → (⟨S_, .f32⟩ : BufTy).Contents (Elt F) → (⟨S4096, .f32⟩ : BufTy).Contents (Elt F)),
    unary main_v47 main_v48 (broadcastInDim S4096x1 ![0] bcast_S4096_S4096x1_0 : (⟨S4096, .f32⟩ : BufTy).Contents (Elt F) → (⟨S4096x1, .f32⟩ : BufTy).Contents (Elt F)),
    unary main_v48 main_v49 (Host.sqrt : (⟨S4096x1, .f32⟩ : BufTy).Contents (Elt F) → (⟨S4096x1, .f32⟩ : BufTy).Contents (Elt F)),
    nullary main_cst_5 (constant S_ .f32 0x2B8CBCCC#32),
    unary main_cst_5 main_v50 (broadcastInDim S4096x1 ![] bcast_S_S4096x1 : (⟨S_, .f32⟩ : BufTy).Contents (Elt F) → (⟨S4096x1, .f32⟩ : BufTy).Contents (Elt F)),
    binary main_v49 main_v50 main_v51 (maximumf : (⟨S4096x1, .f32⟩ : BufTy).Contents (Elt F) → (⟨S4096x1, .f32⟩ : BufTy).Contents (Elt F) → (⟨S4096x1, .f32⟩ : BufTy).Contents (Elt F)),
    unary main_v51 main_v52 (broadcastInDim S4096x64 ![0, 1] bcast_S4096x1_S4096x64_0_1 : (⟨S4096x1, .f32⟩ : BufTy).Contents (Elt F) → (⟨S4096x64, .f32⟩ : BufTy).Contents (Elt F)),
    binary main_v45 main_v52 main_v53 (Host.divf : (⟨S4096x64, .f32⟩ : BufTy).Contents (Elt F) → (⟨S4096x64, .f32⟩ : BufTy).Contents (Elt F) → (⟨S4096x64, .f32⟩ : BufTy).Contents (Elt F)),
    unary main_arg13 main_v54 ((extractStridedSlice S1x64x64 ![2, 0, 0] · slices_S3x64x64_S1x64x64_2_0_0) : (⟨S3x64x64, .f32⟩ : BufTy).Contents (Elt F) → (⟨S1x64x64, .f32⟩ : BufTy).Contents (Elt F)),
    reshape main_v54 main_v55 rfl shapeCasts_S1x64x64_S64x64,
    unary main_v55 main_v56 ((transpose S64x64 [1, 0] · transposes_S64x64_S64x64_1_0) : (⟨S64x64, .f32⟩ : BufTy).Contents (Elt F) → (⟨S64x64, .f32⟩ : BufTy).Contents (Elt F)),
    binary main_v53 main_v56 main_v57 ((fun l r => Host.dotGeneral dot_S4096x64_S64x64_S4096x64_1_0_0_1_n_n none l r) : (⟨S4096x64, .f32⟩ : BufTy).Contents (Elt F) → (⟨S64x64, .f32⟩ : BufTy).Contents (Elt F) → (⟨S4096x64, .f32⟩ : BufTy).Contents (Elt F)),
    unary main_arg14 main_v58 ((extractStridedSlice S1x64 ![2, 0] · slices_S3x64_S1x64_2_0) : (⟨S3x64, .f32⟩ : BufTy).Contents (Elt F) → (⟨S1x64, .f32⟩ : BufTy).Contents (Elt F)),
    reshape main_v58 main_v59 rfl shapeCasts_S1x64_S64,
    unary main_v59 main_v60 (broadcastInDim S1x64 ![1] bcast_S64_S1x64_1 : (⟨S64, .f32⟩ : BufTy).Contents (Elt F) → (⟨S1x64, .f32⟩ : BufTy).Contents (Elt F)),
    unary main_v60 main_v61 (broadcastInDim S4096x64 ![0, 1] bcast_S1x64_S4096x64_0_1 : (⟨S1x64, .f32⟩ : BufTy).Contents (Elt F) → (⟨S4096x64, .f32⟩ : BufTy).Contents (Elt F)),
    binary main_v57 main_v61 main_v62 (addf : (⟨S4096x64, .f32⟩ : BufTy).Contents (Elt F) → (⟨S4096x64, .f32⟩ : BufTy).Contents (Elt F) → (⟨S4096x64, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S4096x64, .f32⟩) main_call2_v0) (broadcastInDim S4096x64 ![] bcast_S_S4096x64),
    TRef.binary (TRef.of (T := ⟨S4096x64, .f32⟩) main_v62) (TRef.of (T := ⟨S4096x64, .f32⟩) main_call2_v0) (TRef.of (T := ⟨S4096x64, .f32⟩) main_v63) maximumf,
    binary main_arg0 main_v63 main_v64 ((fun l r => Host.dotGeneral dot_S4096x4096_S4096x64_S4096x64_1_0_0_1_n_n none l r) : (⟨S4096x4096, .f32⟩ : BufTy).Contents (Elt F) → (⟨S4096x64, .f32⟩ : BufTy).Contents (Elt F) → (⟨S4096x64, .f32⟩ : BufTy).Contents (Elt F)),
    binary main_v63 main_v64 main_v65 (addf : (⟨S4096x64, .f32⟩ : BufTy).Contents (Elt F) → (⟨S4096x64, .f32⟩ : BufTy).Contents (Elt F) → (⟨S4096x64, .f32⟩ : BufTy).Contents (Elt F)),
    binary main_v65 main_v65 main_v66 (mulf : (⟨S4096x64, .f32⟩ : BufTy).Contents (Elt F) → (⟨S4096x64, .f32⟩ : BufTy).Contents (Elt F) → (⟨S4096x64, .f32⟩ : BufTy).Contents (Elt F)),
    nullary main_cst_6 (constant S_ .f32 0x00000000#32),
    binary main_v66 main_cst_6 main_v67 ((fun x v => Host.reduceAdd x v reducesTo_S4096x64_S4096_d1 h_S_) : (⟨S4096x64, .f32⟩ : BufTy).Contents (Elt F) → (⟨S_, .f32⟩ : BufTy).Contents (Elt F) → (⟨S4096, .f32⟩ : BufTy).Contents (Elt F)),
    unary main_v67 main_v68 (broadcastInDim S4096x1 ![0] bcast_S4096_S4096x1_0 : (⟨S4096, .f32⟩ : BufTy).Contents (Elt F) → (⟨S4096x1, .f32⟩ : BufTy).Contents (Elt F)),
    unary main_v68 main_v69 (Host.sqrt : (⟨S4096x1, .f32⟩ : BufTy).Contents (Elt F) → (⟨S4096x1, .f32⟩ : BufTy).Contents (Elt F)),
    nullary main_cst_7 (constant S_ .f32 0x2B8CBCCC#32),
    unary main_cst_7 main_v70 (broadcastInDim S4096x1 ![] bcast_S_S4096x1 : (⟨S_, .f32⟩ : BufTy).Contents (Elt F) → (⟨S4096x1, .f32⟩ : BufTy).Contents (Elt F)),
    binary main_v69 main_v70 main_v71 (maximumf : (⟨S4096x1, .f32⟩ : BufTy).Contents (Elt F) → (⟨S4096x1, .f32⟩ : BufTy).Contents (Elt F) → (⟨S4096x1, .f32⟩ : BufTy).Contents (Elt F)),
    unary main_v71 main_v72 (broadcastInDim S4096x64 ![0, 1] bcast_S4096x1_S4096x64_0_1 : (⟨S4096x1, .f32⟩ : BufTy).Contents (Elt F) → (⟨S4096x64, .f32⟩ : BufTy).Contents (Elt F)),
    binary main_v65 main_v72 main_v73 (Host.divf : (⟨S4096x64, .f32⟩ : BufTy).Contents (Elt F) → (⟨S4096x64, .f32⟩ : BufTy).Contents (Elt F) → (⟨S4096x64, .f32⟩ : BufTy).Contents (Elt F)),
    unary main_arg13 main_v74 ((extractStridedSlice S1x64x64 ![0, 0, 0] · slices_S3x64x64_S1x64x64_0_0_0) : (⟨S3x64x64, .f32⟩ : BufTy).Contents (Elt F) → (⟨S1x64x64, .f32⟩ : BufTy).Contents (Elt F)),
    reshape main_v74 main_v75 rfl shapeCasts_S1x64x64_S64x64,
    unary main_v75 main_v76 ((transpose S64x64 [1, 0] · transposes_S64x64_S64x64_1_0) : (⟨S64x64, .f32⟩ : BufTy).Contents (Elt F) → (⟨S64x64, .f32⟩ : BufTy).Contents (Elt F)),
    binary main_v13 main_v76 main_v77 ((fun l r => Host.dotGeneral dot_S4096x64_S64x64_S4096x64_1_0_0_1_n_n none l r) : (⟨S4096x64, .f32⟩ : BufTy).Contents (Elt F) → (⟨S64x64, .f32⟩ : BufTy).Contents (Elt F) → (⟨S4096x64, .f32⟩ : BufTy).Contents (Elt F)),
    unary main_arg14 main_v78 ((extractStridedSlice S1x64 ![0, 0] · slices_S3x64_S1x64_0_0) : (⟨S3x64, .f32⟩ : BufTy).Contents (Elt F) → (⟨S1x64, .f32⟩ : BufTy).Contents (Elt F)),
    reshape main_v78 main_v79 rfl shapeCasts_S1x64_S64,
    unary main_v79 main_v80 (broadcastInDim S1x64 ![1] bcast_S64_S1x64_1 : (⟨S64, .f32⟩ : BufTy).Contents (Elt F) → (⟨S1x64, .f32⟩ : BufTy).Contents (Elt F)),
    unary main_v80 main_v81 (broadcastInDim S4096x64 ![0, 1] bcast_S1x64_S4096x64_0_1 : (⟨S1x64, .f32⟩ : BufTy).Contents (Elt F) → (⟨S4096x64, .f32⟩ : BufTy).Contents (Elt F)),
    binary main_v77 main_v81 main_v82 (addf : (⟨S4096x64, .f32⟩ : BufTy).Contents (Elt F) → (⟨S4096x64, .f32⟩ : BufTy).Contents (Elt F) → (⟨S4096x64, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S4096x64, .f32⟩) main_call3_v0) (broadcastInDim S4096x64 ![] bcast_S_S4096x64),
    TRef.binary (TRef.of (T := ⟨S4096x64, .f32⟩) main_v82) (TRef.of (T := ⟨S4096x64, .f32⟩) main_call3_v0) (TRef.of (T := ⟨S4096x64, .f32⟩) main_v83) maximumf,
    binary main_arg1 main_v83 main_v84 ((fun l r => Host.dotGeneral dot_S4096x4096_S4096x64_S4096x64_1_0_0_1_n_n none l r) : (⟨S4096x4096, .f32⟩ : BufTy).Contents (Elt F) → (⟨S4096x64, .f32⟩ : BufTy).Contents (Elt F) → (⟨S4096x64, .f32⟩ : BufTy).Contents (Elt F)),
    binary main_v83 main_v84 main_v85 (addf : (⟨S4096x64, .f32⟩ : BufTy).Contents (Elt F) → (⟨S4096x64, .f32⟩ : BufTy).Contents (Elt F) → (⟨S4096x64, .f32⟩ : BufTy).Contents (Elt F)),
    binary main_v85 main_v85 main_v86 (mulf : (⟨S4096x64, .f32⟩ : BufTy).Contents (Elt F) → (⟨S4096x64, .f32⟩ : BufTy).Contents (Elt F) → (⟨S4096x64, .f32⟩ : BufTy).Contents (Elt F)),
    nullary main_cst_8 (constant S_ .f32 0x00000000#32),
    binary main_v86 main_cst_8 main_v87 ((fun x v => Host.reduceAdd x v reducesTo_S4096x64_S4096_d1 h_S_) : (⟨S4096x64, .f32⟩ : BufTy).Contents (Elt F) → (⟨S_, .f32⟩ : BufTy).Contents (Elt F) → (⟨S4096, .f32⟩ : BufTy).Contents (Elt F)),
    unary main_v87 main_v88 (broadcastInDim S4096x1 ![0] bcast_S4096_S4096x1_0 : (⟨S4096, .f32⟩ : BufTy).Contents (Elt F) → (⟨S4096x1, .f32⟩ : BufTy).Contents (Elt F)),
    unary main_v88 main_v89 (Host.sqrt : (⟨S4096x1, .f32⟩ : BufTy).Contents (Elt F) → (⟨S4096x1, .f32⟩ : BufTy).Contents (Elt F)),
    nullary main_cst_9 (constant S_ .f32 0x2B8CBCCC#32),
    unary main_cst_9 main_v90 (broadcastInDim S4096x1 ![] bcast_S_S4096x1 : (⟨S_, .f32⟩ : BufTy).Contents (Elt F) → (⟨S4096x1, .f32⟩ : BufTy).Contents (Elt F)),
    binary main_v89 main_v90 main_v91 (maximumf : (⟨S4096x1, .f32⟩ : BufTy).Contents (Elt F) → (⟨S4096x1, .f32⟩ : BufTy).Contents (Elt F) → (⟨S4096x1, .f32⟩ : BufTy).Contents (Elt F)),
    unary main_v91 main_v92 (broadcastInDim S4096x64 ![0, 1] bcast_S4096x1_S4096x64_0_1 : (⟨S4096x1, .f32⟩ : BufTy).Contents (Elt F) → (⟨S4096x64, .f32⟩ : BufTy).Contents (Elt F)),
    binary main_v85 main_v92 main_v93 (Host.divf : (⟨S4096x64, .f32⟩ : BufTy).Contents (Elt F) → (⟨S4096x64, .f32⟩ : BufTy).Contents (Elt F) → (⟨S4096x64, .f32⟩ : BufTy).Contents (Elt F)),
    unary main_arg13 main_v94 ((extractStridedSlice S1x64x64 ![1, 0, 0] · slices_S3x64x64_S1x64x64_1_0_0) : (⟨S3x64x64, .f32⟩ : BufTy).Contents (Elt F) → (⟨S1x64x64, .f32⟩ : BufTy).Contents (Elt F)),
    reshape main_v94 main_v95 rfl shapeCasts_S1x64x64_S64x64,
    unary main_v95 main_v96 ((transpose S64x64 [1, 0] · transposes_S64x64_S64x64_1_0) : (⟨S64x64, .f32⟩ : BufTy).Contents (Elt F) → (⟨S64x64, .f32⟩ : BufTy).Contents (Elt F)),
    binary main_v93 main_v96 main_v97 ((fun l r => Host.dotGeneral dot_S4096x64_S64x64_S4096x64_1_0_0_1_n_n none l r) : (⟨S4096x64, .f32⟩ : BufTy).Contents (Elt F) → (⟨S64x64, .f32⟩ : BufTy).Contents (Elt F) → (⟨S4096x64, .f32⟩ : BufTy).Contents (Elt F)),
    unary main_arg14 main_v98 ((extractStridedSlice S1x64 ![1, 0] · slices_S3x64_S1x64_1_0) : (⟨S3x64, .f32⟩ : BufTy).Contents (Elt F) → (⟨S1x64, .f32⟩ : BufTy).Contents (Elt F)),
    reshape main_v98 main_v99 rfl shapeCasts_S1x64_S64,
    unary main_v99 main_v100 (broadcastInDim S1x64 ![1] bcast_S64_S1x64_1 : (⟨S64, .f32⟩ : BufTy).Contents (Elt F) → (⟨S1x64, .f32⟩ : BufTy).Contents (Elt F)),
    unary main_v100 main_v101 (broadcastInDim S4096x64 ![0, 1] bcast_S1x64_S4096x64_0_1 : (⟨S1x64, .f32⟩ : BufTy).Contents (Elt F) → (⟨S4096x64, .f32⟩ : BufTy).Contents (Elt F)),
    binary main_v97 main_v101 main_v102 (addf : (⟨S4096x64, .f32⟩ : BufTy).Contents (Elt F) → (⟨S4096x64, .f32⟩ : BufTy).Contents (Elt F) → (⟨S4096x64, .f32⟩ : BufTy).Contents (Elt F)),
    TRef.nullary (TRef.of (T := ⟨S_, .f32⟩) main_call4_cst) (constant S_ .f32 0x00000000#32),
    TRef.unary (TRef.of (T := ⟨S_, .f32⟩) main_call4_cst) (TRef.of (T := ⟨S4096x64, .f32⟩) main_call4_v0) (broadcastInDim S4096x64 ![] bcast_S_S4096x64),
    TRef.binary (TRef.of (T := ⟨S4096x64, .f32⟩) main_v102) (TRef.of (T := ⟨S4096x64, .f32⟩) main_call4_v0) (TRef.of (T := ⟨S4096x64, .f32⟩) main_v103) maximumf,
    binary main_arg1 main_v103 main_v104 ((fun l r => Host.dotGeneral dot_S4096x4096_S4096x64_S4096x64_1_0_0_1_n_n none l r) : (⟨S4096x4096, .f32⟩ : BufTy).Contents (Elt F) → (⟨S4096x64, .f32⟩ : BufTy).Contents (Elt F) → (⟨S4096x64, .f32⟩ : BufTy).Contents (Elt F)),
    binary main_v103 main_v104 main_v105 (addf : (⟨S4096x64, .f32⟩ : BufTy).Contents (Elt F) → (⟨S4096x64, .f32⟩ : BufTy).Contents (Elt F) → (⟨S4096x64, .f32⟩ : BufTy).Contents (Elt F)),
    binary main_v105 main_v105 main_v106 (mulf : (⟨S4096x64, .f32⟩ : BufTy).Contents (Elt F) → (⟨S4096x64, .f32⟩ : BufTy).Contents (Elt F) → (⟨S4096x64, .f32⟩ : BufTy).Contents (Elt F)),
    nullary main_cst_10 (constant S_ .f32 0x00000000#32),
    binary main_v106 main_cst_10 main_v107 ((fun x v => Host.reduceAdd x v reducesTo_S4096x64_S4096_d1 h_S_) : (⟨S4096x64, .f32⟩ : BufTy).Contents (Elt F) → (⟨S_, .f32⟩ : BufTy).Contents (Elt F) → (⟨S4096, .f32⟩ : BufTy).Contents (Elt F)),
    unary main_v107 main_v108 (broadcastInDim S4096x1 ![0] bcast_S4096_S4096x1_0 : (⟨S4096, .f32⟩ : BufTy).Contents (Elt F) → (⟨S4096x1, .f32⟩ : BufTy).Contents (Elt F)),
    unary main_v108 main_v109 (Host.sqrt : (⟨S4096x1, .f32⟩ : BufTy).Contents (Elt F) → (⟨S4096x1, .f32⟩ : BufTy).Contents (Elt F)),
    nullary main_cst_11 (constant S_ .f32 0x2B8CBCCC#32),
    unary main_cst_11 main_v110 (broadcastInDim S4096x1 ![] bcast_S_S4096x1 : (⟨S_, .f32⟩ : BufTy).Contents (Elt F) → (⟨S4096x1, .f32⟩ : BufTy).Contents (Elt F)),
    binary main_v109 main_v110 main_v111 (maximumf : (⟨S4096x1, .f32⟩ : BufTy).Contents (Elt F) → (⟨S4096x1, .f32⟩ : BufTy).Contents (Elt F) → (⟨S4096x1, .f32⟩ : BufTy).Contents (Elt F)),
    unary main_v111 main_v112 (broadcastInDim S4096x64 ![0, 1] bcast_S4096x1_S4096x64_0_1 : (⟨S4096x1, .f32⟩ : BufTy).Contents (Elt F) → (⟨S4096x64, .f32⟩ : BufTy).Contents (Elt F)),
    binary main_v105 main_v112 main_v113 (Host.divf : (⟨S4096x64, .f32⟩ : BufTy).Contents (Elt F) → (⟨S4096x64, .f32⟩ : BufTy).Contents (Elt F) → (⟨S4096x64, .f32⟩ : BufTy).Contents (Elt F)),
    unary main_arg13 main_v114 ((extractStridedSlice S1x64x64 ![2, 0, 0] · slices_S3x64x64_S1x64x64_2_0_0) : (⟨S3x64x64, .f32⟩ : BufTy).Contents (Elt F) → (⟨S1x64x64, .f32⟩ : BufTy).Contents (Elt F)),
    reshape main_v114 main_v115 rfl shapeCasts_S1x64x64_S64x64,
    unary main_v115 main_v116 ((transpose S64x64 [1, 0] · transposes_S64x64_S64x64_1_0) : (⟨S64x64, .f32⟩ : BufTy).Contents (Elt F) → (⟨S64x64, .f32⟩ : BufTy).Contents (Elt F)),
    binary main_v113 main_v116 main_v117 ((fun l r => Host.dotGeneral dot_S4096x64_S64x64_S4096x64_1_0_0_1_n_n none l r) : (⟨S4096x64, .f32⟩ : BufTy).Contents (Elt F) → (⟨S64x64, .f32⟩ : BufTy).Contents (Elt F) → (⟨S4096x64, .f32⟩ : BufTy).Contents (Elt F)),
    unary main_arg14 main_v118 ((extractStridedSlice S1x64 ![2, 0] · slices_S3x64_S1x64_2_0) : (⟨S3x64, .f32⟩ : BufTy).Contents (Elt F) → (⟨S1x64, .f32⟩ : BufTy).Contents (Elt F)),
    reshape main_v118 main_v119 rfl shapeCasts_S1x64_S64,
    unary main_v119 main_v120 (broadcastInDim S1x64 ![1] bcast_S64_S1x64_1 : (⟨S64, .f32⟩ : BufTy).Contents (Elt F) → (⟨S1x64, .f32⟩ : BufTy).Contents (Elt F)),
    unary main_v120 main_v121 (broadcastInDim S4096x64 ![0, 1] bcast_S1x64_S4096x64_0_1 : (⟨S1x64, .f32⟩ : BufTy).Contents (Elt F) → (⟨S4096x64, .f32⟩ : BufTy).Contents (Elt F)),
    binary main_v117 main_v121 main_v122 (addf : (⟨S4096x64, .f32⟩ : BufTy).Contents (Elt F) → (⟨S4096x64, .f32⟩ : BufTy).Contents (Elt F) → (⟨S4096x64, .f32⟩ : BufTy).Contents (Elt F)),
    TRef.nullary (TRef.of (T := ⟨S_, .f32⟩) main_call5_cst) (constant S_ .f32 0x00000000#32),
    TRef.unary (TRef.of (T := ⟨S_, .f32⟩) main_call5_cst) (TRef.of (T := ⟨S4096x64, .f32⟩) main_call5_v0) (broadcastInDim S4096x64 ![] bcast_S_S4096x64),
    TRef.binary (TRef.of (T := ⟨S4096x64, .f32⟩) main_v122) (TRef.of (T := ⟨S4096x64, .f32⟩) main_call5_v0) (TRef.of (T := ⟨S4096x64, .f32⟩) main_v123) maximumf,
    binary main_arg1 main_v123 main_v124 ((fun l r => Host.dotGeneral dot_S4096x4096_S4096x64_S4096x64_1_0_0_1_n_n none l r) : (⟨S4096x4096, .f32⟩ : BufTy).Contents (Elt F) → (⟨S4096x64, .f32⟩ : BufTy).Contents (Elt F) → (⟨S4096x64, .f32⟩ : BufTy).Contents (Elt F)),
    binary main_v123 main_v124 main_v125 (addf : (⟨S4096x64, .f32⟩ : BufTy).Contents (Elt F) → (⟨S4096x64, .f32⟩ : BufTy).Contents (Elt F) → (⟨S4096x64, .f32⟩ : BufTy).Contents (Elt F)),
    binary main_v125 main_v125 main_v126 (mulf : (⟨S4096x64, .f32⟩ : BufTy).Contents (Elt F) → (⟨S4096x64, .f32⟩ : BufTy).Contents (Elt F) → (⟨S4096x64, .f32⟩ : BufTy).Contents (Elt F)),
    nullary main_cst_12 (constant S_ .f32 0x00000000#32),
    binary main_v126 main_cst_12 main_v127 ((fun x v => Host.reduceAdd x v reducesTo_S4096x64_S4096_d1 h_S_) : (⟨S4096x64, .f32⟩ : BufTy).Contents (Elt F) → (⟨S_, .f32⟩ : BufTy).Contents (Elt F) → (⟨S4096, .f32⟩ : BufTy).Contents (Elt F)),
    unary main_v127 main_v128 (broadcastInDim S4096x1 ![0] bcast_S4096_S4096x1_0 : (⟨S4096, .f32⟩ : BufTy).Contents (Elt F) → (⟨S4096x1, .f32⟩ : BufTy).Contents (Elt F)),
    unary main_v128 main_v129 (Host.sqrt : (⟨S4096x1, .f32⟩ : BufTy).Contents (Elt F) → (⟨S4096x1, .f32⟩ : BufTy).Contents (Elt F)),
    nullary main_cst_13 (constant S_ .f32 0x2B8CBCCC#32),
    unary main_cst_13 main_v130 (broadcastInDim S4096x1 ![] bcast_S_S4096x1 : (⟨S_, .f32⟩ : BufTy).Contents (Elt F) → (⟨S4096x1, .f32⟩ : BufTy).Contents (Elt F)),
    binary main_v129 main_v130 main_v131 (maximumf : (⟨S4096x1, .f32⟩ : BufTy).Contents (Elt F) → (⟨S4096x1, .f32⟩ : BufTy).Contents (Elt F) → (⟨S4096x1, .f32⟩ : BufTy).Contents (Elt F)),
    unary main_v131 main_v132 (broadcastInDim S4096x64 ![0, 1] bcast_S4096x1_S4096x64_0_1 : (⟨S4096x1, .f32⟩ : BufTy).Contents (Elt F) → (⟨S4096x64, .f32⟩ : BufTy).Contents (Elt F)),
    binary main_v125 main_v132 main_v133 (Host.divf : (⟨S4096x64, .f32⟩ : BufTy).Contents (Elt F) → (⟨S4096x64, .f32⟩ : BufTy).Contents (Elt F) → (⟨S4096x64, .f32⟩ : BufTy).Contents (Elt F)),
    nullary main_cst_14 (constant S_ .f32 0x00000000#32),
    unary main_cst_14 main_v134 (broadcastInDim S128x64 ![] bcast_S_S128x64 : (⟨S_, .f32⟩ : BufTy).Contents (Elt F) → (⟨S128x64, .f32⟩ : BufTy).Contents (Elt F)),
    unary main_arg4 main_v135 (broadcastInDim S4096x1 ![0] bcast_S4096_S4096x1_0 : (⟨S4096, .i32⟩ : BufTy).Contents (Elt F) → (⟨S4096x1, .i32⟩ : BufTy).Contents (Elt F)),
    ternary main_v134 main_v135 main_v73 main_v136 ((fun x i u => Host.scatterAdd scatter_S128x64_S4096x1_S4096x64_1_0_0_1 x i u) : (⟨S128x64, .f32⟩ : BufTy).Contents (Elt F) → (⟨S4096x1, .i32⟩ : BufTy).Contents (Elt F) → (⟨S4096x64, .f32⟩ : BufTy).Contents (Elt F) → (⟨S128x64, .f32⟩ : BufTy).Contents (Elt F)),
    nullary main_cst_15 (constant S_ .f32 0x00000000#32),
    unary main_cst_15 main_v137 (broadcastInDim S128x64 ![] bcast_S_S128x64 : (⟨S_, .f32⟩ : BufTy).Contents (Elt F) → (⟨S128x64, .f32⟩ : BufTy).Contents (Elt F)),
    unary main_arg5 main_v138 (broadcastInDim S4096x1 ![0] bcast_S4096_S4096x1_0 : (⟨S4096, .i32⟩ : BufTy).Contents (Elt F) → (⟨S4096x1, .i32⟩ : BufTy).Contents (Elt F)),
    ternary main_v137 main_v138 main_v133 main_v139 ((fun x i u => Host.scatterAdd scatter_S128x64_S4096x1_S4096x64_1_0_0_1 x i u) : (⟨S128x64, .f32⟩ : BufTy).Contents (Elt F) → (⟨S4096x1, .i32⟩ : BufTy).Contents (Elt F) → (⟨S4096x64, .f32⟩ : BufTy).Contents (Elt F) → (⟨S128x64, .f32⟩ : BufTy).Contents (Elt F)),
    nary ![main_v136, main_arg6, main_arg7, main_v139, main_arg8, main_arg9, main_arg10] main_v140 (fun u => concatenate S128x187 1 [⟨S128x64, u 0⟩, ⟨S128x1, u 1⟩, ⟨S128x1, u 2⟩, ⟨S128x64, u 3⟩, ⟨S128x1, u 4⟩, ⟨S128x1, u 5⟩, ⟨S128x55, u 6⟩] concatenates_S128x64_S128x1_S128x1_S128x64_S128x1_S128x1_S128x55_S128x187_d1),
    unary main_arg15 main_v141 ((extractStridedSlice S1x187x187 ![0, 0, 0] · slices_S2x187x187_S1x187x187_0_0_0) : (⟨S2x187x187, .f32⟩ : BufTy).Contents (Elt F) → (⟨S1x187x187, .f32⟩ : BufTy).Contents (Elt F)),
    reshape main_v141 main_v142 rfl shapeCasts_S1x187x187_S187x187,
    unary main_v142 main_v143 ((transpose S187x187 [1, 0] · transposes_S187x187_S187x187_1_0) : (⟨S187x187, .f32⟩ : BufTy).Contents (Elt F) → (⟨S187x187, .f32⟩ : BufTy).Contents (Elt F)),
    binary main_v140 main_v143 main_v144 ((fun l r => Host.dotGeneral dot_S128x187_S187x187_S128x187_1_0_0_1_n_n none l r) : (⟨S128x187, .f32⟩ : BufTy).Contents (Elt F) → (⟨S187x187, .f32⟩ : BufTy).Contents (Elt F) → (⟨S128x187, .f32⟩ : BufTy).Contents (Elt F)),
    unary main_arg16 main_v145 ((extractStridedSlice S1x187 ![0, 0] · slices_S2x187_S1x187_0_0) : (⟨S2x187, .f32⟩ : BufTy).Contents (Elt F) → (⟨S1x187, .f32⟩ : BufTy).Contents (Elt F)),
    reshape main_v145 main_v146 rfl shapeCasts_S1x187_S187,
    unary main_v146 main_v147 (broadcastInDim S1x187 ![1] bcast_S187_S1x187_1 : (⟨S187, .f32⟩ : BufTy).Contents (Elt F) → (⟨S1x187, .f32⟩ : BufTy).Contents (Elt F)),
    unary main_v147 main_v148 (broadcastInDim S128x187 ![0, 1] bcast_S1x187_S128x187_0_1 : (⟨S1x187, .f32⟩ : BufTy).Contents (Elt F) → (⟨S128x187, .f32⟩ : BufTy).Contents (Elt F)),
    binary main_v144 main_v148 main_v149 (addf : (⟨S128x187, .f32⟩ : BufTy).Contents (Elt F) → (⟨S128x187, .f32⟩ : BufTy).Contents (Elt F) → (⟨S128x187, .f32⟩ : BufTy).Contents (Elt F)),
    TRef.nullary (TRef.of (T := ⟨S_, .f32⟩) main_call6_cst) (constant S_ .f32 0x00000000#32),
    TRef.unary (TRef.of (T := ⟨S_, .f32⟩) main_call6_cst) (TRef.of (T := ⟨S128x187, .f32⟩) main_call6_v0) (broadcastInDim S128x187 ![] bcast_S_S128x187),
    TRef.binary (TRef.of (T := ⟨S128x187, .f32⟩) main_v149) (TRef.of (T := ⟨S128x187, .f32⟩) main_call6_v0) (TRef.of (T := ⟨S128x187, .f32⟩) main_v150) maximumf,
    unary main_arg15 main_v151 ((extractStridedSlice S1x187x187 ![1, 0, 0] · slices_S2x187x187_S1x187x187_1_0_0) : (⟨S2x187x187, .f32⟩ : BufTy).Contents (Elt F) → (⟨S1x187x187, .f32⟩ : BufTy).Contents (Elt F)),
    reshape main_v151 main_v152 rfl shapeCasts_S1x187x187_S187x187,
    unary main_v152 main_v153 ((transpose S187x187 [1, 0] · transposes_S187x187_S187x187_1_0) : (⟨S187x187, .f32⟩ : BufTy).Contents (Elt F) → (⟨S187x187, .f32⟩ : BufTy).Contents (Elt F)),
    binary main_v150 main_v153 main_v154 ((fun l r => Host.dotGeneral dot_S128x187_S187x187_S128x187_1_0_0_1_n_n none l r) : (⟨S128x187, .f32⟩ : BufTy).Contents (Elt F) → (⟨S187x187, .f32⟩ : BufTy).Contents (Elt F) → (⟨S128x187, .f32⟩ : BufTy).Contents (Elt F)),
    unary main_arg16 main_v155 ((extractStridedSlice S1x187 ![1, 0] · slices_S2x187_S1x187_1_0) : (⟨S2x187, .f32⟩ : BufTy).Contents (Elt F) → (⟨S1x187, .f32⟩ : BufTy).Contents (Elt F)),
    reshape main_v155 main_v156 rfl shapeCasts_S1x187_S187,
    unary main_v156 main_v157 (broadcastInDim S1x187 ![1] bcast_S187_S1x187_1 : (⟨S187, .f32⟩ : BufTy).Contents (Elt F) → (⟨S1x187, .f32⟩ : BufTy).Contents (Elt F)),
    unary main_v157 main_v158 (broadcastInDim S128x187 ![0, 1] bcast_S1x187_S128x187_0_1 : (⟨S1x187, .f32⟩ : BufTy).Contents (Elt F) → (⟨S128x187, .f32⟩ : BufTy).Contents (Elt F)),
    binary main_v154 main_v158 main_v159 (addf : (⟨S128x187, .f32⟩ : BufTy).Contents (Elt F) → (⟨S128x187, .f32⟩ : BufTy).Contents (Elt F) → (⟨S128x187, .f32⟩ : BufTy).Contents (Elt F)),
    TRef.nullary (TRef.of (T := ⟨S_, .f32⟩) main_call7_cst) (constant S_ .f32 0x00000000#32),
    TRef.unary (TRef.of (T := ⟨S_, .f32⟩) main_call7_cst) (TRef.of (T := ⟨S128x187, .f32⟩) main_call7_v0) (broadcastInDim S128x187 ![] bcast_S_S128x187),
    TRef.binary (TRef.of (T := ⟨S128x187, .f32⟩) main_v159) (TRef.of (T := ⟨S128x187, .f32⟩) main_call7_v0) (TRef.of (T := ⟨S128x187, .f32⟩) main_v160) maximumf,
    unary main_arg17 main_v161 ((transpose S187x1 [1, 0] · transposes_S1x187_S187x1_1_0) : (⟨S1x187, .f32⟩ : BufTy).Contents (Elt F) → (⟨S187x1, .f32⟩ : BufTy).Contents (Elt F)),
    binary main_v160 main_v161 main_v162 ((fun l r => Host.dotGeneral dot_S128x187_S187x1_S128x1_1_0_0_1_n_n none l r) : (⟨S128x187, .f32⟩ : BufTy).Contents (Elt F) → (⟨S187x1, .f32⟩ : BufTy).Contents (Elt F) → (⟨S128x1, .f32⟩ : BufTy).Contents (Elt F)),
    unary main_arg18 main_v163 (broadcastInDim S1x1 ![1] bcast_S1_S1x1_1 : (⟨S1, .f32⟩ : BufTy).Contents (Elt F) → (⟨S1x1, .f32⟩ : BufTy).Contents (Elt F)),
    unary main_v163 main_v164 (broadcastInDim S128x1 ![0, 1] bcast_S1x1_S128x1_0_1 : (⟨S1x1, .f32⟩ : BufTy).Contents (Elt F) → (⟨S128x1, .f32⟩ : BufTy).Contents (Elt F)),
    binary main_v162 main_v164 main_v165 (addf : (⟨S128x1, .f32⟩ : BufTy).Contents (Elt F) → (⟨S128x1, .f32⟩ : BufTy).Contents (Elt F) → (⟨S128x1, .f32⟩ : BufTy).Contents (Elt F)),
    binary main_v165 main_arg11 main_v166 (subf : (⟨S128x1, .f32⟩ : BufTy).Contents (Elt F) → (⟨S128x1, .f32⟩ : BufTy).Contents (Elt F) → (⟨S128x1, .f32⟩ : BufTy).Contents (Elt F)),
    binary main_v166 main_v166 main_v167 (mulf : (⟨S128x1, .f32⟩ : BufTy).Contents (Elt F) → (⟨S128x1, .f32⟩ : BufTy).Contents (Elt F) → (⟨S128x1, .f32⟩ : BufTy).Contents (Elt F)),
    nullary main_cst_16 (constant S_ .f32 0x00000000#32),
    binary main_v167 main_cst_16 main_v168 ((fun x v => Host.reduceAdd x v reducesTo_S128x1_S_d0_1 h_S_) : (⟨S128x1, .f32⟩ : BufTy).Contents (Elt F) → (⟨S_, .f32⟩ : BufTy).Contents (Elt F) → (⟨S_, .f32⟩ : BufTy).Contents (Elt F)),
    nullary main_cst_17 (constant S_ .f32 0x43000000#32),
    binary main_v168 main_cst_17 main_v169 (Host.divf : (⟨S_, .f32⟩ : BufTy).Contents (Elt F) → (⟨S_, .f32⟩ : BufTy).Contents (Elt F) → (⟨S_, .f32⟩ : BufTy).Contents (Elt F)) ]

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., unary_bufs_sub .., binary_bufs_sub .., unary_bufs_sub .., reshape_bufs_sub .., unary_bufs_sub .., unary_bufs_sub .., binary_bufs_sub .., nullary_bufs_sub .., unary_bufs_sub .., binary_bufs_sub .., binary_bufs_sub .., binary_bufs_sub .., binary_bufs_sub .., nullary_bufs_sub .., binary_bufs_sub .., unary_bufs_sub .., unary_bufs_sub .., nullary_bufs_sub .., unary_bufs_sub .., binary_bufs_sub .., unary_bufs_sub .., binary_bufs_sub .., unary_bufs_sub .., reshape_bufs_sub .., unary_bufs_sub .., binary_bufs_sub .., unary_bufs_sub .., reshape_bufs_sub .., unary_bufs_sub .., unary_bufs_sub .., binary_bufs_sub .., nullary_bufs_sub .., unary_bufs_sub .., binary_bufs_sub .., binary_bufs_sub .., binary_bufs_sub .., binary_bufs_sub .., nullary_bufs_sub .., binary_bufs_sub .., unary_bufs_sub .., unary_bufs_sub .., nullary_bufs_sub .., unary_bufs_sub .., binary_bufs_sub .., unary_bufs_sub .., binary_bufs_sub .., unary_bufs_sub .., reshape_bufs_sub .., unary_bufs_sub .., binary_bufs_sub .., unary_bufs_sub .., reshape_bufs_sub .., unary_bufs_sub .., unary_bufs_sub .., binary_bufs_sub .., nullary_bufs_sub .., unary_bufs_sub .., binary_bufs_sub .., binary_bufs_sub .., binary_bufs_sub .., binary_bufs_sub .., nullary_bufs_sub .., binary_bufs_sub .., unary_bufs_sub .., unary_bufs_sub .., nullary_bufs_sub .., unary_bufs_sub .., binary_bufs_sub .., unary_bufs_sub .., binary_bufs_sub .., unary_bufs_sub .., reshape_bufs_sub .., unary_bufs_sub .., binary_bufs_sub .., unary_bufs_sub .., reshape_bufs_sub .., unary_bufs_sub .., unary_bufs_sub .., binary_bufs_sub .., nullary_bufs_sub .., unary_bufs_sub .., binary_bufs_sub .., binary_bufs_sub .., binary_bufs_sub .., binary_bufs_sub .., nullary_bufs_sub .., binary_bufs_sub .., unary_bufs_sub .., unary_bufs_sub .., nullary_bufs_sub .., unary_bufs_sub .., binary_bufs_sub .., unary_bufs_sub .., binary_bufs_sub .., unary_bufs_sub .., reshape_bufs_sub .., unary_bufs_sub .., binary_bufs_sub .., unary_bufs_sub .., reshape_bufs_sub .., unary_bufs_sub .., unary_bufs_sub .., binary_bufs_sub .., nullary_bufs_sub .., unary_bufs_sub .., binary_bufs_sub .., binary_bufs_sub .., binary_bufs_sub .., binary_bufs_sub .., nullary_bufs_sub .., binary_bufs_sub .., unary_bufs_sub .., unary_bufs_sub .., nullary_bufs_sub .., unary_bufs_sub .., binary_bufs_sub .., unary_bufs_sub .., binary_bufs_sub .., unary_bufs_sub .., reshape_bufs_sub .., unary_bufs_sub .., binary_bufs_sub .., unary_bufs_sub .., reshape_bufs_sub .., unary_bufs_sub .., unary_bufs_sub .., binary_bufs_sub .., nullary_bufs_sub .., unary_bufs_sub .., binary_bufs_sub .., binary_bufs_sub .., binary_bufs_sub .., binary_bufs_sub .., nullary_bufs_sub .., binary_bufs_sub .., unary_bufs_sub .., unary_bufs_sub .., nullary_bufs_sub .., unary_bufs_sub .., binary_bufs_sub .., unary_bufs_sub .., binary_bufs_sub .., nullary_bufs_sub .., unary_bufs_sub .., unary_bufs_sub .., ternary_bufs_sub .., nullary_bufs_sub .., unary_bufs_sub .., unary_bufs_sub .., ternary_bufs_sub .., nary_bufs_sub .., unary_bufs_sub .., reshape_bufs_sub .., unary_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., unary_bufs_sub .., binary_bufs_sub .., unary_bufs_sub .., reshape_bufs_sub .., unary_bufs_sub .., unary_bufs_sub .., binary_bufs_sub .., nullary_bufs_sub .., unary_bufs_sub .., binary_bufs_sub .., unary_bufs_sub .., binary_bufs_sub .., unary_bufs_sub .., unary_bufs_sub .., binary_bufs_sub .., binary_bufs_sub .., binary_bufs_sub .., nullary_bufs_sub .., binary_bufs_sub .., nullary_bufs_sub .., binary_bufs_sub ..⟩

/-- On every device, from any memory with zero counters: every weakly fair execution terminates, and every final state has
    each buffer at the fold of the operations' results over its launch contents. -/
theorem run_after (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc), r.2.mem ((d.tc : Thread nD τ).loc b) = after (ops (F := F)) (launchContents m d) (Proc.devRef .tc b) :=
  run_seq scopedRefs_eq scopedSems_eq defs main (fun _ => ops) main_eq (fun _ => ops_sub) m ρ

end Cert.ReferenceIdeal.RefRun

end
-- ==== Proof.RefChunks.lean ====
/- The reference program's 206 host operations cut into nine stretches in order — the two gathers, the donor side's three
   rounds, the acceptor side's three rounds, the closing operations —, the list IS the stretches in a row, and per stretch
   the references its operations write (so that any other buffer is the same before and after the stretch). -/
import proofs.«116553_j65369402245720_2_alg».proof.Proof.RefOps
import Idealize.ShloMosaic.PureOps.Ideal

set_option maxRecDepth 8192

noncomputable section

namespace Cert.ReferenceIdeal.RefChunks

open Cert.ReferenceIdeal Cert.ReferenceIdeal.Gen Idealize.ShloMosaic Idealize.ShloMosaic.TcCoe Idealize.SL.Sem Idealize.ShloMosaic.StableHlo

variable {F : FTy → Type} [FloatOps F]

abbrev cG0 : List (HloOp τ sig (Elt F)) :=
  [ nullary main_c (constantI S_ 32 0#32),
    unary main_c main_v0 (broadcastInDim S4096 ![] bcast_S_S4096 : (⟨S_, .i32⟩ : BufTy).Contents (Elt F) → (⟨S4096, .i32⟩ : BufTy).Contents (Elt F)),
    binary main_arg2 main_v0 main_v1 (cmpi .slt : (⟨S4096, .i32⟩ : BufTy).Contents (Elt F) → (⟨S4096, .i32⟩ : BufTy).Contents (Elt F) → (⟨S4096, .i1⟩ : BufTy).Contents (Elt F)),
    nullary main_c_0 (constantI S_ 32 10000#32),
    unary main_c_0 main_v2 (broadcastInDim S4096 ![] bcast_S_S4096 : (⟨S_, .i32⟩ : BufTy).Contents (Elt F) → (⟨S4096, .i32⟩ : BufTy).Contents (Elt F)),
    binary main_arg2 main_v2 main_v3 (addi : (⟨S4096, .i32⟩ : BufTy).Contents (Elt F) → (⟨S4096, .i32⟩ : BufTy).Contents (Elt F) → (⟨S4096, .i32⟩ : BufTy).Contents (Elt F)),
    ternary main_v1 main_v3 main_arg2 main_v4 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    unary main_v4 main_v5 (broadcastInDim S4096x1 ![0] bcast_S4096_S4096x1_0 : (⟨S4096, .i32⟩ : BufTy).Contents (Elt F) → (⟨S4096x1, .i32⟩ : BufTy).Contents (Elt F)),
    binary main_arg12 main_v5 main_v6 ((fun x i => Host.gather gather_S10000x64_S4096x1_S4096x64_1_0_n_n_0_1_164 x i) : (⟨S10000x64, .f32⟩ : BufTy).Contents (Elt F) → (⟨S4096x1, .i32⟩ : BufTy).Contents (Elt F) → (⟨S4096x64, .f32⟩ : BufTy).Contents (Elt F)) ]
abbrev cG0_W : List (Ref sig .tc) := [main_c, main_v0, main_v1, main_c_0, main_v2, main_v3, main_v4, main_v5, main_v6]
theorem cG0_writes : (cG0 : List (HloOp τ sig (Elt F))).Forall fun op => op.writes ⊆ ((cG0_W).map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩

abbrev cG1 : List (HloOp τ sig (Elt F)) :=
  [ nullary main_c_1 (constantI S_ 32 0#32),
    unary main_c_1 main_v7 (broadcastInDim S4096 ![] bcast_S_S4096 : (⟨S_, .i32⟩ : BufTy).Contents (Elt F) → (⟨S4096, .i32⟩ : BufTy).Contents (Elt F)),
    binary main_arg3 main_v7 main_v8 (cmpi .slt : (⟨S4096, .i32⟩ : BufTy).Contents (Elt F) → (⟨S4096, .i32⟩ : BufTy).Contents (Elt F) → (⟨S4096, .i1⟩ : BufTy).Contents (Elt F)),
    nullary main_c_2 (constantI S_ 32 10000#32),
    unary main_c_2 main_v9 (broadcastInDim S4096 ![] bcast_S_S4096 : (⟨S_, .i32⟩ : BufTy).Contents (Elt F) → (⟨S4096, .i32⟩ : BufTy).Contents (Elt F)),
    binary main_arg3 main_v9 main_v10 (addi : (⟨S4096, .i32⟩ : BufTy).Contents (Elt F) → (⟨S4096, .i32⟩ : BufTy).Contents (Elt F) → (⟨S4096, .i32⟩ : BufTy).Contents (Elt F)),
    ternary main_v8 main_v10 main_arg3 main_v11 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    unary main_v11 main_v12 (broadcastInDim S4096x1 ![0] bcast_S4096_S4096x1_0 : (⟨S4096, .i32⟩ : BufTy).Contents (Elt F) → (⟨S4096x1, .i32⟩ : BufTy).Contents (Elt F)),
    binary main_arg12 main_v12 main_v13 ((fun x i => Host.gather gather_S10000x64_S4096x1_S4096x64_1_0_n_n_0_1_164 x i) : (⟨S10000x64, .f32⟩ : BufTy).Contents (Elt F) → (⟨S4096x1, .i32⟩ : BufTy).Contents (Elt F) → (⟨S4096x64, .f32⟩ : BufTy).Contents (Elt F)) ]
abbrev cG1_W : List (Ref sig .tc) := [main_c_1, main_v7, main_v8, main_c_2, main_v9, main_v10, main_v11, main_v12, main_v13]
theorem cG1_writes : (cG1 : List (HloOp τ sig (Elt F))).Forall fun op => op.writes ⊆ ((cG1_W).map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩

abbrev cD1 : List (HloOp τ sig (Elt F)) :=
  [ unary main_arg13 main_v14 ((extractStridedSlice S1x64x64 ![0, 0, 0] · slices_S3x64x64_S1x64x64_0_0_0) : (⟨S3x64x64, .f32⟩ : BufTy).Contents (Elt F) → (⟨S1x64x64, .f32⟩ : BufTy).Contents (Elt F)),
    reshape main_v14 main_v15 rfl shapeCasts_S1x64x64_S64x64,
    unary main_v15 main_v16 ((transpose S64x64 [1, 0] · transposes_S64x64_S64x64_1_0) : (⟨S64x64, .f32⟩ : BufTy).Contents (Elt F) → (⟨S64x64, .f32⟩ : BufTy).Contents (Elt F)),
    binary main_v6 main_v16 main_v17 ((fun l r => Host.dotGeneral dot_S4096x64_S64x64_S4096x64_1_0_0_1_n_n none l r) : (⟨S4096x64, .f32⟩ : BufTy).Contents (Elt F) → (⟨S64x64, .f32⟩ : BufTy).Contents (Elt F) → (⟨S4096x64, .f32⟩ : BufTy).Contents (Elt F)),
    unary main_arg14 main_v18 ((extractStridedSlice S1x64 ![0, 0] · slices_S3x64_S1x64_0_0) : (⟨S3x64, .f32⟩ : BufTy).Contents (Elt F) → (⟨S1x64, .f32⟩ : BufTy).Contents (Elt F)),
    reshape main_v18 main_v19 rfl shapeCasts_S1x64_S64,
    unary main_v19 main_v20 (broadcastInDim S1x64 ![1] bcast_S64_S1x64_1 : (⟨S64, .f32⟩ : BufTy).Contents (Elt F) → (⟨S1x64, .f32⟩ : BufTy).Contents (Elt F)),
    unary main_v20 main_v21 (broadcastInDim S4096x64 ![0, 1] bcast_S1x64_S4096x64_0_1 : (⟨S1x64, .f32⟩ : BufTy).Contents (Elt F) → (⟨S4096x64, .f32⟩ : BufTy).Contents (Elt F)),
    binary main_v17 main_v21 main_v22 (addf : (⟨S4096x64, .f32⟩ : BufTy).Contents (Elt F) → (⟨S4096x64, .f32⟩ : BufTy).Contents (Elt F) → (⟨S4096x64, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S4096x64, .f32⟩) main_call0_v0) (broadcastInDim S4096x64 ![] bcast_S_S4096x64),
    TRef.binary (TRef.of (T := ⟨S4096x64, .f32⟩) main_v22) (TRef.of (T := ⟨S4096x64, .f32⟩) main_call0_v0) (TRef.of (T := ⟨S4096x64, .f32⟩) main_v23) maximumf,
    binary main_arg0 main_v23 main_v24 ((fun l r => Host.dotGeneral dot_S4096x4096_S4096x64_S4096x64_1_0_0_1_n_n none l r) : (⟨S4096x4096, .f32⟩ : BufTy).Contents (Elt F) → (⟨S4096x64, .f32⟩ : BufTy).Contents (Elt F) → (⟨S4096x64, .f32⟩ : BufTy).Contents (Elt F)),
    binary main_v23 main_v24 main_v25 (addf : (⟨S4096x64, .f32⟩ : BufTy).Contents (Elt F) → (⟨S4096x64, .f32⟩ : BufTy).Contents (Elt F) → (⟨S4096x64, .f32⟩ : BufTy).Contents (Elt F)),
    binary main_v25 main_v25 main_v26 (mulf : (⟨S4096x64, .f32⟩ : BufTy).Contents (Elt F) → (⟨S4096x64, .f32⟩ : BufTy).Contents (Elt F) → (⟨S4096x64, .f32⟩ : BufTy).Contents (Elt F)),
    nullary main_cst (constant S_ .f32 0x00000000#32),
    binary main_v26 main_cst main_v27 ((fun x v => Host.reduceAdd x v reducesTo_S4096x64_S4096_d1 h_S_) : (⟨S4096x64, .f32⟩ : BufTy).Contents (Elt F) → (⟨S_, .f32⟩ : BufTy).Contents (Elt F) → (⟨S4096, .f32⟩ : BufTy).Contents (Elt F)),
    unary main_v27 main_v28 (broadcastInDim S4096x1 ![0] bcast_S4096_S4096x1_0 : (⟨S4096, .f32⟩ : BufTy).Contents (Elt F) → (⟨S4096x1, .f32⟩ : BufTy).Contents (Elt F)),
    unary main_v28 main_v29 (Host.sqrt : (⟨S4096x1, .f32⟩ : BufTy).Contents (Elt F) → (⟨S4096x1, .f32⟩ : BufTy).Contents (Elt F)),
    nullary main_cst_3 (constant S_ .f32 0x2B8CBCCC#32),
    unary main_cst_3 main_v30 (broadcastInDim S4096x1 ![] bcast_S_S4096x1 : (⟨S_, .f32⟩ : BufTy).Contents (Elt F) → (⟨S4096x1, .f32⟩ : BufTy).Contents (Elt F)),
    binary main_v29 main_v30 main_v31 (maximumf : (⟨S4096x1, .f32⟩ : BufTy).Contents (Elt F) → (⟨S4096x1, .f32⟩ : BufTy).Contents (Elt F) → (⟨S4096x1, .f32⟩ : BufTy).Contents (Elt F)),
    unary main_v31 main_v32 (broadcastInDim S4096x64 ![0, 1] bcast_S4096x1_S4096x64_0_1 : (⟨S4096x1, .f32⟩ : BufTy).Contents (Elt F) → (⟨S4096x64, .f32⟩ : BufTy).Contents (Elt F)),
    binary main_v25 main_v32 main_v33 (Host.divf : (⟨S4096x64, .f32⟩ : BufTy).Contents (Elt F) → (⟨S4096x64, .f32⟩ : BufTy).Contents (Elt F) → (⟨S4096x64, .f32⟩ : BufTy).Contents (Elt F)) ]
abbrev cD1_W : List (Ref sig .tc) := [main_v14, main_v15, main_v16, main_v17, main_v18, main_v19, main_v20, main_v21, main_v22, main_call0_cst, main_call0_v0, main_v23, main_v24, main_v25, main_v26, main_cst, main_v27, main_v28, main_v29, main_cst_3, main_v30, main_v31, main_v32, main_v33]
theorem cD1_writes : (cD1 : List (HloOp τ sig (Elt F))).Forall fun op => op.writes ⊆ ((cD1_W).map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩

abbrev cD2 : List (HloOp τ sig (Elt F)) :=
  [ unary main_arg13 main_v34 ((extractStridedSlice S1x64x64 ![1, 0, 0] · slices_S3x64x64_S1x64x64_1_0_0) : (⟨S3x64x64, .f32⟩ : BufTy).Contents (Elt F) → (⟨S1x64x64, .f32⟩ : BufTy).Contents (Elt F)),
    reshape main_v34 main_v35 rfl shapeCasts_S1x64x64_S64x64,
    unary main_v35 main_v36 ((transpose S64x64 [1, 0] · transposes_S64x64_S64x64_1_0) : (⟨S64x64, .f32⟩ : BufTy).Contents (Elt F) → (⟨S64x64, .f32⟩ : BufTy).Contents (Elt F)),
    binary main_v33 main_v36 main_v37 ((fun l r => Host.dotGeneral dot_S4096x64_S64x64_S4096x64_1_0_0_1_n_n none l r) : (⟨S4096x64, .f32⟩ : BufTy).Contents (Elt F) → (⟨S64x64, .f32⟩ : BufTy).Contents (Elt F) → (⟨S4096x64, .f32⟩ : BufTy).Contents (Elt F)),
    unary main_arg14 main_v38 ((extractStridedSlice S1x64 ![1, 0] · slices_S3x64_S1x64_1_0) : (⟨S3x64, .f32⟩ : BufTy).Contents (Elt F) → (⟨S1x64, .f32⟩ : BufTy).Contents (Elt F)),
    reshape main_v38 main_v39 rfl shapeCasts_S1x64_S64,
    unary main_v39 main_v40 (broadcastInDim S1x64 ![1] bcast_S64_S1x64_1 : (⟨S64, .f32⟩ : BufTy).Contents (Elt F) → (⟨S1x64, .f32⟩ : BufTy).Contents (Elt F)),
    unary main_v40 main_v41 (broadcastInDim S4096x64 ![0, 1] bcast_S1x64_S4096x64_0_1 : (⟨S1x64, .f32⟩ : BufTy).Contents (Elt F) → (⟨S4096x64, .f32⟩ : BufTy).Contents (Elt F)),
    binary main_v37 main_v41 main_v42 (addf : (⟨S4096x64, .f32⟩ : BufTy).Contents (Elt F) → (⟨S4096x64, .f32⟩ : BufTy).Contents (Elt F) → (⟨S4096x64, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S4096x64, .f32⟩) main_call1_v0) (broadcastInDim S4096x64 ![] bcast_S_S4096x64),
    TRef.binary (TRef.of (T := ⟨S4096x64, .f32⟩) main_v42) (TRef.of (T := ⟨S4096x64, .f32⟩) main_call1_v0) (TRef.of (T := ⟨S4096x64, .f32⟩) main_v43) maximumf,
    binary main_arg0 main_v43 main_v44 ((fun l r => Host.dotGeneral dot_S4096x4096_S4096x64_S4096x64_1_0_0_1_n_n none l r) : (⟨S4096x4096, .f32⟩ : BufTy).Contents (Elt F) → (⟨S4096x64, .f32⟩ : BufTy).Contents (Elt F) → (⟨S4096x64, .f32⟩ : BufTy).Contents (Elt F)),
    binary main_v43 main_v44 main_v45 (addf : (⟨S4096x64, .f32⟩ : BufTy).Contents (Elt F) → (⟨S4096x64, .f32⟩ : BufTy).Contents (Elt F) → (⟨S4096x64, .f32⟩ : BufTy).Contents (Elt F)),
    binary main_v45 main_v45 main_v46 (mulf : (⟨S4096x64, .f32⟩ : BufTy).Contents (Elt F) → (⟨S4096x64, .f32⟩ : BufTy).Contents (Elt F) → (⟨S4096x64, .f32⟩ : BufTy).Contents (Elt F)),
    nullary main_cst_4 (constant S_ .f32 0x00000000#32),
    binary main_v46 main_cst_4 main_v47 ((fun x v => Host.reduceAdd x v reducesTo_S4096x64_S4096_d1 h_S_) : (⟨S4096x64, .f32⟩ : BufTy).Contents (Elt F) → (⟨S_, .f32⟩ : BufTy).Contents (Elt F) → (⟨S4096, .f32⟩ : BufTy).Contents (Elt F)),
    unary main_v47 main_v48 (broadcastInDim S4096x1 ![0] bcast_S4096_S4096x1_0 : (⟨S4096, .f32⟩ : BufTy).Contents (Elt F) → (⟨S4096x1, .f32⟩ : BufTy).Contents (Elt F)),
    unary main_v48 main_v49 (Host.sqrt : (⟨S4096x1, .f32⟩ : BufTy).Contents (Elt F) → (⟨S4096x1, .f32⟩ : BufTy).Contents (Elt F)),
    nullary main_cst_5 (constant S_ .f32 0x2B8CBCCC#32),
    unary main_cst_5 main_v50 (broadcastInDim S4096x1 ![] bcast_S_S4096x1 : (⟨S_, .f32⟩ : BufTy).Contents (Elt F) → (⟨S4096x1, .f32⟩ : BufTy).Contents (Elt F)),
    binary main_v49 main_v50 main_v51 (maximumf : (⟨S4096x1, .f32⟩ : BufTy).Contents (Elt F) → (⟨S4096x1, .f32⟩ : BufTy).Contents (Elt F) → (⟨S4096x1, .f32⟩ : BufTy).Contents (Elt F)),
    unary main_v51 main_v52 (broadcastInDim S4096x64 ![0, 1] bcast_S4096x1_S4096x64_0_1 : (⟨S4096x1, .f32⟩ : BufTy).Contents (Elt F) → (⟨S4096x64, .f32⟩ : BufTy).Contents (Elt F)),
    binary main_v45 main_v52 main_v53 (Host.divf : (⟨S4096x64, .f32⟩ : BufTy).Contents (Elt F) → (⟨S4096x64, .f32⟩ : BufTy).Contents (Elt F) → (⟨S4096x64, .f32⟩ : BufTy).Contents (Elt F)) ]
abbrev cD2_W : List (Ref sig .tc) := [main_v34, main_v35, main_v36, main_v37, main_v38, main_v39, main_v40, main_v41, main_v42, main_call1_cst, main_call1_v0, main_v43, main_v44, main_v45, main_v46, main_cst_4, main_v47, main_v48, main_v49, main_cst_5, main_v50, main_v51, main_v52, main_v53]
theorem cD2_writes : (cD2 : List (HloOp τ sig (Elt F))).Forall fun op => op.writes ⊆ ((cD2_W).map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩

abbrev cD3 : List (HloOp τ sig (Elt F)) :=
  [ unary main_arg13 main_v54 ((extractStridedSlice S1x64x64 ![2, 0, 0] · slices_S3x64x64_S1x64x64_2_0_0) : (⟨S3x64x64, .f32⟩ : BufTy).Contents (Elt F) → (⟨S1x64x64, .f32⟩ : BufTy).Contents (Elt F)),
    reshape main_v54 main_v55 rfl shapeCasts_S1x64x64_S64x64,
    unary main_v55 main_v56 ((transpose S64x64 [1, 0] · transposes_S64x64_S64x64_1_0) : (⟨S64x64, .f32⟩ : BufTy).Contents (Elt F) → (⟨S64x64, .f32⟩ : BufTy).Contents (Elt F)),
    binary main_v53 main_v56 main_v57 ((fun l r => Host.dotGeneral dot_S4096x64_S64x64_S4096x64_1_0_0_1_n_n none l r) : (⟨S4096x64, .f32⟩ : BufTy).Contents (Elt F) → (⟨S64x64, .f32⟩ : BufTy).Contents (Elt F) → (⟨S4096x64, .f32⟩ : BufTy).Contents (Elt F)),
    unary main_arg14 main_v58 ((extractStridedSlice S1x64 ![2, 0] · slices_S3x64_S1x64_2_0) : (⟨S3x64, .f32⟩ : BufTy).Contents (Elt F) → (⟨S1x64, .f32⟩ : BufTy).Contents (Elt F)),
    reshape main_v58 main_v59 rfl shapeCasts_S1x64_S64,
    unary main_v59 main_v60 (broadcastInDim S1x64 ![1] bcast_S64_S1x64_1 : (⟨S64, .f32⟩ : BufTy).Contents (Elt F) → (⟨S1x64, .f32⟩ : BufTy).Contents (Elt F)),
    unary main_v60 main_v61 (broadcastInDim S4096x64 ![0, 1] bcast_S1x64_S4096x64_0_1 : (⟨S1x64, .f32⟩ : BufTy).Contents (Elt F) → (⟨S4096x64, .f32⟩ : BufTy).Contents (Elt F)),
    binary main_v57 main_v61 main_v62 (addf : (⟨S4096x64, .f32⟩ : BufTy).Contents (Elt F) → (⟨S4096x64, .f32⟩ : BufTy).Contents (Elt F) → (⟨S4096x64, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S4096x64, .f32⟩) main_call2_v0) (broadcastInDim S4096x64 ![] bcast_S_S4096x64),
    TRef.binary (TRef.of (T := ⟨S4096x64, .f32⟩) main_v62) (TRef.of (T := ⟨S4096x64, .f32⟩) main_call2_v0) (TRef.of (T := ⟨S4096x64, .f32⟩) main_v63) maximumf,
    binary main_arg0 main_v63 main_v64 ((fun l r => Host.dotGeneral dot_S4096x4096_S4096x64_S4096x64_1_0_0_1_n_n none l r) : (⟨S4096x4096, .f32⟩ : BufTy).Contents (Elt F) → (⟨S4096x64, .f32⟩ : BufTy).Contents (Elt F) → (⟨S4096x64, .f32⟩ : BufTy).Contents (Elt F)),
    binary main_v63 main_v64 main_v65 (addf : (⟨S4096x64, .f32⟩ : BufTy).Contents (Elt F) → (⟨S4096x64, .f32⟩ : BufTy).Contents (Elt F) → (⟨S4096x64, .f32⟩ : BufTy).Contents (Elt F)),
    binary main_v65 main_v65 main_v66 (mulf : (⟨S4096x64, .f32⟩ : BufTy).Contents (Elt F) → (⟨S4096x64, .f32⟩ : BufTy).Contents (Elt F) → (⟨S4096x64, .f32⟩ : BufTy).Contents (Elt F)),
    nullary main_cst_6 (constant S_ .f32 0x00000000#32),
    binary main_v66 main_cst_6 main_v67 ((fun x v => Host.reduceAdd x v reducesTo_S4096x64_S4096_d1 h_S_) : (⟨S4096x64, .f32⟩ : BufTy).Contents (Elt F) → (⟨S_, .f32⟩ : BufTy).Contents (Elt F) → (⟨S4096, .f32⟩ : BufTy).Contents (Elt F)),
    unary main_v67 main_v68 (broadcastInDim S4096x1 ![0] bcast_S4096_S4096x1_0 : (⟨S4096, .f32⟩ : BufTy).Contents (Elt F) → (⟨S4096x1, .f32⟩ : BufTy).Contents (Elt F)),
    unary main_v68 main_v69 (Host.sqrt : (⟨S4096x1, .f32⟩ : BufTy).Contents (Elt F) → (⟨S4096x1, .f32⟩ : BufTy).Contents (Elt F)),
    nullary main_cst_7 (constant S_ .f32 0x2B8CBCCC#32),
    unary main_cst_7 main_v70 (broadcastInDim S4096x1 ![] bcast_S_S4096x1 : (⟨S_, .f32⟩ : BufTy).Contents (Elt F) → (⟨S4096x1, .f32⟩ : BufTy).Contents (Elt F)),
    binary main_v69 main_v70 main_v71 (maximumf : (⟨S4096x1, .f32⟩ : BufTy).Contents (Elt F) → (⟨S4096x1, .f32⟩ : BufTy).Contents (Elt F) → (⟨S4096x1, .f32⟩ : BufTy).Contents (Elt F)),
    unary main_v71 main_v72 (broadcastInDim S4096x64 ![0, 1] bcast_S4096x1_S4096x64_0_1 : (⟨S4096x1, .f32⟩ : BufTy).Contents (Elt F) → (⟨S4096x64, .f32⟩ : BufTy).Contents (Elt F)),
    binary main_v65 main_v72 main_v73 (Host.divf : (⟨S4096x64, .f32⟩ : BufTy).Contents (Elt F) → (⟨S4096x64, .f32⟩ : BufTy).Contents (Elt F) → (⟨S4096x64, .f32⟩ : BufTy).Contents (Elt F)) ]
abbrev cD3_W : List (Ref sig .tc) := [main_v54, main_v55, main_v56, main_v57, main_v58, main_v59, main_v60, main_v61, main_v62, main_call2_cst, main_call2_v0, main_v63, main_v64, main_v65, main_v66, main_cst_6, main_v67, main_v68, main_v69, main_cst_7, main_v70, main_v71, main_v72, main_v73]
theorem cD3_writes : (cD3 : List (HloOp τ sig (Elt F))).Forall fun op => op.writes ⊆ ((cD3_W).map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩

abbrev cA1 : List (HloOp τ sig (Elt F)) :=
  [ unary main_arg13 main_v74 ((extractStridedSlice S1x64x64 ![0, 0, 0] · slices_S3x64x64_S1x64x64_0_0_0) : (⟨S3x64x64, .f32⟩ : BufTy).Contents (Elt F) → (⟨S1x64x64, .f32⟩ : BufTy).Contents (Elt F)),
    reshape main_v74 main_v75 rfl shapeCasts_S1x64x64_S64x64,
    unary main_v75 main_v76 ((transpose S64x64 [1, 0] · transposes_S64x64_S64x64_1_0) : (⟨S64x64, .f32⟩ : BufTy).Contents (Elt F) → (⟨S64x64, .f32⟩ : BufTy).Contents (Elt F)),
    binary main_v13 main_v76 main_v77 ((fun l r => Host.dotGeneral dot_S4096x64_S64x64_S4096x64_1_0_0_1_n_n none l r) : (⟨S4096x64, .f32⟩ : BufTy).Contents (Elt F) → (⟨S64x64, .f32⟩ : BufTy).Contents (Elt F) → (⟨S4096x64, .f32⟩ : BufTy).Contents (Elt F)),
    unary main_arg14 main_v78 ((extractStridedSlice S1x64 ![0, 0] · slices_S3x64_S1x64_0_0) : (⟨S3x64, .f32⟩ : BufTy).Contents (Elt F) → (⟨S1x64, .f32⟩ : BufTy).Contents (Elt F)),
    reshape main_v78 main_v79 rfl shapeCasts_S1x64_S64,
    unary main_v79 main_v80 (broadcastInDim S1x64 ![1] bcast_S64_S1x64_1 : (⟨S64, .f32⟩ : BufTy).Contents (Elt F) → (⟨S1x64, .f32⟩ : BufTy).Contents (Elt F)),
    unary main_v80 main_v81 (broadcastInDim S4096x64 ![0, 1] bcast_S1x64_S4096x64_0_1 : (⟨S1x64, .f32⟩ : BufTy).Contents (Elt F) → (⟨S4096x64, .f32⟩ : BufTy).Contents (Elt F)),
    binary main_v77 main_v81 main_v82 (addf : (⟨S4096x64, .f32⟩ : BufTy).Contents (Elt F) → (⟨S4096x64, .f32⟩ : BufTy).Contents (Elt F) → (⟨S4096x64, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S4096x64, .f32⟩) main_call3_v0) (broadcastInDim S4096x64 ![] bcast_S_S4096x64),
    TRef.binary (TRef.of (T := ⟨S4096x64, .f32⟩) main_v82) (TRef.of (T := ⟨S4096x64, .f32⟩) main_call3_v0) (TRef.of (T := ⟨S4096x64, .f32⟩) main_v83) maximumf,
    binary main_arg1 main_v83 main_v84 ((fun l r => Host.dotGeneral dot_S4096x4096_S4096x64_S4096x64_1_0_0_1_n_n none l r) : (⟨S4096x4096, .f32⟩ : BufTy).Contents (Elt F) → (⟨S4096x64, .f32⟩ : BufTy).Contents (Elt F) → (⟨S4096x64, .f32⟩ : BufTy).Contents (Elt F)),
    binary main_v83 main_v84 main_v85 (addf : (⟨S4096x64, .f32⟩ : BufTy).Contents (Elt F) → (⟨S4096x64, .f32⟩ : BufTy).Contents (Elt F) → (⟨S4096x64, .f32⟩ : BufTy).Contents (Elt F)),
    binary main_v85 main_v85 main_v86 (mulf : (⟨S4096x64, .f32⟩ : BufTy).Contents (Elt F) → (⟨S4096x64, .f32⟩ : BufTy).Contents (Elt F) → (⟨S4096x64, .f32⟩ : BufTy).Contents (Elt F)),
    nullary main_cst_8 (constant S_ .f32 0x00000000#32),
    binary main_v86 main_cst_8 main_v87 ((fun x v => Host.reduceAdd x v reducesTo_S4096x64_S4096_d1 h_S_) : (⟨S4096x64, .f32⟩ : BufTy).Contents (Elt F) → (⟨S_, .f32⟩ : BufTy).Contents (Elt F) → (⟨S4096, .f32⟩ : BufTy).Contents (Elt F)),
    unary main_v87 main_v88 (broadcastInDim S4096x1 ![0] bcast_S4096_S4096x1_0 : (⟨S4096, .f32⟩ : BufTy).Contents (Elt F) → (⟨S4096x1, .f32⟩ : BufTy).Contents (Elt F)),
    unary main_v88 main_v89 (Host.sqrt : (⟨S4096x1, .f32⟩ : BufTy).Contents (Elt F) → (⟨S4096x1, .f32⟩ : BufTy).Contents (Elt F)),
    nullary main_cst_9 (constant S_ .f32 0x2B8CBCCC#32),
    unary main_cst_9 main_v90 (broadcastInDim S4096x1 ![] bcast_S_S4096x1 : (⟨S_, .f32⟩ : BufTy).Contents (Elt F) → (⟨S4096x1, .f32⟩ : BufTy).Contents (Elt F)),
    binary main_v89 main_v90 main_v91 (maximumf : (⟨S4096x1, .f32⟩ : BufTy).Contents (Elt F) → (⟨S4096x1, .f32⟩ : BufTy).Contents (Elt F) → (⟨S4096x1, .f32⟩ : BufTy).Contents (Elt F)),
    unary main_v91 main_v92 (broadcastInDim S4096x64 ![0, 1] bcast_S4096x1_S4096x64_0_1 : (⟨S4096x1, .f32⟩ : BufTy).Contents (Elt F) → (⟨S4096x64, .f32⟩ : BufTy).Contents (Elt F)),
    binary main_v85 main_v92 main_v93 (Host.divf : (⟨S4096x64, .f32⟩ : BufTy).Contents (Elt F) → (⟨S4096x64, .f32⟩ : BufTy).Contents (Elt F) → (⟨S4096x64, .f32⟩ : BufTy).Contents (Elt F)) ]
abbrev cA1_W : List (Ref sig .tc) := [main_v74, main_v75, main_v76, main_v77, main_v78, main_v79, main_v80, main_v81, main_v82, main_call3_cst, main_call3_v0, main_v83, main_v84, main_v85, main_v86, main_cst_8, main_v87, main_v88, main_v89, main_cst_9, main_v90, main_v91, main_v92, main_v93]
theorem cA1_writes : (cA1 : List (HloOp τ sig (Elt F))).Forall fun op => op.writes ⊆ ((cA1_W).map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩

abbrev cA2 : List (HloOp τ sig (Elt F)) :=
  [ unary main_arg13 main_v94 ((extractStridedSlice S1x64x64 ![1, 0, 0] · slices_S3x64x64_S1x64x64_1_0_0) : (⟨S3x64x64, .f32⟩ : BufTy).Contents (Elt F) → (⟨S1x64x64, .f32⟩ : BufTy).Contents (Elt F)),
    reshape main_v94 main_v95 rfl shapeCasts_S1x64x64_S64x64,
    unary main_v95 main_v96 ((transpose S64x64 [1, 0] · transposes_S64x64_S64x64_1_0) : (⟨S64x64, .f32⟩ : BufTy).Contents (Elt F) → (⟨S64x64, .f32⟩ : BufTy).Contents (Elt F)),
    binary main_v93 main_v96 main_v97 ((fun l r => Host.dotGeneral dot_S4096x64_S64x64_S4096x64_1_0_0_1_n_n none l r) : (⟨S4096x64, .f32⟩ : BufTy).Contents (Elt F) → (⟨S64x64, .f32⟩ : BufTy).Contents (Elt F) → (⟨S4096x64, .f32⟩ : BufTy).Contents (Elt F)),
    unary main_arg14 main_v98 ((extractStridedSlice S1x64 ![1, 0] · slices_S3x64_S1x64_1_0) : (⟨S3x64, .f32⟩ : BufTy).Contents (Elt F) → (⟨S1x64, .f32⟩ : BufTy).Contents (Elt F)),
    reshape main_v98 main_v99 rfl shapeCasts_S1x64_S64,
    unary main_v99 main_v100 (broadcastInDim S1x64 ![1] bcast_S64_S1x64_1 : (⟨S64, .f32⟩ : BufTy).Contents (Elt F) → (⟨S1x64, .f32⟩ : BufTy).Contents (Elt F)),
    unary main_v100 main_v101 (broadcastInDim S4096x64 ![0, 1] bcast_S1x64_S4096x64_0_1 : (⟨S1x64, .f32⟩ : BufTy).Contents (Elt F) → (⟨S4096x64, .f32⟩ : BufTy).Contents (Elt F)),
    binary main_v97 main_v101 main_v102 (addf : (⟨S4096x64, .f32⟩ : BufTy).Contents (Elt F) → (⟨S4096x64, .f32⟩ : BufTy).Contents (Elt F) → (⟨S4096x64, .f32⟩ : BufTy).Contents (Elt F)),
    TRef.nullary (TRef.of (T := ⟨S_, .f32⟩) main_call4_cst) (constant S_ .f32 0x00000000#32),
    TRef.unary (TRef.of (T := ⟨S_, .f32⟩) main_call4_cst) (TRef.of (T := ⟨S4096x64, .f32⟩) main_call4_v0) (broadcastInDim S4096x64 ![] bcast_S_S4096x64),
    TRef.binary (TRef.of (T := ⟨S4096x64, .f32⟩) main_v102) (TRef.of (T := ⟨S4096x64, .f32⟩) main_call4_v0) (TRef.of (T := ⟨S4096x64, .f32⟩) main_v103) maximumf,
    binary main_arg1 main_v103 main_v104 ((fun l r => Host.dotGeneral dot_S4096x4096_S4096x64_S4096x64_1_0_0_1_n_n none l r) : (⟨S4096x4096, .f32⟩ : BufTy).Contents (Elt F) → (⟨S4096x64, .f32⟩ : BufTy).Contents (Elt F) → (⟨S4096x64, .f32⟩ : BufTy).Contents (Elt F)),
    binary main_v103 main_v104 main_v105 (addf : (⟨S4096x64, .f32⟩ : BufTy).Contents (Elt F) → (⟨S4096x64, .f32⟩ : BufTy).Contents (Elt F) → (⟨S4096x64, .f32⟩ : BufTy).Contents (Elt F)),
    binary main_v105 main_v105 main_v106 (mulf : (⟨S4096x64, .f32⟩ : BufTy).Contents (Elt F) → (⟨S4096x64, .f32⟩ : BufTy).Contents (Elt F) → (⟨S4096x64, .f32⟩ : BufTy).Contents (Elt F)),
    nullary main_cst_10 (constant S_ .f32 0x00000000#32),
    binary main_v106 main_cst_10 main_v107 ((fun x v => Host.reduceAdd x v reducesTo_S4096x64_S4096_d1 h_S_) : (⟨S4096x64, .f32⟩ : BufTy).Contents (Elt F) → (⟨S_, .f32⟩ : BufTy).Contents (Elt F) → (⟨S4096, .f32⟩ : BufTy).Contents (Elt F)),
    unary main_v107 main_v108 (broadcastInDim S4096x1 ![0] bcast_S4096_S4096x1_0 : (⟨S4096, .f32⟩ : BufTy).Contents (Elt F) → (⟨S4096x1, .f32⟩ : BufTy).Contents (Elt F)),
    unary main_v108 main_v109 (Host.sqrt : (⟨S4096x1, .f32⟩ : BufTy).Contents (Elt F) → (⟨S4096x1, .f32⟩ : BufTy).Contents (Elt F)),
    nullary main_cst_11 (constant S_ .f32 0x2B8CBCCC#32),
    unary main_cst_11 main_v110 (broadcastInDim S4096x1 ![] bcast_S_S4096x1 : (⟨S_, .f32⟩ : BufTy).Contents (Elt F) → (⟨S4096x1, .f32⟩ : BufTy).Contents (Elt F)),
    binary main_v109 main_v110 main_v111 (maximumf : (⟨S4096x1, .f32⟩ : BufTy).Contents (Elt F) → (⟨S4096x1, .f32⟩ : BufTy).Contents (Elt F) → (⟨S4096x1, .f32⟩ : BufTy).Contents (Elt F)),
    unary main_v111 main_v112 (broadcastInDim S4096x64 ![0, 1] bcast_S4096x1_S4096x64_0_1 : (⟨S4096x1, .f32⟩ : BufTy).Contents (Elt F) → (⟨S4096x64, .f32⟩ : BufTy).Contents (Elt F)),
    binary main_v105 main_v112 main_v113 (Host.divf : (⟨S4096x64, .f32⟩ : BufTy).Contents (Elt F) → (⟨S4096x64, .f32⟩ : BufTy).Contents (Elt F) → (⟨S4096x64, .f32⟩ : BufTy).Contents (Elt F)) ]
abbrev cA2_W : List (Ref sig .tc) := [main_v94, main_v95, main_v96, main_v97, main_v98, main_v99, main_v100, main_v101, main_v102, main_call4_cst, main_call4_v0, main_v103, main_v104, main_v105, main_v106, main_cst_10, main_v107, main_v108, main_v109, main_cst_11, main_v110, main_v111, main_v112, main_v113]
theorem cA2_writes : (cA2 : List (HloOp τ sig (Elt F))).Forall fun op => op.writes ⊆ ((cA2_W).map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩

abbrev cA3 : List (HloOp τ sig (Elt F)) :=
  [ unary main_arg13 main_v114 ((extractStridedSlice S1x64x64 ![2, 0, 0] · slices_S3x64x64_S1x64x64_2_0_0) : (⟨S3x64x64, .f32⟩ : BufTy).Contents (Elt F) → (⟨S1x64x64, .f32⟩ : BufTy).Contents (Elt F)),
    reshape main_v114 main_v115 rfl shapeCasts_S1x64x64_S64x64,
    unary main_v115 main_v116 ((transpose S64x64 [1, 0] · transposes_S64x64_S64x64_1_0) : (⟨S64x64, .f32⟩ : BufTy).Contents (Elt F) → (⟨S64x64, .f32⟩ : BufTy).Contents (Elt F)),
    binary main_v113 main_v116 main_v117 ((fun l r => Host.dotGeneral dot_S4096x64_S64x64_S4096x64_1_0_0_1_n_n none l r) : (⟨S4096x64, .f32⟩ : BufTy).Contents (Elt F) → (⟨S64x64, .f32⟩ : BufTy).Contents (Elt F) → (⟨S4096x64, .f32⟩ : BufTy).Contents (Elt F)),
    unary main_arg14 main_v118 ((extractStridedSlice S1x64 ![2, 0] · slices_S3x64_S1x64_2_0) : (⟨S3x64, .f32⟩ : BufTy).Contents (Elt F) → (⟨S1x64, .f32⟩ : BufTy).Contents (Elt F)),
    reshape main_v118 main_v119 rfl shapeCasts_S1x64_S64,
    unary main_v119 main_v120 (broadcastInDim S1x64 ![1] bcast_S64_S1x64_1 : (⟨S64, .f32⟩ : BufTy).Contents (Elt F) → (⟨S1x64, .f32⟩ : BufTy).Contents (Elt F)),
    unary main_v120 main_v121 (broadcastInDim S4096x64 ![0, 1] bcast_S1x64_S4096x64_0_1 : (⟨S1x64, .f32⟩ : BufTy).Contents (Elt F) → (⟨S4096x64, .f32⟩ : BufTy).Contents (Elt F)),
    binary main_v117 main_v121 main_v122 (addf : (⟨S4096x64, .f32⟩ : BufTy).Contents (Elt F) → (⟨S4096x64, .f32⟩ : BufTy).Contents (Elt F) → (⟨S4096x64, .f32⟩ : BufTy).Contents (Elt F)),
    TRef.nullary (TRef.of (T := ⟨S_, .f32⟩) main_call5_cst) (constant S_ .f32 0x00000000#32),
    TRef.unary (TRef.of (T := ⟨S_, .f32⟩) main_call5_cst) (TRef.of (T := ⟨S4096x64, .f32⟩) main_call5_v0) (broadcastInDim S4096x64 ![] bcast_S_S4096x64),
    TRef.binary (TRef.of (T := ⟨S4096x64, .f32⟩) main_v122) (TRef.of (T := ⟨S4096x64, .f32⟩) main_call5_v0) (TRef.of (T := ⟨S4096x64, .f32⟩) main_v123) maximumf,
    binary main_arg1 main_v123 main_v124 ((fun l r => Host.dotGeneral dot_S4096x4096_S4096x64_S4096x64_1_0_0_1_n_n none l r) : (⟨S4096x4096, .f32⟩ : BufTy).Contents (Elt F) → (⟨S4096x64, .f32⟩ : BufTy).Contents (Elt F) → (⟨S4096x64, .f32⟩ : BufTy).Contents (Elt F)),
    binary main_v123 main_v124 main_v125 (addf : (⟨S4096x64, .f32⟩ : BufTy).Contents (Elt F) → (⟨S4096x64, .f32⟩ : BufTy).Contents (Elt F) → (⟨S4096x64, .f32⟩ : BufTy).Contents (Elt F)),
    binary main_v125 main_v125 main_v126 (mulf : (⟨S4096x64, .f32⟩ : BufTy).Contents (Elt F) → (⟨S4096x64, .f32⟩ : BufTy).Contents (Elt F) → (⟨S4096x64, .f32⟩ : BufTy).Contents (Elt F)),
    nullary main_cst_12 (constant S_ .f32 0x00000000#32),
    binary main_v126 main_cst_12 main_v127 ((fun x v => Host.reduceAdd x v reducesTo_S4096x64_S4096_d1 h_S_) : (⟨S4096x64, .f32⟩ : BufTy).Contents (Elt F) → (⟨S_, .f32⟩ : BufTy).Contents (Elt F) → (⟨S4096, .f32⟩ : BufTy).Contents (Elt F)),
    unary main_v127 main_v128 (broadcastInDim S4096x1 ![0] bcast_S4096_S4096x1_0 : (⟨S4096, .f32⟩ : BufTy).Contents (Elt F) → (⟨S4096x1, .f32⟩ : BufTy).Contents (Elt F)),
    unary main_v128 main_v129 (Host.sqrt : (⟨S4096x1, .f32⟩ : BufTy).Contents (Elt F) → (⟨S4096x1, .f32⟩ : BufTy).Contents (Elt F)),
    nullary main_cst_13 (constant S_ .f32 0x2B8CBCCC#32),
    unary main_cst_13 main_v130 (broadcastInDim S4096x1 ![] bcast_S_S4096x1 : (⟨S_, .f32⟩ : BufTy).Contents (Elt F) → (⟨S4096x1, .f32⟩ : BufTy).Contents (Elt F)),
    binary main_v129 main_v130 main_v131 (maximumf : (⟨S4096x1, .f32⟩ : BufTy).Contents (Elt F) → (⟨S4096x1, .f32⟩ : BufTy).Contents (Elt F) → (⟨S4096x1, .f32⟩ : BufTy).Contents (Elt F)),
    unary main_v131 main_v132 (broadcastInDim S4096x64 ![0, 1] bcast_S4096x1_S4096x64_0_1 : (⟨S4096x1, .f32⟩ : BufTy).Contents (Elt F) → (⟨S4096x64, .f32⟩ : BufTy).Contents (Elt F)),
    binary main_v125 main_v132 main_v133 (Host.divf : (⟨S4096x64, .f32⟩ : BufTy).Contents (Elt F) → (⟨S4096x64, .f32⟩ : BufTy).Contents (Elt F) → (⟨S4096x64, .f32⟩ : BufTy).Contents (Elt F)) ]
abbrev cA3_W : List (Ref sig .tc) := [main_v114, main_v115, main_v116, main_v117, main_v118, main_v119, main_v120, main_v121, main_v122, main_call5_cst, main_call5_v0, main_v123, main_v124, main_v125, main_v126, main_cst_12, main_v127, main_v128, main_v129, main_cst_13, main_v130, main_v131, main_v132, main_v133]
theorem cA3_writes : (cA3 : List (HloOp τ sig (Elt F))).Forall fun op => op.writes ⊆ ((cA3_W).map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩

abbrev cT : List (HloOp τ sig (Elt F)) :=
  [ nullary main_cst_14 (constant S_ .f32 0x00000000#32),
    unary main_cst_14 main_v134 (broadcastInDim S128x64 ![] bcast_S_S128x64 : (⟨S_, .f32⟩ : BufTy).Contents (Elt F) → (⟨S128x64, .f32⟩ : BufTy).Contents (Elt F)),
    unary main_arg4 main_v135 (broadcastInDim S4096x1 ![0] bcast_S4096_S4096x1_0 : (⟨S4096, .i32⟩ : BufTy).Contents (Elt F) → (⟨S4096x1, .i32⟩ : BufTy).Contents (Elt F)),
    ternary main_v134 main_v135 main_v73 main_v136 ((fun x i u => Host.scatterAdd scatter_S128x64_S4096x1_S4096x64_1_0_0_1 x i u) : (⟨S128x64, .f32⟩ : BufTy).Contents (Elt F) → (⟨S4096x1, .i32⟩ : BufTy).Contents (Elt F) → (⟨S4096x64, .f32⟩ : BufTy).Contents (Elt F) → (⟨S128x64, .f32⟩ : BufTy).Contents (Elt F)),
    nullary main_cst_15 (constant S_ .f32 0x00000000#32),
    unary main_cst_15 main_v137 (broadcastInDim S128x64 ![] bcast_S_S128x64 : (⟨S_, .f32⟩ : BufTy).Contents (Elt F) → (⟨S128x64, .f32⟩ : BufTy).Contents (Elt F)),
    unary main_arg5 main_v138 (broadcastInDim S4096x1 ![0] bcast_S4096_S4096x1_0 : (⟨S4096, .i32⟩ : BufTy).Contents (Elt F) → (⟨S4096x1, .i32⟩ : BufTy).Contents (Elt F)),
    ternary main_v137 main_v138 main_v133 main_v139 ((fun x i u => Host.scatterAdd scatter_S128x64_S4096x1_S4096x64_1_0_0_1 x i u) : (⟨S128x64, .f32⟩ : BufTy).Contents (Elt F) → (⟨S4096x1, .i32⟩ : BufTy).Contents (Elt F) → (⟨S4096x64, .f32⟩ : BufTy).Contents (Elt F) → (⟨S128x64, .f32⟩ : BufTy).Contents (Elt F)),
    nary ![main_v136, main_arg6, main_arg7, main_v139, main_arg8, main_arg9, main_arg10] main_v140 (fun u => concatenate S128x187 1 [⟨S128x64, u 0⟩, ⟨S128x1, u 1⟩, ⟨S128x1, u 2⟩, ⟨S128x64, u 3⟩, ⟨S128x1, u 4⟩, ⟨S128x1, u 5⟩, ⟨S128x55, u 6⟩] concatenates_S128x64_S128x1_S128x1_S128x64_S128x1_S128x1_S128x55_S128x187_d1),
    unary main_arg15 main_v141 ((extractStridedSlice S1x187x187 ![0, 0, 0] · slices_S2x187x187_S1x187x187_0_0_0) : (⟨S2x187x187, .f32⟩ : BufTy).Contents (Elt F) → (⟨S1x187x187, .f32⟩ : BufTy).Contents (Elt F)),
    reshape main_v141 main_v142 rfl shapeCasts_S1x187x187_S187x187,
    unary main_v142 main_v143 ((transpose S187x187 [1, 0] · transposes_S187x187_S187x187_1_0) : (⟨S187x187, .f32⟩ : BufTy).Contents (Elt F) → (⟨S187x187, .f32⟩ : BufTy).Contents (Elt F)),
    binary main_v140 main_v143 main_v144 ((fun l r => Host.dotGeneral dot_S128x187_S187x187_S128x187_1_0_0_1_n_n none l r) : (⟨S128x187, .f32⟩ : BufTy).Contents (Elt F) → (⟨S187x187, .f32⟩ : BufTy).Contents (Elt F) → (⟨S128x187, .f32⟩ : BufTy).Contents (Elt F)),
    unary main_arg16 main_v145 ((extractStridedSlice S1x187 ![0, 0] · slices_S2x187_S1x187_0_0) : (⟨S2x187, .f32⟩ : BufTy).Contents (Elt F) → (⟨S1x187, .f32⟩ : BufTy).Contents (Elt F)),
    reshape main_v145 main_v146 rfl shapeCasts_S1x187_S187,
    unary main_v146 main_v147 (broadcastInDim S1x187 ![1] bcast_S187_S1x187_1 : (⟨S187, .f32⟩ : BufTy).Contents (Elt F) → (⟨S1x187, .f32⟩ : BufTy).Contents (Elt F)),
    unary main_v147 main_v148 (broadcastInDim S128x187 ![0, 1] bcast_S1x187_S128x187_0_1 : (⟨S1x187, .f32⟩ : BufTy).Contents (Elt F) → (⟨S128x187, .f32⟩ : BufTy).Contents (Elt F)),
    binary main_v144 main_v148 main_v149 (addf : (⟨S128x187, .f32⟩ : BufTy).Contents (Elt F) → (⟨S128x187, .f32⟩ : BufTy).Contents (Elt F) → (⟨S128x187, .f32⟩ : BufTy).Contents (Elt F)),
    TRef.nullary (TRef.of (T := ⟨S_, .f32⟩) main_call6_cst) (constant S_ .f32 0x00000000#32),
    TRef.unary (TRef.of (T := ⟨S_, .f32⟩) main_call6_cst) (TRef.of (T := ⟨S128x187, .f32⟩) main_call6_v0) (broadcastInDim S128x187 ![] bcast_S_S128x187),
    TRef.binary (TRef.of (T := ⟨S128x187, .f32⟩) main_v149) (TRef.of (T := ⟨S128x187, .f32⟩) main_call6_v0) (TRef.of (T := ⟨S128x187, .f32⟩) main_v150) maximumf,
    unary main_arg15 main_v151 ((extractStridedSlice S1x187x187 ![1, 0, 0] · slices_S2x187x187_S1x187x187_1_0_0) : (⟨S2x187x187, .f32⟩ : BufTy).Contents (Elt F) → (⟨S1x187x187, .f32⟩ : BufTy).Contents (Elt F)),
    reshape main_v151 main_v152 rfl shapeCasts_S1x187x187_S187x187,
    unary main_v152 main_v153 ((transpose S187x187 [1, 0] · transposes_S187x187_S187x187_1_0) : (⟨S187x187, .f32⟩ : BufTy).Contents (Elt F) → (⟨S187x187, .f32⟩ : BufTy).Contents (Elt F)),
    binary main_v150 main_v153 main_v154 ((fun l r => Host.dotGeneral dot_S128x187_S187x187_S128x187_1_0_0_1_n_n none l r) : (⟨S128x187, .f32⟩ : BufTy).Contents (Elt F) → (⟨S187x187, .f32⟩ : BufTy).Contents (Elt F) → (⟨S128x187, .f32⟩ : BufTy).Contents (Elt F)),
    unary main_arg16 main_v155 ((extractStridedSlice S1x187 ![1, 0] · slices_S2x187_S1x187_1_0) : (⟨S2x187, .f32⟩ : BufTy).Contents (Elt F) → (⟨S1x187, .f32⟩ : BufTy).Contents (Elt F)),
    reshape main_v155 main_v156 rfl shapeCasts_S1x187_S187,
    unary main_v156 main_v157 (broadcastInDim S1x187 ![1] bcast_S187_S1x187_1 : (⟨S187, .f32⟩ : BufTy).Contents (Elt F) → (⟨S1x187, .f32⟩ : BufTy).Contents (Elt F)),
    unary main_v157 main_v158 (broadcastInDim S128x187 ![0, 1] bcast_S1x187_S128x187_0_1 : (⟨S1x187, .f32⟩ : BufTy).Contents (Elt F) → (⟨S128x187, .f32⟩ : BufTy).Contents (Elt F)),
    binary main_v154 main_v158 main_v159 (addf : (⟨S128x187, .f32⟩ : BufTy).Contents (Elt F) → (⟨S128x187, .f32⟩ : BufTy).Contents (Elt F) → (⟨S128x187, .f32⟩ : BufTy).Contents (Elt F)),
    TRef.nullary (TRef.of (T := ⟨S_, .f32⟩) main_call7_cst) (constant S_ .f32 0x00000000#32),
    TRef.unary (TRef.of (T := ⟨S_, .f32⟩) main_call7_cst) (TRef.of (T := ⟨S128x187, .f32⟩) main_call7_v0) (broadcastInDim S128x187 ![] bcast_S_S128x187),
    TRef.binary (TRef.of (T := ⟨S128x187, .f32⟩) main_v159) (TRef.of (T := ⟨S128x187, .f32⟩) main_call7_v0) (TRef.of (T := ⟨S128x187, .f32⟩) main_v160) maximumf,
    unary main_arg17 main_v161 ((transpose S187x1 [1, 0] · transposes_S1x187_S187x1_1_0) : (⟨S1x187, .f32⟩ : BufTy).Contents (Elt F) → (⟨S187x1, .f32⟩ : BufTy).Contents (Elt F)),
    binary main_v160 main_v161 main_v162 ((fun l r => Host.dotGeneral dot_S128x187_S187x1_S128x1_1_0_0_1_n_n none l r) : (⟨S128x187, .f32⟩ : BufTy).Contents (Elt F) → (⟨S187x1, .f32⟩ : BufTy).Contents (Elt F) → (⟨S128x1, .f32⟩ : BufTy).Contents (Elt F)),
    unary main_arg18 main_v163 (broadcastInDim S1x1 ![1] bcast_S1_S1x1_1 : (⟨S1, .f32⟩ : BufTy).Contents (Elt F) → (⟨S1x1, .f32⟩ : BufTy).Contents (Elt F)),
    unary main_v163 main_v164 (broadcastInDim S128x1 ![0, 1] bcast_S1x1_S128x1_0_1 : (⟨S1x1, .f32⟩ : BufTy).Contents (Elt F) → (⟨S128x1, .f32⟩ : BufTy).Contents (Elt F)),
    binary main_v162 main_v164 main_v165 (addf : (⟨S128x1, .f32⟩ : BufTy).Contents (Elt F) → (⟨S128x1, .f32⟩ : BufTy).Contents (Elt F) → (⟨S128x1, .f32⟩ : BufTy).Contents (Elt F)),
    binary main_v165 main_arg11 main_v166 (subf : (⟨S128x1, .f32⟩ : BufTy).Contents (Elt F) → (⟨S128x1, .f32⟩ : BufTy).Contents (Elt F) → (⟨S128x1, .f32⟩ : BufTy).Contents (Elt F)),
    binary main_v166 main_v166 main_v167 (mulf : (⟨S128x1, .f32⟩ : BufTy).Contents (Elt F) → (⟨S128x1, .f32⟩ : BufTy).Contents (Elt F) → (⟨S128x1, .f32⟩ : BufTy).Contents (Elt F)),
    nullary main_cst_16 (constant S_ .f32 0x00000000#32),
    binary main_v167 main_cst_16 main_v168 ((fun x v => Host.reduceAdd x v reducesTo_S128x1_S_d0_1 h_S_) : (⟨S128x1, .f32⟩ : BufTy).Contents (Elt F) → (⟨S_, .f32⟩ : BufTy).Contents (Elt F) → (⟨S_, .f32⟩ : BufTy).Contents (Elt F)),
    nullary main_cst_17 (constant S_ .f32 0x43000000#32),
    binary main_v168 main_cst_17 main_v169 (Host.divf : (⟨S_, .f32⟩ : BufTy).Contents (Elt F) → (⟨S_, .f32⟩ : BufTy).Contents (Elt F) → (⟨S_, .f32⟩ : BufTy).Contents (Elt F)) ]
abbrev cT_W : List (Ref sig .tc) := [main_cst_14, main_v134, main_v135, main_v136, main_cst_15, main_v137, main_v138, main_v139, main_v140, main_v141, main_v142, main_v143, main_v144, main_v145, main_v146, main_v147, main_v148, main_v149, main_call6_cst, main_call6_v0, main_v150, main_v151, main_v152, main_v153, main_v154, main_v155, main_v156, main_v157, main_v158, main_v159, main_call7_cst, main_call7_v0, main_v160, main_v161, main_v162, main_v163, main_v164, main_v165, main_v166, main_v167, main_cst_16, main_v168, main_cst_17, main_v169]
theorem cT_writes : (cT : List (HloOp τ sig (Elt F))).Forall fun op => op.writes ⊆ ((cT_W).map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩

set_option maxHeartbeats 4000000 in
theorem ops_split : (Cert.ReferenceIdeal.RefRun.ops : List (HloOp τ sig (Elt F))) = cG0 ++ (cG1 ++ (cD1 ++ (cD2 ++ (cD3 ++ (cA1 ++ (cA2 ++ (cA3 ++ (cT)))))))) := rfl

end Cert.ReferenceIdeal.RefChunks

end
-- ==== Proof.RefValue.lean ====
/-
  The reference program's result, as the loss function of its arguments.

  The reference's operations come in nine stretches: two gathers, three rounds on the donor side, three on the acceptor
  side, and the closing operations. A round's stretch, as a pure function of what it reads, is the round of
  Cert.MessageRound entry by entry (the host's matrix product is the plain sum of products, its sum along a row the plain
  sum, its broadcasts re-index); the gathers and the closing stretch are the same operations as the kernel program's, so
  they are the same functions. A buffer a stretch does not write is the same before and after it. Putting the stretches in
  a row, the result buffer ends at the loss of the arguments, and the arguments end as launched.
-/
import proofs.«116553_j65369402245720_2_alg».proof.Proof.RefChunks
import proofs.«116553_j65369402245720_2_alg».proof.Proof.Spec
import proofs.«116553_j65369402245720_2_alg».proof.Proof.LibRowOps
import proofs.«116553_j65369402245720_2_alg».proof.Proof.MessageRound
import proofs.«116553_j65369402245720_2_alg».proof.Proof.Gen.KernelIdeal
import Idealize.ShloMosaic.Lib.StableHlo.Run

set_option maxRecDepth 16384

noncomputable section

open scoped BigOperators

namespace Cert.ReferenceIdeal.RefValue

open Cert.ReferenceIdeal Cert.ReferenceIdeal.Gen Cert.ReferenceIdeal.RefChunks
open Idealize.ShloMosaic Idealize.ShloMosaic.TcCoe Idealize.ShloMosaic.ValueIdx Idealize.ShloMosaic.StableHlo
open Idealize.SL.Sem

abbrev eps : EReal := Ideal.ofBits .f32 0x2B8CBCCC#32

/-! ## One round, as the host spells it -/

/-- Rows through one layer. -/
def haff (v : FVec Ideal S4096x64 .f32) (wl : FVec Ideal S1x64x64 .f32) (bl : FVec Ideal S1x64 .f32) : FVec Ideal S4096x64 .f32 :=
  addf (Host.dotGeneral (F := Ideal) dot_S4096x64_S64x64_S4096x64_1_0_0_1_n_n none v
      (transpose S64x64 [1, 0] (shapeCast S64x64 wl shapeCasts_S1x64x64_S64x64) transposes_S64x64_S64x64_1_0))
    (broadcastInDim S4096x64 ![0, 1] bcast_S1x64_S4096x64_0_1 (broadcastInDim S1x64 ![1] bcast_S64_S1x64_1
      (shapeCast S64 bl shapeCasts_S1x64_S64)))

/-- Floored at zero. -/
def hrelu (h : FVec Ideal S4096x64 .f32) : FVec Ideal S4096x64 .f32 :=
  maximumf h (broadcastInDim S4096x64 ![] bcast_S_S4096x64 (constant (F := Ideal) S_ .f32 0x00000000#32))

/-- A floored row plus the adjacency matrix's weighted sum of the floored rows. -/
def hsum (A : FVec Ideal S4096x4096 .f32) (h : FVec Ideal S4096x64 .f32) : FVec Ideal S4096x64 .f32 :=
  addf (hrelu h) (Host.dotGeneral (F := Ideal) dot_S4096x4096_S4096x64_S4096x64_1_0_0_1_n_n none A (hrelu h))

/-- Each row divided by its length, the length floored at eps. -/
def hpost (A : FVec Ideal S4096x4096 .f32) (h : FVec Ideal S4096x64 .f32) : FVec Ideal S4096x64 .f32 :=
  Host.divf (F := Ideal) (hsum A h) (broadcastInDim S4096x64 ![0, 1] bcast_S4096x1_S4096x64_0_1
    (maximumf (Host.sqrt (F := Ideal) (broadcastInDim S4096x1 ![0] bcast_S4096_S4096x1_0
        (Host.reduceAdd (F := Ideal) (mulf (hsum A h) (hsum A h)) (constant (F := Ideal) S_ .f32 0x00000000#32) reducesTo_S4096x64_S4096_d1 h_S_)))
      (broadcastInDim S4096x1 ![] bcast_S_S4096x1 (constant (F := Ideal) S_ .f32 0x2B8CBCCC#32))))

theorem haff_apply (v : FVec Ideal S4096x64 .f32) (wl : FVec Ideal S1x64x64 .f32) (bl : FVec Ideal S1x64 .f32) (r : Fin 4096) (c : Fin 64) :
    haff v wl bl (ix2 r c) = (∑ k : Fin 64, v (ix2 r k) * wl (ix3 (0 : Fin 1) c k)) + bl (ix2 (0 : Fin 1) c) := by
  unfold haff
  rw [addf_apply]
  refine congrArg₂ (· + ·) ?_ ?_
  · refine (Cert.LibRowOps.dot_entry (B := 4096) (K := 64) (N := 64) dot_S4096x64_S64x64_S4096x64_1_0_0_1_n_n rfl _ _ r c).trans ?_
    refine Finset.sum_congr rfl fun k _ => ?_
    refine congrArg₂ (· * ·) rfl ?_
    exact (transpose_ix2_apply _ _ k c).trans (shapeCast_1ab_ab_apply wl _ c k)
  · exact (Cert.LibRowOps.bias_rows_host _ _ _ r c).trans (shapeCast_1a_a_apply bl _ c)

theorem hrelu_apply (h : FVec Ideal S4096x64 .f32) (r : Fin 4096) (c : Fin 64) : hrelu h (ix2 r c) = max (h (ix2 r c)) 0 := by
  unfold hrelu
  rw [maximumf_apply, Cert.LibRowOps.scalar_bcast_host]
  show max (h (ix2 r c)) (Ideal.ofBits .f32 0x00000000#32) = _
  rw [Ideal.ofBits_zero_f32]

theorem hsum_apply (A : FVec Ideal S4096x4096 .f32) (h : FVec Ideal S4096x64 .f32) (r : Fin 4096) (c : Fin 64) :
    hsum A h (ix2 r c) = Cert.MessageRound.mixed (fun p q => A (ix2 p q)) (fun p k => max (h (ix2 p k)) 0) r c := by
  unfold hsum Cert.MessageRound.mixed
  rw [addf_apply, hrelu_apply]
  refine congrArg₂ (· + ·) rfl ?_
  refine (Cert.LibRowOps.dot_entry (B := 4096) (K := 4096) (N := 64) dot_S4096x4096_S4096x64_S4096x64_1_0_0_1_n_n rfl _ _ r c).trans ?_
  exact Finset.sum_congr rfl fun j _ => congrArg₂ (· * ·) rfl (hrelu_apply h j c)

/-- A vector broadcast to a column (the host's keepdims) reads its entry of the row. -/
theorem col_of_vec {α : Type} {B : Nat} (v : (⟨1, ![B]⟩ : Shape).Idx → α)
    (h : (⟨1, ![B]⟩ : Shape).BroadcastsInDim ⟨2, ![B, 1]⟩ (![0] : Fin 1 → Fin 2)) (r : Fin B) :
    broadcastInDim ⟨2, ![B, 1]⟩ ![0] h v (ix2 r (0 : Fin 1)) = v (ix1 r) :=
  broadcastInDim_apply _ h v (ix2 r (0 : Fin 1)) (ix1 r) fun a => by
    match a with
    | ⟨0, _⟩ =>
      show r.val = if B = 1 then 0 else r.val
      split
      · have := r.isLt; omega
      · rfl

theorem hpost_apply (A : FVec Ideal S4096x4096 .f32) (h : FVec Ideal S4096x64 .f32) (r : Fin 4096) (c : Fin 64) :
    hpost A h (ix2 r c)
      = Cert.MessageRound.unitRows eps (Cert.MessageRound.mixed (fun p q => A (ix2 p q)) (fun p k => max (h (ix2 p k)) 0)) r c := by
  unfold hpost Cert.MessageRound.unitRows
  show Ideal.div (hsum A h (ix2 r c)) _ = _
  rw [hsum_apply]
  refine congrArg₂ Ideal.div rfl ?_
  refine (Cert.LibRowOps.col_bcast_host _ _ r c).trans ?_
  rw [maximumf_apply, Cert.LibRowOps.scalar_bcast_host]
  show max (Ideal.sqrt (broadcastInDim S4096x1 ![0] bcast_S4096_S4096x1_0
      (Host.reduceAdd (F := Ideal) (mulf (hsum A h) (hsum A h)) (constant (F := Ideal) S_ .f32 0x00000000#32) reducesTo_S4096x64_S4096_d1 h_S_)
      (ix2 r (0 : Fin 1)))) eps = _
  refine congrArg₂ max (congrArg Ideal.sqrt ?_) rfl
  refine (col_of_vec _ _ r).trans ?_
  refine (Cert.LibRowReduce.hostReduceAdd_row (R := 4096) (C := 64) _ _ (fun i => ?_) _ (by decide) _ r).trans ?_
  · show Ideal.ofBits .f32 0x00000000#32 = 0
    exact Ideal.ofBits_zero_f32
  · exact Finset.sum_congr rfl fun k _ => by rw [mulf_apply, hsum_apply]

/-- One round, as the host spells it, is one round. -/
theorem hround_apply (A : FVec Ideal S4096x4096 .f32) (v : FVec Ideal S4096x64 .f32) (wl : FVec Ideal S1x64x64 .f32) (bl : FVec Ideal S1x64 .f32)
    (Wl : Fin 64 → Fin 64 → EReal) (Bl : Fin 64 → EReal) (Vv : Fin 4096 → Fin 64 → EReal)
    (hW : ∀ c k, wl (ix3 (0 : Fin 1) c k) = Wl c k) (hB : ∀ c, bl (ix2 (0 : Fin 1) c) = Bl c)
    (hV : ∀ p k, v (ix2 p k) = Vv p k) (p : Fin 4096) (c : Fin 64) :
    hpost A (haff v wl bl) (ix2 p c) = Cert.MessageRound.round eps (fun p q => A (ix2 p q)) Wl Bl Vv p c := by
  rw [hpost_apply]
  unfold Cert.MessageRound.round
  have e2 : (fun (p : Fin 4096) (k : Fin 64) => max (haff v wl bl (ix2 p k)) 0) = Cert.MessageRound.hidden Wl Bl Vv := by
    funext p k
    rw [haff_apply]
    unfold Cert.MessageRound.hidden
    rw [hB, Finset.sum_congr rfl fun j _ => by rw [hV p j, hW k j]]
  rw [e2]

/-- Layer o's slab of the weights, and of the biases, read at an entry. -/
theorem slab_w (w : FVec Ideal S3x64x64 .f32) (o : Nat) (ho : o < 3) (hs : S3x64x64.Slices ![o, 0, 0] S1x64x64) (c k : Fin 64) :
    extractStridedSlice S1x64x64 ![o, 0, 0] w hs (ix3 (0 : Fin 1) c k) = w (ix3 (⟨o, ho⟩ : Fin 3) c k) :=
  extractStridedSlice_apply _ w hs _ _ fun a => by
    match a with
    | ⟨0, _⟩ => show o = o + 0; omega
    | ⟨1, _⟩ => show c.val = 0 + c.val; omega
    | ⟨2, _⟩ => show k.val = 0 + k.val; omega
theorem slab_b (b : FVec Ideal S3x64 .f32) (o : Nat) (ho : o < 3) (hs : S3x64.Slices ![o, 0] S1x64) (c : Fin 64) :
    extractStridedSlice S1x64 ![o, 0] b hs (ix2 (0 : Fin 1) c) = b (ix2 (⟨o, ho⟩ : Fin 3) c) :=
  extractStridedSlice_apply _ b hs _ _ fun a => by
    match a with
    | ⟨0, _⟩ => show o = o + 0; omega
    | ⟨1, _⟩ => show c.val = 0 + c.val; omega

/-- Three rounds in a row, as the host spells them, are the array of Cert.KernelIdeal.Spec.wholeOf. -/
theorem three_rounds (A : FVec Ideal S4096x4096 .f32) (x : FVec Ideal S4096x64 .f32) (w : FVec Ideal S3x64x64 .f32) (b : FVec Ideal S3x64 .f32) :
    hpost A (haff (hpost A (haff (hpost A (haff x
        (extractStridedSlice S1x64x64 ![0, 0, 0] w slices_S3x64x64_S1x64x64_0_0_0) (extractStridedSlice S1x64 ![0, 0] b slices_S3x64_S1x64_0_0)))
        (extractStridedSlice S1x64x64 ![1, 0, 0] w slices_S3x64x64_S1x64x64_1_0_0) (extractStridedSlice S1x64 ![1, 0] b slices_S3x64_S1x64_1_0)))
        (extractStridedSlice S1x64x64 ![2, 0, 0] w slices_S3x64x64_S1x64x64_2_0_0) (extractStridedSlice S1x64 ![2, 0] b slices_S3x64_S1x64_2_0))
      = Cert.KernelIdeal.Spec.wholeOf A x w b := by
  funext i
  have hi : i = ix2 (⟨(i 0).val, idx2_lt0 i⟩ : Fin 4096) (⟨(i 1).val, idx2_lt1 i⟩ : Fin 64) := by
    funext d; match d with | ⟨0, _⟩ => rfl | ⟨1, _⟩ => rfl
  unfold Cert.KernelIdeal.Spec.wholeOf Cert.MessageRound.rounds3
  refine (congrArg _ hi).trans ?_
  refine hround_apply A _ _ _ _ _ _ (fun c k => slab_w w 2 (by omega) _ c k) (fun c => slab_b b 2 (by omega) _ c) (fun p k => ?_) _ _
  refine hround_apply A _ _ _ _ _ _ (fun c k => slab_w w 1 (by omega) _ c k) (fun c => slab_b b 1 (by omega) _ c) (fun p k => ?_) p k
  exact hround_apply A _ _ _ _ _ _ (fun c k => slab_w w 0 (by omega) _ c k) (fun c => slab_b b 0 (by omega) _ c) (fun p k => rfl) p k

/-! ## The stretches as pure functions of what they read -/

theorem after_append (l1 l2 : List (HloOp τ sig (Elt Ideal))) (V : Valuation τ sig (Elt Ideal)) :
    after (l1 ++ l2) V = after l2 (after l1 V) := by
  induction l1 generalizing V with
  | nil => rfl
  | cons op l ih => exact ih _

variable (U : Valuation τ sig (Elt Ideal))

theorem gatherD_eq : after cG0 U (Proc.devRef .tc main_v6)
    = Cert.KernelIdeal.Spec.gathered (U (Proc.devRef .tc main_arg12)) (U (Proc.devRef .tc main_arg2)) := by
  after_results; rfl
theorem gatherA_eq : after cG1 U (Proc.devRef .tc main_v13)
    = Cert.KernelIdeal.Spec.gathered (U (Proc.devRef .tc main_arg12)) (U (Proc.devRef .tc main_arg3)) := by
  after_results; rfl

set_option maxHeartbeats 4000000 in
theorem roundD1_eq : after cD1 U (Proc.devRef .tc main_v33) = hpost (U (Proc.devRef .tc main_arg0)) (haff (U (Proc.devRef .tc main_v6))
    (extractStridedSlice S1x64x64 ![0, 0, 0] (U (Proc.devRef .tc main_arg13)) slices_S3x64x64_S1x64x64_0_0_0)
    (extractStridedSlice S1x64 ![0, 0] (U (Proc.devRef .tc main_arg14)) slices_S3x64_S1x64_0_0)) := by
  after_results_simp; rfl
set_option maxHeartbeats 4000000 in
theorem roundD2_eq : after cD2 U (Proc.devRef .tc main_v53) = hpost (U (Proc.devRef .tc main_arg0)) (haff (U (Proc.devRef .tc main_v33))
    (extractStridedSlice S1x64x64 ![1, 0, 0] (U (Proc.devRef .tc main_arg13)) slices_S3x64x64_S1x64x64_1_0_0)
    (extractStridedSlice S1x64 ![1, 0] (U (Proc.devRef .tc main_arg14)) slices_S3x64_S1x64_1_0)) := by
  after_results_simp; rfl
set_option maxHeartbeats 4000000 in
theorem roundD3_eq : after cD3 U (Proc.devRef .tc main_v73) = hpost (U (Proc.devRef .tc main_arg0)) (haff (U (Proc.devRef .tc main_v53))
    (extractStridedSlice S1x64x64 ![2, 0, 0] (U (Proc.devRef .tc main_arg13)) slices_S3x64x64_S1x64x64_2_0_0)
    (extractStridedSlice S1x64 ![2, 0] (U (Proc.devRef .tc main_arg14)) slices_S3x64_S1x64_2_0)) := by
  after_results_simp; rfl
set_option maxHeartbeats 4000000 in
theorem roundA1_eq : after cA1 U (Proc.devRef .tc main_v93) = hpost (U (Proc.devRef .tc main_arg1)) (haff (U (Proc.devRef .tc main_v13))
    (extractStridedSlice S1x64x64 ![0, 0, 0] (U (Proc.devRef .tc main_arg13)) slices_S3x64x64_S1x64x64_0_0_0)
    (extractStridedSlice S1x64 ![0, 0] (U (Proc.devRef .tc main_arg14)) slices_S3x64_S1x64_0_0)) := by
  after_results_simp; rfl
set_option maxHeartbeats 4000000 in
theorem roundA2_eq : after cA2 U (Proc.devRef .tc main_v113) = hpost (U (Proc.devRef .tc main_arg1)) (haff (U (Proc.devRef .tc main_v93))
    (extractStridedSlice S1x64x64 ![1, 0, 0] (U (Proc.devRef .tc main_arg13)) slices_S3x64x64_S1x64x64_1_0_0)
    (extractStridedSlice S1x64 ![1, 0] (U (Proc.devRef .tc main_arg14)) slices_S3x64_S1x64_1_0)) := by
  after_results_simp; rfl
set_option maxHeartbeats 4000000 in
theorem roundA3_eq : after cA3 U (Proc.devRef .tc main_v133) = hpost (U (Proc.devRef .tc main_arg1)) (haff (U (Proc.devRef .tc main_v113))
    (extractStridedSlice S1x64x64 ![2, 0, 0] (U (Proc.devRef .tc main_arg13)) slices_S3x64x64_S1x64x64_2_0_0)
    (extractStridedSlice S1x64 ![2, 0] (U (Proc.devRef .tc main_arg14)) slices_S3x64_S1x64_2_0)) := by
  after_results_simp; rfl

set_option maxHeartbeats 8000000 in
/-- The closing stretch is the closing function of what it reads. -/
theorem tail_eq : after cT U (Proc.devRef .tc main_v169)
    = Cert.KernelIdeal.Spec.tail (U (Proc.devRef .tc main_v73)) (U (Proc.devRef .tc main_v133)) (U (Proc.devRef .tc main_arg4))
        (U (Proc.devRef .tc main_arg5)) (U (Proc.devRef .tc main_arg6)) (U (Proc.devRef .tc main_arg7)) (U (Proc.devRef .tc main_arg8))
        (U (Proc.devRef .tc main_arg9)) (U (Proc.devRef .tc main_arg10)) (U (Proc.devRef .tc main_arg11)) (U (Proc.devRef .tc main_arg15))
        (U (Proc.devRef .tc main_arg16)) (U (Proc.devRef .tc main_arg17)) (U (Proc.devRef .tc main_arg18)) := by
  after_results_simp; rfl

/-! ## The stages, and what each keeps -/

variable (m : (ℓ : Loc nD τ sig) → Buf (Elt Ideal) ℓ) (d : Dev nD)

abbrev U0 : Valuation τ sig (Elt Ideal) := launchContents m d
abbrev U1 : Valuation τ sig (Elt Ideal) := after cG0 (U0 m d)
abbrev U2 : Valuation τ sig (Elt Ideal) := after cG1 (U1 m d)
abbrev U3 : Valuation τ sig (Elt Ideal) := after cD1 (U2 m d)
abbrev U4 : Valuation τ sig (Elt Ideal) := after cD2 (U3 m d)
abbrev U5 : Valuation τ sig (Elt Ideal) := after cD3 (U4 m d)
abbrev U6 : Valuation τ sig (Elt Ideal) := after cA1 (U5 m d)
abbrev U7 : Valuation τ sig (Elt Ideal) := after cA2 (U6 m d)
abbrev U8 : Valuation τ sig (Elt Ideal) := after cA3 (U7 m d)
abbrev U9 : Valuation τ sig (Elt Ideal) := after cT (U8 m d)

theorem ops_stages : after (Cert.ReferenceIdeal.RefRun.ops (F := Ideal)) (launchContents m d) = U9 m d := by
  rw [ops_split]
  simp only [after_append]

theorem k1 (r : Ref sig .tc) (h : r ∉ (cG0_W : List (Ref sig .tc))) : U1 m d (Proc.devRef .tc r) = U0 m d (Proc.devRef .tc r) :=
  after_of_writes_sub cG0 _ cG0_writes h
theorem k2 (r : Ref sig .tc) (h : r ∉ (cG1_W : List (Ref sig .tc))) : U2 m d (Proc.devRef .tc r) = U1 m d (Proc.devRef .tc r) :=
  after_of_writes_sub cG1 _ cG1_writes h
theorem k3 (r : Ref sig .tc) (h : r ∉ (cD1_W : List (Ref sig .tc))) : U3 m d (Proc.devRef .tc r) = U2 m d (Proc.devRef .tc r) :=
  after_of_writes_sub cD1 _ cD1_writes h
theorem k4 (r : Ref sig .tc) (h : r ∉ (cD2_W : List (Ref sig .tc))) : U4 m d (Proc.devRef .tc r) = U3 m d (Proc.devRef .tc r) :=
  after_of_writes_sub cD2 _ cD2_writes h
theorem k5 (r : Ref sig .tc) (h : r ∉ (cD3_W : List (Ref sig .tc))) : U5 m d (Proc.devRef .tc r) = U4 m d (Proc.devRef .tc r) :=
  after_of_writes_sub cD3 _ cD3_writes h
theorem k6 (r : Ref sig .tc) (h : r ∉ (cA1_W : List (Ref sig .tc))) : U6 m d (Proc.devRef .tc r) = U5 m d (Proc.devRef .tc r) :=
  after_of_writes_sub cA1 _ cA1_writes h
theorem k7 (r : Ref sig .tc) (h : r ∉ (cA2_W : List (Ref sig .tc))) : U7 m d (Proc.devRef .tc r) = U6 m d (Proc.devRef .tc r) :=
  after_of_writes_sub cA2 _ cA2_writes h
theorem k8 (r : Ref sig .tc) (h : r ∉ (cA3_W : List (Ref sig .tc))) : U8 m d (Proc.devRef .tc r) = U7 m d (Proc.devRef .tc r) :=
  after_of_writes_sub cA3 _ cA3_writes h
theorem k9 (r : Ref sig .tc) (h : r ∉ (cT_W : List (Ref sig .tc))) : U9 m d (Proc.devRef .tc r) = U8 m d (Proc.devRef .tc r) :=
  after_of_writes_sub cT _ cT_writes h

/-- A buffer no stretch writes holds its launch contents at every stage. -/
theorem kept2 (r : Ref sig .tc) (h1 : r ∉ (cG0_W : List (Ref sig .tc))) (h2 : r ∉ (cG1_W : List (Ref sig .tc))) :
    U2 m d (Proc.devRef .tc r) = m ((d.tc : Thread nD τ).loc r) := (k2 m d r h2).trans ((k1 m d r h1).trans rfl)
theorem kept3 (r : Ref sig .tc) (h1 : r ∉ (cG0_W : List (Ref sig .tc))) (h2 : r ∉ (cG1_W : List (Ref sig .tc)))
    (h3 : r ∉ (cD1_W : List (Ref sig .tc))) : U3 m d (Proc.devRef .tc r) = m ((d.tc : Thread nD τ).loc r) :=
  (k3 m d r h3).trans (kept2 m d r h1 h2)
theorem kept4 (r : Ref sig .tc) (h1 : r ∉ (cG0_W : List (Ref sig .tc))) (h2 : r ∉ (cG1_W : List (Ref sig .tc)))
    (h3 : r ∉ (cD1_W : List (Ref sig .tc))) (h4 : r ∉ (cD2_W : List (Ref sig .tc))) :
    U4 m d (Proc.devRef .tc r) = m ((d.tc : Thread nD τ).loc r) := (k4 m d r h4).trans (kept3 m d r h1 h2 h3)
theorem kept5 (r : Ref sig .tc) (h1 : r ∉ (cG0_W : List (Ref sig .tc))) (h2 : r ∉ (cG1_W : List (Ref sig .tc)))
    (h3 : r ∉ (cD1_W : List (Ref sig .tc))) (h4 : r ∉ (cD2_W : List (Ref sig .tc))) (h5 : r ∉ (cD3_W : List (Ref sig .tc))) :
    U5 m d (Proc.devRef .tc r) = m ((d.tc : Thread nD τ).loc r) := (k5 m d r h5).trans (kept4 m d r h1 h2 h3 h4)
theorem kept6 (r : Ref sig .tc) (h1 : r ∉ (cG0_W : List (Ref sig .tc))) (h2 : r ∉ (cG1_W : List (Ref sig .tc)))
    (h3 : r ∉ (cD1_W : List (Ref sig .tc))) (h4 : r ∉ (cD2_W : List (Ref sig .tc))) (h5 : r ∉ (cD3_W : List (Ref sig .tc)))
    (h6 : r ∉ (cA1_W : List (Ref sig .tc))) : U6 m d (Proc.devRef .tc r) = m ((d.tc : Thread nD τ).loc r) :=
  (k6 m d r h6).trans (kept5 m d r h1 h2 h3 h4 h5)
theorem kept7 (r : Ref sig .tc) (h1 : r ∉ (cG0_W : List (Ref sig .tc))) (h2 : r ∉ (cG1_W : List (Ref sig .tc)))
    (h3 : r ∉ (cD1_W : List (Ref sig .tc))) (h4 : r ∉ (cD2_W : List (Ref sig .tc))) (h5 : r ∉ (cD3_W : List (Ref sig .tc)))
    (h6 : r ∉ (cA1_W : List (Ref sig .tc))) (h7 : r ∉ (cA2_W : List (Ref sig .tc))) :
    U7 m d (Proc.devRef .tc r) = m ((d.tc : Thread nD τ).loc r) := (k7 m d r h7).trans (kept6 m d r h1 h2 h3 h4 h5 h6)
theorem kept8 (r : Ref sig .tc) (h1 : r ∉ (cG0_W : List (Ref sig .tc))) (h2 : r ∉ (cG1_W : List (Ref sig .tc)))
    (h3 : r ∉ (cD1_W : List (Ref sig .tc))) (h4 : r ∉ (cD2_W : List (Ref sig .tc))) (h5 : r ∉ (cD3_W : List (Ref sig .tc)))
    (h6 : r ∉ (cA1_W : List (Ref sig .tc))) (h7 : r ∉ (cA2_W : List (Ref sig .tc))) (h8 : r ∉ (cA3_W : List (Ref sig .tc))) :
    U8 m d (Proc.devRef .tc r) = m ((d.tc : Thread nD τ).loc r) := (k8 m d r h8).trans (kept7 m d r h1 h2 h3 h4 h5 h6 h7)
theorem kept9 (r : Ref sig .tc) (h1 : r ∉ (cG0_W : List (Ref sig .tc))) (h2 : r ∉ (cG1_W : List (Ref sig .tc)))
    (h3 : r ∉ (cD1_W : List (Ref sig .tc))) (h4 : r ∉ (cD2_W : List (Ref sig .tc))) (h5 : r ∉ (cD3_W : List (Ref sig .tc)))
    (h6 : r ∉ (cA1_W : List (Ref sig .tc))) (h7 : r ∉ (cA2_W : List (Ref sig .tc))) (h8 : r ∉ (cA3_W : List (Ref sig .tc)))
    (h9 : r ∉ (cT_W : List (Ref sig .tc))) :
    after (Cert.ReferenceIdeal.RefRun.ops (F := Ideal)) (launchContents m d) (Proc.devRef .tc r) = m ((d.tc : Thread nD τ).loc r) := by
  rw [ops_stages]; exact (k9 m d r h9).trans (kept8 m d r h1 h2 h3 h4 h5 h6 h7 h8)

/-! ## The two sides' rows after three rounds -/

/-- The donor side after its three rounds (stage 5). -/
theorem sideD : U5 m d (Proc.devRef .tc main_v73)
    = Cert.KernelIdeal.Spec.wholeOf (m ((d.tc : Thread nD τ).loc main_arg0))
        (Cert.KernelIdeal.Spec.gathered (m ((d.tc : Thread nD τ).loc main_arg12)) (m ((d.tc : Thread nD τ).loc main_arg2)))
        (m ((d.tc : Thread nD τ).loc main_arg13)) (m ((d.tc : Thread nD τ).loc main_arg14)) := by
  have g : U2 m d (Proc.devRef .tc main_v6)
      = Cert.KernelIdeal.Spec.gathered (m ((d.tc : Thread nD τ).loc main_arg12)) (m ((d.tc : Thread nD τ).loc main_arg2)) :=
    (k2 m d main_v6 (by decide)).trans (gatherD_eq (U0 m d))
  show after cD3 (U4 m d) (Proc.devRef .tc main_v73) = _
  rw [roundD3_eq, show U4 m d (Proc.devRef .tc main_v53) = after cD2 (U3 m d) (Proc.devRef .tc main_v53) from rfl, roundD2_eq,
    show U3 m d (Proc.devRef .tc main_v33) = after cD1 (U2 m d) (Proc.devRef .tc main_v33) from rfl, roundD1_eq, g,
    kept2 m d main_arg0 (by decide) (by decide), kept2 m d main_arg13 (by decide) (by decide), kept2 m d main_arg14 (by decide) (by decide),
    kept3 m d main_arg0 (by decide) (by decide) (by decide), kept3 m d main_arg13 (by decide) (by decide) (by decide),
    kept3 m d main_arg14 (by decide) (by decide) (by decide),
    kept4 m d main_arg0 (by decide) (by decide) (by decide) (by decide), kept4 m d main_arg13 (by decide) (by decide) (by decide) (by decide),
    kept4 m d main_arg14 (by decide) (by decide) (by decide) (by decide)]
  exact three_rounds _ _ _ _

/-- The acceptor side after its three rounds (stage 8). -/
theorem sideA : U8 m d (Proc.devRef .tc main_v133)
    = Cert.KernelIdeal.Spec.wholeOf (m ((d.tc : Thread nD τ).loc main_arg1))
        (Cert.KernelIdeal.Spec.gathered (m ((d.tc : Thread nD τ).loc main_arg12)) (m ((d.tc : Thread nD τ).loc main_arg3)))
        (m ((d.tc : Thread nD τ).loc main_arg13)) (m ((d.tc : Thread nD τ).loc main_arg14)) := by
  have g : U5 m d (Proc.devRef .tc main_v13)
      = Cert.KernelIdeal.Spec.gathered (m ((d.tc : Thread nD τ).loc main_arg12)) (m ((d.tc : Thread nD τ).loc main_arg3)) := by
    refine (k5 m d main_v13 (by decide)).trans ((k4 m d main_v13 (by decide)).trans ((k3 m d main_v13 (by decide)).trans ?_))
    refine (gatherA_eq (U1 m d)).trans ?_
    rw [k1 m d main_arg12 (by decide), k1 m d main_arg3 (by decide)]
  show after cA3 (U7 m d) (Proc.devRef .tc main_v133) = _
  rw [roundA3_eq, show U7 m d (Proc.devRef .tc main_v113) = after cA2 (U6 m d) (Proc.devRef .tc main_v113) from rfl, roundA2_eq,
    show U6 m d (Proc.devRef .tc main_v93) = after cA1 (U5 m d) (Proc.devRef .tc main_v93) from rfl, roundA1_eq, g,
    kept5 m d main_arg1 (by decide) (by decide) (by decide) (by decide) (by decide),
    kept5 m d main_arg13 (by decide) (by decide) (by decide) (by decide) (by decide),
    kept5 m d main_arg14 (by decide) (by decide) (by decide) (by decide) (by decide),
    kept6 m d main_arg1 (by decide) (by decide) (by decide) (by decide) (by decide) (by decide),
    kept6 m d main_arg13 (by decide) (by decide) (by decide) (by decide) (by decide) (by decide),
    kept6 m d main_arg14 (by decide) (by decide) (by decide) (by decide) (by decide) (by decide),
    kept7 m d main_arg1 (by decide) (by decide) (by decide) (by decide) (by decide) (by decide) (by decide),
    kept7 m d main_arg13 (by decide) (by decide) (by decide) (by decide) (by decide) (by decide) (by decide),
    kept7 m d main_arg14 (by decide) (by decide) (by decide) (by decide) (by decide) (by decide) (by decide)]
  exact three_rounds _ _ _ _

/-- THE RESULT, as the loss of the arguments. -/
theorem result_eq : after (Cert.ReferenceIdeal.RefRun.ops (F := Ideal)) (launchContents m d) (Proc.devRef .tc main_v169)
    = Cert.KernelIdeal.Spec.loss (m ((d.tc : Thread nD τ).loc main_arg0)) (m ((d.tc : Thread nD τ).loc main_arg1)) (m ((d.tc : Thread nD τ).loc main_arg2)) (m ((d.tc : Thread nD τ).loc main_arg3)) (m ((d.tc : Thread nD τ).loc main_arg4)) (m ((d.tc : Thread nD τ).loc main_arg5)) (m ((d.tc : Thread nD τ).loc main_arg6)) (m ((d.tc : Thread nD τ).loc main_arg7)) (m ((d.tc : Thread nD τ).loc main_arg8)) (m ((d.tc : Thread nD τ).loc main_arg9)) (m ((d.tc : Thread nD τ).loc main_arg10)) (m ((d.tc : Thread nD τ).loc main_arg11)) (m ((d.tc : Thread nD τ).loc main_arg12)) (m ((d.tc : Thread nD τ).loc main_arg13)) (m ((d.tc : Thread nD τ).loc main_arg14)) (m ((d.tc : Thread nD τ).loc main_arg15)) (m ((d.tc : Thread nD τ).loc main_arg16)) (m ((d.tc : Thread nD τ).loc main_arg17)) (m ((d.tc : Thread nD τ).loc main_arg18)) := by
  rw [ops_stages]
  show after cT (U8 m d) (Proc.devRef .tc main_v169) = _
  rw [tail_eq, sideA,
    show U8 m d (Proc.devRef .tc main_v73) = U5 m d (Proc.devRef .tc main_v73) from
      (k8 m d main_v73 (by decide)).trans ((k7 m d main_v73 (by decide)).trans (k6 m d main_v73 (by decide))), sideD,
    kept8 m d main_arg4 (by decide) (by decide) (by decide) (by decide) (by decide) (by decide) (by decide) (by decide),
    kept8 m d main_arg5 (by decide) (by decide) (by decide) (by decide) (by decide) (by decide) (by decide) (by decide),
    kept8 m d main_arg6 (by decide) (by decide) (by decide) (by decide) (by decide) (by decide) (by decide) (by decide),
    kept8 m d main_arg7 (by decide) (by decide) (by decide) (by decide) (by decide) (by decide) (by decide) (by decide),
    kept8 m d main_arg8 (by decide) (by decide) (by decide) (by decide) (by decide) (by decide) (by decide) (by decide),
    kept8 m d main_arg9 (by decide) (by decide) (by decide) (by decide) (by decide) (by decide) (by decide) (by decide),
    kept8 m d main_arg10 (by decide) (by decide) (by decide) (by decide) (by decide) (by decide) (by decide) (by decide),
    kept8 m d main_arg11 (by decide) (by decide) (by decide) (by decide) (by decide) (by decide) (by decide) (by decide),
    kept8 m d main_arg15 (by decide) (by decide) (by decide) (by decide) (by decide) (by decide) (by decide) (by decide),
    kept8 m d main_arg16 (by decide) (by decide) (by decide) (by decide) (by decide) (by decide) (by decide) (by decide),
    kept8 m d main_arg17 (by decide) (by decide) (by decide) (by decide) (by decide) (by decide) (by decide) (by decide),
    kept8 m d main_arg18 (by decide) (by decide) (by decide) (by decide) (by decide) (by decide) (by decide) (by decide)]
  rfl

end Cert.ReferenceIdeal.RefValue

namespace Cert.ReferenceIdeal.RefValue

open Cert.ReferenceIdeal Cert.ReferenceIdeal.Gen Cert.ReferenceIdeal.RefChunks
open Idealize.ShloMosaic Idealize.ShloMosaic.TcCoe Idealize.ShloMosaic.ValueIdx Idealize.ShloMosaic.StableHlo
open Idealize.SL.Sem

/-- THE RUN with the result named: every weakly fair execution of the reference ends with the result buffer at the loss of
    the arguments and the arguments unchanged. -/
theorem run (m : (ℓ : Loc nD τ sig) → Buf (Elt Ideal) ℓ) (ρ : Dev nD → PrngReg) :
    θ_run defs (onTc (τ := τ) (main (F := Ideal))) ⟨m, fun _ => 0, ρ⟩ (fun r => ∀ d : Dev nD,
      r.2.mem ((d.tc : Thread nD τ).loc main_v169) = Cert.KernelIdeal.Spec.loss (m ((d.tc : Thread nD τ).loc main_arg0)) (m ((d.tc : Thread nD τ).loc main_arg1)) (m ((d.tc : Thread nD τ).loc main_arg2)) (m ((d.tc : Thread nD τ).loc main_arg3)) (m ((d.tc : Thread nD τ).loc main_arg4)) (m ((d.tc : Thread nD τ).loc main_arg5)) (m ((d.tc : Thread nD τ).loc main_arg6)) (m ((d.tc : Thread nD τ).loc main_arg7)) (m ((d.tc : Thread nD τ).loc main_arg8)) (m ((d.tc : Thread nD τ).loc main_arg9)) (m ((d.tc : Thread nD τ).loc main_arg10)) (m ((d.tc : Thread nD τ).loc main_arg11)) (m ((d.tc : Thread nD τ).loc main_arg12)) (m ((d.tc : Thread nD τ).loc main_arg13)) (m ((d.tc : Thread nD τ).loc main_arg14)) (m ((d.tc : Thread nD τ).loc main_arg15)) (m ((d.tc : Thread nD τ).loc main_arg16)) (m ((d.tc : Thread nD τ).loc main_arg17)) (m ((d.tc : Thread nD τ).loc main_arg18))
      ∧ r.2.mem ((d.tc : Thread nD τ).loc main_arg0) = m ((d.tc : Thread nD τ).loc main_arg0)
      ∧ r.2.mem ((d.tc : Thread nD τ).loc main_arg1) = m ((d.tc : Thread nD τ).loc main_arg1)
      ∧ r.2.mem ((d.tc : Thread nD τ).loc main_arg2) = m ((d.tc : Thread nD τ).loc main_arg2)
      ∧ r.2.mem ((d.tc : Thread nD τ).loc main_arg3) = m ((d.tc : Thread nD τ).loc main_arg3)
      ∧ r.2.mem ((d.tc : Thread nD τ).loc main_arg4) = m ((d.tc : Thread nD τ).loc main_arg4)
      ∧ r.2.mem ((d.tc : Thread nD τ).loc main_arg5) = m ((d.tc : Thread nD τ).loc main_arg5)
      ∧ r.2.mem ((d.tc : Thread nD τ).loc main_arg6) = m ((d.tc : Thread nD τ).loc main_arg6)
      ∧ r.2.mem ((d.tc : Thread nD τ).loc main_arg7) = m ((d.tc : Thread nD τ).loc main_arg7)
      ∧ r.2.mem ((d.tc : Thread nD τ).loc main_arg8) = m ((d.tc : Thread nD τ).loc main_arg8)
      ∧ r.2.mem ((d.tc : Thread nD τ).loc main_arg9) = m ((d.tc : Thread nD τ).loc main_arg9)
      ∧ r.2.mem ((d.tc : Thread nD τ).loc main_arg10) = m ((d.tc : Thread nD τ).loc main_arg10)
      ∧ r.2.mem ((d.tc : Thread nD τ).loc main_arg11) = m ((d.tc : Thread nD τ).loc main_arg11)
      ∧ r.2.mem ((d.tc : Thread nD τ).loc main_arg12) = m ((d.tc : Thread nD τ).loc main_arg12)
      ∧ r.2.mem ((d.tc : Thread nD τ).loc main_arg13) = m ((d.tc : Thread nD τ).loc main_arg13)
      ∧ r.2.mem ((d.tc : Thread nD τ).loc main_arg14) = m ((d.tc : Thread nD τ).loc main_arg14)
      ∧ r.2.mem ((d.tc : Thread nD τ).loc main_arg15) = m ((d.tc : Thread nD τ).loc main_arg15)
      ∧ r.2.mem ((d.tc : Thread nD τ).loc main_arg16) = m ((d.tc : Thread nD τ).loc main_arg16)
      ∧ r.2.mem ((d.tc : Thread nD τ).loc main_arg17) = m ((d.tc : Thread nD τ).loc main_arg17)
      ∧ r.2.mem ((d.tc : Thread nD τ).loc main_arg18) = m ((d.tc : Thread nD τ).loc main_arg18)) :=
  (θ_run defs _ _).mono (fun r h d => ⟨(h d main_v169).trans (result_eq m d),
      (h d main_arg0).trans (kept9 m d main_arg0 (by decide) (by decide) (by decide) (by decide) (by decide) (by decide) (by decide) (by decide) (by decide)),
      (h d main_arg1).trans (kept9 m d main_arg1 (by decide) (by decide) (by decide) (by decide) (by decide) (by decide) (by decide) (by decide) (by decide)),
      (h d main_arg2).trans (kept9 m d main_arg2 (by decide) (by decide) (by decide) (by decide) (by decide) (by decide) (by decide) (by decide) (by decide)),
      (h d main_arg3).trans (kept9 m d main_arg3 (by decide) (by decide) (by decide) (by decide) (by decide) (by decide) (by decide) (by decide) (by decide)),
      (h d main_arg4).trans (kept9 m d main_arg4 (by decide) (by decide) (by decide) (by decide) (by decide) (by decide) (by decide) (by decide) (by decide)),
      (h d main_arg5).trans (kept9 m d main_arg5 (by decide) (by decide) (by decide) (by decide) (by decide) (by decide) (by decide) (by decide) (by decide)),
      (h d main_arg6).trans (kept9 m d main_arg6 (by decide) (by decide) (by decide) (by decide) (by decide) (by decide) (by decide) (by decide) (by decide)),
      (h d main_arg7).trans (kept9 m d main_arg7 (by decide) (by decide) (by decide) (by decide) (by decide) (by decide) (by decide) (by decide) (by decide)),
      (h d main_arg8).trans (kept9 m d main_arg8 (by decide) (by decide) (by decide) (by decide) (by decide) (by decide) (by decide) (by decide) (by decide)),
      (h d main_arg9).trans (kept9 m d main_arg9 (by decide) (by decide) (by decide) (by decide) (by decide) (by decide) (by decide) (by decide) (by decide)),
      (h d main_arg10).trans (kept9 m d main_arg10 (by decide) (by decide) (by decide) (by decide) (by decide) (by decide) (by decide) (by decide) (by decide)),
      (h d main_arg11).trans (kept9 m d main_arg11 (by decide) (by decide) (by decide) (by decide) (by decide) (by decide) (by decide) (by decide) (by decide)),
      (h d main_arg12).trans (kept9 m d main_arg12 (by decide) (by decide) (by decide) (by decide) (by decide) (by decide) (by decide) (by decide) (by decide)),
      (h d main_arg13).trans (kept9 m d main_arg13 (by decide) (by decide) (by decide) (by decide) (by decide) (by decide) (by decide) (by decide) (by decide)),
      (h d main_arg14).trans (kept9 m d main_arg14 (by decide) (by decide) (by decide) (by decide) (by decide) (by decide) (by decide) (by decide) (by decide)),
      (h d main_arg15).trans (kept9 m d main_arg15 (by decide) (by decide) (by decide) (by decide) (by decide) (by decide) (by decide) (by decide) (by decide)),
      (h d main_arg16).trans (kept9 m d main_arg16 (by decide) (by decide) (by decide) (by decide) (by decide) (by decide) (by decide) (by decide) (by decide)),
      (h d main_arg17).trans (kept9 m d main_arg17 (by decide) (by decide) (by decide) (by decide) (by decide) (by decide) (by decide) (by decide) (by decide)),
      (h d main_arg18).trans (kept9 m d main_arg18 (by decide) (by decide) (by decide) (by decide) (by decide) (by decide) (by decide) (by decide) (by decide))⟩) (Cert.ReferenceIdeal.RefRun.run_after m ρ)

end Cert.ReferenceIdeal.RefValue

end
-- ==== Proof.AdjContract.lean ====
/-
  What the precondition says about the two adjacency matrices.

  The precondition is a conjunction of all-true reductions. Its last two conjuncts read each adjacency matrix [4096, 4096]
  as [128, 32, 128, 32] — entry (32 a + b, 32 c + d) at (a, b, c, d) — and ask, at every (a, b, c, d), that a = c or the
  entry is zero: the matrix vanishes outside its diagonal 32 x 32 blocks. Two atoms in different tiles of 128 are in
  different blocks of 32 (i / 128 = (i / 32) / 4), so the matrix vanishes outside its diagonal 128 x 128 tiles too, which is
  the form Cert.MessageRound uses.
-/
import Mathlib
import Idealize.ShloMosaic.Lib.ReduceAll
import Idealize.ShloMosaic.Lib.Affine
import Idealize.ShloMosaic.Lib.ValueIdx
import Idealize.ShloMosaic.PureOps.Ideal.Laws
import Idealize.ShloMosaic.Lib.Pipeline.Value
import proofs.«116553_j65369402245720_2_alg».proof.Pre_finite_inputs
import proofs.«116553_j65369402245720_2_alg».proof.Proof.Gen.Pre_finite_inputs
import proofs.«116553_j65369402245720_2_alg».proof.Proof.MessageRound

noncomputable section

namespace Cert.AdjContract

open Idealize.ShloMosaic Idealize.ShloMosaic.ValueIdx Cert.Pre_finite_inputs

variable [Cert.Pre_finite_inputs.Facts]
open Cert.Pre_finite_inputs.Facts

instance : Subsingleton S_.Idx := ⟨fun a b => funext fun d => d.elim0⟩

theorem ofBool_eq_one (b : Bool) : BitVec.ofBool b = 1#1 ↔ b = true := by cases b <;> decide

/-- The conjunct about one matrix, as the precondition spells it at an index of [128, 32, 128, 32]. -/
abbrev blockwise (a : FVec Ideal S4096x4096 .f32) (z : FVec Ideal S_ .f32) : IVec S128x32x128x32 1 :=
  ori (cmpi .eq (iotaInDim S128x32x128x32 32 0) (iotaInDim S128x32x128x32 32 2))
    (cmpf .oeq (shapeCast S128x32x128x32 a shapeCasts_S4096x4096_S128x32x128x32)
      (broadcastInDim S128x32x128x32 ![] bcast_S_S128x32x128x32 z))

/-- If that conjunct is true everywhere, the matrix vanishes outside its diagonal tiles of 128. -/
theorem tileDiagonal_of_blockwise (a : FVec Ideal S4096x4096 .f32)
    (h : ∀ i : S128x32x128x32.Idx, blockwise a (constant S_ .f32 0x00000000#32) i = 1#1) :
    Cert.MessageRound.TileDiagonal (fun i j => a (ix2 i j)) := by
  intro i j hij
  have hi := i.isLt
  have hj := j.isLt
  have e : IntOp.ori (IntOp.cmpi .eq (BitVec.ofNat 32 (i.val / 32)) (BitVec.ofNat 32 (j.val / 32)))
      (Ideal.cmp .oeq (shapeCast S128x32x128x32 a shapeCasts_S4096x4096_S128x32x128x32
        (ix4 (⟨i.val / 32, by omega⟩ : Fin 128) (⟨i.val % 32, by omega⟩ : Fin 32) (⟨j.val / 32, by omega⟩ : Fin 128) (⟨j.val % 32, by omega⟩ : Fin 32)))
        (Ideal.ofBits .f32 0x00000000#32)) = 1#1 :=
    h (ix4 (⟨i.val / 32, by omega⟩ : Fin 128) (⟨i.val % 32, by omega⟩ : Fin 32) (⟨j.val / 32, by omega⟩ : Fin 128) (⟨j.val % 32, by omega⟩ : Fin 32))
  rcases IntOp.ori_eq_one.mp e with h1 | h2
  · exfalso
    have hw := IntOp.cmpi_eq.mp h1
    have hn := congrArg BitVec.toNat hw
    simp only [BitVec.toNat_ofNat] at hn
    have h1' : i.val / 32 % 2 ^ 32 = i.val / 32 := Nat.mod_eq_of_lt (by omega)
    have h2' : j.val / 32 % 2 ^ 32 = j.val / 32 := Nat.mod_eq_of_lt (by omega)
    rw [h1', h2'] at hn
    exact hij (by omega)
  · unfold Ideal.cmp at h2
    rw [ofBool_eq_one] at h2
    have hz := of_decide_eq_true h2
    rw [Ideal.ofBits_zero_f32] at hz
    rw [← hz]
    symm
    refine shapeCast_apply a _ _ (ix2 i j) ?_
    rw [Shape.rowMajor_val_two, Shape.rowMajor_val_four]
    show i.val * 4096 + j.val = ((i.val / 32 * 32 + i.val % 32) * 128 + j.val / 32) * 32 + j.val % 32
    omega

/-- The last part of the precondition: its two conjuncts. -/
theorem part5_true (v82 : IVec S_ 1) (v85 : IVec S128x32x128x32 1) (v86 : FVec Ideal S128x32x128x32 .f32) (z : FVec Ideal S_ .f32)
    (h : fn_part5 (F := Ideal) v82 v85 v86 z = fun _ => 1#1) :
    v82 ix0 = 1#1 ∧ ∀ i, ori v85 (cmpf .oeq v86 (broadcastInDim S128x32x128x32 ![] bcast_S_S128x32x128x32 z)) i = 1#1 := by
  have e := congrFun h ix0
  unfold fn_part5 at e
  dsimp only at e
  obtain ⟨h82, h90⟩ := IntOp.andi_eq_one.mp e
  exact ⟨h82, fun i => Host.reduce_andi_all _ _ _ _ _ h90 i⟩

/-- The part before it: both matrices vanish outside their diagonal tiles. -/
theorem part4_true (a0 a1 : FVec Ideal S4096x4096 .f32) (a18 : FVec Ideal S1 .f32) (v63 v67 : IVec S_ 1)
    (h : fn_part4 (F := Ideal) a0 a1 a18 v63 v67 = fun _ => 1#1) :
    Cert.MessageRound.TileDiagonal (fun i j => a0 (ix2 i j)) ∧ Cert.MessageRound.TileDiagonal (fun i j => a1 (ix2 i j)) := by
  unfold fn_part4 at h
  dsimp only at h
  obtain ⟨h82, h90⟩ := part5_true _ _ _ _ h
  obtain ⟨-, h81⟩ := IntOp.andi_eq_one.mp h82
  exact ⟨tileDiagonal_of_blockwise a0 fun i => Host.reduce_andi_all _ _ _ _ _ h81 i, tileDiagonal_of_blockwise a1 h90⟩

/-- THE PRECONDITION, read at the two adjacency matrices. -/
theorem tileDiagonal_of_pre (a0 a1 : FVec Ideal S4096x4096 .f32) (a2 a3 a4 a5 : IVec S4096 32) (a6 a7 a8 a9 : FVec Ideal S128x1 .f32)
    (a10 : FVec Ideal S128x55 .f32) (a11 : FVec Ideal S128x1 .f32) (a12 : FVec Ideal S10000x64 .f32) (a13 : FVec Ideal S3x64x64 .f32)
    (a14 : FVec Ideal S3x64 .f32) (a15 : FVec Ideal S2x187x187 .f32) (a16 : FVec Ideal S2x187 .f32) (a17 : FVec Ideal S1x187 .f32)
    (a18 : FVec Ideal S1 .f32)
    (h : fn (F := Ideal) a0 a1 a2 a3 a4 a5 a6 a7 a8 a9 a10 a11 a12 a13 a14 a15 a16 a17 a18 = fun _ => 1#1) :
    Cert.MessageRound.TileDiagonal (fun i j => a0 (ix2 i j)) ∧ Cert.MessageRound.TileDiagonal (fun i j => a1 (ix2 i j)) := by
  unfold fn at h; dsimp only at h
  unfold fn_part1 at h; dsimp only at h
  unfold fn_part2 at h; dsimp only at h
  unfold fn_part3 at h; dsimp only at h
  exact part4_true a0 a1 a18 _ _ h

end Cert.AdjContract

end
-- ==== Proof.lean ====
/-
  The five claims, assembled.

  Frames. The kernel program, read at machine words or at extended reals, is nine stretches in a row whose run ends with
  every buffer at known contents (Run.frame); the reference is 206 host operations in a row (RefValue.run).

  Equal results. Under the precondition both adjacency matrices vanish outside their diagonal 128 x 128 tiles
  (AdjContract). Then the kernel program's result is the loss function Spec.loss of its arguments (KValue.run: each call
  writes, tile by tile, three rounds of message passing through the diagonal tile, which for such a matrix is three rounds
  through the whole matrix), and so is the reference's (RefValue.run), and the two memories agree on the arguments.
-/
import proofs.«116553_j65369402245720_2_alg».proof.Defs
import proofs.«116553_j65369402245720_2_alg».proof.Proof.Gen.Kernel
import proofs.«116553_j65369402245720_2_alg».proof.Proof.Gen.Kernel.Skeleton
import proofs.«116553_j65369402245720_2_alg».proof.Proof.Gen.Kernel.Launch
import proofs.«116553_j65369402245720_2_alg».proof.Proof.Gen.Kernel.Regions
import proofs.«116553_j65369402245720_2_alg».proof.Proof.Gen.Kernel.Points
import proofs.«116553_j65369402245720_2_alg».proof.Proof.Gen.KernelIdeal
import proofs.«116553_j65369402245720_2_alg».proof.Proof.Gen.KernelIdeal.Skeleton
import proofs.«116553_j65369402245720_2_alg».proof.Proof.Gen.KernelIdeal.Launch
import proofs.«116553_j65369402245720_2_alg».proof.Proof.Gen.KernelIdeal.Regions
import proofs.«116553_j65369402245720_2_alg».proof.Proof.Gen.KernelIdeal.Points
import proofs.«116553_j65369402245720_2_alg».proof.Proof.Gen.ReferenceIdeal
import proofs.«116553_j65369402245720_2_alg».proof.Proof.Gen.Pre_finite_inputs
import proofs.«116553_j65369402245720_2_alg».proof.Proof.BitsRun
import proofs.«116553_j65369402245720_2_alg».proof.Proof.KernelValue
import proofs.«116553_j65369402245720_2_alg».proof.Proof.RefValue
import proofs.«116553_j65369402245720_2_alg».proof.Proof.AdjContract
import Idealize.ShloMosaic.Adequacy
import Idealize.ShloMosaic.Init

noncomputable section

namespace Cert.Proof

open Idealize.ShloMosaic Idealize.SL.Sem

/-- Under the precondition both adjacency matrices vanish outside their diagonal tiles. -/
theorem adj_of_pre (m : (ℓ : Loc Cert.KernelIdeal.nD Cert.KernelIdeal.τ Cert.KernelIdeal.sig) → Buf (Elt Ideal) ℓ)
    (h : Cert.Pre_KernelIdeal m) (c : Dev Cert.KernelIdeal.nD) :
    Cert.MessageRound.TileDiagonal (fun i j => ((m ((c.tc : Thread Cert.KernelIdeal.nD Cert.KernelIdeal.τ).loc Cert.KernelIdeal.main_arg0)) : Cert.KernelIdeal.S4096x4096.Idx → EReal) (ValueIdx.ix2 i j))
      ∧ Cert.MessageRound.TileDiagonal (fun i j => ((m ((c.tc : Thread Cert.KernelIdeal.nD Cert.KernelIdeal.τ).loc Cert.KernelIdeal.main_arg1)) : Cert.KernelIdeal.S4096x4096.Idx → EReal) (ValueIdx.ix2 i j)) :=
  Cert.AdjContract.tileDiagonal_of_pre _ _ _ _ _ _ _ _ _ _ _ _ _ _ _ _ _ _ _ (h c)

theorem claim : Cert.Claim := ⟨Cert.Kernel.Gen.facts, Cert.KernelIdeal.Gen.facts, Cert.ReferenceIdeal.Gen.facts, Cert.Pre_finite_inputs.Gen.facts,
  fun m ρ _ => Cert.Kernel.Run.frame m ρ,
  fun m ρ _ => Cert.KernelIdeal.Run.frame m ρ,
  fun m ρ _ => (θ_run Cert.ReferenceIdeal.defs _ _).mono (fun _ h c => (h c).2) (Cert.ReferenceIdeal.RefValue.run m ρ),
  trivial,
  fun m ρ m' ρ' hpre hagree =>
    ⟨fun c => Cert.KernelIdeal.Spec.loss (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)),
      Cert.KernelIdeal.KValue.run m ρ (fun c => (adj_of_pre m hpre c).1) (fun c => (adj_of_pre m hpre c).2),
      (θ_run Cert.ReferenceIdeal.defs _ _).mono (fun _ h c => ⟨by
          obtain ⟨h0, h1, h2, h3, h4, h5, h6, h7, h8, h9, h10, h11, h12, h13, h14, h15, h16, h17, h18⟩ := hagree c
          rw [(h c).1, h0, h1, h2, h3, h4, h5, h6, h7, h8, h9, h10, h11, h12, h13, h14, h15, h16, h17, h18], (h c).2⟩)
        (Cert.ReferenceIdeal.RefValue.run m' ρ')⟩⟩

end Cert.Proof

end
